-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v309) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x3x1024x1024 : Shape := ⟨4, ![4, 3, 1024, 1024]⟩
abbrev S3x64 : Shape := ⟨2, ![3, 64]⟩
abbrev S17x17x17x3 : Shape := ⟨4, ![17, 17, 17, 3]⟩
abbrev S_ : Shape := ⟨0, ![]⟩

class Facts : Prop where
  bcast_S_S4x3x1024x1024 : S_.BroadcastsInDim S4x3x1024x1024 (![] : Fin 0 → Fin S4x3x1024x1024.rank)
  reducesTo_S4x3x1024x1024_S_d0_1_2_3 : S4x3x1024x1024.ReducesTo [0, 1, 2, 3] S_
  h_S_ : 0 < S_.numel
  bcast_S_S3x64 : S_.BroadcastsInDim S3x64 (![] : Fin 0 → Fin S3x64.rank)
  reducesTo_S3x64_S_d0_1 : S3x64.ReducesTo [0, 1] S_
  bcast_S_S17x17x17x3 : S_.BroadcastsInDim S17x17x17x3 (![] : Fin 0 → Fin S17x17x17x3.rank)
  reducesTo_S17x17x17x3_S_d0_1_2_3 : S17x17x17x3.ReducesTo [0, 1, 2, 3] S_

variable [Facts]

def fn {F : FTy → Type} [FloatOps F] (main_arg0 : FVec F S4x3x1024x1024 .f32) (main_arg1 : FVec F S3x64 .f32) (main_arg2 : FVec F S17x17x17x3 .f32) : IVec S_ 1 :=
  let main_v0 : FVec F S4x3x1024x1024 .f32 := Host.absf main_arg0
  let main_cst : FVec F S_ .f32 := constant S_ .f32 0x7F800000#32
  let main_v1 : FVec F S4x3x1024x1024 .f32 := broadcastInDim S4x3x1024x1024 ![] bcast_S_S4x3x1024x1024 main_cst
  let main_v2 : IVec S4x3x1024x1024 1 := cmpf .olt main_v0 main_v1
  let main_c : IVec S_ 1 := constantI S_ 1 1#1
  let main_v3 : IVec S_ 1 := (fun x v => Host.reduce IntOp.andi x v reducesTo_S4x3x1024x1024_S_d0_1_2_3 h_S_) main_v2 main_c
  let main_v4 : FVec F S3x64 .f32 := Host.absf main_arg1
  let main_cst_0 : FVec F S_ .f32 := constant S_ .f32 0x7F800000#32
  let main_v5 : FVec F S3x64 .f32 := broadcastInDim S3x64 ![] bcast_S_S3x64 main_cst_0
  let main_v6 : IVec S3x64 1 := cmpf .olt main_v4 main_v5
  let main_c_1 : IVec S_ 1 := constantI S_ 1 1#1
  let main_v7 : IVec S_ 1 := (fun x v => Host.reduce IntOp.andi x v reducesTo_S3x64_S_d0_1 h_S_) main_v6 main_c_1
  let main_v8 : IVec S_ 1 := andi main_v3 main_v7
  let main_v9 : FVec F S17x17x17x3 .f32 := Host.absf main_arg2
  let main_cst_2 : FVec F S_ .f32 := constant S_ .f32 0x7F800000#32
  let main_v10 : FVec F S17x17x17x3 .f32 := broadcastInDim S17x17x17x3 ![] bcast_S_S17x17x17x3 main_cst_2
  let main_v11 : IVec S17x17x17x3 1 := cmpf .olt main_v9 main_v10
  let main_c_3 : IVec S_ 1 := constantI S_ 1 1#1
  let main_v12 : IVec S_ 1 := (fun x v => Host.reduce IntOp.andi x v reducesTo_S17x17x17x3_S_d0_1_2_3 h_S_) main_v11 main_c_3
  let main_v13 : IVec S_ 1 := andi main_v8 main_v12
  main_v13
-- ==== Kernel.lean ====
abbrev S4x3x1024x1024 : Shape := ⟨4, ![4, 3, 1024, 1024]⟩
abbrev S3x64 : Shape := ⟨2, ![3, 64]⟩
abbrev S17x17x17x3 : Shape := ⟨4, ![17, 17, 17, 3]⟩
abbrev S3x17x17x17 : Shape := ⟨4, ![3, 17, 17, 17]⟩
abbrev S3x289x17 : Shape := ⟨3, ![3, 289, 17]⟩
abbrev S1x3x32x1024 : Shape := ⟨4, ![1, 3, 32, 1024]⟩
abbrev S3x32x1024 : Shape := ⟨3, ![3, 32, 1024]⟩
abbrev S1x32x1024 : Shape := ⟨3, ![1, 32, 1024]⟩
abbrev S32x1024 : Shape := ⟨2, ![32, 1024]⟩
abbrev S64x32x1024 : Shape := ⟨3, ![64, 32, 1024]⟩
abbrev S1x64 : Shape := ⟨2, ![1, 64]⟩
abbrev S64 : Shape := ⟨1, ![64]⟩
abbrev S64x1x1 : Shape := ⟨3, ![64, 1, 1]⟩
abbrev S17x32x1024 : Shape := ⟨3, ![17, 32, 1024]⟩
abbrev S17x32768 : Shape := ⟨2, ![17, 32768]⟩
abbrev S1x289x17 : Shape := ⟨3, ![1, 289, 17]⟩
abbrev S289x17 : Shape := ⟨2, ![289, 17]⟩
abbrev S289x32768 : Shape := ⟨2, ![289, 32768]⟩
abbrev S17x17x32768 : Shape := ⟨3, ![17, 17, 32768]⟩
abbrev S17x1x32768 : Shape := ⟨3, ![17, 1, 32768]⟩
abbrev S32768 : Shape := ⟨1, ![32768]⟩

abbrev nBuf : Space → Nat
  | .hbm => 7
  | .vmem => 6
  | .smem => 0
  | _ => 0

abbrev bufTy : (tb : Table) → Fin (tcTables nBuf tb) → BufTy
  | .hbm, ⟨0, _⟩ => ⟨S4x3x1024x1024, .f32⟩
  | .hbm, ⟨1, _⟩ => ⟨S3x64, .f32⟩
  | .hbm, ⟨2, _⟩ => ⟨S17x17x17x3, .f32⟩
  | .hbm, ⟨3, _⟩ => ⟨S3x17x17x17, .f32⟩
  | .hbm, ⟨4, _⟩ => ⟨S3x289x17, .f32⟩
  | .hbm, ⟨5, _⟩ => ⟨S3x289x17, .bf16⟩
  | .hbm, ⟨6, _⟩ => ⟨S4x3x1024x1024, .f32⟩
  | .local _ .vmem, ⟨0, _⟩ => ⟨S1x3x32x1024, .f32⟩
  | .local _ .vmem, ⟨1, _⟩ => ⟨S1x3x32x1024, .f32⟩
  | .local _ .vmem, ⟨2, _⟩ => ⟨S3x64, .f32⟩
  | .local _ .vmem, ⟨3, _⟩ => ⟨S3x289x17, .bf16⟩
  | .local _ .vmem, ⟨4, _⟩ => ⟨S1x3x32x1024, .f32⟩
  | .local _ .vmem, ⟨5, _⟩ => ⟨S1x3x32x1024, .f32⟩
  | _, _ => ⟨S4x3x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 32], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x3x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S3x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S3x289x17 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x3x32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  transposes_S17x17x17x3_S3x17x17x17_3_0_1_2 : S17x17x17x3.Transposes [3, 0, 1, 2] S3x17x17x17
  shapeCasts_S3x17x17x17_S3x289x17 : S3x17x17x17.ShapeCasts S3x289x17
  bitsLt_bf16_f32 : FTy.bits .bf16 < FTy.bits .f32
  inb_S1x3x32x1024_S1x3x32x1024_0_0_0_0 : ∀ a, (![0, 0, 0, 0] : Fin 4 → Nat) a + S1x3x32x1024.size a ≤ S1x3x32x1024.size a
  h_S1x3x32x1024 : 0 < S1x3x32x1024.numel
  shapeCasts_S1x3x32x1024_S3x32x1024 : S1x3x32x1024.ShapeCasts S3x32x1024
  slices_S3x32x1024_o0_0_0_S1x32x1024 : S3x32x1024.Slices ![0, 0, 0] S1x32x1024
  shapeCasts_S1x32x1024_S32x1024 : S1x32x1024.ShapeCasts S32x1024
  iota_S64x32x1024_d0_w32 : S64x32x1024.Iotas .tc 32 [0]
  shapeCasts_S32x1024_S1x32x1024 : S32x1024.ShapeCasts S1x32x1024
  broadcasts_S1x32x1024_S64x32x1024 : S1x32x1024.Broadcasts S64x32x1024
  shapeCasts_S1x32x1024_S1x32x1024 : S1x32x1024.ShapeCasts S1x32x1024
  inb_S3x64_S1x64_0_0 : ∀ a, (![0, 0] : Fin 2 → Nat) a + S1x64.size a ≤ S3x64.size a
  h_S1x64 : 0 < S1x64.numel
  shapeCasts_S1x64_S64 : S1x64.ShapeCasts S64
  shapeCasts_S64_S64x1x1 : S64.ShapeCasts S64x1x1
  broadcasts_S64x1x1_S64x32x1024 : S64x1x1.Broadcasts S64x32x1024
  reduces_S64x32x1024_S32x1024 : S64x32x1024.Reduces [0] S32x1024
  slices_S3x32x1024_o1_0_0_S1x32x1024 : S3x32x1024.Slices ![1, 0, 0] S1x32x1024
  inb_S3x64_S1x64_1_0 : ∀ a, (![1, 0] : Fin 2 → Nat) a + S1x64.size a ≤ S3x64.size a
  slices_S3x32x1024_o2_0_0_S1x32x1024 : S3x32x1024.Slices ![2, 0, 0] S1x32x1024
  inb_S3x64_S1x64_2_0 : ∀ a, (![2, 0] : Fin 2 → Nat) a + S1x64.size a ≤ S3x64.size a
  iota_S17x32x1024_d0_w32 : S17x32x1024.Iotas .tc 32 [0]
  broadcasts_S1x32x1024_S17x32x1024 : S1x32x1024.Broadcasts S17x32x1024
  shapeCasts_S17x32x1024_S17x32768 : S17x32x1024.ShapeCasts S17x32768
  inb_S3x289x17_S1x289x17_0_0_0 : ∀ a, (![0, 0, 0] : Fin 3 → Nat) a + S1x289x17.size a ≤ S3x289x17.size a
  h_S1x289x17 : 0 < S1x289x17.numel
  shapeCasts_S1x289x17_S289x17 : S1x289x17.ShapeCasts S289x17
  shapeCasts_S289x32768_S17x17x32768 : S289x32768.ShapeCasts S17x17x32768
  shapeCasts_S17x32768_S17x1x32768 : S17x32768.ShapeCasts S17x1x32768
  broadcasts_S17x1x32768_S17x17x32768 : S17x1x32768.Broadcasts S17x17x32768
  reduces_S17x17x32768_S17x32768 : S17x17x32768.Reduces [0] S17x32768
  reduces_S17x32768_S32768 : S17x32768.Reduces [0] S32768
  shapeCasts_S32768_S32x1024 : S32768.ShapeCasts S32x1024
  inb_S3x289x17_S1x289x17_1_0_0 : ∀ a, (![1, 0, 0] : Fin 3 → Nat) a + S1x289x17.size a ≤ S3x289x17.size a
  inb_S3x289x17_S1x289x17_2_0_0 : ∀ a, (![2, 0, 0] : Fin 3 → Nat) a + S1x289x17.size a ≤ S3x289x17.size a
  concatenates_S1x32x1024_S1x32x1024_S1x32x1024_S3x32x1024_d0 : Shape.Concatenates [S1x32x1024, S1x32x1024, S1x32x1024] S3x32x1024 0
  shapeCasts_S3x32x1024_S1x3x32x1024 : S3x32x1024.ShapeCasts S1x3x32x1024
  dot_S289x17_S17x32768_S289x32768_1_0_0_1_n_n_wf : DotDims.WF S289x17 S17x32768 S289x32768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x32x1024.size a ≤ S4x3x1024x1024.size a
  hwx0_0 : ∀ i : grid0.Coords, EltTy.bits .f32 = 32 ∨ (Rect.block (s := S4x3x1024x1024) S1x3x32x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x64.size a ≤ S3x64.size a
  hwx0_1 : ∀ i : grid0.Coords, EltTy.bits .f32 = 32 ∨ (Rect.block (s := S3x64) S3x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x289x17.size a ≤ S3x289x17.size a
  hwx0_2 : ∀ i : grid0.Coords, EltTy.bits .bf16 = 32 ∨ (Rect.block (s := S3x289x17) S3x289x17.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x3x32x1024.size a ≤ S4x3x1024x1024.size a
  hwx0_3 : ∀ i : grid0.Coords, EltTy.bits .f32 = 32 ∨ (Rect.block (s := S4x3x1024x1024) S1x3x32x1024.size (cc0_transform_3 i) (hinb0_3 i)).WholeWords (EltTy.packing .f32)

variable [Facts₀]

def dot_S289x17_S17x32768_S289x32768_1_0_0_1_n_n : DotDims S289x17 S17x32768 S289x32768 where
  lhsContracting := [1]
  rhsContracting := [0]
  lhsNonContracting := [0]
  rhsNonContracting := [1]
  lhsBatch := []
  rhsBatch := []
  wf := dot_S289x17_S17x32768_S289x32768_1_0_0_1_n_n_wf

abbrev win0_0 : Pipeline.Window sig grid0 :=
  Pipeline.Window.ofSpec (Memref.whole main_arg0) S1x3x32x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S3x289x17.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x3x32x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x3x1024x1024 : Shape := ⟨4, ![4, 3, 1024, 1024]⟩
abbrev S3x64 : Shape := ⟨2, ![3, 64]⟩
abbrev S17x17x17x3 : Shape := ⟨4, ![17, 17, 17, 3]⟩
abbrev S_ : Shape := ⟨0, ![]⟩
abbrev S1x64 : Shape := ⟨2, ![1, 64]⟩
abbrev S64 : Shape := ⟨1, ![64]⟩
abbrev S4x1x1024x1024 : Shape := ⟨4, ![4, 1, 1024, 1024]⟩
abbrev S4x1024x1024 : Shape := ⟨3, ![4, 1024, 1024]⟩
abbrev S4x1024x1024x1 : Shape := ⟨4, ![4, 1024, 1024, 1]⟩
abbrev S1 : Shape := ⟨1, ![1]⟩
abbrev S1x1x1x1 : Shape := ⟨4, ![1, 1, 1, 1]⟩
abbrev S4913x3 : Shape := ⟨2, ![4913, 3]⟩
abbrev S4x1024x1024x3 : Shape := ⟨4, ![4, 1024, 1024, 3]⟩

abbrev nBuf : Space → Nat
  | .hbm => 533
  | .vmem => 0
  | .smem => 0
  | _ => 0

abbrev hbmTy0_0 (i : Nat) : BufTy := match i % 128 with
  | 0 => ⟨S4x3x1024x1024, .f32⟩
  | 1 => ⟨S3x64, .f32⟩
  | 2 => ⟨S17x17x17x3, .f32⟩
  | 3 => ⟨S_, .f32⟩
  | 4 => ⟨S4x3x1024x1024, .f32⟩
  | 5 => ⟨S4x3x1024x1024, .f32⟩
  | 6 => ⟨S4x3x1024x1024, .f32⟩
  | 7 => ⟨S4x3x1024x1024, .i32⟩
  | 8 => ⟨S_, .i32⟩
  | 9 => ⟨S_, .i32⟩
  | 10 => ⟨S_, .i32⟩
  | 11 => ⟨S4x3x1024x1024, .i32⟩
  | 12 => ⟨S4x3x1024x1024, .i32⟩
  | 13 => ⟨S_, .i32⟩
  | 14 => ⟨S4x3x1024x1024, .i32⟩
  | 15 => ⟨S4x3x1024x1024, .i32⟩
  | 16 => ⟨S4x3x1024x1024, .f32⟩
  | 17 => ⟨S4x3x1024x1024, .f32⟩
  | 18 => ⟨S1x64, .f32⟩
  | 19 => ⟨S64, .f32⟩
  | 20 => ⟨S4x1x1024x1024, .i32⟩
  | 21 => ⟨S4x1024x1024, .i32⟩
  | 22 => ⟨S_, .i32⟩
  | 23 => ⟨S4x1024x1024, .i32⟩
  | 24 => ⟨S4x1024x1024, .i1⟩
  | 25 => ⟨S_, .i32⟩
  | 26 => ⟨S4x1024x1024, .i32⟩
  | 27 => ⟨S4x1024x1024, .i32⟩
  | 28 => ⟨S4x1024x1024, .i32⟩
  | 29 => ⟨S4x1024x1024x1, .i32⟩
  | 30 => ⟨S1, .i32⟩
  | 31 => ⟨S_, .i32⟩
  | 32 => ⟨S4x1024x1024x1, .i32⟩
  | 33 => ⟨S4x1024x1024x1, .i1⟩
  | 34 => ⟨S1x1x1x1, .i32⟩
  | 35 => ⟨S4x1024x1024x1, .i32⟩
  | 36 => ⟨S4x1024x1024x1, .i1⟩
  | 37 => ⟨S4x1024x1024x1, .i1⟩
  | 38 => ⟨S_, .i1⟩
  | 39 => ⟨S4x1024x1024, .i1⟩
  | 40 => ⟨S4x1024x1024, .f32⟩
  | 41 => ⟨S_, .f32⟩
  | 42 => ⟨S4x1024x1024, .f32⟩
  | 43 => ⟨S4x1024x1024, .f32⟩
  | 44 => ⟨S1x64, .f32⟩
  | 45 => ⟨S64, .f32⟩
  | 46 => ⟨S4x1x1024x1024, .i32⟩
  | 47 => ⟨S4x1024x1024, .i32⟩
  | 48 => ⟨S_, .i32⟩
  | 49 => ⟨S4x1024x1024, .i32⟩
  | 50 => ⟨S4x1024x1024, .i1⟩
  | 51 => ⟨S_, .i32⟩
  | 52 => ⟨S4x1024x1024, .i32⟩
  | 53 => ⟨S4x1024x1024, .i32⟩
  | 54 => ⟨S4x1024x1024, .i32⟩
  | 55 => ⟨S4x1024x1024x1, .i32⟩
  | 56 => ⟨S1, .i32⟩
  | 57 => ⟨S_, .i32⟩
  | 58 => ⟨S4x1024x1024x1, .i32⟩
  | 59 => ⟨S4x1024x1024x1, .i1⟩
  | 60 => ⟨S1x1x1x1, .i32⟩
  | 61 => ⟨S4x1024x1024x1, .i32⟩
  | 62 => ⟨S4x1024x1024x1, .i1⟩
  | 63 => ⟨S4x1024x1024x1, .i1⟩
  | 64 => ⟨S_, .i1⟩
  | 65 => ⟨S4x1024x1024, .i1⟩
  | 66 => ⟨S4x1024x1024, .f32⟩
  | 67 => ⟨S_, .f32⟩
  | 68 => ⟨S4x1024x1024, .f32⟩
  | 69 => ⟨S4x1024x1024, .f32⟩
  | 70 => ⟨S1x64, .f32⟩
  | 71 => ⟨S64, .f32⟩
  | 72 => ⟨S4x1x1024x1024, .i32⟩
  | 73 => ⟨S4x1024x1024, .i32⟩
  | 74 => ⟨S_, .i32⟩
  | 75 => ⟨S4x1024x1024, .i32⟩
  | 76 => ⟨S4x1024x1024, .i1⟩
  | 77 => ⟨S_, .i32⟩
  | 78 => ⟨S4x1024x1024, .i32⟩
  | 79 => ⟨S4x1024x1024, .i32⟩
  | 80 => ⟨S4x1024x1024, .i32⟩
  | 81 => ⟨S4x1024x1024x1, .i32⟩
  | 82 => ⟨S1, .i32⟩
  | 83 => ⟨S_, .i32⟩
  | 84 => ⟨S4x1024x1024x1, .i32⟩
  | 85 => ⟨S4x1024x1024x1, .i1⟩
  | 86 => ⟨S1x1x1x1, .i32⟩
  | 87 => ⟨S4x1024x1024x1, .i32⟩
  | 88 => ⟨S4x1024x1024x1, .i1⟩
  | 89 => ⟨S4x1024x1024x1, .i1⟩
  | 90 => ⟨S_, .i1⟩
  | 91 => ⟨S4x1024x1024, .i1⟩
  | 92 => ⟨S4x1024x1024, .f32⟩
  | 93 => ⟨S_, .f32⟩
  | 94 => ⟨S4x1024x1024, .f32⟩
  | 95 => ⟨S4x1024x1024, .f32⟩
  | 96 => ⟨S4x1x1024x1024, .f32⟩
  | 97 => ⟨S4x1x1024x1024, .f32⟩
  | 98 => ⟨S4x1x1024x1024, .f32⟩
  | 99 => ⟨S4x3x1024x1024, .f32⟩
  | 100 => ⟨S1x64, .f32⟩
  | 101 => ⟨S64, .f32⟩
  | 102 => ⟨S4x1x1024x1024, .i32⟩
  | 103 => ⟨S4x1024x1024, .i32⟩
  | 104 => ⟨S_, .i32⟩
  | 105 => ⟨S4x1024x1024, .i32⟩
  | 106 => ⟨S4x1024x1024, .i32⟩
  | 107 => ⟨S_, .i32⟩
  | 108 => ⟨S4x1024x1024, .i32⟩
  | 109 => ⟨S4x1024x1024, .i1⟩
  | 110 => ⟨S_, .i32⟩
  | 111 => ⟨S4x1024x1024, .i32⟩
  | 112 => ⟨S4x1024x1024, .i32⟩
  | 113 => ⟨S4x1024x1024, .i32⟩
  | 114 => ⟨S4x1024x1024x1, .i32⟩
  | 115 => ⟨S1, .i32⟩
  | 116 => ⟨S_, .i32⟩
  | 117 => ⟨S4x1024x1024x1, .i32⟩
  | 118 => ⟨S4x1024x1024x1, .i1⟩
  | 119 => ⟨S1x1x1x1, .i32⟩
  | 120 => ⟨S4x1024x1024x1, .i32⟩
  | 121 => ⟨S4x1024x1024x1, .i1⟩
  | 122 => ⟨S4x1024x1024x1, .i1⟩
  | 123 => ⟨S_, .i1⟩
  | 124 => ⟨S4x1024x1024, .i1⟩
  | 125 => ⟨S4x1024x1024, .f32⟩
  | 126 => ⟨S_, .f32⟩
  | 127 => ⟨S4x1024x1024, .f32⟩
  | _ => ⟨S4x3x1024x1024, .f32⟩

abbrev hbmTy0_1 (i : Nat) : BufTy := match i % 128 with
  | 0 => ⟨S4x1024x1024, .f32⟩
  | 1 => ⟨S1x64, .f32⟩
  | 2 => ⟨S64, .f32⟩
  | 3 => ⟨S4x1x1024x1024, .i32⟩
  | 4 => ⟨S4x1024x1024, .i32⟩
  | 5 => ⟨S_, .i32⟩
  | 6 => ⟨S4x1024x1024, .i32⟩
  | 7 => ⟨S4x1024x1024, .i32⟩
  | 8 => ⟨S_, .i32⟩
  | 9 => ⟨S4x1024x1024, .i32⟩
  | 10 => ⟨S4x1024x1024, .i1⟩
  | 11 => ⟨S_, .i32⟩
  | 12 => ⟨S4x1024x1024, .i32⟩
  | 13 => ⟨S4x1024x1024, .i32⟩
  | 14 => ⟨S4x1024x1024, .i32⟩
  | 15 => ⟨S4x1024x1024x1, .i32⟩
  | 16 => ⟨S1, .i32⟩
  | 17 => ⟨S_, .i32⟩
  | 18 => ⟨S4x1024x1024x1, .i32⟩
  | 19 => ⟨S4x1024x1024x1, .i1⟩
  | 20 => ⟨S1x1x1x1, .i32⟩
  | 21 => ⟨S4x1024x1024x1, .i32⟩
  | 22 => ⟨S4x1024x1024x1, .i1⟩
  | 23 => ⟨S4x1024x1024x1, .i1⟩
  | 24 => ⟨S_, .i1⟩
  | 25 => ⟨S4x1024x1024, .i1⟩
  | 26 => ⟨S4x1024x1024, .f32⟩
  | 27 => ⟨S_, .f32⟩
  | 28 => ⟨S4x1024x1024, .f32⟩
  | 29 => ⟨S4x1024x1024, .f32⟩
  | 30 => ⟨S1x64, .f32⟩
  | 31 => ⟨S64, .f32⟩
  | 32 => ⟨S4x1x1024x1024, .i32⟩
  | 33 => ⟨S4x1024x1024, .i32⟩
  | 34 => ⟨S_, .i32⟩
  | 35 => ⟨S4x1024x1024, .i32⟩
  | 36 => ⟨S4x1024x1024, .i32⟩
  | 37 => ⟨S_, .i32⟩
  | 38 => ⟨S4x1024x1024, .i32⟩
  | 39 => ⟨S4x1024x1024, .i1⟩
  | 40 => ⟨S_, .i32⟩
  | 41 => ⟨S4x1024x1024, .i32⟩
  | 42 => ⟨S4x1024x1024, .i32⟩
  | 43 => ⟨S4x1024x1024, .i32⟩
  | 44 => ⟨S4x1024x1024x1, .i32⟩
  | 45 => ⟨S1, .i32⟩
  | 46 => ⟨S_, .i32⟩
  | 47 => ⟨S4x1024x1024x1, .i32⟩
  | 48 => ⟨S4x1024x1024x1, .i1⟩
  | 49 => ⟨S1x1x1x1, .i32⟩
  | 50 => ⟨S4x1024x1024x1, .i32⟩
  | 51 => ⟨S4x1024x1024x1, .i1⟩
  | 52 => ⟨S4x1024x1024x1, .i1⟩
  | 53 => ⟨S_, .i1⟩
  | 54 => ⟨S4x1024x1024, .i1⟩
  | 55 => ⟨S4x1024x1024, .f32⟩
  | 56 => ⟨S_, .f32⟩
  | 57 => ⟨S4x1024x1024, .f32⟩
  | 58 => ⟨S4x1024x1024, .f32⟩
  | 59 => ⟨S4x1x1024x1024, .f32⟩
  | 60 => ⟨S4x1x1024x1024, .f32⟩
  | 61 => ⟨S4x1x1024x1024, .f32⟩
  | 62 => ⟨S4x3x1024x1024, .f32⟩
  | 63 => ⟨S4x3x1024x1024, .f32⟩
  | 64 => ⟨S4x3x1024x1024, .f32⟩
  | 65 => ⟨S4x3x1024x1024, .f32⟩
  | 66 => ⟨S_, .f32⟩
  | 67 => ⟨S_, .f32⟩
  | 68 => ⟨S_, .f32⟩
  | 69 => ⟨S4x3x1024x1024, .f32⟩
  | 70 => ⟨S4x3x1024x1024, .f32⟩
  | 71 => ⟨S_, .f32⟩
  | 72 => ⟨S4x3x1024x1024, .f32⟩
  | 73 => ⟨S4x3x1024x1024, .f32⟩
  | 74 => ⟨S_, .f32⟩
  | 75 => ⟨S4x3x1024x1024, .f32⟩
  | 76 => ⟨S4x3x1024x1024, .f32⟩
  | 77 => ⟨S4x3x1024x1024, .f32⟩
  | 78 => ⟨S4x3x1024x1024, .i32⟩
  | 79 => ⟨S_, .i32⟩
  | 80 => ⟨S_, .i32⟩
  | 81 => ⟨S_, .i32⟩
  | 82 => ⟨S4x3x1024x1024, .i32⟩
  | 83 => ⟨S4x3x1024x1024, .i32⟩
  | 84 => ⟨S_, .i32⟩
  | 85 => ⟨S4x3x1024x1024, .i32⟩
  | 86 => ⟨S4x3x1024x1024, .i32⟩
  | 87 => ⟨S4x3x1024x1024, .f32⟩
  | 88 => ⟨S4x3x1024x1024, .f32⟩
  | 89 => ⟨S4x1x1024x1024, .i32⟩
  | 90 => ⟨S4x1024x1024, .i32⟩
  | 91 => ⟨S4x1x1024x1024, .i32⟩
  | 92 => ⟨S4x1024x1024, .i32⟩
  | 93 => ⟨S4x1x1024x1024, .i32⟩
  | 94 => ⟨S4x1024x1024, .i32⟩
  | 95 => ⟨S4x1x1024x1024, .f32⟩
  | 96 => ⟨S4x1024x1024, .f32⟩
  | 97 => ⟨S4x1024x1024x1, .f32⟩
  | 98 => ⟨S4x1x1024x1024, .f32⟩
  | 99 => ⟨S4x1024x1024, .f32⟩
  | 100 => ⟨S4x1024x1024x1, .f32⟩
  | 101 => ⟨S4x1x1024x1024, .f32⟩
  | 102 => ⟨S4x1024x1024, .f32⟩
  | 103 => ⟨S4x1024x1024x1, .f32⟩
  | 104 => ⟨S4913x3, .f32⟩
  | 105 => ⟨S_, .i32⟩
  | 106 => ⟨S4x1024x1024, .i32⟩
  | 107 => ⟨S4x1024x1024, .i32⟩
  | 108 => ⟨S_, .i32⟩
  | 109 => ⟨S4x1024x1024, .i32⟩
  | 110 => ⟨S4x1024x1024, .i32⟩
  | 111 => ⟨S_, .i32⟩
  | 112 => ⟨S4x1024x1024, .i32⟩
  | 113 => ⟨S4x1024x1024, .i32⟩
  | 114 => ⟨S4x1024x1024, .i32⟩
  | 115 => ⟨S_, .i32⟩
  | 116 => ⟨S4x1024x1024, .i32⟩
  | 117 => ⟨S4x1024x1024, .i32⟩
  | 118 => ⟨S_, .i32⟩
  | 119 => ⟨S4x1024x1024, .i32⟩
  | 120 => ⟨S4x1024x1024, .i32⟩
  | 121 => ⟨S4x1024x1024, .i32⟩
  | 122 => ⟨S_, .i32⟩
  | 123 => ⟨S4x1024x1024, .i32⟩
  | 124 => ⟨S4x1024x1024, .i1⟩
  | 125 => ⟨S_, .i32⟩
  | 126 => ⟨S4x1024x1024, .i32⟩
  | 127 => ⟨S4x1024x1024, .i32⟩
  | _ => ⟨S4x3x1024x1024, .f32⟩

abbrev hbmTy0_2 (i : Nat) : BufTy := match i % 128 with
  | 0 => ⟨S4x1024x1024, .i32⟩
  | 1 => ⟨S4x1024x1024x1, .i32⟩
  | 2 => ⟨S4x1024x1024x3, .f32⟩
  | 3 => ⟨S_, .f32⟩
  | 4 => ⟨S4x1024x1024x1, .f32⟩
  | 5 => ⟨S4x1024x1024x1, .f32⟩
  | 6 => ⟨S4x1024x1024x3, .f32⟩
  | 7 => ⟨S4x1024x1024x3, .f32⟩
  | 8 => ⟨S_, .f32⟩
  | 9 => ⟨S4x1024x1024x1, .f32⟩
  | 10 => ⟨S4x1024x1024x1, .f32⟩
  | 11 => ⟨S4x1024x1024x3, .f32⟩
  | 12 => ⟨S4x1024x1024x3, .f32⟩
  | 13 => ⟨S_, .f32⟩
  | 14 => ⟨S4x1024x1024x1, .f32⟩
  | 15 => ⟨S4x1024x1024x1, .f32⟩
  | 16 => ⟨S4x1024x1024x3, .f32⟩
  | 17 => ⟨S4x1024x1024x3, .f32⟩
  | 18 => ⟨S_, .i32⟩
  | 19 => ⟨S4x1024x1024, .i32⟩
  | 20 => ⟨S4x1024x1024, .i32⟩
  | 21 => ⟨S_, .i32⟩
  | 22 => ⟨S4x1024x1024, .i32⟩
  | 23 => ⟨S4x1024x1024, .i32⟩
  | 24 => ⟨S_, .i32⟩
  | 25 => ⟨S4x1024x1024, .i32⟩
  | 26 => ⟨S4x1024x1024, .i32⟩
  | 27 => ⟨S4x1024x1024, .i32⟩
  | 28 => ⟨S_, .i32⟩
  | 29 => ⟨S4x1024x1024, .i32⟩
  | 30 => ⟨S4x1024x1024, .i32⟩
  | 31 => ⟨S_, .i32⟩
  | 32 => ⟨S4x1024x1024, .i32⟩
  | 33 => ⟨S4x1024x1024, .i32⟩
  | 34 => ⟨S4x1024x1024, .i32⟩
  | 35 => ⟨S_, .i32⟩
  | 36 => ⟨S4x1024x1024, .i32⟩
  | 37 => ⟨S4x1024x1024, .i1⟩
  | 38 => ⟨S_, .i32⟩
  | 39 => ⟨S4x1024x1024, .i32⟩
  | 40 => ⟨S4x1024x1024, .i32⟩
  | 41 => ⟨S4x1024x1024, .i32⟩
  | 42 => ⟨S4x1024x1024x1, .i32⟩
  | 43 => ⟨S4x1024x1024x3, .f32⟩
  | 44 => ⟨S4x1024x1024x3, .f32⟩
  | 45 => ⟨S4x1024x1024x3, .f32⟩
  | 46 => ⟨S_, .f32⟩
  | 47 => ⟨S4x1024x1024x1, .f32⟩
  | 48 => ⟨S4x1024x1024x1, .f32⟩
  | 49 => ⟨S4x1024x1024x3, .f32⟩
  | 50 => ⟨S4x1024x1024x3, .f32⟩
  | 51 => ⟨S_, .f32⟩
  | 52 => ⟨S4x1024x1024x1, .f32⟩
  | 53 => ⟨S4x1024x1024x1, .f32⟩
  | 54 => ⟨S4x1024x1024x3, .f32⟩
  | 55 => ⟨S4x1024x1024x3, .f32⟩
  | 56 => ⟨S4x1024x1024x3, .f32⟩
  | 57 => ⟨S_, .i32⟩
  | 58 => ⟨S4x1024x1024, .i32⟩
  | 59 => ⟨S4x1024x1024, .i32⟩
  | 60 => ⟨S_, .i32⟩
  | 61 => ⟨S4x1024x1024, .i32⟩
  | 62 => ⟨S4x1024x1024, .i32⟩
  | 63 => ⟨S_, .i32⟩
  | 64 => ⟨S4x1024x1024, .i32⟩
  | 65 => ⟨S4x1024x1024, .i32⟩
  | 66 => ⟨S4x1024x1024, .i32⟩
  | 67 => ⟨S_, .i32⟩
  | 68 => ⟨S4x1024x1024, .i32⟩
  | 69 => ⟨S4x1024x1024, .i32⟩
  | 70 => ⟨S_, .i32⟩
  | 71 => ⟨S4x1024x1024, .i32⟩
  | 72 => ⟨S4x1024x1024, .i32⟩
  | 73 => ⟨S4x1024x1024, .i32⟩
  | 74 => ⟨S_, .i32⟩
  | 75 => ⟨S4x1024x1024, .i32⟩
  | 76 => ⟨S4x1024x1024, .i1⟩
  | 77 => ⟨S_, .i32⟩
  | 78 => ⟨S4x1024x1024, .i32⟩
  | 79 => ⟨S4x1024x1024, .i32⟩
  | 80 => ⟨S4x1024x1024, .i32⟩
  | 81 => ⟨S4x1024x1024x1, .i32⟩
  | 82 => ⟨S4x1024x1024x3, .f32⟩
  | 83 => ⟨S_, .f32⟩
  | 84 => ⟨S4x1024x1024x1, .f32⟩
  | 85 => ⟨S4x1024x1024x1, .f32⟩
  | 86 => ⟨S4x1024x1024x3, .f32⟩
  | 87 => ⟨S4x1024x1024x3, .f32⟩
  | 88 => ⟨S4x1024x1024x3, .f32⟩
  | 89 => ⟨S4x1024x1024x3, .f32⟩
  | 90 => ⟨S_, .f32⟩
  | 91 => ⟨S4x1024x1024x1, .f32⟩
  | 92 => ⟨S4x1024x1024x1, .f32⟩
  | 93 => ⟨S4x1024x1024x3, .f32⟩
  | 94 => ⟨S4x1024x1024x3, .f32⟩
  | 95 => ⟨S4x1024x1024x3, .f32⟩
  | 96 => ⟨S_, .i32⟩
  | 97 => ⟨S4x1024x1024, .i32⟩
  | 98 => ⟨S4x1024x1024, .i32⟩
  | 99 => ⟨S_, .i32⟩
  | 100 => ⟨S4x1024x1024, .i32⟩
  | 101 => ⟨S4x1024x1024, .i32⟩
  | 102 => ⟨S_, .i32⟩
  | 103 => ⟨S4x1024x1024, .i32⟩
  | 104 => ⟨S4x1024x1024, .i32⟩
  | 105 => ⟨S4x1024x1024, .i32⟩
  | 106 => ⟨S_, .i32⟩
  | 107 => ⟨S4x1024x1024, .i32⟩
  | 108 => ⟨S4x1024x1024, .i32⟩
  | 109 => ⟨S_, .i32⟩
  | 110 => ⟨S4x1024x1024, .i32⟩
  | 111 => ⟨S4x1024x1024, .i32⟩
  | 112 => ⟨S4x1024x1024, .i32⟩
  | 113 => ⟨S_, .i32⟩
  | 114 => ⟨S4x1024x1024, .i32⟩
  | 115 => ⟨S4x1024x1024, .i1⟩
  | 116 => ⟨S_, .i32⟩
  | 117 => ⟨S4x1024x1024, .i32⟩
  | 118 => ⟨S4x1024x1024, .i32⟩
  | 119 => ⟨S4x1024x1024, .i32⟩
  | 120 => ⟨S4x1024x1024x1, .i32⟩
  | 121 => ⟨S4x1024x1024x3, .f32⟩
  | 122 => ⟨S_, .f32⟩
  | 123 => ⟨S4x1024x1024x1, .f32⟩
  | 124 => ⟨S4x1024x1024x1, .f32⟩
  | 125 => ⟨S4x1024x1024x3, .f32⟩
  | 126 => ⟨S4x1024x1024x3, .f32⟩
  | 127 => ⟨S_, .f32⟩
  | _ => ⟨S4x3x1024x1024, .f32⟩

abbrev hbmTy0_3 (i : Nat) : BufTy := match i % 128 with
  | 0 => ⟨S4x1024x1024x1, .f32⟩
  | 1 => ⟨S4x1024x1024x1, .f32⟩
  | 2 => ⟨S4x1024x1024x3, .f32⟩
  | 3 => ⟨S4x1024x1024x3, .f32⟩
  | 4 => ⟨S4x1024x1024x3, .f32⟩
  | 5 => ⟨S4x1024x1024x3, .f32⟩
  | 6 => ⟨S4x1024x1024x3, .f32⟩
  | 7 => ⟨S_, .i32⟩
  | 8 => ⟨S4x1024x1024, .i32⟩
  | 9 => ⟨S4x1024x1024, .i32⟩
  | 10 => ⟨S_, .i32⟩
  | 11 => ⟨S4x1024x1024, .i32⟩
  | 12 => ⟨S4x1024x1024, .i32⟩
  | 13 => ⟨S_, .i32⟩
  | 14 => ⟨S4x1024x1024, .i32⟩
  | 15 => ⟨S4x1024x1024, .i32⟩
  | 16 => ⟨S4x1024x1024, .i32⟩
  | 17 => ⟨S_, .i32⟩
  | 18 => ⟨S4x1024x1024, .i32⟩
  | 19 => ⟨S4x1024x1024, .i32⟩
  | 20 => ⟨S_, .i32⟩
  | 21 => ⟨S4x1024x1024, .i32⟩
  | 22 => ⟨S4x1024x1024, .i32⟩
  | 23 => ⟨S4x1024x1024, .i32⟩
  | 24 => ⟨S_, .i32⟩
  | 25 => ⟨S4x1024x1024, .i32⟩
  | 26 => ⟨S4x1024x1024, .i1⟩
  | 27 => ⟨S_, .i32⟩
  | 28 => ⟨S4x1024x1024, .i32⟩
  | 29 => ⟨S4x1024x1024, .i32⟩
  | 30 => ⟨S4x1024x1024, .i32⟩
  | 31 => ⟨S4x1024x1024x1, .i32⟩
  | 32 => ⟨S4x1024x1024x3, .f32⟩
  | 33 => ⟨S4x1024x1024x3, .f32⟩
  | 34 => ⟨S4x1024x1024x3, .f32⟩
  | 35 => ⟨S4x1024x1024x3, .f32⟩
  | 36 => ⟨S4x1024x1024x3, .f32⟩
  | 37 => ⟨S_, .f32⟩
  | 38 => ⟨S4x1024x1024x1, .f32⟩
  | 39 => ⟨S4x1024x1024x1, .f32⟩
  | 40 => ⟨S4x1024x1024x3, .f32⟩
  | 41 => ⟨S4x1024x1024x3, .f32⟩
  | 42 => ⟨S4x1024x1024x3, .f32⟩
  | 43 => ⟨S_, .i32⟩
  | 44 => ⟨S4x1024x1024, .i32⟩
  | 45 => ⟨S4x1024x1024, .i32⟩
  | 46 => ⟨S_, .i32⟩
  | 47 => ⟨S4x1024x1024, .i32⟩
  | 48 => ⟨S4x1024x1024, .i32⟩
  | 49 => ⟨S_, .i32⟩
  | 50 => ⟨S4x1024x1024, .i32⟩
  | 51 => ⟨S4x1024x1024, .i32⟩
  | 52 => ⟨S4x1024x1024, .i32⟩
  | 53 => ⟨S_, .i32⟩
  | 54 => ⟨S4x1024x1024, .i32⟩
  | 55 => ⟨S4x1024x1024, .i32⟩
  | 56 => ⟨S_, .i32⟩
  | 57 => ⟨S4x1024x1024, .i32⟩
  | 58 => ⟨S4x1024x1024, .i32⟩
  | 59 => ⟨S4x1024x1024, .i32⟩
  | 60 => ⟨S_, .i32⟩
  | 61 => ⟨S4x1024x1024, .i32⟩
  | 62 => ⟨S4x1024x1024, .i1⟩
  | 63 => ⟨S_, .i32⟩
  | 64 => ⟨S4x1024x1024, .i32⟩
  | 65 => ⟨S4x1024x1024, .i32⟩
  | 66 => ⟨S4x1024x1024, .i32⟩
  | 67 => ⟨S4x1024x1024x1, .i32⟩
  | 68 => ⟨S4x1024x1024x3, .f32⟩
  | 69 => ⟨S4x1024x1024x3, .f32⟩
  | 70 => ⟨S4x1024x1024x3, .f32⟩
  | 71 => ⟨S_, .f32⟩
  | 72 => ⟨S4x1024x1024x1, .f32⟩
  | 73 => ⟨S4x1024x1024x1, .f32⟩
  | 74 => ⟨S4x1024x1024x3, .f32⟩
  | 75 => ⟨S4x1024x1024x3, .f32⟩
  | 76 => ⟨S4x1024x1024x3, .f32⟩
  | 77 => ⟨S4x1024x1024x3, .f32⟩
  | 78 => ⟨S4x1024x1024x3, .f32⟩
  | 79 => ⟨S_, .i32⟩
  | 80 => ⟨S4x1024x1024, .i32⟩
  | 81 => ⟨S4x1024x1024, .i32⟩
  | 82 => ⟨S_, .i32⟩
  | 83 => ⟨S4x1024x1024, .i32⟩
  | 84 => ⟨S4x1024x1024, .i32⟩
  | 85 => ⟨S_, .i32⟩
  | 86 => ⟨S4x1024x1024, .i32⟩
  | 87 => ⟨S4x1024x1024, .i32⟩
  | 88 => ⟨S4x1024x1024, .i32⟩
  | 89 => ⟨S_, .i32⟩
  | 90 => ⟨S4x1024x1024, .i32⟩
  | 91 => ⟨S4x1024x1024, .i32⟩
  | 92 => ⟨S_, .i32⟩
  | 93 => ⟨S4x1024x1024, .i32⟩
  | 94 => ⟨S4x1024x1024, .i32⟩
  | 95 => ⟨S4x1024x1024, .i32⟩
  | 96 => ⟨S_, .i32⟩
  | 97 => ⟨S4x1024x1024, .i32⟩
  | 98 => ⟨S4x1024x1024, .i1⟩
  | 99 => ⟨S_, .i32⟩
  | 100 => ⟨S4x1024x1024, .i32⟩
  | 101 => ⟨S4x1024x1024, .i32⟩
  | 102 => ⟨S4x1024x1024, .i32⟩
  | 103 => ⟨S4x1024x1024x1, .i32⟩
  | 104 => ⟨S4x1024x1024x3, .f32⟩
  | 105 => ⟨S_, .f32⟩
  | 106 => ⟨S4x1024x1024x1, .f32⟩
  | 107 => ⟨S4x1024x1024x1, .f32⟩
  | 108 => ⟨S4x1024x1024x3, .f32⟩
  | 109 => ⟨S4x1024x1024x3, .f32⟩
  | 110 => ⟨S4x1024x1024x3, .f32⟩
  | 111 => ⟨S4x1024x1024x3, .f32⟩
  | 112 => ⟨S4x1024x1024x3, .f32⟩
  | 113 => ⟨S4x1024x1024x3, .f32⟩
  | 114 => ⟨S4x1024x1024x3, .f32⟩
  | 115 => ⟨S_, .i32⟩
  | 116 => ⟨S4x1024x1024, .i32⟩
  | 117 => ⟨S4x1024x1024, .i32⟩
  | 118 => ⟨S_, .i32⟩
  | 119 => ⟨S4x1024x1024, .i32⟩
  | 120 => ⟨S4x1024x1024, .i32⟩
  | 121 => ⟨S_, .i32⟩
  | 122 => ⟨S4x1024x1024, .i32⟩
  | 123 => ⟨S4x1024x1024, .i32⟩
  | 124 => ⟨S4x1024x1024, .i32⟩
  | 125 => ⟨S_, .i32⟩
  | 126 => ⟨S4x1024x1024, .i32⟩
  | 127 => ⟨S4x1024x1024, .i32⟩
  | _ => ⟨S4x3x1024x1024, .f32⟩

abbrev hbmTy0_4 (i : Nat) : BufTy := match i % 128 with
  | 0 => ⟨S_, .i32⟩
  | 1 => ⟨S4x1024x1024, .i32⟩
  | 2 => ⟨S4x1024x1024, .i32⟩
  | 3 => ⟨S4x1024x1024, .i32⟩
  | 4 => ⟨S_, .i32⟩
  | 5 => ⟨S4x1024x1024, .i32⟩
  | 6 => ⟨S4x1024x1024, .i1⟩
  | 7 => ⟨S_, .i32⟩
  | 8 => ⟨S4x1024x1024, .i32⟩
  | 9 => ⟨S4x1024x1024, .i32⟩
  | 10 => ⟨S4x1024x1024, .i32⟩
  | 11 => ⟨S4x1024x1024x1, .i32⟩
  | 12 => ⟨S4x1024x1024x3, .f32⟩
  | 13 => ⟨S4x1024x1024x3, .f32⟩
  | 14 => ⟨S4x1024x1024x3, .f32⟩
  | 15 => ⟨S4x1024x1024x3, .f32⟩
  | 16 => ⟨S4x1024x1024x3, .f32⟩
  | 17 => ⟨S4x1024x1024x3, .f32⟩
  | 18 => ⟨S4x1024x1024x3, .f32⟩
  | 19 => ⟨S4x1024x1024x3, .f32⟩
  | 20 => ⟨S4x3x1024x1024, .f32⟩
  | _ => ⟨S4x3x1024x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4x3x1024x1024, .f32⟩

abbrev bufTy : (tb : Table) → Fin (tcTables nBuf tb) → BufTy
  | .hbm, ⟨i, _⟩ => hbmTy i
  | _, _ => ⟨S4x3x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_call1_c : Ref sig .tc := ⟨.hbm, 22, rfl⟩
abbrev main_call1_v0 : Ref sig .tc := ⟨.hbm, 23, rfl⟩
abbrev main_call1_v1 : Ref sig .tc := ⟨.hbm, 24, rfl⟩
abbrev main_call1_c_0 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_v5 : Ref sig .tc := ⟨.hbm, 29, rfl⟩
abbrev main_call1_c_1 : Ref sig .tc := ⟨.hbm, 30, rfl⟩
abbrev main_call1_c_2 : Ref sig .tc := ⟨.hbm, 31, rfl⟩
abbrev main_call1_v6 : Ref sig .tc := ⟨.hbm, 32, rfl⟩
abbrev main_call1_v7 : Ref sig .tc := ⟨.hbm, 33, rfl⟩
abbrev main_call1_v8 : Ref sig .tc := ⟨.hbm, 34, rfl⟩
abbrev main_call1_v9 : Ref sig .tc := ⟨.hbm, 35, rfl⟩
abbrev main_call1_v10 : Ref sig .tc := ⟨.hbm, 36, rfl⟩
abbrev main_call1_v11 : Ref sig .tc := ⟨.hbm, 37, rfl⟩
abbrev main_call1_c_3 : Ref sig .tc := ⟨.hbm, 38, rfl⟩
abbrev main_call1_v12 : Ref sig .tc := ⟨.hbm, 39, rfl⟩
abbrev main_call1_v13 : Ref sig .tc := ⟨.hbm, 40, rfl⟩
abbrev main_call1_cst : Ref sig .tc := ⟨.hbm, 41, rfl⟩
abbrev main_call1_v14 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_call2_c : Ref sig .tc := ⟨.hbm, 48, rfl⟩
abbrev main_call2_v0 : Ref sig .tc := ⟨.hbm, 49, rfl⟩
abbrev main_call2_v1 : Ref sig .tc := ⟨.hbm, 50, rfl⟩
abbrev main_call2_c_0 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_call2_v5 : Ref sig .tc := ⟨.hbm, 55, rfl⟩
abbrev main_call2_c_1 : Ref sig .tc := ⟨.hbm, 56, rfl⟩
abbrev main_call2_c_2 : Ref sig .tc := ⟨.hbm, 57, rfl⟩
abbrev main_call2_v6 : Ref sig .tc := ⟨.hbm, 58, rfl⟩
abbrev main_call2_v7 : Ref sig .tc := ⟨.hbm, 59, rfl⟩
abbrev main_call2_v8 : Ref sig .tc := ⟨.hbm, 60, rfl⟩
abbrev main_call2_v9 : Ref sig .tc := ⟨.hbm, 61, rfl⟩
abbrev main_call2_v10 : Ref sig .tc := ⟨.hbm, 62, rfl⟩
abbrev main_call2_v11 : Ref sig .tc := ⟨.hbm, 63, rfl⟩
abbrev main_call2_c_3 : Ref sig .tc := ⟨.hbm, 64, rfl⟩
abbrev main_call2_v12 : Ref sig .tc := ⟨.hbm, 65, rfl⟩
abbrev main_call2_v13 : Ref sig .tc := ⟨.hbm, 66, rfl⟩
abbrev main_call2_cst : Ref sig .tc := ⟨.hbm, 67, rfl⟩
abbrev main_call2_v14 : Ref sig .tc := ⟨.hbm, 68, rfl⟩
abbrev main_v16 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩
abbrev main_v20 : Ref sig .tc := ⟨.hbm, 73, rfl⟩
abbrev main_call3_c : Ref sig .tc := ⟨.hbm, 74, rfl⟩
abbrev main_call3_v0 : Ref sig .tc := ⟨.hbm, 75, rfl⟩
abbrev main_call3_v1 : Ref sig .tc := ⟨.hbm, 76, rfl⟩
abbrev main_call3_c_0 : Ref sig .tc := ⟨.hbm, 77, rfl⟩
abbrev main_call3_v2 : Ref sig .tc := ⟨.hbm, 78, rfl⟩
abbrev main_call3_v3 : Ref sig .tc := ⟨.hbm, 79, rfl⟩
abbrev main_call3_v4 : Ref sig .tc := ⟨.hbm, 80, rfl⟩
abbrev main_call3_v5 : Ref sig .tc := ⟨.hbm, 81, rfl⟩
abbrev main_call3_c_1 : Ref sig .tc := ⟨.hbm, 82, rfl⟩
abbrev main_call3_c_2 : Ref sig .tc := ⟨.hbm, 83, rfl⟩
abbrev main_call3_v6 : Ref sig .tc := ⟨.hbm, 84, rfl⟩
abbrev main_call3_v7 : Ref sig .tc := ⟨.hbm, 85, rfl⟩
abbrev main_call3_v8 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_c_3 : Ref sig .tc := ⟨.hbm, 90, rfl⟩
abbrev main_call3_v12 : Ref sig .tc := ⟨.hbm, 91, rfl⟩
abbrev main_call3_v13 : Ref sig .tc := ⟨.hbm, 92, rfl⟩
abbrev main_call3_cst : Ref sig .tc := ⟨.hbm, 93, rfl⟩
abbrev main_call3_v14 : Ref sig .tc := ⟨.hbm, 94, rfl⟩
abbrev main_v21 : Ref sig .tc := ⟨.hbm, 95, rfl⟩
abbrev main_v22 : Ref sig .tc := ⟨.hbm, 96, rfl⟩
abbrev main_v23 : Ref sig .tc := ⟨.hbm, 97, rfl⟩
abbrev main_v24 : Ref sig .tc := ⟨.hbm, 98, rfl⟩
abbrev main_v25 : Ref sig .tc := ⟨.hbm, 99, rfl⟩
abbrev main_v26 : Ref sig .tc := ⟨.hbm, 100, rfl⟩
abbrev main_v27 : Ref sig .tc := ⟨.hbm, 101, rfl⟩
abbrev main_v28 : Ref sig .tc := ⟨.hbm, 102, rfl⟩
abbrev main_v29 : Ref sig .tc := ⟨.hbm, 103, rfl⟩
abbrev main_c_1 : Ref sig .tc := ⟨.hbm, 104, rfl⟩
abbrev main_v30 : Ref sig .tc := ⟨.hbm, 105, rfl⟩
abbrev main_v31 : Ref sig .tc := ⟨.hbm, 106, rfl⟩
abbrev main_call4_c : Ref sig .tc := ⟨.hbm, 107, rfl⟩
abbrev main_call4_v0 : Ref sig .tc := ⟨.hbm, 108, rfl⟩
abbrev main_call4_v1 : Ref sig .tc := ⟨.hbm, 109, rfl⟩
abbrev main_call4_c_0 : Ref sig .tc := ⟨.hbm, 110, rfl⟩
abbrev main_call4_v2 : Ref sig .tc := ⟨.hbm, 111, rfl⟩
abbrev main_call4_v3 : Ref sig .tc := ⟨.hbm, 112, rfl⟩
abbrev main_call4_v4 : Ref sig .tc := ⟨.hbm, 113, rfl⟩
abbrev main_call4_v5 : Ref sig .tc := ⟨.hbm, 114, rfl⟩
abbrev main_call4_c_1 : Ref sig .tc := ⟨.hbm, 115, rfl⟩
abbrev main_call4_c_2 : Ref sig .tc := ⟨.hbm, 116, rfl⟩
abbrev main_call4_v6 : Ref sig .tc := ⟨.hbm, 117, rfl⟩
abbrev main_call4_v7 : Ref sig .tc := ⟨.hbm, 118, rfl⟩
abbrev main_call4_v8 : Ref sig .tc := ⟨.hbm, 119, rfl⟩
abbrev main_call4_v9 : Ref sig .tc := ⟨.hbm, 120, rfl⟩
abbrev main_call4_v10 : Ref sig .tc := ⟨.hbm, 121, rfl⟩
abbrev main_call4_v11 : Ref sig .tc := ⟨.hbm, 122, rfl⟩
abbrev main_call4_c_3 : Ref sig .tc := ⟨.hbm, 123, rfl⟩
abbrev main_call4_v12 : Ref sig .tc := ⟨.hbm, 124, rfl⟩
abbrev main_call4_v13 : Ref sig .tc := ⟨.hbm, 125, rfl⟩
abbrev main_call4_cst : Ref sig .tc := ⟨.hbm, 126, rfl⟩
abbrev main_call4_v14 : Ref sig .tc := ⟨.hbm, 127, rfl⟩
abbrev main_v32 : Ref sig .tc := ⟨.hbm, 128, rfl⟩
abbrev main_v33 : Ref sig .tc := ⟨.hbm, 129, rfl⟩
abbrev main_v34 : Ref sig .tc := ⟨.hbm, 130, rfl⟩
abbrev main_v35 : Ref sig .tc := ⟨.hbm, 131, rfl⟩
abbrev main_v36 : Ref sig .tc := ⟨.hbm, 132, rfl⟩
abbrev main_c_2 : Ref sig .tc := ⟨.hbm, 133, rfl⟩
abbrev main_v37 : Ref sig .tc := ⟨.hbm, 134, rfl⟩
abbrev main_v38 : Ref sig .tc := ⟨.hbm, 135, rfl⟩
abbrev main_call5_c : Ref sig .tc := ⟨.hbm, 136, rfl⟩
abbrev main_call5_v0 : Ref sig .tc := ⟨.hbm, 137, rfl⟩
abbrev main_call5_v1 : Ref sig .tc := ⟨.hbm, 138, rfl⟩
abbrev main_call5_c_0 : Ref sig .tc := ⟨.hbm, 139, rfl⟩
abbrev main_call5_v2 : Ref sig .tc := ⟨.hbm, 140, rfl⟩
abbrev main_call5_v3 : Ref sig .tc := ⟨.hbm, 141, rfl⟩
abbrev main_call5_v4 : Ref sig .tc := ⟨.hbm, 142, rfl⟩
abbrev main_call5_v5 : Ref sig .tc := ⟨.hbm, 143, rfl⟩
abbrev main_call5_c_1 : Ref sig .tc := ⟨.hbm, 144, rfl⟩
abbrev main_call5_c_2 : Ref sig .tc := ⟨.hbm, 145, rfl⟩
abbrev main_call5_v6 : Ref sig .tc := ⟨.hbm, 146, rfl⟩
abbrev main_call5_v7 : Ref sig .tc := ⟨.hbm, 147, rfl⟩
abbrev main_call5_v8 : Ref sig .tc := ⟨.hbm, 148, rfl⟩
abbrev main_call5_v9 : Ref sig .tc := ⟨.hbm, 149, rfl⟩
abbrev main_call5_v10 : Ref sig .tc := ⟨.hbm, 150, rfl⟩
abbrev main_call5_v11 : Ref sig .tc := ⟨.hbm, 151, rfl⟩
abbrev main_call5_c_3 : Ref sig .tc := ⟨.hbm, 152, rfl⟩
abbrev main_call5_v12 : Ref sig .tc := ⟨.hbm, 153, rfl⟩
abbrev main_call5_v13 : Ref sig .tc := ⟨.hbm, 154, rfl⟩
abbrev main_call5_cst : Ref sig .tc := ⟨.hbm, 155, rfl⟩
abbrev main_call5_v14 : Ref sig .tc := ⟨.hbm, 156, rfl⟩
abbrev main_v39 : Ref sig .tc := ⟨.hbm, 157, rfl⟩
abbrev main_v40 : Ref sig .tc := ⟨.hbm, 158, rfl⟩
abbrev main_v41 : Ref sig .tc := ⟨.hbm, 159, rfl⟩
abbrev main_v42 : Ref sig .tc := ⟨.hbm, 160, rfl⟩
abbrev main_v43 : Ref sig .tc := ⟨.hbm, 161, rfl⟩
abbrev main_c_3 : Ref sig .tc := ⟨.hbm, 162, rfl⟩
abbrev main_v44 : Ref sig .tc := ⟨.hbm, 163, rfl⟩
abbrev main_v45 : Ref sig .tc := ⟨.hbm, 164, rfl⟩
abbrev main_call6_c : Ref sig .tc := ⟨.hbm, 165, rfl⟩
abbrev main_call6_v0 : Ref sig .tc := ⟨.hbm, 166, rfl⟩
abbrev main_call6_v1 : Ref sig .tc := ⟨.hbm, 167, rfl⟩
abbrev main_call6_c_0 : Ref sig .tc := ⟨.hbm, 168, rfl⟩
abbrev main_call6_v2 : Ref sig .tc := ⟨.hbm, 169, rfl⟩
abbrev main_call6_v3 : Ref sig .tc := ⟨.hbm, 170, rfl⟩
abbrev main_call6_v4 : Ref sig .tc := ⟨.hbm, 171, rfl⟩
abbrev main_call6_v5 : Ref sig .tc := ⟨.hbm, 172, rfl⟩
abbrev main_call6_c_1 : Ref sig .tc := ⟨.hbm, 173, rfl⟩
abbrev main_call6_c_2 : Ref sig .tc := ⟨.hbm, 174, rfl⟩
abbrev main_call6_v6 : Ref sig .tc := ⟨.hbm, 175, rfl⟩
abbrev main_call6_v7 : Ref sig .tc := ⟨.hbm, 176, rfl⟩
abbrev main_call6_v8 : Ref sig .tc := ⟨.hbm, 177, rfl⟩
abbrev main_call6_v9 : Ref sig .tc := ⟨.hbm, 178, rfl⟩
abbrev main_call6_v10 : Ref sig .tc := ⟨.hbm, 179, rfl⟩
abbrev main_call6_v11 : Ref sig .tc := ⟨.hbm, 180, rfl⟩
abbrev main_call6_c_3 : Ref sig .tc := ⟨.hbm, 181, rfl⟩
abbrev main_call6_v12 : Ref sig .tc := ⟨.hbm, 182, rfl⟩
abbrev main_call6_v13 : Ref sig .tc := ⟨.hbm, 183, rfl⟩
abbrev main_call6_cst : Ref sig .tc := ⟨.hbm, 184, rfl⟩
abbrev main_call6_v14 : Ref sig .tc := ⟨.hbm, 185, rfl⟩
abbrev main_v46 : Ref sig .tc := ⟨.hbm, 186, rfl⟩
abbrev main_v47 : Ref sig .tc := ⟨.hbm, 187, rfl⟩
abbrev main_v48 : Ref sig .tc := ⟨.hbm, 188, rfl⟩
abbrev main_v49 : Ref sig .tc := ⟨.hbm, 189, rfl⟩
abbrev main_v50 : Ref sig .tc := ⟨.hbm, 190, rfl⟩
abbrev main_v51 : Ref sig .tc := ⟨.hbm, 191, rfl⟩
abbrev main_v52 : Ref sig .tc := ⟨.hbm, 192, rfl⟩
abbrev main_v53 : Ref sig .tc := ⟨.hbm, 193, rfl⟩
abbrev main_cst_4 : Ref sig .tc := ⟨.hbm, 194, rfl⟩
abbrev main_cst_5 : Ref sig .tc := ⟨.hbm, 195, rfl⟩
abbrev main_call7_v0 : Ref sig .tc := ⟨.hbm, 196, rfl⟩
abbrev main_call7_v1 : Ref sig .tc := ⟨.hbm, 197, rfl⟩
abbrev main_call7_v2 : Ref sig .tc := ⟨.hbm, 198, rfl⟩
abbrev main_call7_v3 : Ref sig .tc := ⟨.hbm, 199, rfl⟩
abbrev main_call7_v4 : Ref sig .tc := ⟨.hbm, 200, rfl⟩
abbrev main_v54 : Ref sig .tc := ⟨.hbm, 201, rfl⟩
abbrev main_cst_6 : Ref sig .tc := ⟨.hbm, 202, rfl⟩
abbrev main_v55 : Ref sig .tc := ⟨.hbm, 203, rfl⟩
abbrev main_v56 : Ref sig .tc := ⟨.hbm, 204, rfl⟩
abbrev main_v57 : Ref sig .tc := ⟨.hbm, 205, rfl⟩
abbrev main_v58 : Ref sig .tc := ⟨.hbm, 206, rfl⟩
abbrev main_c_7 : Ref sig .tc := ⟨.hbm, 207, rfl⟩
abbrev main_c_8 : Ref sig .tc := ⟨.hbm, 208, rfl⟩
abbrev main_call8_v0 : Ref sig .tc := ⟨.hbm, 209, rfl⟩
abbrev main_call8_v1 : Ref sig .tc := ⟨.hbm, 210, rfl⟩
abbrev main_call8_v2 : Ref sig .tc := ⟨.hbm, 211, rfl⟩
abbrev main_call8_v3 : Ref sig .tc := ⟨.hbm, 212, rfl⟩
abbrev main_call8_v4 : Ref sig .tc := ⟨.hbm, 213, rfl⟩
abbrev main_v59 : Ref sig .tc := ⟨.hbm, 214, rfl⟩
abbrev main_v60 : Ref sig .tc := ⟨.hbm, 215, rfl⟩
abbrev main_v61 : Ref sig .tc := ⟨.hbm, 216, rfl⟩
abbrev main_v62 : Ref sig .tc := ⟨.hbm, 217, rfl⟩
abbrev main_v63 : Ref sig .tc := ⟨.hbm, 218, rfl⟩
abbrev main_v64 : Ref sig .tc := ⟨.hbm, 219, rfl⟩
abbrev main_v65 : Ref sig .tc := ⟨.hbm, 220, rfl⟩
abbrev main_v66 : Ref sig .tc := ⟨.hbm, 221, rfl⟩
abbrev main_v67 : Ref sig .tc := ⟨.hbm, 222, rfl⟩
abbrev main_v68 : Ref sig .tc := ⟨.hbm, 223, rfl⟩
abbrev main_v69 : Ref sig .tc := ⟨.hbm, 224, rfl⟩
abbrev main_v70 : Ref sig .tc := ⟨.hbm, 225, rfl⟩
abbrev main_v71 : Ref sig .tc := ⟨.hbm, 226, rfl⟩
abbrev main_v72 : Ref sig .tc := ⟨.hbm, 227, rfl⟩
abbrev main_v73 : Ref sig .tc := ⟨.hbm, 228, rfl⟩
abbrev main_v74 : Ref sig .tc := ⟨.hbm, 229, rfl⟩
abbrev main_v75 : Ref sig .tc := ⟨.hbm, 230, rfl⟩
abbrev main_v76 : Ref sig .tc := ⟨.hbm, 231, rfl⟩
abbrev main_v77 : Ref sig .tc := ⟨.hbm, 232, rfl⟩
abbrev main_c_9 : Ref sig .tc := ⟨.hbm, 233, rfl⟩
abbrev main_v78 : Ref sig .tc := ⟨.hbm, 234, rfl⟩
abbrev main_v79 : Ref sig .tc := ⟨.hbm, 235, rfl⟩
abbrev main_c_10 : Ref sig .tc := ⟨.hbm, 236, rfl⟩
abbrev main_v80 : Ref sig .tc := ⟨.hbm, 237, rfl⟩
abbrev main_v81 : Ref sig .tc := ⟨.hbm, 238, rfl⟩
abbrev main_c_11 : Ref sig .tc := ⟨.hbm, 239, rfl⟩
abbrev main_v82 : Ref sig .tc := ⟨.hbm, 240, rfl⟩
abbrev main_v83 : Ref sig .tc := ⟨.hbm, 241, rfl⟩
abbrev main_v84 : Ref sig .tc := ⟨.hbm, 242, rfl⟩
abbrev main_c_12 : Ref sig .tc := ⟨.hbm, 243, rfl⟩
abbrev main_v85 : Ref sig .tc := ⟨.hbm, 244, rfl⟩
abbrev main_v86 : Ref sig .tc := ⟨.hbm, 245, rfl⟩
abbrev main_c_13 : Ref sig .tc := ⟨.hbm, 246, rfl⟩
abbrev main_v87 : Ref sig .tc := ⟨.hbm, 247, rfl⟩
abbrev main_v88 : Ref sig .tc := ⟨.hbm, 248, rfl⟩
abbrev main_v89 : Ref sig .tc := ⟨.hbm, 249, rfl⟩
abbrev main_c_14 : Ref sig .tc := ⟨.hbm, 250, rfl⟩
abbrev main_v90 : Ref sig .tc := ⟨.hbm, 251, rfl⟩
abbrev main_v91 : Ref sig .tc := ⟨.hbm, 252, rfl⟩
abbrev main_c_15 : Ref sig .tc := ⟨.hbm, 253, rfl⟩
abbrev main_v92 : Ref sig .tc := ⟨.hbm, 254, rfl⟩
abbrev main_v93 : Ref sig .tc := ⟨.hbm, 255, rfl⟩
abbrev main_v94 : Ref sig .tc := ⟨.hbm, 256, rfl⟩
abbrev main_v95 : Ref sig .tc := ⟨.hbm, 257, rfl⟩
abbrev main_v96 : Ref sig .tc := ⟨.hbm, 258, rfl⟩
abbrev main_cst_16 : Ref sig .tc := ⟨.hbm, 259, rfl⟩
abbrev main_v97 : Ref sig .tc := ⟨.hbm, 260, rfl⟩
abbrev main_v98 : Ref sig .tc := ⟨.hbm, 261, rfl⟩
abbrev main_v99 : Ref sig .tc := ⟨.hbm, 262, rfl⟩
abbrev main_v100 : Ref sig .tc := ⟨.hbm, 263, rfl⟩
abbrev main_cst_17 : Ref sig .tc := ⟨.hbm, 264, rfl⟩
abbrev main_v101 : Ref sig .tc := ⟨.hbm, 265, rfl⟩
abbrev main_v102 : Ref sig .tc := ⟨.hbm, 266, rfl⟩
abbrev main_v103 : Ref sig .tc := ⟨.hbm, 267, rfl⟩
abbrev main_v104 : Ref sig .tc := ⟨.hbm, 268, rfl⟩
abbrev main_cst_18 : Ref sig .tc := ⟨.hbm, 269, rfl⟩
abbrev main_v105 : Ref sig .tc := ⟨.hbm, 270, rfl⟩
abbrev main_v106 : Ref sig .tc := ⟨.hbm, 271, rfl⟩
abbrev main_v107 : Ref sig .tc := ⟨.hbm, 272, rfl⟩
abbrev main_v108 : Ref sig .tc := ⟨.hbm, 273, rfl⟩
abbrev main_c_19 : Ref sig .tc := ⟨.hbm, 274, rfl⟩
abbrev main_v109 : Ref sig .tc := ⟨.hbm, 275, rfl⟩
abbrev main_v110 : Ref sig .tc := ⟨.hbm, 276, rfl⟩
abbrev main_c_20 : Ref sig .tc := ⟨.hbm, 277, rfl⟩
abbrev main_v111 : Ref sig .tc := ⟨.hbm, 278, rfl⟩
abbrev main_v112 : Ref sig .tc := ⟨.hbm, 279, rfl⟩
abbrev main_c_21 : Ref sig .tc := ⟨.hbm, 280, rfl⟩
abbrev main_v113 : Ref sig .tc := ⟨.hbm, 281, rfl⟩
abbrev main_v114 : Ref sig .tc := ⟨.hbm, 282, rfl⟩
abbrev main_v115 : Ref sig .tc := ⟨.hbm, 283, rfl⟩
abbrev main_c_22 : Ref sig .tc := ⟨.hbm, 284, rfl⟩
abbrev main_v116 : Ref sig .tc := ⟨.hbm, 285, rfl⟩
abbrev main_v117 : Ref sig .tc := ⟨.hbm, 286, rfl⟩
abbrev main_c_23 : Ref sig .tc := ⟨.hbm, 287, rfl⟩
abbrev main_v118 : Ref sig .tc := ⟨.hbm, 288, rfl⟩
abbrev main_v119 : Ref sig .tc := ⟨.hbm, 289, rfl⟩
abbrev main_v120 : Ref sig .tc := ⟨.hbm, 290, rfl⟩
abbrev main_c_24 : Ref sig .tc := ⟨.hbm, 291, rfl⟩
abbrev main_v121 : Ref sig .tc := ⟨.hbm, 292, rfl⟩
abbrev main_v122 : Ref sig .tc := ⟨.hbm, 293, rfl⟩
abbrev main_c_25 : Ref sig .tc := ⟨.hbm, 294, rfl⟩
abbrev main_v123 : Ref sig .tc := ⟨.hbm, 295, rfl⟩
abbrev main_v124 : Ref sig .tc := ⟨.hbm, 296, rfl⟩
abbrev main_v125 : Ref sig .tc := ⟨.hbm, 297, rfl⟩
abbrev main_v126 : Ref sig .tc := ⟨.hbm, 298, rfl⟩
abbrev main_v127 : Ref sig .tc := ⟨.hbm, 299, rfl⟩
abbrev main_v128 : Ref sig .tc := ⟨.hbm, 300, rfl⟩
abbrev main_v129 : Ref sig .tc := ⟨.hbm, 301, rfl⟩
abbrev main_cst_26 : Ref sig .tc := ⟨.hbm, 302, rfl⟩
abbrev main_v130 : Ref sig .tc := ⟨.hbm, 303, rfl⟩
abbrev main_v131 : Ref sig .tc := ⟨.hbm, 304, rfl⟩
abbrev main_v132 : Ref sig .tc := ⟨.hbm, 305, rfl⟩
abbrev main_v133 : Ref sig .tc := ⟨.hbm, 306, rfl⟩
abbrev main_cst_27 : Ref sig .tc := ⟨.hbm, 307, rfl⟩
abbrev main_v134 : Ref sig .tc := ⟨.hbm, 308, rfl⟩
abbrev main_v135 : Ref sig .tc := ⟨.hbm, 309, rfl⟩
abbrev main_v136 : Ref sig .tc := ⟨.hbm, 310, rfl⟩
abbrev main_v137 : Ref sig .tc := ⟨.hbm, 311, rfl⟩
abbrev main_v138 : Ref sig .tc := ⟨.hbm, 312, rfl⟩
abbrev main_c_28 : Ref sig .tc := ⟨.hbm, 313, rfl⟩
abbrev main_v139 : Ref sig .tc := ⟨.hbm, 314, rfl⟩
abbrev main_v140 : Ref sig .tc := ⟨.hbm, 315, rfl⟩
abbrev main_c_29 : Ref sig .tc := ⟨.hbm, 316, rfl⟩
abbrev main_v141 : Ref sig .tc := ⟨.hbm, 317, rfl⟩
abbrev main_v142 : Ref sig .tc := ⟨.hbm, 318, rfl⟩
abbrev main_c_30 : Ref sig .tc := ⟨.hbm, 319, rfl⟩
abbrev main_v143 : Ref sig .tc := ⟨.hbm, 320, rfl⟩
abbrev main_v144 : Ref sig .tc := ⟨.hbm, 321, rfl⟩
abbrev main_v145 : Ref sig .tc := ⟨.hbm, 322, rfl⟩
abbrev main_c_31 : Ref sig .tc := ⟨.hbm, 323, rfl⟩
abbrev main_v146 : Ref sig .tc := ⟨.hbm, 324, rfl⟩
abbrev main_v147 : Ref sig .tc := ⟨.hbm, 325, rfl⟩
abbrev main_c_32 : Ref sig .tc := ⟨.hbm, 326, rfl⟩
abbrev main_v148 : Ref sig .tc := ⟨.hbm, 327, rfl⟩
abbrev main_v149 : Ref sig .tc := ⟨.hbm, 328, rfl⟩
abbrev main_v150 : Ref sig .tc := ⟨.hbm, 329, rfl⟩
abbrev main_c_33 : Ref sig .tc := ⟨.hbm, 330, rfl⟩
abbrev main_v151 : Ref sig .tc := ⟨.hbm, 331, rfl⟩
abbrev main_v152 : Ref sig .tc := ⟨.hbm, 332, rfl⟩
abbrev main_c_34 : Ref sig .tc := ⟨.hbm, 333, rfl⟩
abbrev main_v153 : Ref sig .tc := ⟨.hbm, 334, rfl⟩
abbrev main_v154 : Ref sig .tc := ⟨.hbm, 335, rfl⟩
abbrev main_v155 : Ref sig .tc := ⟨.hbm, 336, rfl⟩
abbrev main_v156 : Ref sig .tc := ⟨.hbm, 337, rfl⟩
abbrev main_v157 : Ref sig .tc := ⟨.hbm, 338, rfl⟩
abbrev main_cst_35 : Ref sig .tc := ⟨.hbm, 339, rfl⟩
abbrev main_v158 : Ref sig .tc := ⟨.hbm, 340, rfl⟩
abbrev main_v159 : Ref sig .tc := ⟨.hbm, 341, rfl⟩
abbrev main_v160 : Ref sig .tc := ⟨.hbm, 342, rfl⟩
abbrev main_v161 : Ref sig .tc := ⟨.hbm, 343, rfl⟩
abbrev main_v162 : Ref sig .tc := ⟨.hbm, 344, rfl⟩
abbrev main_v163 : Ref sig .tc := ⟨.hbm, 345, rfl⟩
abbrev main_cst_36 : Ref sig .tc := ⟨.hbm, 346, rfl⟩
abbrev main_v164 : Ref sig .tc := ⟨.hbm, 347, rfl⟩
abbrev main_v165 : Ref sig .tc := ⟨.hbm, 348, rfl⟩
abbrev main_v166 : Ref sig .tc := ⟨.hbm, 349, rfl⟩
abbrev main_v167 : Ref sig .tc := ⟨.hbm, 350, rfl⟩
abbrev main_v168 : Ref sig .tc := ⟨.hbm, 351, rfl⟩
abbrev main_c_37 : Ref sig .tc := ⟨.hbm, 352, rfl⟩
abbrev main_v169 : Ref sig .tc := ⟨.hbm, 353, rfl⟩
abbrev main_v170 : Ref sig .tc := ⟨.hbm, 354, rfl⟩
abbrev main_c_38 : Ref sig .tc := ⟨.hbm, 355, rfl⟩
abbrev main_v171 : Ref sig .tc := ⟨.hbm, 356, rfl⟩
abbrev main_v172 : Ref sig .tc := ⟨.hbm, 357, rfl⟩
abbrev main_c_39 : Ref sig .tc := ⟨.hbm, 358, rfl⟩
abbrev main_v173 : Ref sig .tc := ⟨.hbm, 359, rfl⟩
abbrev main_v174 : Ref sig .tc := ⟨.hbm, 360, rfl⟩
abbrev main_v175 : Ref sig .tc := ⟨.hbm, 361, rfl⟩
abbrev main_c_40 : Ref sig .tc := ⟨.hbm, 362, rfl⟩
abbrev main_v176 : Ref sig .tc := ⟨.hbm, 363, rfl⟩
abbrev main_v177 : Ref sig .tc := ⟨.hbm, 364, rfl⟩
abbrev main_c_41 : Ref sig .tc := ⟨.hbm, 365, rfl⟩
abbrev main_v178 : Ref sig .tc := ⟨.hbm, 366, rfl⟩
abbrev main_v179 : Ref sig .tc := ⟨.hbm, 367, rfl⟩
abbrev main_v180 : Ref sig .tc := ⟨.hbm, 368, rfl⟩
abbrev main_c_42 : Ref sig .tc := ⟨.hbm, 369, rfl⟩
abbrev main_v181 : Ref sig .tc := ⟨.hbm, 370, rfl⟩
abbrev main_v182 : Ref sig .tc := ⟨.hbm, 371, rfl⟩
abbrev main_c_43 : Ref sig .tc := ⟨.hbm, 372, rfl⟩
abbrev main_v183 : Ref sig .tc := ⟨.hbm, 373, rfl⟩
abbrev main_v184 : Ref sig .tc := ⟨.hbm, 374, rfl⟩
abbrev main_v185 : Ref sig .tc := ⟨.hbm, 375, rfl⟩
abbrev main_v186 : Ref sig .tc := ⟨.hbm, 376, rfl⟩
abbrev main_v187 : Ref sig .tc := ⟨.hbm, 377, rfl⟩
abbrev main_cst_44 : Ref sig .tc := ⟨.hbm, 378, rfl⟩
abbrev main_v188 : Ref sig .tc := ⟨.hbm, 379, rfl⟩
abbrev main_v189 : Ref sig .tc := ⟨.hbm, 380, rfl⟩
abbrev main_v190 : Ref sig .tc := ⟨.hbm, 381, rfl⟩
abbrev main_v191 : Ref sig .tc := ⟨.hbm, 382, rfl⟩
abbrev main_cst_45 : Ref sig .tc := ⟨.hbm, 383, rfl⟩
abbrev main_v192 : Ref sig .tc := ⟨.hbm, 384, rfl⟩
abbrev main_v193 : Ref sig .tc := ⟨.hbm, 385, rfl⟩
abbrev main_v194 : Ref sig .tc := ⟨.hbm, 386, rfl⟩
abbrev main_v195 : Ref sig .tc := ⟨.hbm, 387, rfl⟩
abbrev main_v196 : Ref sig .tc := ⟨.hbm, 388, rfl⟩
abbrev main_v197 : Ref sig .tc := ⟨.hbm, 389, rfl⟩
abbrev main_v198 : Ref sig .tc := ⟨.hbm, 390, rfl⟩
abbrev main_c_46 : Ref sig .tc := ⟨.hbm, 391, rfl⟩
abbrev main_v199 : Ref sig .tc := ⟨.hbm, 392, rfl⟩
abbrev main_v200 : Ref sig .tc := ⟨.hbm, 393, rfl⟩
abbrev main_c_47 : Ref sig .tc := ⟨.hbm, 394, rfl⟩
abbrev main_v201 : Ref sig .tc := ⟨.hbm, 395, rfl⟩
abbrev main_v202 : Ref sig .tc := ⟨.hbm, 396, rfl⟩
abbrev main_c_48 : Ref sig .tc := ⟨.hbm, 397, rfl⟩
abbrev main_v203 : Ref sig .tc := ⟨.hbm, 398, rfl⟩
abbrev main_v204 : Ref sig .tc := ⟨.hbm, 399, rfl⟩
abbrev main_v205 : Ref sig .tc := ⟨.hbm, 400, rfl⟩
abbrev main_c_49 : Ref sig .tc := ⟨.hbm, 401, rfl⟩
abbrev main_v206 : Ref sig .tc := ⟨.hbm, 402, rfl⟩
abbrev main_v207 : Ref sig .tc := ⟨.hbm, 403, rfl⟩
abbrev main_c_50 : Ref sig .tc := ⟨.hbm, 404, rfl⟩
abbrev main_v208 : Ref sig .tc := ⟨.hbm, 405, rfl⟩
abbrev main_v209 : Ref sig .tc := ⟨.hbm, 406, rfl⟩
abbrev main_v210 : Ref sig .tc := ⟨.hbm, 407, rfl⟩
abbrev main_c_51 : Ref sig .tc := ⟨.hbm, 408, rfl⟩
abbrev main_v211 : Ref sig .tc := ⟨.hbm, 409, rfl⟩
abbrev main_v212 : Ref sig .tc := ⟨.hbm, 410, rfl⟩
abbrev main_c_52 : Ref sig .tc := ⟨.hbm, 411, rfl⟩
abbrev main_v213 : Ref sig .tc := ⟨.hbm, 412, rfl⟩
abbrev main_v214 : Ref sig .tc := ⟨.hbm, 413, rfl⟩
abbrev main_v215 : Ref sig .tc := ⟨.hbm, 414, rfl⟩
abbrev main_v216 : Ref sig .tc := ⟨.hbm, 415, rfl⟩
abbrev main_v217 : Ref sig .tc := ⟨.hbm, 416, rfl⟩
abbrev main_v218 : Ref sig .tc := ⟨.hbm, 417, rfl⟩
abbrev main_v219 : Ref sig .tc := ⟨.hbm, 418, rfl⟩
abbrev main_v220 : Ref sig .tc := ⟨.hbm, 419, rfl⟩
abbrev main_v221 : Ref sig .tc := ⟨.hbm, 420, rfl⟩
abbrev main_cst_53 : Ref sig .tc := ⟨.hbm, 421, rfl⟩
abbrev main_v222 : Ref sig .tc := ⟨.hbm, 422, rfl⟩
abbrev main_v223 : Ref sig .tc := ⟨.hbm, 423, rfl⟩
abbrev main_v224 : Ref sig .tc := ⟨.hbm, 424, rfl⟩
abbrev main_v225 : Ref sig .tc := ⟨.hbm, 425, rfl⟩
abbrev main_v226 : Ref sig .tc := ⟨.hbm, 426, rfl⟩
abbrev main_c_54 : Ref sig .tc := ⟨.hbm, 427, rfl⟩
abbrev main_v227 : Ref sig .tc := ⟨.hbm, 428, rfl⟩
abbrev main_v228 : Ref sig .tc := ⟨.hbm, 429, rfl⟩
abbrev main_c_55 : Ref sig .tc := ⟨.hbm, 430, rfl⟩
abbrev main_v229 : Ref sig .tc := ⟨.hbm, 431, rfl⟩
abbrev main_v230 : Ref sig .tc := ⟨.hbm, 432, rfl⟩
abbrev main_c_56 : Ref sig .tc := ⟨.hbm, 433, rfl⟩
abbrev main_v231 : Ref sig .tc := ⟨.hbm, 434, rfl⟩
abbrev main_v232 : Ref sig .tc := ⟨.hbm, 435, rfl⟩
abbrev main_v233 : Ref sig .tc := ⟨.hbm, 436, rfl⟩
abbrev main_c_57 : Ref sig .tc := ⟨.hbm, 437, rfl⟩
abbrev main_v234 : Ref sig .tc := ⟨.hbm, 438, rfl⟩
abbrev main_v235 : Ref sig .tc := ⟨.hbm, 439, rfl⟩
abbrev main_c_58 : Ref sig .tc := ⟨.hbm, 440, rfl⟩
abbrev main_v236 : Ref sig .tc := ⟨.hbm, 441, rfl⟩
abbrev main_v237 : Ref sig .tc := ⟨.hbm, 442, rfl⟩
abbrev main_v238 : Ref sig .tc := ⟨.hbm, 443, rfl⟩
abbrev main_c_59 : Ref sig .tc := ⟨.hbm, 444, rfl⟩
abbrev main_v239 : Ref sig .tc := ⟨.hbm, 445, rfl⟩
abbrev main_v240 : Ref sig .tc := ⟨.hbm, 446, rfl⟩
abbrev main_c_60 : Ref sig .tc := ⟨.hbm, 447, rfl⟩
abbrev main_v241 : Ref sig .tc := ⟨.hbm, 448, rfl⟩
abbrev main_v242 : Ref sig .tc := ⟨.hbm, 449, rfl⟩
abbrev main_v243 : Ref sig .tc := ⟨.hbm, 450, rfl⟩
abbrev main_v244 : Ref sig .tc := ⟨.hbm, 451, rfl⟩
abbrev main_v245 : Ref sig .tc := ⟨.hbm, 452, rfl⟩
abbrev main_v246 : Ref sig .tc := ⟨.hbm, 453, rfl⟩
abbrev main_v247 : Ref sig .tc := ⟨.hbm, 454, rfl⟩
abbrev main_cst_61 : Ref sig .tc := ⟨.hbm, 455, rfl⟩
abbrev main_v248 : Ref sig .tc := ⟨.hbm, 456, rfl⟩
abbrev main_v249 : Ref sig .tc := ⟨.hbm, 457, rfl⟩
abbrev main_v250 : Ref sig .tc := ⟨.hbm, 458, rfl⟩
abbrev main_v251 : Ref sig .tc := ⟨.hbm, 459, rfl⟩
abbrev main_v252 : Ref sig .tc := ⟨.hbm, 460, rfl⟩
abbrev main_v253 : Ref sig .tc := ⟨.hbm, 461, rfl⟩
abbrev main_v254 : Ref sig .tc := ⟨.hbm, 462, rfl⟩
abbrev main_c_62 : Ref sig .tc := ⟨.hbm, 463, rfl⟩
abbrev main_v255 : Ref sig .tc := ⟨.hbm, 464, rfl⟩
abbrev main_v256 : Ref sig .tc := ⟨.hbm, 465, rfl⟩
abbrev main_c_63 : Ref sig .tc := ⟨.hbm, 466, rfl⟩
abbrev main_v257 : Ref sig .tc := ⟨.hbm, 467, rfl⟩
abbrev main_v258 : Ref sig .tc := ⟨.hbm, 468, rfl⟩
abbrev main_c_64 : Ref sig .tc := ⟨.hbm, 469, rfl⟩
abbrev main_v259 : Ref sig .tc := ⟨.hbm, 470, rfl⟩
abbrev main_v260 : Ref sig .tc := ⟨.hbm, 471, rfl⟩
abbrev main_v261 : Ref sig .tc := ⟨.hbm, 472, rfl⟩
abbrev main_c_65 : Ref sig .tc := ⟨.hbm, 473, rfl⟩
abbrev main_v262 : Ref sig .tc := ⟨.hbm, 474, rfl⟩
abbrev main_v263 : Ref sig .tc := ⟨.hbm, 475, rfl⟩
abbrev main_c_66 : Ref sig .tc := ⟨.hbm, 476, rfl⟩
abbrev main_v264 : Ref sig .tc := ⟨.hbm, 477, rfl⟩
abbrev main_v265 : Ref sig .tc := ⟨.hbm, 478, rfl⟩
abbrev main_v266 : Ref sig .tc := ⟨.hbm, 479, rfl⟩
abbrev main_c_67 : Ref sig .tc := ⟨.hbm, 480, rfl⟩
abbrev main_v267 : Ref sig .tc := ⟨.hbm, 481, rfl⟩
abbrev main_v268 : Ref sig .tc := ⟨.hbm, 482, rfl⟩
abbrev main_c_68 : Ref sig .tc := ⟨.hbm, 483, rfl⟩
abbrev main_v269 : Ref sig .tc := ⟨.hbm, 484, rfl⟩
abbrev main_v270 : Ref sig .tc := ⟨.hbm, 485, rfl⟩
abbrev main_v271 : Ref sig .tc := ⟨.hbm, 486, rfl⟩
abbrev main_v272 : Ref sig .tc := ⟨.hbm, 487, rfl⟩
abbrev main_v273 : Ref sig .tc := ⟨.hbm, 488, rfl⟩
abbrev main_cst_69 : Ref sig .tc := ⟨.hbm, 489, rfl⟩
abbrev main_v274 : Ref sig .tc := ⟨.hbm, 490, rfl⟩
abbrev main_v275 : Ref sig .tc := ⟨.hbm, 491, rfl⟩
abbrev main_v276 : Ref sig .tc := ⟨.hbm, 492, rfl⟩
abbrev main_v277 : Ref sig .tc := ⟨.hbm, 493, rfl⟩
abbrev main_v278 : Ref sig .tc := ⟨.hbm, 494, rfl⟩
abbrev main_v279 : Ref sig .tc := ⟨.hbm, 495, rfl⟩
abbrev main_v280 : Ref sig .tc := ⟨.hbm, 496, rfl⟩
abbrev main_v281 : Ref sig .tc := ⟨.hbm, 497, rfl⟩
abbrev main_v282 : Ref sig .tc := ⟨.hbm, 498, rfl⟩
abbrev main_c_70 : Ref sig .tc := ⟨.hbm, 499, rfl⟩
abbrev main_v283 : Ref sig .tc := ⟨.hbm, 500, rfl⟩
abbrev main_v284 : Ref sig .tc := ⟨.hbm, 501, rfl⟩
abbrev main_c_71 : Ref sig .tc := ⟨.hbm, 502, rfl⟩
abbrev main_v285 : Ref sig .tc := ⟨.hbm, 503, rfl⟩
abbrev main_v286 : Ref sig .tc := ⟨.hbm, 504, rfl⟩
abbrev main_c_72 : Ref sig .tc := ⟨.hbm, 505, rfl⟩
abbrev main_v287 : Ref sig .tc := ⟨.hbm, 506, rfl⟩
abbrev main_v288 : Ref sig .tc := ⟨.hbm, 507, rfl⟩
abbrev main_v289 : Ref sig .tc := ⟨.hbm, 508, rfl⟩
abbrev main_c_73 : Ref sig .tc := ⟨.hbm, 509, rfl⟩
abbrev main_v290 : Ref sig .tc := ⟨.hbm, 510, rfl⟩
abbrev main_v291 : Ref sig .tc := ⟨.hbm, 511, rfl⟩
abbrev main_c_74 : Ref sig .tc := ⟨.hbm, 512, rfl⟩
abbrev main_v292 : Ref sig .tc := ⟨.hbm, 513, rfl⟩
abbrev main_v293 : Ref sig .tc := ⟨.hbm, 514, rfl⟩
abbrev main_v294 : Ref sig .tc := ⟨.hbm, 515, rfl⟩
abbrev main_c_75 : Ref sig .tc := ⟨.hbm, 516, rfl⟩
abbrev main_v295 : Ref sig .tc := ⟨.hbm, 517, rfl⟩
abbrev main_v296 : Ref sig .tc := ⟨.hbm, 518, rfl⟩
abbrev main_c_76 : Ref sig .tc := ⟨.hbm, 519, rfl⟩
abbrev main_v297 : Ref sig .tc := ⟨.hbm, 520, rfl⟩
abbrev main_v298 : Ref sig .tc := ⟨.hbm, 521, rfl⟩
abbrev main_v299 : Ref sig .tc := ⟨.hbm, 522, rfl⟩
abbrev main_v300 : Ref sig .tc := ⟨.hbm, 523, rfl⟩
abbrev main_v301 : Ref sig .tc := ⟨.hbm, 524, rfl⟩
abbrev main_v302 : Ref sig .tc := ⟨.hbm, 525, rfl⟩
abbrev main_v303 : Ref sig .tc := ⟨.hbm, 526, rfl⟩
abbrev main_v304 : Ref sig .tc := ⟨.hbm, 527, rfl⟩
abbrev main_v305 : Ref sig .tc := ⟨.hbm, 528, rfl⟩
abbrev main_v306 : Ref sig .tc := ⟨.hbm, 529, rfl⟩
abbrev main_v307 : Ref sig .tc := ⟨.hbm, 530, rfl⟩
abbrev main_v308 : Ref sig .tc := ⟨.hbm, 531, rfl⟩
abbrev main_v309 : Ref sig .tc := ⟨.hbm, 532, rfl⟩

abbrev nD : Nat := 1
abbrev τ : Topo := Topo.v7x

variable {F : FTy → Type} [FloatOps F]

class Facts₀ : Prop where
  bcast_S_S4x3x1024x1024 : S_.BroadcastsInDim S4x3x1024x1024 (![] : Fin 0 → Fin S4x3x1024x1024.rank)
  slices_S3x64_S1x64_0_0 : S3x64.Slices ![0, 0] S1x64
  shapeCasts_S1x64_S64 : S1x64.ShapeCasts S64
  slices_S4x3x1024x1024_S4x1x1024x1024_0_0_0_0 : S4x3x1024x1024.Slices ![0, 0, 0, 0] S4x1x1024x1024
  shapeCasts_S4x1x1024x1024_S4x1024x1024 : S4x1x1024x1024.ShapeCasts S4x1024x1024
  bcast_S_S4x1024x1024 : S_.BroadcastsInDim S4x1024x1024 (![] : Fin 0 → Fin S4x1024x1024.rank)
  bcast_S4x1024x1024_S4x1024x1024x1_0_1_2 : S4x1024x1024.BroadcastsInDim S4x1024x1024x1 (![0, 1, 2] : Fin 3 → Fin S4x1024x1024x1.rank)
  bcast_S_S4x1024x1024x1 : S_.BroadcastsInDim S4x1024x1024x1 (![] : Fin 0 → Fin S4x1024x1024x1.rank)
  bcast_S1_S1x1x1x1_3 : S1.BroadcastsInDim S1x1x1x1 (![3] : Fin 1 → Fin S1x1x1x1.rank)
  bcast_S1x1x1x1_S4x1024x1024x1_0_1_2_3 : S1x1x1x1.BroadcastsInDim S4x1024x1024x1 (![0, 1, 2, 3] : Fin 4 → Fin S4x1024x1024x1.rank)
  reducesTo_S4x1024x1024x1_S4x1024x1024_d3 : S4x1024x1024x1.ReducesTo [3] S4x1024x1024
  h_S_ : 0 < S_.numel
  slices_S3x64_S1x64_1_0 : S3x64.Slices ![1, 0] S1x64
  slices_S4x3x1024x1024_S4x1x1024x1024_0_1_0_0 : S4x3x1024x1024.Slices ![0, 1, 0, 0] S4x1x1024x1024
  slices_S3x64_S1x64_2_0 : S3x64.Slices ![2, 0] S1x64
  slices_S4x3x1024x1024_S4x1x1024x1024_0_2_0_0 : S4x3x1024x1024.Slices ![0, 2, 0, 0] S4x1x1024x1024
  bcast_S4x1024x1024_S4x1x1024x1024_0_2_3 : S4x1024x1024.BroadcastsInDim S4x1x1024x1024 (![0, 2, 3] : Fin 3 → Fin S4x1x1024x1024.rank)
  concatenates_S4x1x1024x1024_S4x1x1024x1024_S4x1x1024x1024_S4x3x1024x1024_d1 : Shape.Concatenates [S4x1x1024x1024, S4x1x1024x1024, S4x1x1024x1024] S4x3x1024x1024 1
  shapeCasts_S17x17x17x3_S4913x3 : S17x17x17x3.ShapeCasts S4913x3
  bcast_S4x1024x1024x1_S4x1024x1024x3_0_1_2_3 : S4x1024x1024x1.BroadcastsInDim S4x1024x1024x3 (![0, 1, 2, 3] : Fin 4 → Fin S4x1024x1024x3.rank)
  transposes_S4x1024x1024x3_S4x3x1024x1024_0_3_1_2 : S4x1024x1024x3.Transposes [0, 3, 1, 2] S4x3x1024x1024
  gather_S64_S4x1024x1024x1_S4x1024x1024_n_0_n_n_0_3_1_wf : GatherDims.WF S64 S4x1024x1024x1 S4x1024x1024 [] [0] [] [0] [] 3 ![1]
  gather_S4913x3_S4x1024x1024x1_S4x1024x1024x3_3_0_n_n_0_3_13_wf : GatherDims.WF S4913x3 S4x1024x1024x1 S4x1024x1024x3 [3] [0] [] [0] [] 3 ![1, 3]

variable [Facts₀]

def gather_S64_S4x1024x1024x1_S4x1024x1024_n_0_n_n_0_3_1 : GatherDims S64 S4x1024x1024x1 S4x1024x1024 where
  offsetDims := []
  collapsedSliceDims := [0]
  operandBatchingDims := []
  startIndicesBatchingDims := []
  startIndexMap := [0]
  indexVectorDim := 3
  sliceSizes := ![1]
  wf := gather_S64_S4x1024x1024x1_S4x1024x1024_n_0_n_n_0_3_1_wf
def gather_S4913x3_S4x1024x1024x1_S4x1024x1024x3_3_0_n_n_0_3_13 : GatherDims S4913x3 S4x1024x1024x1 S4x1024x1024x3 where
  offsetDims := [3]
  collapsedSliceDims := [0]
  operandBatchingDims := []
  startIndicesBatchingDims := []
  startIndexMap := [0]
  indexVectorDim := 3
  sliceSizes := ![1, 3]
  wf := gather_S4913x3_S4x1024x1024x1_S4x1024x1024x3_3_0_n_n_0_3_13_wf

class Facts : Prop extends Facts₀ where

variable [Facts]
-- ==== Proof.Spec.lean ====
/-
  What the two programs compute, index by index, over the extended reals.

  A pixel's channel value v is placed along a table of knots: its position is v · s (s the number of
  intervals, a float word), its lower knot the integer part of the position clamped to [0, hi], its offset the
  position minus the lower knot. A table is then read by linear interpolation between the lower knot and the
  next one. The colour transform is a one-dimensional table per channel (64 knots), a clamp to [0, 1], and a
  three-dimensional table (17 knots per axis) read by trilinear interpolation.

  Two spellings of that transform are stated here. `Gr` interpolates by table lookups: t[i] + f · (t[i+1] − t[i])
  in one dimension and the eight-corner weighted sum in three. `Gk` never looks a table up: it weights EVERY knot
  k by the hat function `hat i f k` (1 − f at the lower knot i, f at i + 1, zero elsewhere) and sums over
  all knots — one sum in one dimension, three nested sums in three. On finite inputs they agree (Proof/Algebra.lean).
-/
import Idealize.ShloMosaic.PureOps.Ideal
import Idealize.ShloMosaic.Lib.ValueIdx

noncomputable section

open scoped BigOperators

namespace Cert.Lut

open Idealize.ShloMosaic Idealize.ShloMosaic.ValueIdx

/-- The image: 4 pictures, 3 channels, 1024 × 1024 pixels. -/
abbrev SX : Shape := ⟨4, ![4, 3, 1024, 1024]⟩
/-- The one-dimensional tables: one row of 64 knots per channel. -/
abbrev SL1 : Shape := ⟨2, ![3, 64]⟩
/-- The three-dimensional table: 17 knots per colour axis, 3 output channels. -/
abbrev SL3 : Shape := ⟨4, ![17, 17, 17, 3]⟩

/-- The float words of 63 and 16 (the numbers of intervals of the two tables). -/
abbrev s63 : BitVec 32 := 0x427C0000#32
abbrev s16 : BitVec 32 := 0x41800000#32

/-- The position of `v` along a table with `s` intervals. -/
def pos (s : BitVec 32) (v : EReal) : EReal := v * Ideal.ofBits .f32 s

/-- The lower knot of `v`: the integer part of its position, clamped to [0, hi], as a 32-bit integer. -/
def knot (s hi : BitVec 32) (v : EReal) : BitVec 32 :=
  IntOp.minsi hi (IntOp.maxsi 0#32 (Ideal.fptosi 32 (Ideal.liftRound Int.floor (pos s v))))

/-- The offset of `v`'s position above its lower knot. -/
def frac (s hi : BitVec 32) (v : EReal) : EReal := pos s v - (((knot s hi v).toInt : ℝ) : EReal)

/-- The clamp to [0, 1]. -/
def clamp01 (v : EReal) : EReal :=
  min (Ideal.ofBits .f32 0x3F800000#32) (max (Ideal.ofBits .f32 0x00000000#32) v)

/-- The hat weight of knot `k` for a value with lower knot `i` and offset `f`: 1 − f at i, f at i + 1,
    zero at every other knot. -/
def hat (i : BitVec 32) (f : EReal) (k : ℕ) : EReal :=
  Scalar.select (IntOp.cmpi .eq (BitVec.ofNat 32 k) i) (Ideal.ofBits .f32 0x3F800000#32 - f)
    (Scalar.select (IntOp.cmpi .eq (BitVec.ofNat 32 k) (IntOp.addi i 1#32)) f (Ideal.ofBits .f32 0x00000000#32))

/-! ## The one-dimensional stage -/

/-- By weights: the hat-weighted sum over all 64 knots of channel `c`'s row, clamped. -/
def yK (x : SX.Idx → EReal) (l1 : SL1.Idx → EReal) (b : Fin 4) (c : Fin 3) (h w : Fin 1024) : EReal :=
  clamp01 (∑ k : Fin 64, hat (knot s63 62#32 (x (ix4 b c h w))) (frac s63 62#32 (x (ix4 b c h w))) k.val * l1 (ix2 c k))

/-- Channel `c`'s row at the knot a 32-bit integer names (reduced mod 64: a lower knot and its successor are below 64). -/
def row1 (l1 : SL1.Idx → EReal) (c : Fin 3) (i : BitVec 32) : EReal :=
  l1 (ix2 c ⟨i.toNat % 64, Nat.mod_lt _ (by decide)⟩)

/-- By lookups: t[i] + f · (t[i+1] − t[i]), clamped. -/
def yR (x : SX.Idx → EReal) (l1 : SL1.Idx → EReal) (b : Fin 4) (c : Fin 3) (h w : Fin 1024) : EReal :=
  clamp01 (row1 l1 c (knot s63 62#32 (x (ix4 b c h w)))
    + frac s63 62#32 (x (ix4 b c h w))
      * (row1 l1 c (IntOp.addi (knot s63 62#32 (x (ix4 b c h w))) 1#32) - row1 l1 c (knot s63 62#32 (x (ix4 b c h w)))))

/-! ## The three-dimensional stage, over the three clamped channel values r, g, u of a pixel -/

/-- By weights: over the green knots, over the red knots, over the blue knots. -/
def triK (l3 : SL3.Idx → EReal) (c : Fin 3) (r g u : EReal) : EReal :=
  ∑ j : Fin 17, hat (knot s16 15#32 g) (frac s16 15#32 g) j.val *
    ∑ a : Fin 17, hat (knot s16 15#32 r) (frac s16 15#32 r) a.val *
      ∑ q : Fin 17, l3 (ix4 a j q c) * hat (knot s16 15#32 u) (frac s16 15#32 u) q.val

/-- The table at the knots three 32-bit integers name (each reduced mod 17). -/
def cell (l3 : SL3.Idx → EReal) (c : Fin 3) (i j k : BitVec 32) : EReal :=
  l3 (ix4 ⟨i.toNat % 17, Nat.mod_lt _ (by decide)⟩ ⟨j.toNat % 17, Nat.mod_lt _ (by decide)⟩
    ⟨k.toNat % 17, Nat.mod_lt _ (by decide)⟩ c)

/-- By lookups: the eight corners of the cell, each weighted by its three one-dimensional weights, summed in the
    order 000, 100, 010, 001, 110, 101, 011, 111 (red, green, blue offsets). -/
def triR (l3 : SL3.Idx → EReal) (c : Fin 3) (r g u : EReal) : EReal :=
  let ir := knot s16 15#32 r; let ig := knot s16 15#32 g; let ib := knot s16 15#32 u
  let fr := frac s16 15#32 r; let fg := frac s16 15#32 g; let fb := frac s16 15#32 u
  let one : EReal := Ideal.ofBits .f32 0x3F800000#32
  let ir1 := IntOp.addi ir 1#32; let ig1 := IntOp.addi ig 1#32; let ib1 := IntOp.addi ib 1#32
  cell l3 c ir ig ib * (one - fr) * (one - fg) * (one - fb)
  + cell l3 c ir1 ig ib * fr * (one - fg) * (one - fb)
  + cell l3 c ir ig1 ib * (one - fr) * fg * (one - fb)
  + cell l3 c ir ig ib1 * (one - fr) * (one - fg) * fb
  + cell l3 c ir1 ig1 ib * fr * fg * (one - fb)
  + cell l3 c ir1 ig ib1 * fr * (one - fg) * fb
  + cell l3 c ir ig1 ib1 * (one - fr) * fg * fb
  + cell l3 c ir1 ig1 ib1 * fr * fg * fb

/-! ## The whole transform -/

/-- The kernel's spelling. -/
def Gk (x : SX.Idx → EReal) (l1 : SL1.Idx → EReal) (l3 : SL3.Idx → EReal) : SX.Idx → EReal := fun i =>
  triK l3 (i 1) (yK x l1 (i 0) 0 (i 2) (i 3)) (yK x l1 (i 0) 1 (i 2) (i 3)) (yK x l1 (i 0) 2 (i 2) (i 3))

/-- The reference's spelling. -/
def Gr (x : SX.Idx → EReal) (l1 : SL1.Idx → EReal) (l3 : SL3.Idx → EReal) : SX.Idx → EReal := fun i =>
  triR l3 (i 1) (yR x l1 (i 0) 0 (i 2) (i 3)) (yR x l1 (i 0) 1 (i 2) (i 3)) (yR x l1 (i 0) 2 (i 2) (i 3))

/-! ## The lower knot is between 0 and its bound -/

/-- Clamping below by 0 and above by a non-negative `hi`, as signed 32-bit integers, lands in [0, hi]. -/
theorem clamp_toInt (hi z : BitVec 32) (hhi : 0 ≤ hi.toInt) :
    0 ≤ (IntOp.minsi hi (IntOp.maxsi 0#32 z)).toInt ∧ (IntOp.minsi hi (IntOp.maxsi 0#32 z)).toInt ≤ hi.toInt := by
  unfold IntOp.minsi IntOp.maxsi
  simp only [BitVec.slt, decide_eq_true_eq]
  have h0 : (0#32 : BitVec 32).toInt = 0 := by decide
  split_ifs <;> constructor <;> omega

theorem knot_toInt (s hi : BitVec 32) (hhi : 0 ≤ hi.toInt) (v : EReal) :
    0 ≤ (knot s hi v).toInt ∧ (knot s hi v).toInt ≤ hi.toInt := clamp_toInt hi _ hhi

end Cert.Lut

end
-- ==== Proof.KerLayout.lean ====
/-
  Layout operations of the kernel body read at an index: a leading unit axis spread over several copies, a column
  spread over a plane, channel slices, pixels flattened and unflattened, the [289, P] product viewed [17, 17, P], the
  sums over a leading axis, and three planes stacked.
-/
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.Lut.Layout

open Idealize.ShloMosaic Idealize.ShloMosaic.ValueIdx

variable {α : Type}

/-- A [1, 32, 1024] plane spread over N leading copies reads the plane. -/
theorem bcast_1hw {N : ℕ} (x : (⟨3, ![1, 32, 1024]⟩ : Shape).Idx → α)
    (h : (⟨3, ![1, 32, 1024]⟩ : Shape).Broadcasts ⟨3, ![N, 32, 1024]⟩) (k : Fin N) (i : Fin 32) (j : Fin 1024) :
    broadcastTo ⟨3, ![N, 32, 1024]⟩ x h (ix3 k i j) = x (ix3 (0 : Fin 1) i j) := by
  refine broadcastTo_apply x h (ix3 k i j) (ix3 (0 : Fin 1) i j) fun ax => ?_
  match ax with
  | ⟨0, _⟩ => rfl
  | ⟨1, _⟩ => rfl
  | ⟨2, _⟩ => rfl

/-- An [N, 1, 1] column spread over a 32 × 1024 plane reads the column. -/
theorem bcast_k11 {N : ℕ} (x : (⟨3, ![N, 1, 1]⟩ : Shape).Idx → α)
    (h : (⟨3, ![N, 1, 1]⟩ : Shape).Broadcasts ⟨3, ![N, 32, 1024]⟩) (k : Fin N) (i : Fin 32) (j : Fin 1024) :
    broadcastTo ⟨3, ![N, 32, 1024]⟩ x h (ix3 k i j) = x (ix3 k (0 : Fin 1) (0 : Fin 1)) := by
  refine broadcastTo_apply x h (ix3 k i j) (ix3 k (0 : Fin 1) (0 : Fin 1)) fun ax => ?_
  match ax with
  | ⟨0, _⟩ =>
    show k.val = if N = 1 then 0 else k.val
    split
    · have := k.isLt; omega
    · rfl
  | ⟨1, _⟩ => rfl
  | ⟨2, _⟩ => rfl

/-- A vector viewed as an [N, 1, 1] column. -/
theorem cast_n_n11 {N : ℕ} (x : (⟨1, ![N]⟩ : Shape).Idx → α) (h : (⟨1, ![N]⟩ : Shape).ShapeCasts ⟨3, ![N, 1, 1]⟩)
    (k : Fin N) (u v : Fin 1) : shapeCast ⟨3, ![N, 1, 1]⟩ x h (ix3 k u v) = x (ix1 k) :=
  shapeCast_apply x h _ _ (by
    have hu : u.val = 0 := by omega
    have hv : v.val = 0 := by omega
    rw [Shape.rowMajor_val_three, Shape.rowMajor_val_one]
    show k.val = (k.val * 1 + u.val) * 1 + v.val
    rw [hu, hv]; omega)

/-- Channel c of a [C, 32, 1024] block as a [1, 32, 1024] plane. -/
theorem slice_chan {C : ℕ} (c : Fin C) (x : (⟨3, ![C, 32, 1024]⟩ : Shape).Idx → α)
    (h : (⟨3, ![C, 32, 1024]⟩ : Shape).Slices ![c.val, 0, 0] ⟨3, ![1, 32, 1024]⟩) (u : Fin 1) (i : Fin 32) (j : Fin 1024) :
    extractStridedSlice ⟨3, ![1, 32, 1024]⟩ ![c.val, 0, 0] x h (ix3 u i j) = x (ix3 c i j) :=
  extractStridedSlice_apply _ x h _ _ fun a => by
    match a with
    | ⟨0, _⟩ =>
      show c.val = c.val + u.val
      have : u.val = 0 := by omega
      omega
    | ⟨1, _⟩ => exact (Nat.zero_add _).symm
    | ⟨2, _⟩ => exact (Nat.zero_add _).symm

/-- An [N, 32, 1024] array with its pixels flattened: pixel (i, j) is position i · 1024 + j. -/
theorem cast_flat {N : ℕ} (x : (⟨3, ![N, 32, 1024]⟩ : Shape).Idx → α)
    (h : (⟨3, ![N, 32, 1024]⟩ : Shape).ShapeCasts ⟨2, ![N, 32768]⟩) (k : Fin N) (i : Fin 32) (j : Fin 1024) (p : Fin 32768)
    (hp : p.val = i.val * 1024 + j.val) : shapeCast ⟨2, ![N, 32768]⟩ x h (ix2 k p) = x (ix3 k i j) :=
  shapeCast_apply x h _ _ (by
    rw [Shape.rowMajor_val_three, Shape.rowMajor_val_two]
    show (k.val * 32 + i.val) * 1024 + j.val = k.val * 32768 + p.val
    rw [hp]; ring)

/-- The flattened pixels viewed 32 × 1024 again. -/
theorem cast_unflat (x : (⟨1, ![32768]⟩ : Shape).Idx → α) (h : (⟨1, ![32768]⟩ : Shape).ShapeCasts ⟨2, ![32, 1024]⟩)
    (i : Fin 32) (j : Fin 1024) (p : Fin 32768) (hp : p.val = i.val * 1024 + j.val) :
    shapeCast ⟨2, ![32, 1024]⟩ x h (ix2 i j) = x (ix1 p) :=
  shapeCast_apply x h _ _ (by
    rw [Shape.rowMajor_val_two, Shape.rowMajor_val_one]
    show p.val = i.val * 1024 + j.val
    exact hp)

/-- A [289, P] array viewed [17, 17, P]: row a · 17 + g is cell (a, g). -/
theorem cast_289 {P : ℕ} (x : (⟨2, ![289, P]⟩ : Shape).Idx → α) (h : (⟨2, ![289, P]⟩ : Shape).ShapeCasts ⟨3, ![17, 17, P]⟩)
    (a g : Fin 17) (p : Fin P) (r : Fin 289) (hr : r.val = a.val * 17 + g.val) :
    shapeCast ⟨3, ![17, 17, P]⟩ x h (ix3 a g p) = x (ix2 r p) :=
  shapeCast_apply x h _ _ (by
    rw [Shape.rowMajor_val_three, Shape.rowMajor_val_two]
    show r.val * P + p.val = (a.val * 17 + g.val) * P + p.val
    rw [hr])

/-- An [A, P] array with a unit middle axis added. -/
theorem cast_a1p {A P : ℕ} (x : (⟨2, ![A, P]⟩ : Shape).Idx → α) (h : (⟨2, ![A, P]⟩ : Shape).ShapeCasts ⟨3, ![A, 1, P]⟩)
    (a : Fin A) (u : Fin 1) (p : Fin P) : shapeCast ⟨3, ![A, 1, P]⟩ x h (ix3 a u p) = x (ix2 a p) :=
  shapeCast_apply x h _ _ (by
    have hu : u.val = 0 := by omega
    rw [Shape.rowMajor_val_three, Shape.rowMajor_val_two]
    show a.val * P + p.val = (a.val * 1 + u.val) * P + p.val
    rw [hu]; ring)

/-- A [17, 1, 32768] array spread over 17 middle copies. -/
theorem bcast_a1p (x : (⟨3, ![17, 1, 32768]⟩ : Shape).Idx → α)
    (h : (⟨3, ![17, 1, 32768]⟩ : Shape).Broadcasts ⟨3, ![17, 17, 32768]⟩) (a g : Fin 17) (p : Fin 32768) :
    broadcastTo ⟨3, ![17, 17, 32768]⟩ x h (ix3 a g p) = x (ix3 a (0 : Fin 1) p) := by
  refine broadcastTo_apply x h (ix3 a g p) (ix3 a (0 : Fin 1) p) fun ax => ?_
  match ax with
  | ⟨0, _⟩ => rfl
  | ⟨1, _⟩ => rfl
  | ⟨2, _⟩ => rfl

/-- The index over (i, j) with k put on a dropped leading axis. -/
theorem lift3 {N H W : ℕ} (h : (⟨3, ![N, H, W]⟩ : Shape).Reduces [0] ⟨2, ![H, W]⟩) (i : Fin H) (j : Fin W) (k : Fin N) :
    h.lift (ix2 i j) k = ix3 k i j := by
  funext c
  refine Fin.ext ?_
  show Shape.Reduces.liftVal h (ix2 i j) k.val c = (ix3 k i j c).val
  unfold Shape.Reduces.liftVal
  match c with
  | ⟨0, _⟩ => simp
  | ⟨1, _⟩ => simp
  | ⟨2, _⟩ => simp

/-- The index over p with k put on a dropped leading axis. -/
theorem lift2 {N P : ℕ} (h : (⟨2, ![N, P]⟩ : Shape).Reduces [0] ⟨1, ![P]⟩) (p : Fin P) (k : Fin N) :
    h.lift (ix1 p) k = ix2 k p := by
  funext c
  refine Fin.ext ?_
  show Shape.Reduces.liftVal h (ix1 p) k.val c = (ix2 k p c).val
  unfold Shape.Reduces.liftVal
  match c with
  | ⟨0, _⟩ => simp
  | ⟨1, _⟩ => simp

/-- A float sum over the leading axis of an [N, H, W] array, from the zero word, is the sum over that axis. -/
theorem sum_lead3 {N H W : ℕ} (src : FVec Ideal ⟨3, ![N, H, W]⟩ .f32) (h : (⟨3, ![N, H, W]⟩ : Shape).Reduces [0] ⟨2, ![H, W]⟩)
    (hφ : FKind.Formats .f32) (hacc : (0x00000000#32 : BitVec 32) = FKind.add.neutral .f32 hφ) (i : Fin H) (j : Fin W) :
    multiReduction .add [0] ⟨2, ![H, W]⟩ src 0x00000000#32 h hφ hacc (ix2 i j) = ∑ k : Fin N, src (ix3 k i j) :=
  (Ideal.multiReduction_add_single src 0x00000000#32 h hφ hacc (ix2 i j)).trans
    (Finset.sum_congr rfl fun k _ => congrArg src (lift3 h i j k))

/-- A float sum over the leading axis of an [N, P] array, from the zero word. -/
theorem sum_lead2 {N P : ℕ} (src : FVec Ideal ⟨2, ![N, P]⟩ .f32) (h : (⟨2, ![N, P]⟩ : Shape).Reduces [0] ⟨1, ![P]⟩)
    (hφ : FKind.Formats .f32) (hacc : (0x00000000#32 : BitVec 32) = FKind.add.neutral .f32 hφ) (p : Fin P) :
    multiReduction .add [0] ⟨1, ![P]⟩ src 0x00000000#32 h hφ hacc (ix1 p) = ∑ k : Fin N, src (ix2 k p) :=
  (Ideal.multiReduction_add_single src 0x00000000#32 h hφ hacc (ix1 p)).trans
    (Finset.sum_congr rfl fun k _ => congrArg src (lift2 h p k))

end Cert.Lut.Layout

end
-- ==== Proof.LibRowDot.lean ====
/-
  A plain two-dimensional product read one entry at a time, at the exact (extended-real) values.

  For the dimension numbers of an M×K by K×N product (contract the left operand's axis 1 with the right
  operand's axis 0, no batch axis) the contraction's index set is one axis of extent K, so the entry (p, q) of the
  product is the sum over k < K of  l(p, k) · r(k, q):  row p of the left operand times the matrix r, at
  column q.  Stated once for every M, K, N, for the vector unit's matrix product into a zero accumulator and for
  the host's dot_general; both are that same sum, so a product computed block of rows by block of rows and a
  product computed whole agree entry by entry.
-/
import Idealize.ShloMosaic.Lib.ValueIdx
import Idealize.ShloMosaic.PureOps.Ideal.Laws

noncomputable section

open scoped BigOperators

namespace Cert.RowDot

open Idealize.ShloMosaic Idealize.ShloMosaic.ValueIdx

/-- Entry q of (row · W) for a K×N matrix W:  the sum over k of row(k) · W(k, q). -/
def rowDot {K N : Nat} (row : Fin K → EReal) (W : (⟨2, ![K, N]⟩ : Shape).Idx → EReal) (q : Fin N) : EReal :=
  ∑ k : Fin K, row k * W (ix2 k q)

/-- Row p of an M×K array, as a function of the column. -/
def rowOf {M K : Nat} (x : (⟨2, ![M, K]⟩ : Shape).Idx → EReal) (p : Fin M) : Fin K → EReal := fun k => x (ix2 p k)

/-- The contraction shape of a plain product is one axis. -/
theorem plain_rank (M K N : Nat) : (DotDims.plain M K N).contr.rank = 1 := rfl

/-- The left operand's index at output index j and contraction position u keeps j's row. -/
theorem plain_lhs0 {M K N : Nat} (j : (⟨2, ![M, N]⟩ : Shape).Idx) (u : (DotDims.plain M K N).contr.Idx) :
    ((DotDims.plain M K N).lhsIdx j u 0).val = (j 0).val := by
  unfold DotDims.lhsIdx
  rw [dif_neg (show ¬((0 : Fin (⟨2, ![M, K]⟩ : Shape).rank) ∈ (DotDims.plain M K N).lhsBatch) from List.not_mem_nil),
    dif_pos (show (0 : Fin (⟨2, ![M, K]⟩ : Shape).rank) ∈ (DotDims.plain M K N).lhsNonContracting from List.mem_singleton.mpr rfl)]
  rfl

/-- The left operand's column is the contraction position. -/
theorem plain_lhs1 {M K N : Nat} (j : (⟨2, ![M, N]⟩ : Shape).Idx) (u : (DotDims.plain M K N).contr.Idx) :
    ((DotDims.plain M K N).lhsIdx j u 1).val = (u ⟨0, by rw [plain_rank]; exact Nat.one_pos⟩).val :=
  (DotDims.plain M K N).lhsIdx_val_of_single rfl j u

/-- The right operand's row is the contraction position. -/
theorem plain_rhs0 {M K N : Nat} (j : (⟨2, ![M, N]⟩ : Shape).Idx) (u : (DotDims.plain M K N).contr.Idx) :
    ((DotDims.plain M K N).rhsIdx j u 0).val = (u ⟨0, by rw [plain_rank]; exact Nat.one_pos⟩).val :=
  (DotDims.plain M K N).rhsIdx_val_of_single rfl j u

/-- The right operand's index keeps j's column. -/
theorem plain_rhs1 {M K N : Nat} (j : (⟨2, ![M, N]⟩ : Shape).Idx) (u : (DotDims.plain M K N).contr.Idx) :
    ((DotDims.plain M K N).rhsIdx j u 1).val = (j 1).val := by
  unfold DotDims.rhsIdx
  rw [dif_neg (show ¬((1 : Fin (⟨2, ![K, N]⟩ : Shape).rank) ∈ (DotDims.plain M K N).rhsBatch) from List.not_mem_nil),
    dif_pos (show (1 : Fin (⟨2, ![K, N]⟩ : Shape).rank) ∈ (DotDims.plain M K N).rhsNonContracting from List.mem_singleton.mpr rfl)]
  rfl

/-- The contraction's sum of a plain product, re-indexed by k < K: row (j 0) of l times r, at column (j 1). -/
theorem plain_contr_sum {M K N : Nat} (l : (⟨2, ![M, K]⟩ : Shape).Idx → EReal) (r : (⟨2, ![K, N]⟩ : Shape).Idx → EReal)
    (j : (⟨2, ![M, N]⟩ : Shape).Idx) :
    ∑ u : (DotDims.plain M K N).contr.Idx, l ((DotDims.plain M K N).lhsIdx j u) * r ((DotDims.plain M K N).rhsIdx j u)
      = rowDot (rowOf l (j 0)) r (j 1) := by
  unfold rowDot rowOf
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact plain_lhs0 j _
      | ⟨1, _⟩ => exact (plain_lhs1 j _).trans hk)
  have er : (DotDims.plain M K N).rhsIdx j ((contrEquiv1 (DotDims.plain M K N) K rfl rfl).symm k) = ix2 k (j 1) :=
    funext fun a => Fin.ext (by
      match a with
      | ⟨0, _⟩ => exact (plain_rhs0 j _).trans hk
      | ⟨1, _⟩ => exact plain_rhs1 j _)
  exact congrArg₂ (fun a b : EReal => a * b) (congrArg l el) (congrArg r er)

/-- The vector unit's matrix product into the zero accumulator, at an entry. -/
theorem matmul_plain_zero_apply {M K N : Nat} {φ₁ φ₂ : FTy} (prec : Option ContractPrecision)
    (lhs : FVec Ideal (⟨2, ![M, K]⟩ : Shape) φ₁) (rhs : FVec Ideal (⟨2, ![K, N]⟩ : Shape) φ₂) (j : (⟨2, ![M, N]⟩ : Shape).Idx) :
    FloatOps.matmul (DotDims.plain M K N) prec lhs rhs (constant (F := Ideal) (⟨2, ![M, N]⟩ : Shape) .f32 0x00000000#32) j
      = rowDot (rowOf lhs (j 0)) rhs (j 1) := by
  rw [Ideal.matmul_constant_zero_apply]
  exact plain_contr_sum lhs rhs j

/-- The host's dot_general, at an entry. -/
theorem dotGeneral_plain_apply {M K N : Nat} {φ₁ φ₂ : FTy} (prec : Option ContractPrecision) (sched : HostSchedule)
    (lhs : FVec Ideal (⟨2, ![M, K]⟩ : Shape) φ₁) (rhs : FVec Ideal (⟨2, ![K, N]⟩ : Shape) φ₂) (j : (⟨2, ![M, N]⟩ : Shape).Idx) :
    FloatOps.dotGeneral (DotDims.plain M K N) prec sched lhs rhs j = rowDot (rowOf lhs (j 0)) rhs (j 1) := by
  rw [Ideal.dotGeneral_apply]
  exact plain_contr_sum lhs rhs j

end Cert.RowDot

end
-- ==== Proof.KerStage.lean ====
/-
  The kernel body's repeated computations, each as one function of whole blocks; the body's payloads as compositions
  of them; and each of them read at an index.

  `stage1V xc row`: one channel of the block against its 64-knot row — position, lower knot, offset, the hat weights
  over all 64 knots, the weighted sum of the row, the clamp to [0, 1]. At pixel (i, j) it is Spec's one-dimensional
  stage by weights.
  `hat17V y`: the hat weights of a clamped channel over the 17 knots of one colour axis, pixels flattened.
  `triV wr wg wb slab`: one output channel — the table slab [289, 17] contracted with the blue weights (a plain
  matrix product), the result viewed [17, 17, pixels], weighted by red and summed over red, weighted by green and
  summed over green. At pixel (i, j) these are the three nested sums of Spec's three-dimensional stage by weights.
-/
import proofs.«151699_j29575144800973_2_alg».proof.Proof.Gen.KernelIdeal.Skeleton
import proofs.«151699_j29575144800973_2_alg».proof.Proof.Spec
import proofs.«151699_j29575144800973_2_alg».proof.Proof.KerLayout
import proofs.«151699_j29575144800973_2_alg».proof.Proof.LibRowDot
import Idealize.ShloMosaic.PureOps.Ideal

noncomputable section

open scoped BigOperators

namespace Cert.KernelIdeal.KerStage

open Cert.KernelIdeal Cert.KernelIdeal.Gen Idealize.ShloMosaic Idealize.ShloMosaic.ValueIdx Cert.Lut Cert.Lut.Layout

/-! ## The pieces -/

/-- Positions along a table with `s` intervals. -/
def posV (s : BitVec 32) (xc : FVec Ideal S32x1024 .f32) : FVec Ideal S32x1024 .f32 :=
  mulf xc (broadcast S32x1024 (Scalar.ofBits .f32 s))

/-- Lower knots: integer parts of the positions, clamped to [0, hi]. -/
def knotV (hi : BitVec 32) (p : FVec Ideal S32x1024 .f32) : IVec S32x1024 32 :=
  minsi (broadcast S32x1024 hi) (maxsi (broadcast S32x1024 0#32) (fptosi 32 (floor p)))

/-- Offsets above the lower knots. -/
def fracV (p : FVec Ideal S32x1024 .f32) (kn : IVec S32x1024 32) : FVec Ideal S32x1024 .f32 := subf p (sitofp .f32 kn)

/-- The hat weights over 64 knots, one plane per knot. -/
def hat64V (kn : IVec S32x1024 32) (f : FVec Ideal S32x1024 .f32) : FVec Ideal S64x32x1024 .f32 :=
  have v54 : IVec S64x32x1024 32 := iota .tc S64x32x1024 32 [0] iota_S64x32x1024_d0_w32
  have v55 : IVec S1x32x1024 32 := shapeCast S1x32x1024 kn shapeCasts_S32x1024_S1x32x1024
  have v56 : FVec Ideal S1x32x1024 .f32 := shapeCast S1x32x1024 f shapeCasts_S32x1024_S1x32x1024
  have v60 : FVec Ideal S1x32x1024 .f32 := subf (broadcast S1x32x1024 (Scalar.ofBits .f32 0x3F800000#32)) v56
  select (cmpi .eq v54 (broadcastTo S64x32x1024 v55 broadcasts_S1x32x1024_S64x32x1024))
    (broadcastTo S64x32x1024 (shapeCast S1x32x1024 v60 shapeCasts_S1x32x1024_S1x32x1024) broadcasts_S1x32x1024_S64x32x1024)
    (select (cmpi .eq v54 (broadcastTo S64x32x1024 (addi v55 (broadcast S1x32x1024 1#32)) broadcasts_S1x32x1024_S64x32x1024))
      (broadcastTo S64x32x1024 (shapeCast S1x32x1024 v56 shapeCasts_S1x32x1024_S1x32x1024) broadcasts_S1x32x1024_S64x32x1024)
      (broadcast S64x32x1024 (Scalar.ofBits .f32 0x00000000#32)))

/-- The hat weights over 17 knots, one plane per knot. -/
def hat17W (kn : IVec S32x1024 32) (f : FVec Ideal S32x1024 .f32) : FVec Ideal S17x32x1024 .f32 :=
  have v161 : IVec S17x32x1024 32 := iota .tc S17x32x1024 32 [0] iota_S17x32x1024_d0_w32
  have v162 : IVec S1x32x1024 32 := shapeCast S1x32x1024 kn shapeCasts_S32x1024_S1x32x1024
  have v163 : FVec Ideal S1x32x1024 .f32 := shapeCast S1x32x1024 f shapeCasts_S32x1024_S1x32x1024
  have v167 : FVec Ideal S1x32x1024 .f32 := subf (broadcast S1x32x1024 (Scalar.ofBits .f32 0x3F800000#32)) v163
  select (cmpi .eq v161 (broadcastTo S17x32x1024 v162 broadcasts_S1x32x1024_S17x32x1024))
    (broadcastTo S17x32x1024 (shapeCast S1x32x1024 v167 shapeCasts_S1x32x1024_S1x32x1024) broadcasts_S1x32x1024_S17x32x1024)
    (select (cmpi .eq v161 (broadcastTo S17x32x1024 (addi v162 (broadcast S1x32x1024 1#32)) broadcasts_S1x32x1024_S17x32x1024))
      (broadcastTo S17x32x1024 (shapeCast S1x32x1024 v163 shapeCasts_S1x32x1024_S1x32x1024) broadcasts_S1x32x1024_S17x32x1024)
      (broadcast S17x32x1024 (Scalar.ofBits .f32 0x00000000#32)))

/-- A 64-knot row spread over the pixels, one plane per knot. -/
def row64V (row : Vec Ideal S1x64 .f32) : FVec Ideal S64x32x1024 .f32 :=
  broadcastTo S64x32x1024 (shapeCast S64x1x1 (shapeCast S64 row shapeCasts_S1x64_S64) shapeCasts_S64_S64x1x1) broadcasts_S64x1x1_S64x32x1024

/-- The sum over the 64 planes. -/
def sum64V (w : FVec Ideal S64x32x1024 .f32) : FVec Ideal S32x1024 .f32 :=
  multiReduction .add [0] S32x1024 w 0x00000000#32 reduces_S64x32x1024_S32x1024 (.inl rfl) rfl

/-- The clamp to [0, 1]. -/
def clampV (v : FVec Ideal S32x1024 .f32) : FVec Ideal S32x1024 .f32 :=
  minimumf (broadcast S32x1024 (Scalar.ofBits .f32 0x3F800000#32)) (maximumf (broadcast S32x1024 (Scalar.ofBits .f32 0x00000000#32)) v)

/-- One channel `xc` of the block read along its row of 64 knots, clamped. -/
def stage1V (xc : FVec Ideal S32x1024 .f32) (row : Vec Ideal S1x64 .f32) : FVec Ideal S32x1024 .f32 :=
  clampV (sum64V (mulf (hat64V (knotV 62#32 (posV 0x427C0000#32 xc)) (fracV (posV 0x427C0000#32 xc) (knotV 62#32 (posV 0x427C0000#32 xc))))
    (row64V row)))

/-- The hat weights of a clamped channel `y` over the 17 knots of one colour axis, pixels flattened. -/
def hat17V (y : FVec Ideal S32x1024 .f32) : FVec Ideal S17x32768 .f32 :=
  shapeCast S17x32768 (hat17W (knotV 15#32 (posV 0x41800000#32 y)) (fracV (posV 0x41800000#32 y) (knotV 15#32 (posV 0x41800000#32 y))))
    shapeCasts_S17x32x1024_S17x32768

/-- The slab contracted with the blue weights: a [289, pixels] array. -/
def dotV (wb : FVec Ideal S17x32768 .bf16) (slab : Vec Ideal S1x289x17 .bf16) : FVec Ideal S289x32768 .f32 :=
  matmul dot_S289x17_S17x32768_S289x32768_1_0_0_1_n_n none
    (shapeCast S289x17 slab shapeCasts_S1x289x17_S289x17 : FVec Ideal S289x17 .bf16) wb (constant S289x32768 .f32 0x00000000#32)

/-- Weighted by red and summed over red: a [17, pixels] array over the green knots. -/
def redV (wr : FVec Ideal S17x32768 .f32) (d : FVec Ideal S289x32768 .f32) : FVec Ideal S17x32768 .f32 :=
  multiReduction .add [0] S17x32768
    (mulf (broadcastTo S17x17x32768 (shapeCast S17x1x32768 wr shapeCasts_S17x32768_S17x1x32768) broadcasts_S17x1x32768_S17x17x32768)
      (extf .f32 (shapeCast S17x17x32768 (truncf .bf16 d bitsLt_bf16_f32) shapeCasts_S289x32768_S17x17x32768) bitsLt_bf16_f32))
    0x00000000#32 reduces_S17x17x32768_S17x32768 (.inl rfl) rfl

/-- Weighted by green and summed over green, viewed 32 × 1024. -/
def greenV (wg t : FVec Ideal S17x32768 .f32) : FVec Ideal S32x1024 .f32 :=
  shapeCast S32x1024 (multiReduction .add [0] S32768 (mulf wg t) 0x00000000#32 reduces_S17x32768_S32768 (.inl rfl) rfl)
    shapeCasts_S32768_S32x1024

/-- One output channel from the three weight arrays and the channel's table slab. -/
def triV (wr wg : FVec Ideal S17x32768 .f32) (wb : FVec Ideal S17x32768 .bf16) (slab : Vec Ideal S1x289x17 .bf16) : FVec Ideal S32x1024 .f32 :=
  greenV wg (redV wr (dotV wb slab))

/-- Channel 0, 1, 2 of the block as a plane. -/
def chan0 (v0 : Vec Ideal S1x3x32x1024 .f32) : FVec Ideal S32x1024 .f32 :=
  shapeCast S32x1024 (extractStridedSlice S1x32x1024 ![0, 0, 0] (shapeCast S3x32x1024 v0 shapeCasts_S1x3x32x1024_S3x32x1024) slices_S3x32x1024_o0_0_0_S1x32x1024) shapeCasts_S1x32x1024_S32x1024
def chan1 (v0 : Vec Ideal S1x3x32x1024 .f32) : FVec Ideal S32x1024 .f32 :=
  shapeCast S32x1024 (extractStridedSlice S1x32x1024 ![1, 0, 0] (shapeCast S3x32x1024 v0 shapeCasts_S1x3x32x1024_S3x32x1024) slices_S3x32x1024_o1_0_0_S1x32x1024) shapeCasts_S1x32x1024_S32x1024
def chan2 (v0 : Vec Ideal S1x3x32x1024 .f32) : FVec Ideal S32x1024 .f32 :=
  shapeCast S32x1024 (extractStridedSlice S1x32x1024 ![2, 0, 0] (shapeCast S3x32x1024 v0 shapeCasts_S1x3x32x1024_S3x32x1024) slices_S3x32x1024_o2_0_0_S1x32x1024) shapeCasts_S1x32x1024_S32x1024

/-- The three planes stacked into the output block. -/
def stackV (o0 o1 o2 : FVec Ideal S32x1024 .f32) : FVec Ideal S1x3x32x1024 .f32 :=
  shapeCast S1x3x32x1024 (concatenate S3x32x1024 0
      [⟨S1x32x1024, shapeCast S1x32x1024 o0 shapeCasts_S32x1024_S1x32x1024⟩,
       ⟨S1x32x1024, shapeCast S1x32x1024 o1 shapeCasts_S32x1024_S1x32x1024⟩,
       ⟨S1x32x1024, shapeCast S1x32x1024 o2 shapeCasts_S32x1024_S1x32x1024⟩]
      concatenates_S1x32x1024_S1x32x1024_S1x32x1024_S3x32x1024_d0) shapeCasts_S3x32x1024_S1x3x32x1024

/-! ## The body's payloads are these -/

theorem pay3_eq (v0 : Vec Ideal S1x3x32x1024 .f32) (v32 : Vec Ideal S1x64 .f32) : k0_pay3 v0 v32 = stage1V (chan0 v0) v32 := rfl
theorem pay5_eq (v0 : Vec Ideal S1x3x32x1024 .f32) (v72 : Vec Ideal S1x64 .f32) : k0_pay5 (k0_pay4 v0) v72 = stage1V (chan1 v0) v72 := rfl
theorem pay9_eq (v0 : Vec Ideal S1x3x32x1024 .f32) (v112 : Vec Ideal S1x64 .f32) :
    k0_pay9 (k0_pay6 (k0_pay2 v0)) (k0_pay7 (k0_pay2 v0)) 62#32 k0_pay8 v112 = stage1V (chan2 v0) v112 := rfl
theorem pay15_eq (y : FVec Ideal S32x1024 .f32) :
    k0_pay15 (iota .tc S17x32x1024 32 [0] iota_S17x32x1024_d0_w32) (k0_pay12 y) (k0_pay13 y) (k0_pay14 y) (Scalar.ofBits .f32 0x3F800000#32)
      = hat17V y := rfl
theorem pay16_eq (y : FVec Ideal S32x1024 .f32) : k0_pay16 y = hat17V y := rfl
theorem pay20_eq (wr wg : FVec Ideal S17x32768 .f32) (y : FVec Ideal S32x1024 .f32) (slab : Vec Ideal S1x289x17 .bf16) :
    k0_pay20 wr wg (k0_pay17 y) 15#32 (k0_pay18 y) slab = triV wr wg (truncf .bf16 (hat17V y) bitsLt_bf16_f32) slab := rfl
theorem pay1_eq (wr wg : FVec Ideal S17x32768 .f32) (y : FVec Ideal S32x1024 .f32)
    (o0 : FVec Ideal S32x1024 .f32) (slab1 slab2 : Vec Ideal S1x289x17 .bf16) :
    k0_pay1 wr wg (k0_pay19 (k0_pay17 y) 15#32 (k0_pay18 y)) o0 (k0_pay21 wr (k0_pay17 y) 15#32 (k0_pay18 y) slab1) slab2
      = stackV o0 (triV wr wg (truncf .bf16 (hat17V y) bitsLt_bf16_f32) slab1) (triV wr wg (truncf .bf16 (hat17V y) bitsLt_bf16_f32) slab2) := rfl

/-! ## Each piece read at an index -/

theorem knotV_apply (s hi : BitVec 32) (xc : FVec Ideal S32x1024 .f32) (i : S32x1024.Idx) :
    knotV hi (posV s xc) i = knot s hi (xc i) := rfl

theorem fracV_apply (s hi : BitVec 32) (xc : FVec Ideal S32x1024 .f32) (i : S32x1024.Idx) :
    fracV (posV s xc) (knotV hi (posV s xc)) i = frac s hi (xc i) := rfl

theorem clampV_apply (v : FVec Ideal S32x1024 .f32) (i : S32x1024.Idx) : clampV v i = clamp01 (v i) := rfl

theorem sum64V_apply (w : FVec Ideal S64x32x1024 .f32) (i : Fin 32) (j : Fin 1024) :
    sum64V w (ix2 i j) = ∑ k : Fin 64, w (ix3 k i j) :=
  sum_lead3 w _ _ _ i j

theorem row64V_apply (row : Vec Ideal S1x64 .f32) (k : Fin 64) (i : Fin 32) (j : Fin 1024) :
    row64V row (ix3 k i j) = row (ix2 (0 : Fin 1) k) :=
  (bcast_k11 _ _ k i j).trans ((cast_n_n11 _ _ k 0 0).trans (shapeCast_1a_a_apply row _ k))

/-- The two nested selects of the hat weights at an index where the knot counter reads `k`, the two knot arrays read
    the lower knot and its successor, and the two value arrays read 1 − f and f. -/
theorem hat_read {S : Shape} (io K K1 : IVec S 32) (A B : FVec Ideal S .f32) (idx : S.Idx) (k : ℕ) (kn : BitVec 32) (f : EReal)
    (h0 : io idx = BitVec.ofNat 32 k) (hK : K idx = kn) (hK1 : K1 idx = IntOp.addi kn 1#32)
    (hA : A idx = Ideal.ofBits .f32 0x3F800000#32 - f) (hB : B idx = f) :
    select (cmpi .eq io K) A (select (cmpi .eq io K1) B (broadcast S (Scalar.ofBits (F := Ideal) .f32 0x00000000#32))) idx = hat kn f k := by
  show Scalar.select (IntOp.cmpi .eq (io idx) (K idx)) (A idx)
    (Scalar.select (IntOp.cmpi .eq (io idx) (K1 idx)) (B idx) (Ideal.ofBits .f32 0x00000000#32)) = _
  rw [h0, hK, hK1, hA, hB]
  rfl

/-- A pixel plane cast to [1, 32, 1024] and spread over N copies reads the plane. -/
theorem spread_plane {β : Type} {N : ℕ} (x : S32x1024.Idx → β) (hc : S32x1024.ShapeCasts S1x32x1024)
    (hb : S1x32x1024.Broadcasts ⟨3, ![N, 32, 1024]⟩) (k : Fin N) (i : Fin 32) (j : Fin 1024) :
    broadcastTo ⟨3, ![N, 32, 1024]⟩ (shapeCast S1x32x1024 x hc) hb (ix3 k i j) = x (ix2 i j) :=
  (bcast_1hw _ hb k i j).trans (shapeCast_ab_1ab_apply x hc 0 i j)

theorem hat64V_apply (kn : IVec S32x1024 32) (f : FVec Ideal S32x1024 .f32) (k : Fin 64) (i : Fin 32) (j : Fin 1024) :
    hat64V kn f (ix3 k i j) = hat (kn (ix2 i j)) (f (ix2 i j)) k.val := by
  unfold hat64V
  refine hat_read _ _ _ _ _ (ix3 k i j) k.val (kn (ix2 i j)) (f (ix2 i j)) ?_ ?_ ?_ ?_ ?_
  · exact iota_single_apply .tc S64x32x1024 32 0 iota_S64x32x1024_d0_w32 (ix3 k i j)
  · exact spread_plane kn _ _ k i j
  · exact (bcast_1hw _ _ k i j).trans (congrArg (fun z => IntOp.addi z 1#32) (shapeCast_ab_1ab_apply kn _ 0 i j))
  · rw [shapeCast_self]
    exact (bcast_1hw _ _ k i j).trans (congrArg (fun z : EReal => Ideal.ofBits .f32 0x3F800000#32 - z) (shapeCast_ab_1ab_apply f _ 0 i j))
  · rw [shapeCast_self]
    exact spread_plane f _ _ k i j

theorem hat17W_apply (kn : IVec S32x1024 32) (f : FVec Ideal S32x1024 .f32) (k : Fin 17) (i : Fin 32) (j : Fin 1024) :
    hat17W kn f (ix3 k i j) = hat (kn (ix2 i j)) (f (ix2 i j)) k.val := by
  unfold hat17W
  refine hat_read _ _ _ _ _ (ix3 k i j) k.val (kn (ix2 i j)) (f (ix2 i j)) ?_ ?_ ?_ ?_ ?_
  · exact iota_single_apply .tc S17x32x1024 32 0 iota_S17x32x1024_d0_w32 (ix3 k i j)
  · exact spread_plane kn _ _ k i j
  · exact (bcast_1hw _ _ k i j).trans (congrArg (fun z => IntOp.addi z 1#32) (shapeCast_ab_1ab_apply kn _ 0 i j))
  · rw [shapeCast_self]
    exact (bcast_1hw _ _ k i j).trans (congrArg (fun z : EReal => Ideal.ofBits .f32 0x3F800000#32 - z) (shapeCast_ab_1ab_apply f _ 0 i j))
  · rw [shapeCast_self]
    exact spread_plane f _ _ k i j

/-- The one-dimensional stage at a pixel: Spec's hat-weighted sum over the 64 knots of the row, clamped. -/
theorem stage1V_apply (xc : FVec Ideal S32x1024 .f32) (row : Vec Ideal S1x64 .f32) (i : Fin 32) (j : Fin 1024) :
    stage1V xc row (ix2 i j)
      = clamp01 (∑ k : Fin 64, hat (knot s63 62#32 (xc (ix2 i j))) (frac s63 62#32 (xc (ix2 i j))) k.val * row (ix2 (0 : Fin 1) k)) := by
  unfold stage1V
  rw [clampV_apply, sum64V_apply]
  refine congrArg clamp01 (Finset.sum_congr rfl fun k _ => ?_)
  rw [mulf_apply, hat64V_apply, row64V_apply, knotV_apply, fracV_apply]

/-- The hat weights of a clamped channel at knot `k` and flattened pixel p = i · 1024 + j. -/
theorem hat17V_apply (y : FVec Ideal S32x1024 .f32) (k : Fin 17) (i : Fin 32) (j : Fin 1024) (p : Fin 32768)
    (hp : p.val = i.val * 1024 + j.val) :
    hat17V y (ix2 k p) = hat (knot s16 15#32 (y (ix2 i j))) (frac s16 15#32 (y (ix2 i j))) k.val := by
  unfold hat17V
  rw [cast_flat _ _ k i j p hp, hat17W_apply, knotV_apply, fracV_apply]

/-- The slab times the blue weights, at row r and pixel p: the sum over the 17 blue knots. -/
theorem dotV_apply (wb : FVec Ideal S17x32768 .bf16) (slab : Vec Ideal S1x289x17 .bf16) (r : Fin 289) (p : Fin 32768) :
    dotV wb slab (ix2 r p) = ∑ q : Fin 17, slab (ix3 (0 : Fin 1) r q) * wb (ix2 q p) := by
  unfold dotV
  refine (Cert.RowDot.matmul_plain_zero_apply (M := 289) (K := 17) (N := 32768) none
    (shapeCast S289x17 slab shapeCasts_S1x289x17_S289x17 : FVec Ideal S289x17 .bf16) wb (ix2 r p)).trans ?_
  unfold Cert.RowDot.rowDot Cert.RowDot.rowOf
  refine Finset.sum_congr rfl fun q _ => ?_
  exact congrArg (fun z : EReal => z * wb (ix2 q p)) (shapeCast_1ab_ab_apply slab _ r q)

/-- Weighted by red and summed over the 17 red knots, at green knot g and pixel p. -/
theorem redV_apply (wr : FVec Ideal S17x32768 .f32) (d : FVec Ideal S289x32768 .f32) (g : Fin 17) (p : Fin 32768) :
    redV wr d (ix2 g p) = ∑ a : Fin 17, wr (ix2 a p) * d (ix2 ⟨a.val * 17 + g.val, by omega⟩ p) := by
  unfold redV
  refine (sum_lead3 _ _ _ _ g p).trans (Finset.sum_congr rfl fun a _ => ?_)
  rw [mulf_apply, extf_apply, bcast_a1p, cast_a1p, cast_289 _ _ a g p ⟨a.val * 17 + g.val, by omega⟩ rfl, truncf_apply]

/-- Weighted by green and summed over the 17 green knots, at pixel (i, j) = flattened p. -/
theorem greenV_apply (wg t : FVec Ideal S17x32768 .f32) (i : Fin 32) (j : Fin 1024) (p : Fin 32768)
    (hp : p.val = i.val * 1024 + j.val) :
    greenV wg t (ix2 i j) = ∑ g : Fin 17, wg (ix2 g p) * t (ix2 g p) := by
  unfold greenV
  rw [cast_unflat _ _ i j p hp]
  exact sum_lead2 _ _ _ _ p

/-- One output channel at a pixel: the three nested sums. -/
theorem triV_apply (wr wg : FVec Ideal S17x32768 .f32) (wb : FVec Ideal S17x32768 .bf16) (slab : Vec Ideal S1x289x17 .bf16)
    (i : Fin 32) (j : Fin 1024) (p : Fin 32768) (hp : p.val = i.val * 1024 + j.val) :
    triV wr wg wb slab (ix2 i j)
      = ∑ g : Fin 17, wg (ix2 g p) * ∑ a : Fin 17, wr (ix2 a p) *
          ∑ q : Fin 17, slab (ix3 (0 : Fin 1) ⟨a.val * 17 + g.val, by omega⟩ q) * wb (ix2 q p) := by
  unfold triV
  rw [greenV_apply _ _ i j p hp]
  refine Finset.sum_congr rfl fun g _ => ?_
  rw [redV_apply]
  refine congrArg (fun z : EReal => wg (ix2 g p) * z) (Finset.sum_congr rfl fun a _ => ?_)
  rw [dotV_apply]

end Cert.KernelIdeal.KerStage

end
-- ==== Proof.KerBody.lean ====
/-
  The whole block the body stores, at an index.

  The stored value is three planes stacked: plane c is the three-dimensional stage of output channel c over the
  hat weights of the three clamped channels of the pixel, each clamped channel the one-dimensional stage of the
  block's channel against its row. Read at (channel, i, j) and with the block's entries named by the arrays they were
  fetched from, this is Spec's transform by weights at the pixel.
-/
import proofs.«151699_j29575144800973_2_alg».proof.Proof.Gen.KernelIdeal.Frame
import proofs.«151699_j29575144800973_2_alg».proof.Proof.KerStage

noncomputable section

open scoped BigOperators

namespace Cert.KernelIdeal.KerBody

open Cert.KernelIdeal Cert.KernelIdeal.Gen Idealize.ShloMosaic Idealize.ShloMosaic.ValueIdx Cert.Lut Cert.Lut.Layout
  Cert.KernelIdeal.KerStage

/-- The stored block from the loaded block `v0`, the three rows `w0 w1 w2` and the three table slabs `t0 t1 t2`. -/
def bodyV (v0 : Vec Ideal S1x3x32x1024 .f32) (w0 w1 w2 : Vec Ideal S1x64 .f32) (t0 t1 t2 : Vec Ideal S1x289x17 .bf16) :
    FVec Ideal S1x3x32x1024 .f32 :=
  stackV
    (triV (hat17V (stage1V (chan0 v0) w0)) (hat17V (stage1V (chan1 v0) w1)) (truncf .bf16 (hat17V (stage1V (chan2 v0) w2)) bitsLt_bf16_f32) t0)
    (triV (hat17V (stage1V (chan0 v0) w0)) (hat17V (stage1V (chan1 v0) w1)) (truncf .bf16 (hat17V (stage1V (chan2 v0) w2)) bitsLt_bf16_f32) t1)
    (triV (hat17V (stage1V (chan0 v0) w0)) (hat17V (stage1V (chan1 v0) w1)) (truncf .bf16 (hat17V (stage1V (chan2 v0) w2)) bitsLt_bf16_f32) t2)

/-- The body's one store's payload is that. -/
theorem payload_eq (v0 : Vec Ideal S1x3x32x1024 .f32) (w0 w1 w2 : Vec Ideal S1x64 .f32) (t0 t1 t2 : Vec Ideal S1x289x17 .bf16) :
    k0_pay1 (k0_pay15 (iota .tc S17x32x1024 32 [0] iota_S17x32x1024_d0_w32) (k0_pay12 (k0_pay3 v0 w0)) (k0_pay13 (k0_pay3 v0 w0)) (k0_pay14 (k0_pay3 v0 w0)) (Scalar.ofBits .f32 0x3F800000#32)) (k0_pay16 (k0_pay5 (k0_pay4 v0) w1)) (k0_pay19 (k0_pay17 (k0_pay9 (k0_pay6 (k0_pay2 v0)) (k0_pay7 (k0_pay2 v0)) 62#32 k0_pay8 w2)) 15#32 (k0_pay18 (k0_pay9 (k0_pay6 (k0_pay2 v0)) (k0_pay7 (k0_pay2 v0)) 62#32 k0_pay8 w2))) (k0_pay20 (k0_pay15 (iota .tc S17x32x1024 32 [0] iota_S17x32x1024_d0_w32) (k0_pay12 (k0_pay3 v0 w0)) (k0_pay13 (k0_pay3 v0 w0)) (k0_pay14 (k0_pay3 v0 w0)) (Scalar.ofBits .f32 0x3F800000#32)) (k0_pay16 (k0_pay5 (k0_pay4 v0) w1)) (k0_pay17 (k0_pay9 (k0_pay6 (k0_pay2 v0)) (k0_pay7 (k0_pay2 v0)) 62#32 k0_pay8 w2)) 15#32 (k0_pay18 (k0_pay9 (k0_pay6 (k0_pay2 v0)) (k0_pay7 (k0_pay2 v0)) 62#32 k0_pay8 w2)) t0) (k0_pay21 (k0_pay15 (iota .tc S17x32x1024 32 [0] iota_S17x32x1024_d0_w32) (k0_pay12 (k0_pay3 v0 w0)) (k0_pay13 (k0_pay3 v0 w0)) (k0_pay14 (k0_pay3 v0 w0)) (Scalar.ofBits .f32 0x3F800000#32)) (k0_pay17 (k0_pay9 (k0_pay6 (k0_pay2 v0)) (k0_pay7 (k0_pay2 v0)) 62#32 k0_pay8 w2)) 15#32 (k0_pay18 (k0_pay9 (k0_pay6 (k0_pay2 v0)) (k0_pay7 (k0_pay2 v0)) 62#32 k0_pay8 w2)) t1) t2
      = bodyV v0 w0 w1 w2 t0 t1 t2 := by
  rw [pay1_eq, pay20_eq, pay15_eq, pay16_eq, pay9_eq, pay5_eq, pay3_eq]
  rfl

/-! ## The three planes stacked, at an index -/

theorem stackV_apply0 (o0 o1 o2 : FVec Ideal S32x1024 .f32) (u : Fin 1) (i : Fin 32) (j : Fin 1024) :
    stackV o0 o1 o2 (ix4 u (0 : Fin 3) i j) = o0 (ix2 i j) := by
  unfold stackV
  rw [shapeCast_abc_1abc_apply]
  refine (concatenate_apply_piece (0 : Fin 3) _ _ (ix3 (0 : Fin 3) i j) 0 ?_ S1x32x1024 (shapeCast S1x32x1024 o0 shapeCasts_S32x1024_S1x32x1024) ?_ ?_ 0 ?_ (ix3 (0 : Fin 1) i j) ?_ ?_).trans ?_
  · show (0 : ℕ) < 3
    omega
  · rfl
  · rfl
  · rfl
  · intro b hb
    match b with
    | ⟨0, _⟩ => exact absurd rfl hb
    | ⟨1, _⟩ => rfl
    | ⟨2, _⟩ => rfl
  · rfl
  · exact shapeCast_ab_1ab_apply o0 _ 0 i j

theorem stackV_apply1 (o0 o1 o2 : FVec Ideal S32x1024 .f32) (u : Fin 1) (i : Fin 32) (j : Fin 1024) :
    stackV o0 o1 o2 (ix4 u (1 : Fin 3) i j) = o1 (ix2 i j) := by
  unfold stackV
  rw [shapeCast_abc_1abc_apply]
  refine (concatenate_apply_piece (0 : Fin 3) _ _ (ix3 (1 : Fin 3) i j) 1 ?_ S1x32x1024 (shapeCast S1x32x1024 o1 shapeCasts_S32x1024_S1x32x1024) ?_ ?_ 1 ?_ (ix3 (0 : Fin 1) i j) ?_ ?_).trans ?_
  · show (1 : ℕ) < 3
    omega
  · rfl
  · rfl
  · rfl
  · intro b hb
    match b with
    | ⟨0, _⟩ => exact absurd rfl hb
    | ⟨1, _⟩ => rfl
    | ⟨2, _⟩ => rfl
  · rfl
  · exact shapeCast_ab_1ab_apply o1 _ 0 i j

theorem stackV_apply2 (o0 o1 o2 : FVec Ideal S32x1024 .f32) (u : Fin 1) (i : Fin 32) (j : Fin 1024) :
    stackV o0 o1 o2 (ix4 u (2 : Fin 3) i j) = o2 (ix2 i j) := by
  unfold stackV
  rw [shapeCast_abc_1abc_apply]
  refine (concatenate_apply_piece (0 : Fin 3) _ _ (ix3 (2 : Fin 3) i j) 2 ?_ S1x32x1024 (shapeCast S1x32x1024 o2 shapeCasts_S32x1024_S1x32x1024) ?_ ?_ 2 ?_ (ix3 (0 : Fin 1) i j) ?_ ?_).trans ?_
  · show (2 : ℕ) < 3
    omega
  · rfl
  · rfl
  · rfl
  · intro b hb
    match b with
    | ⟨0, _⟩ => exact absurd rfl hb
    | ⟨1, _⟩ => rfl
    | ⟨2, _⟩ => rfl
  · rfl
  · exact shapeCast_ab_1ab_apply o2 _ 0 i j

/-! ## The block's channels as planes -/

theorem chan0_apply (v0 : Vec Ideal S1x3x32x1024 .f32) (i : Fin 32) (j : Fin 1024) :
    chan0 v0 (ix2 i j) = v0 (ix4 (0 : Fin 1) (0 : Fin 3) i j) := by
  unfold chan0
  rw [shapeCast_1ab_ab_apply]
  refine (slice_chan (0 : Fin 3) _ slices_S3x32x1024_o0_0_0_S1x32x1024 (0 : Fin 1) i j).trans ?_
  exact shapeCast_1abc_abc_apply v0 _ (0 : Fin 3) i j

theorem chan1_apply (v0 : Vec Ideal S1x3x32x1024 .f32) (i : Fin 32) (j : Fin 1024) :
    chan1 v0 (ix2 i j) = v0 (ix4 (0 : Fin 1) (1 : Fin 3) i j) := by
  unfold chan1
  rw [shapeCast_1ab_ab_apply]
  refine (slice_chan (1 : Fin 3) _ slices_S3x32x1024_o1_0_0_S1x32x1024 (0 : Fin 1) i j).trans ?_
  exact shapeCast_1abc_abc_apply v0 _ (1 : Fin 3) i j

theorem chan2_apply (v0 : Vec Ideal S1x3x32x1024 .f32) (i : Fin 32) (j : Fin 1024) :
    chan2 v0 (ix2 i j) = v0 (ix4 (0 : Fin 1) (2 : Fin 3) i j) := by
  unfold chan2
  rw [shapeCast_1ab_ab_apply]
  refine (slice_chan (2 : Fin 3) _ slices_S3x32x1024_o2_0_0_S1x32x1024 (0 : Fin 1) i j).trans ?_
  exact shapeCast_1abc_abc_apply v0 _ (2 : Fin 3) i j

/-! ## The stored block at an index is the transform by weights at the pixel -/

/-- With the loaded block's entries those of the image `X` at picture `b` and rows `I i`, the rows those of the
    one-dimensional tables `L1`, and the slabs' entries those of the three-dimensional table `L3` (row a · 17 + g, column
    q of slab c is cell (a, g, q) of channel c), the stored block at (channel, i, j) is `Gk` at the pixel. -/
theorem body_point (v0 : Vec Ideal S1x3x32x1024 .f32) (w0 w1 w2 : Vec Ideal S1x64 .f32) (t0 t1 t2 : Vec Ideal S1x289x17 .bf16)
    (X : SX.Idx → EReal) (L1 : SL1.Idx → EReal) (L3 : SL3.Idx → EReal) (b : Fin 4) (I : Fin 32 → Fin 1024)
    (hv : ∀ (ch : Fin 3) (i : Fin 32) (j : Fin 1024), v0 (ix4 (0 : Fin 1) ch i j) = X (ix4 b ch (I i) j))
    (hw0 : ∀ k : Fin 64, w0 (ix2 (0 : Fin 1) k) = L1 (ix2 (0 : Fin 3) k))
    (hw1 : ∀ k : Fin 64, w1 (ix2 (0 : Fin 1) k) = L1 (ix2 (1 : Fin 3) k))
    (hw2 : ∀ k : Fin 64, w2 (ix2 (0 : Fin 1) k) = L1 (ix2 (2 : Fin 3) k))
    (ht0 : ∀ (a g q : Fin 17), t0 (ix3 (0 : Fin 1) ⟨a.val * 17 + g.val, by omega⟩ q) = L3 (ix4 a g q (0 : Fin 3)))
    (ht1 : ∀ (a g q : Fin 17), t1 (ix3 (0 : Fin 1) ⟨a.val * 17 + g.val, by omega⟩ q) = L3 (ix4 a g q (1 : Fin 3)))
    (ht2 : ∀ (a g q : Fin 17), t2 (ix3 (0 : Fin 1) ⟨a.val * 17 + g.val, by omega⟩ q) = L3 (ix4 a g q (2 : Fin 3)))
    (u : Fin 1) (ch : Fin 3) (i : Fin 32) (j : Fin 1024) :
    bodyV v0 w0 w1 w2 t0 t1 t2 (ix4 u ch i j) = Gk X L1 L3 (ix4 b ch (I i) j) := by
  have y0 : stage1V (chan0 v0) w0 (ix2 i j) = yK X L1 b 0 (I i) j := by
    rw [stage1V_apply, chan0_apply, hv]; unfold yK; simp only [hw0]
  have y1 : stage1V (chan1 v0) w1 (ix2 i j) = yK X L1 b 1 (I i) j := by
    rw [stage1V_apply, chan1_apply, hv]; unfold yK; simp only [hw1]
  have y2 : stage1V (chan2 v0) w2 (ix2 i j) = yK X L1 b 2 (I i) j := by
    rw [stage1V_apply, chan2_apply, hv]; unfold yK; simp only [hw2]
  have hp : (⟨i.val * 1024 + j.val, by omega⟩ : Fin 32768).val = i.val * 1024 + j.val := rfl
  show _ = triK L3 ch (yK X L1 b 0 (I i) j) (yK X L1 b 1 (I i) j) (yK X L1 b 2 (I i) j)
  unfold bodyV triK
  match ch with
  | ⟨0, _⟩ =>
    show stackV _ _ _ (ix4 u (0 : Fin 3) i j) = _
    rw [stackV_apply0, triV_apply _ _ _ _ i j _ hp]
    simp only [hat17V_apply _ _ i j _ hp, truncf_apply, y0, y1, y2, ht0]
    rfl
  | ⟨1, _⟩ =>
    show stackV _ _ _ (ix4 u (1 : Fin 3) i j) = _
    rw [stackV_apply1, triV_apply _ _ _ _ i j _ hp]
    simp only [hat17V_apply _ _ i j _ hp, truncf_apply, y0, y1, y2, ht1]
    rfl
  | ⟨2, _⟩ =>
    show stackV _ _ _ (ix4 u (2 : Fin 3) i j) = _
    rw [stackV_apply2, triV_apply _ _ _ _ i j _ hp]
    simp only [hat17V_apply _ _ i j _ hp, truncf_apply, y0, y1, y2, ht2]
    rfl

end Cert.KernelIdeal.KerBody

end
-- ==== Proof.KerHost.lean ====
/-
  The table as the kernel's region finds it.

  Before its region the kernel transposes the [17, 17, 17, 3] table to [3, 17, 17, 17] (the output channel first),
  reshapes it to [3, 289, 17] (the red and green knots a, g merged into one row 17·a + g) and narrows it to bf16,
  which changes nothing at the ideal values. So row 17·a + g, column q of channel ch holds the table's entry at
  (a, g, q, ch).
-/
import proofs.«151699_j29575144800973_2_alg».proof.Proof.Gen.KernelIdeal.Frame
import Idealize.ShloMosaic.Lib.StableHlo.Run
import Idealize.ShloMosaic.Lib.Pipeline.Value
import Idealize.ShloMosaic.Lib.ValueIdx

set_option maxRecDepth 16384

noncomputable section

namespace Cert.KernelIdeal.KerHost

open Cert.KernelIdeal Cert.KernelIdeal.Gen Idealize.ShloMosaic Idealize.ShloMosaic.TcCoe Idealize.SL.Sem Idealize.ShloMosaic.ValueIdx
open Cert.KernelIdeal.Facts

/-- The [3, 289, 17] array the region reads, as a term of the launched table: transposed, reshaped, narrowed. -/
theorem table_term (m : (ℓ : Loc nD τ sig) → Buf (Elt Ideal) ℓ) (c : Dev nD) :
    (V m c main_v2 : S3x289x17.Idx → EReal)
      = (truncf .bf16 (shapeCast S3x289x17
          (transpose S3x17x17x17 [3, 0, 1, 2] (m ((c : Thread nD τ).loc main_arg2) : S17x17x17x3.Idx → EReal)
            transposes_S17x17x17x3_S3x17x17x17_3_0_1_2)
          shapeCasts_S3x17x17x17_S3x289x17) bitsLt_bf16_f32 : FVec Ideal S3x289x17 .bf16) := by
  dsimp only [Gen.V, Gen.hostOps0]
  after_results
  rfl

/-- Read at an index: channel ch, row 17·a + g, column q is the launched table at (a, g, q, ch). -/
theorem table_apply (m : (ℓ : Loc nD τ sig) → Buf (Elt Ideal) ℓ) (c : Dev nD) (ch : Fin 3) (a g q : Fin 17) (r : Fin 289)
    (hr : r.val = a.val * 17 + g.val) :
    (V m c main_v2 : S3x289x17.Idx → EReal) (ix3 ch r q)
      = (m ((c : Thread nD τ).loc main_arg2) : S17x17x17x3.Idx → EReal) (ix4 a g q ch) := by
  rw [table_term m c, truncf_apply]
  -- the reshape keeps the row-major position: ((ch·17 + a)·17 + g)·17 + q = (ch·289 + r)·17 + q
  rw [shapeCast_apply _ _ (ix3 ch r q) (ix4 ch a g q) (by
    rw [Shape.rowMajor_val_four, Shape.rowMajor_val_three]
    show ((ch.val * 17 + a.val) * 17 + g.val) * 17 + q.val = (ch.val * 289 + r.val) * 17 + q.val
    omega)]
  -- the transpose: result axis b reads source axis [3, 0, 1, 2][b]
  rw [transpose_apply [3, 0, 1, 2] _ _ (ix4 ch a g q) (ix4 a g q ch) (by
    intro b
    fin_cases b <;> rfl)]

end Cert.KernelIdeal.KerHost

end
-- ==== Proof.KerBlocks.lean ====
/-
  From blocks to the array: what each grid point writes back is its block of the transform by weights, the blocks
  cover the output array, so the output array is that transform of the argument arrays.

  Grid point t = (b, h) of the 4 × 32 grid fetches picture b's rows 32h … 32h + 31 (all three channels) and writes the
  same rectangle of the output; the tables are fetched whole at every point, the three-dimensional one already
  re-laid by the host as [channel, red · 17 + green, blue].
-/
import proofs.«151699_j29575144800973_2_alg».proof.Proof.Gen.KernelIdeal.Value
import proofs.«151699_j29575144800973_2_alg».proof.Proof.KerBody
import proofs.«151699_j29575144800973_2_alg».proof.Proof.KerHost

set_option maxRecDepth 16384

noncomputable section

open scoped BigOperators

namespace Cert.KernelIdeal.KerValue

open Cert.KernelIdeal Cert.KernelIdeal.Gen Idealize.ShloMosaic Idealize.ShloMosaic.TcCoe Idealize.SL.Sem
  Idealize.ShloMosaic.ValueIdx Cert.Lut Cert.KernelIdeal.KerStage Cert.KernelIdeal.KerBody
open Idealize.ShloMosaic.Pipeline (Dat)

variable (m : (ℓ : Loc nD τ sig) → Buf (Elt Ideal) ℓ) (ρ : Dev nD → PrngReg)

theorem hz4 : (![0, 0, 0, 0] : Fin 4 → Nat) = fun _ => 0 := funext fun a => by fin_cases a <;> rfl

/-- The printed index maps, decided over the 128 grid points: the image window moves with the output window (picture
    on axis 0, block of 32 rows on axis 2, nothing on the channel and column axes), and the two table windows stay
    at block 0. -/
theorem idx_facts : ∀ t : Fin cfg0.N,
    win0_0.index t (0 : Fin 4) = win0_3.index t (0 : Fin 4) ∧ win0_0.index t (1 : Fin 4) = 0
    ∧ win0_0.index t (2 : Fin 4) = win0_3.index t (2 : Fin 4) ∧ win0_0.index t (3 : Fin 4) = 0
    ∧ win0_3.index t (1 : Fin 4) = 0 ∧ win0_3.index t (3 : Fin 4) = 0
    ∧ win0_3.index t (0 : Fin 4) ≤ 3 ∧ win0_3.index t (2 : Fin 4) ≤ 31
    ∧ win0_1.index t (0 : Fin 2) = 0 ∧ win0_1.index t (1 : Fin 2) = 0
    ∧ win0_2.index t (0 : Fin 3) = 0 ∧ win0_2.index t (1 : Fin 3) = 0 ∧ win0_2.index t (2 : Fin 3) = 0 :=
  (by decide +kernel : ∀ t : Fin grid0.N, _)

/-- Every (picture, block of rows) is some grid point's. -/
theorem idx_onto : ∀ (q0 : Fin 4) (q2 : Fin 32), ∃ t : Fin cfg0.N, win0_3.index t = ![q0.val, 0, q2.val, 0] :=
  (by decide +kernel : ∀ (q0 : Fin 4) (q2 : Fin 32), ∃ t : Fin grid0.N, win0_3.index t = ![q0.val, 0, q2.val, 0])

/-- WHAT POINT t WRITES BACK is block t of the transform by weights of the argument arrays. -/
theorem flushed_eq (c : Dev nD) (t : Fin cfg0.N) :
    (dats m 0 c).flushed 3 t = ((cfg0.win 3).blk t).view.read (Elt Ideal)
      (Gk (m ((c : Thread nD τ).loc main_arg0)) (m ((c : Thread nD τ).loc main_arg1)) (m ((c : Thread nD τ).loc main_arg2))) := by
  show (cfg0.win 3).cut (grid0.coords t) ((dats m 0 c).after 3 t) = _
  rw [after0_3]
  unfold out0_3
  rw [View.canon_unit_zero hz4]
  simp only [View.ld_unit_zero (S := S1x3x32x1024) hz4]
  rw [payload_eq]
  obtain ⟨e00, e01, e02, e03, e31, e33, b3, b31, e10, e11, e20, e21, e22⟩ := idx_facts t
  funext (y : S1x3x32x1024.Idx)
  obtain ⟨u, ch, i, j, rfl⟩ : ∃ (u : Fin 1) (ch : Fin 3) (i : Fin 32) (j : Fin 1024), y = ix4 u ch i j :=
    ⟨y 0, y 1, y 2, y 3, eq_ix4 y⟩
  have hu : u.val = 0 := by omega
  have hi : i.val < 32 := i.isLt
  -- the pixel the output block's entry (u, ch, i, j) is
  have hemb : ((cfg0.win 3).blk t).view.emb (ix4 u ch i j)
      = ix4 (⟨win0_3.index t (0 : Fin 4), by omega⟩ : Fin 4) ch (⟨win0_3.index t (2 : Fin 4) * 32 + i.val, by omega⟩ : Fin 1024) j := by
    funext a; apply Fin.ext
    match a with
    | ⟨0, _⟩ => show win0_3.index t (0 : Fin 4) * 1 + 1 * u.val = win0_3.index t (0 : Fin 4); omega
    | ⟨1, _⟩ => show win0_3.index t (1 : Fin 4) * 3 + 1 * ch.val = ch.val; omega
    | ⟨2, _⟩ => show win0_3.index t (2 : Fin 4) * 32 + 1 * i.val = win0_3.index t (2 : Fin 4) * 32 + i.val; omega
    | ⟨3, _⟩ => show win0_3.index t (3 : Fin 4) * 1024 + 1 * j.val = j.val; omega
  show bodyV _ _ _ _ _ _ _ (ix4 u ch i j) = Gk _ _ _ (((cfg0.win 3).blk t).view.emb (ix4 u ch i j))
  rw [hemb]
  refine body_point _ _ _ _ _ _ _ _ _ _ (⟨win0_3.index t (0 : Fin 4), by omega⟩ : Fin 4)
    (fun i' : Fin 32 => (⟨win0_3.index t (2 : Fin 4) * 32 + i'.val, by have := i'.isLt; omega⟩ : Fin 1024)) ?_ ?_ ?_ ?_ ?_ ?_ ?_ u ch i j
  · intro ch' i' j'
    show V m c main_arg0 (((cfg0.win 0).blk t).view.emb (ix4 (0 : Fin 1) ch' i' j')) = _
    rw [V_main_arg0]
    refine congrArg _ (funext fun a => Fin.ext ?_)
    have hi' : i'.val < 32 := i'.isLt
    match a with
    | ⟨0, _⟩ => show win0_0.index t (0 : Fin 4) * 1 + 1 * 0 = win0_3.index t (0 : Fin 4); omega
    | ⟨1, _⟩ => show win0_0.index t (1 : Fin 4) * 3 + 1 * ch'.val = ch'.val; omega
    | ⟨2, _⟩ => show win0_0.index t (2 : Fin 4) * 32 + 1 * i'.val = win0_3.index t (2 : Fin 4) * 32 + i'.val; omega
    | ⟨3, _⟩ => show win0_0.index t (3 : Fin 4) * 1024 + 1 * j'.val = j'.val; omega
  · intro k
    show V m c main_arg1 (((cfg0.win 1).blk t).view.emb (r0_1.emb (ix2 (0 : Fin 1) k))) = _
    rw [V_main_arg1]
    refine congrArg _ (funext fun a => Fin.ext ?_)
    match a with
    | ⟨0, _⟩ => show win0_1.index t (0 : Fin 2) * 3 + 1 * (0 + 1 * 0) = 0; omega
    | ⟨1, _⟩ => show win0_1.index t (1 : Fin 2) * 64 + 1 * (0 + 1 * k.val) = k.val; omega
  · intro k
    show V m c main_arg1 (((cfg0.win 1).blk t).view.emb (r0_2.emb (ix2 (0 : Fin 1) k))) = _
    rw [V_main_arg1]
    refine congrArg _ (funext fun a => Fin.ext ?_)
    match a with
    | ⟨0, _⟩ => show win0_1.index t (0 : Fin 2) * 3 + 1 * (1 + 1 * 0) = 1; omega
    | ⟨1, _⟩ => show win0_1.index t (1 : Fin 2) * 64 + 1 * (0 + 1 * k.val) = k.val; omega
  · intro k
    show V m c main_arg1 (((cfg0.win 1).blk t).view.emb (r0_3.emb (ix2 (0 : Fin 1) k))) = _
    rw [V_main_arg1]
    refine congrArg _ (funext fun a => Fin.ext ?_)
    match a with
    | ⟨0, _⟩ => show win0_1.index t (0 : Fin 2) * 3 + 1 * (2 + 1 * 0) = 2; omega
    | ⟨1, _⟩ => show win0_1.index t (1 : Fin 2) * 64 + 1 * (0 + 1 * k.val) = k.val; omega
  · intro a g q
    show V m c main_v2 (((cfg0.win 2).blk t).view.emb (r0_4.emb (ix3 (0 : Fin 1) ⟨a.val * 17 + g.val, by omega⟩ q))) = _
    refine Eq.trans (congrArg _ (funext fun ax => Fin.ext ?_))
      (KerHost.table_apply m c (0 : Fin 3) a g q ⟨a.val * 17 + g.val, by omega⟩ rfl)
    match ax with
    | ⟨0, _⟩ => show win0_2.index t (0 : Fin 3) * 3 + 1 * (0 + 1 * 0) = 0; omega
    | ⟨1, _⟩ => show win0_2.index t (1 : Fin 3) * 289 + 1 * (0 + 1 * (a.val * 17 + g.val)) = a.val * 17 + g.val; omega
    | ⟨2, _⟩ => show win0_2.index t (2 : Fin 3) * 17 + 1 * (0 + 1 * q.val) = q.val; omega
  · intro a g q
    show V m c main_v2 (((cfg0.win 2).blk t).view.emb (r0_5.emb (ix3 (0 : Fin 1) ⟨a.val * 17 + g.val, by omega⟩ q))) = _
    refine Eq.trans (congrArg _ (funext fun ax => Fin.ext ?_))
      (KerHost.table_apply m c (1 : Fin 3) a g q ⟨a.val * 17 + g.val, by omega⟩ rfl)
    match ax with
    | ⟨0, _⟩ => show win0_2.index t (0 : Fin 3) * 3 + 1 * (1 + 1 * 0) = 1; omega
    | ⟨1, _⟩ => show win0_2.index t (1 : Fin 3) * 289 + 1 * (0 + 1 * (a.val * 17 + g.val)) = a.val * 17 + g.val; omega
    | ⟨2, _⟩ => show win0_2.index t (2 : Fin 3) * 17 + 1 * (0 + 1 * q.val) = q.val; omega
  · intro a g q
    show V m c main_v2 (((cfg0.win 2).blk t).view.emb (r0_6.emb (ix3 (0 : Fin 1) ⟨a.val * 17 + g.val, by omega⟩ q))) = _
    refine Eq.trans (congrArg _ (funext fun ax => Fin.ext ?_))
      (KerHost.table_apply m c (2 : Fin 3) a g q ⟨a.val * 17 + g.val, by omega⟩ rfl)
    match ax with
    | ⟨0, _⟩ => show win0_2.index t (0 : Fin 3) * 3 + 1 * (2 + 1 * 0) = 2; omega
    | ⟨1, _⟩ => show win0_2.index t (1 : Fin 3) * 289 + 1 * (0 + 1 * (a.val * 17 + g.val)) = a.val * 17 + g.val; omega
    | ⟨2, _⟩ => show win0_2.index t (2 : Fin 3) * 17 + 1 * (0 + 1 * q.val) = q.val; omega

/-- An index of the output array is in point t's block iff each coordinate is in the block's range on its axis. -/
theorem mem_blk (t : Fin cfg0.N) (i : S4x3x1024x1024.Idx) :
    i ∈ ((cfg0.win 3).blk t).view.set ↔ ∀ a : Fin 4, win0_3.index t a * S1x3x32x1024.size a ≤ (i a).val
      ∧ (i a).val < win0_3.index t a * S1x3x32x1024.size a + S1x3x32x1024.size a := by
  show i ∈ ((View.whole main_v3).slice (win0_3.rect t)).set ↔ _
  rw [View.set_slice_whole, Rect.mem_set_unit]
  exact Iff.rfl

/-- Every index of the output array is in some grid point's block: picture (i 0), block of rows (i 2) / 32. -/
theorem cover (i : S4x3x1024x1024.Idx) :
    ∃ t : Fin cfg0.N, (cfg0.win 3).flush t = true ∧ i ∈ ((cfg0.win 3).blk t).view.set := by
  have h0 : (i 0).val < 4 := (i 0).isLt
  have h1 : (i 1).val < 3 := (i 1).isLt
  have h2 : (i 2).val < 1024 := (i 2).isLt
  have h3 : (i 3).val < 1024 := (i 3).isLt
  obtain ⟨t, ht⟩ := idx_onto ⟨(i 0).val, h0⟩ ⟨(i 2).val / 32, by omega⟩
  have q0 : win0_3.index t (0 : Fin 4) = (i 0).val := congrFun ht 0
  have q1 : win0_3.index t (1 : Fin 4) = 0 := congrFun ht 1
  have q2 : win0_3.index t (2 : Fin 4) = (i 2).val / 32 := congrFun ht 2
  have q3 : win0_3.index t (3 : Fin 4) = 0 := congrFun ht 3
  refine ⟨t, flush0_3 t, ?_⟩
  rw [mem_blk]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 3 ≤ (i 1).val ∧ (i 1).val < win0_3.index t (1 : Fin 4) * 3 + 3; omega
  | ⟨2, _⟩ => show win0_3.index t (2 : Fin 4) * 32 ≤ (i 2).val ∧ (i 2).val < win0_3.index t (2 : Fin 4) * 32 + 32; omega
  | ⟨3, _⟩ => show win0_3.index t (3 : Fin 4) * 1024 ≤ (i 3).val ∧ (i 3).val < win0_3.index t (3 : Fin 4) * 1024 + 1024; omega

/-- THE OUTPUT ARRAY after the run is the transform by weights of the argument arrays. -/
theorem final (c : Dev nD) : (dats m 0 c).arrAt 3 cfg0.N
    = Gk (m ((c : Thread nD τ).loc main_arg0)) (m ((c : Thread nD τ).loc main_arg1)) (m ((c : Thread nD τ).loc main_arg2)) :=
  (dats m 0 c).arrAt_eq_of_cover 3 _ (fun t _ => flushed_eq m c t) cover

/-- The kernel's run: the result array ends at the transform by weights of the arguments, the arguments unchanged. -/
theorem run : θ_run (defs (F := Ideal)) (onTc (τ := τ) (main (F := Ideal))) ⟨m, fun _ => 0, ρ⟩ fun r => ∀ c : Dev nD,
      r.2.mem ((c : Thread nD τ).loc main_v3)
          = Gk (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.KerValue

end
-- ==== Proof.RefRun.lean ====
/- bun scratch/gen_ops.js proof/ReferenceIdeal.lean scratch/ops.json  — the seven operation lists below are that table: one entry per
   statement of the printed reference program, in its order, a call's entries the callee's statements over that call's buffer record.

   The reference program as a straight line of host operations, and its run: every weakly fair execution terminates with each
   buffer at the fold of the operations' results over the launch contents. -/
import proofs.«151699_j29575144800973_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of statements window 0 of @main, in order. -/
abbrev ops0 : List (HloOp τ sig (Elt F)) :=
  [ nullary main_cst (constant S_ .f32 0x427C0000#32),
    unary main_cst main_v0 (broadcastInDim S4x3x1024x1024 ![] bcast_S_S4x3x1024x1024 : (⟨S_, .f32⟩ : BufTy).Contents (Elt F) → (⟨S4x3x1024x1024, .f32⟩ : BufTy).Contents (Elt F)),
    binary main_arg0 main_v0 main_v1 (mulf : (⟨S4x3x1024x1024, .f32⟩ : BufTy).Contents (Elt F) → (⟨S4x3x1024x1024, .f32⟩ : BufTy).Contents (Elt F) → (⟨S4x3x1024x1024, .f32⟩ : BufTy).Contents (Elt F)),
    unary main_v1 main_v2 (Host.floor : (⟨S4x3x1024x1024, .f32⟩ : BufTy).Contents (Elt F) → (⟨S4x3x1024x1024, .f32⟩ : BufTy).Contents (Elt F)),
    unary main_v2 main_v3 (fptosi 32 : (⟨S4x3x1024x1024, .f32⟩ : BufTy).Contents (Elt F) → (⟨S4x3x1024x1024, .i32⟩ : BufTy).Contents (Elt F)),
    nullary main_c (constantI S_ 32 0#32),
    nullary main_c_0 (constantI S_ 32 62#32),
    TRef.unary (.of main_c) main_call0.v0 id,
    TRef.unary main_call0.v0 main_call0.v1 (broadcastInDim S4x3x1024x1024 ![] bcast_S_S4x3x1024x1024),
    TRef.binary main_call0.v1 (.of main_v3) main_call0.v2 maxsi,
    TRef.unary (.of main_c_0) main_call0.v3 id,
    TRef.unary main_call0.v3 main_call0.v4 (broadcastInDim S4x3x1024x1024 ![] bcast_S_S4x3x1024x1024),
    TRef.binary main_call0.v4 main_call0.v2 main_call0.v5 minsi,
    unary main_v4 main_v5 (sitofp .f32 : (⟨S4x3x1024x1024, .i32⟩ : BufTy).Contents (Elt F) → (⟨S4x3x1024x1024, .f32⟩ : BufTy).Contents (Elt F)),
    binary main_v1 main_v5 main_v6 (subf : (⟨S4x3x1024x1024, .f32⟩ : BufTy).Contents (Elt F) → (⟨S4x3x1024x1024, .f32⟩ : BufTy).Contents (Elt F) → (⟨S4x3x1024x1024, .f32⟩ : BufTy).Contents (Elt F)),
    unary main_arg1 main_v7 ((extractStridedSlice S1x64 ![0, 0] · slices_S3x64_S1x64_0_0) : (⟨S3x64, .f32⟩ : BufTy).Contents (Elt F) → (⟨S1x64, .f32⟩ : BufTy).Contents (Elt F)),
    reshape main_v7 main_v8 rfl shapeCasts_S1x64_S64,
    unary main_v4 main_v9 ((extractStridedSlice S4x1x1024x1024 ![0, 0, 0, 0] · slices_S4x3x1024x1024_S4x1x1024x1024_0_0_0_0) : (⟨S4x3x1024x1024, .i32⟩ : BufTy).Contents (Elt F) → (⟨S4x1x1024x1024, .i32⟩ : BufTy).Contents (Elt F)),
    reshape main_v9 main_v10 rfl shapeCasts_S4x1x1024x1024_S4x1024x1024,
    TRef.nullary main_call1.c (constantI S_ 32 0#32),
    TRef.unary main_call1.c main_call1.v0 (broadcastInDim S4x1024x1024 ![] bcast_S_S4x1024x1024),
    TRef.binary (.of main_v10) main_call1.v0 main_call1.v1 (cmpi .slt),
    TRef.nullary main_call1.c_0 (constantI S_ 32 64#32),
    TRef.unary main_call1.c_0 main_call1.v2 (broadcastInDim S4x1024x1024 ![] bcast_S_S4x1024x1024),
    TRef.binary (.of main_v10) main_call1.v2 main_call1.v3 addi,
    TRef.ternary main_call1.v1 main_call1.v3 (.of main_v10) main_call1.call0.v0 select,
    TRef.unary main_call1.call0.v0 main_call1.v5 (broadcastInDim S4x1024x1024x1 ![0, 1, 2] bcast_S4x1024x1024_S4x1024x1024x1_0_1_2),
    TRef.nullary main_call1.c_1 (constantI S1 32 63#32),
    TRef.nullary main_call1.c_2 (constantI S_ 32 0#32),
    TRef.unary main_call1.c_2 main_call1.v6 (broadcastInDim S4x1024x1024x1 ![] bcast_S_S4x1024x1024x1),
    TRef.binary main_call1.v5 main_call1.v6 main_call1.v7 (cmpi .sge),
    TRef.unary main_call1.c_1 main_call1.v8 (broadcastInDim S1x1x1x1 ![3] bcast_S1_S1x1x1x1_3),
    TRef.unary main_call1.v8 main_call1.v9 (broadcastInDim S4x1024x1024x1 ![0, 1, 2, 3] bcast_S1x1x1x1_S4x1024x1024x1_0_1_2_3),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S4x1024x1024x1_S4x1024x1024_d3 h_S_),
    TRef.binary (.of main_v8) main_call1.v5 main_call1.v13 (fun x i => Host.gather gather_S64_S4x1024x1024x1_S4x1024x1024_n_0_n_n_0_3_1 x i),
    TRef.nullary main_call1.cst (constant S_ .f32 0x7FC00000#32),
    TRef.unary main_call1.cst main_call1.v14 (broadcastInDim S4x1024x1024 ![] bcast_S_S4x1024x1024),
    TRef.ternary main_call1.v12 main_call1.v13 main_call1.v14 main_call1.v15 select,
    unary main_arg1 main_v12 ((extractStridedSlice S1x64 ![1, 0] · slices_S3x64_S1x64_1_0) : (⟨S3x64, .f32⟩ : BufTy).Contents (Elt F) → (⟨S1x64, .f32⟩ : BufTy).Contents (Elt F)),
    reshape main_v12 main_v13 rfl shapeCasts_S1x64_S64,
    unary main_v4 main_v14 ((extractStridedSlice S4x1x1024x1024 ![0, 1, 0, 0] · slices_S4x3x1024x1024_S4x1x1024x1024_0_1_0_0) : (⟨S4x3x1024x1024, .i32⟩ : BufTy).Contents (Elt F) → (⟨S4x1x1024x1024, .i32⟩ : BufTy).Contents (Elt F)),
    reshape main_v14 main_v15 rfl shapeCasts_S4x1x1024x1024_S4x1024x1024,
    TRef.nullary main_call2.c (constantI S_ 32 0#32),
    TRef.unary main_call2.c main_call2.v0 (broadcastInDim S4x1024x1024 ![] bcast_S_S4x1024x1024),
    TRef.binary (.of main_v15) main_call2.v0 main_call2.v1 (cmpi .slt),
    TRef.nullary main_call2.c_0 (constantI S_ 32 64#32),
    TRef.unary main_call2.c_0 main_call2.v2 (broadcastInDim S4x1024x1024 ![] bcast_S_S4x1024x1024),
    TRef.binary (.of main_v15) main_call2.v2 main_call2.v3 addi,
    TRef.ternary main_call2.v1 main_call2.v3 (.of main_v15) main_call2.call0.v0 select,
    TRef.unary main_call2.call0.v0 main_call2.v5 (broadcastInDim S4x1024x1024x1 ![0, 1, 2] bcast_S4x1024x1024_S4x1024x1024x1_0_1_2),
    TRef.nullary main_call2.c_1 (constantI S1 32 63#32),
    TRef.nullary main_call2.c_2 (constantI S_ 32 0#32),
    TRef.unary main_call2.c_2 main_call2.v6 (broadcastInDim S4x1024x1024x1 ![] bcast_S_S4x1024x1024x1),
    TRef.binary main_call2.v5 main_call2.v6 main_call2.v7 (cmpi .sge),
    TRef.unary main_call2.c_1 main_call2.v8 (broadcastInDim S1x1x1x1 ![3] bcast_S1_S1x1x1x1_3),
    TRef.unary main_call2.v8 main_call2.v9 (broadcastInDim S4x1024x1024x1 ![0, 1, 2, 3] bcast_S1x1x1x1_S4x1024x1024x1_0_1_2_3),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S4x1024x1024x1_S4x1024x1024_d3 h_S_),
    TRef.binary (.of main_v13) main_call2.v5 main_call2.v13 (fun x i => Host.gather gather_S64_S4x1024x1024x1_S4x1024x1024_n_0_n_n_0_3_1 x i),
    TRef.nullary main_call2.cst (constant S_ .f32 0x7FC00000#32),
    TRef.unary main_call2.cst main_call2.v14 (broadcastInDim S4x1024x1024 ![] bcast_S_S4x1024x1024),
    TRef.ternary main_call2.v12 main_call2.v13 main_call2.v14 main_call2.v15 select,
    unary main_arg1 main_v17 ((extractStridedSlice S1x64 ![2, 0] · slices_S3x64_S1x64_2_0) : (⟨S3x64, .f32⟩ : BufTy).Contents (Elt F) → (⟨S1x64, .f32⟩ : BufTy).Contents (Elt F)),
    reshape main_v17 main_v18 rfl shapeCasts_S1x64_S64,
    unary main_v4 main_v19 ((extractStridedSlice S4x1x1024x1024 ![0, 2, 0, 0] · slices_S4x3x1024x1024_S4x1x1024x1024_0_2_0_0) : (⟨S4x3x1024x1024, .i32⟩ : BufTy).Contents (Elt F) → (⟨S4x1x1024x1024, .i32⟩ : BufTy).Contents (Elt F)),
    reshape main_v19 main_v20 rfl shapeCasts_S4x1x1024x1024_S4x1024x1024,
    TRef.nullary main_call3.c (constantI S_ 32 0#32),
    TRef.unary main_call3.c main_call3.v0 (broadcastInDim S4x1024x1024 ![] bcast_S_S4x1024x1024),
    TRef.binary (.of main_v20) main_call3.v0 main_call3.v1 (cmpi .slt),
    TRef.nullary main_call3.c_0 (constantI S_ 32 64#32),
    TRef.unary main_call3.c_0 main_call3.v2 (broadcastInDim S4x1024x1024 ![] bcast_S_S4x1024x1024),
    TRef.binary (.of main_v20) main_call3.v2 main_call3.v3 addi,
    TRef.ternary main_call3.v1 main_call3.v3 (.of main_v20) main_call3.call0.v0 select,
    TRef.unary main_call3.call0.v0 main_call3.v5 (broadcastInDim S4x1024x1024x1 ![0, 1, 2] bcast_S4x1024x1024_S4x1024x1024x1_0_1_2),
    TRef.nullary main_call3.c_1 (constantI S1 32 63#32),
    TRef.nullary main_call3.c_2 (constantI S_ 32 0#32),
    TRef.unary main_call3.c_2 main_call3.v6 (broadcastInDim S4x1024x1024x1 ![] bcast_S_S4x1024x1024x1),
    TRef.binary main_call3.v5 main_call3.v6 main_call3.v7 (cmpi .sge),
    TRef.unary main_call3.c_1 main_call3.v8 (broadcastInDim S1x1x1x1 ![3] bcast_S1_S1x1x1x1_3),
    TRef.unary main_call3.v8 main_call3.v9 (broadcastInDim S4x1024x1024x1 ![0, 1, 2, 3] bcast_S1x1x1x1_S4x1024x1024x1_0_1_2_3),
    TRef.binary main_call3.v5 main_call3.v9 main_call3.v10 (cmpi .sle),
    TRef.binary main_call3.v7 main_call3.v10 main_call3.v11 andi,
    TRef.nullary main_call3.c_3 (constantI S_ 1 1#1),
    TRef.binary main_call3.v11 main_call3.c_3 main_call3.v12 (fun x v => Host.reduce IntOp.andi x v reducesTo_S4x1024x1024x1_S4x1024x1024_d3 h_S_),
    TRef.binary (.of main_v18) main_call3.v5 main_call3.v13 (fun x i => Host.gather gather_S64_S4x1024x1024x1_S4x1024x1024_n_0_n_n_0_3_1 x i),
    TRef.nullary main_call3.cst (constant S_ .f32 0x7FC00000#32),
    TRef.unary main_call3.cst main_call3.v14 (broadcastInDim S4x1024x1024 ![] bcast_S_S4x1024x1024),
    TRef.ternary main_call3.v12 main_call3.v13 main_call3.v14 main_call3.v15 select,
    unary main_v11 main_v22 (broadcastInDim S4x1x1024x1024 ![0, 2, 3] bcast_S4x1024x1024_S4x1x1024x1024_0_2_3 : (⟨S4x1024x1024, .f32⟩ : BufTy).Contents (Elt F) → (⟨S4x1x1024x1024, .f32⟩ : BufTy).Contents (Elt F)),
    unary main_v16 main_v23 (broadcastInDim S4x1x1024x1024 ![0, 2, 3] bcast_S4x1024x1024_S4x1x1024x1024_0_2_3 : (⟨S4x1024x1024, .f32⟩ : BufTy).Contents (Elt F) → (⟨S4x1x1024x1024, .f32⟩ : BufTy).Contents (Elt F)),
    unary main_v21 main_v24 (broadcastInDim S4x1x1024x1024 ![0, 2, 3] bcast_S4x1024x1024_S4x1x1024x1024_0_2_3 : (⟨S4x1024x1024, .f32⟩ : BufTy).Contents (Elt F) → (⟨S4x1x1024x1024, .f32⟩ : BufTy).Contents (Elt F)),
    nary ![main_v22, main_v23, main_v24] main_v25 (fun u => concatenate S4x3x1024x1024 1 [⟨S4x1x1024x1024, u 0⟩, ⟨S4x1x1024x1024, u 1⟩, ⟨S4x1x1024x1024, u 2⟩] concatenates_S4x1x1024x1024_S4x1x1024x1024_S4x1x1024x1024_S4x3x1024x1024_d1),
    unary main_arg1 main_v26 ((extractStridedSlice S1x64 ![0, 0] · slices_S3x64_S1x64_0_0) : (⟨S3x64, .f32⟩ : BufTy).Contents (Elt F) → (⟨S1x64, .f32⟩ : BufTy).Contents (Elt F)),
    reshape main_v26 main_v27 rfl shapeCasts_S1x64_S64,
    unary main_v4 main_v28 ((extractStridedSlice S4x1x1024x1024 ![0, 0, 0, 0] · slices_S4x3x1024x1024_S4x1x1024x1024_0_0_0_0) : (⟨S4x3x1024x1024, .i32⟩ : BufTy).Contents (Elt F) → (⟨S4x1x1024x1024, .i32⟩ : BufTy).Contents (Elt F)),
    reshape main_v28 main_v29 rfl shapeCasts_S4x1x1024x1024_S4x1024x1024,
    nullary main_c_1 (constantI S_ 32 1#32),
    unary main_c_1 main_v30 (broadcastInDim S4x1024x1024 ![] bcast_S_S4x1024x1024 : (⟨S_, .i32⟩ : BufTy).Contents (Elt F) → (⟨S4x1024x1024, .i32⟩ : BufTy).Contents (Elt F)),
    binary main_v29 main_v30 main_v31 (addi : (⟨S4x1024x1024, .i32⟩ : BufTy).Contents (Elt F) → (⟨S4x1024x1024, .i32⟩ : BufTy).Contents (Elt F) → (⟨S4x1024x1024, .i32⟩ : BufTy).Contents (Elt F)),
    TRef.nullary main_call4.c (constantI S_ 32 0#32),
    TRef.unary main_call4.c main_call4.v0 (broadcastInDim S4x1024x1024 ![] bcast_S_S4x1024x1024),
    TRef.binary (.of main_v31) main_call4.v0 main_call4.v1 (cmpi .slt),
    TRef.nullary main_call4.c_0 (constantI S_ 32 64#32),
    TRef.unary main_call4.c_0 main_call4.v2 (broadcastInDim S4x1024x1024 ![] bcast_S_S4x1024x1024),
    TRef.binary (.of main_v31) main_call4.v2 main_call4.v3 addi,
    TRef.ternary main_call4.v1 main_call4.v3 (.of main_v31) main_call4.call0.v0 select,
    TRef.unary main_call4.call0.v0 main_call4.v5 (broadcastInDim S4x1024x1024x1 ![0, 1, 2] bcast_S4x1024x1024_S4x1024x1024x1_0_1_2),
    TRef.nullary main_call4.c_1 (constantI S1 32 63#32),
    TRef.nullary main_call4.c_2 (constantI S_ 32 0#32),
    TRef.unary main_call4.c_2 main_call4.v6 (broadcastInDim S4x1024x1024x1 ![] bcast_S_S4x1024x1024x1),
    TRef.binary main_call4.v5 main_call4.v6 main_call4.v7 (cmpi .sge),
    TRef.unary main_call4.c_1 main_call4.v8 (broadcastInDim S1x1x1x1 ![3] bcast_S1_S1x1x1x1_3),
    TRef.unary main_call4.v8 main_call4.v9 (broadcastInDim S4x1024x1024x1 ![0, 1, 2, 3] bcast_S1x1x1x1_S4x1024x1024x1_0_1_2_3),
    TRef.binary main_call4.v5 main_call4.v9 main_call4.v10 (cmpi .sle),
    TRef.binary main_call4.v7 main_call4.v10 main_call4.v11 andi,
    TRef.nullary main_call4.c_3 (constantI S_ 1 1#1),
    TRef.binary main_call4.v11 main_call4.c_3 main_call4.v12 (fun x v => Host.reduce IntOp.andi x v reducesTo_S4x1024x1024x1_S4x1024x1024_d3 h_S_),
    TRef.binary (.of main_v27) main_call4.v5 main_call4.v13 (fun x i => Host.gather gather_S64_S4x1024x1024x1_S4x1024x1024_n_0_n_n_0_3_1 x i),
    TRef.nullary main_call4.cst (constant S_ .f32 0x7FC00000#32),
    TRef.unary main_call4.cst main_call4.v14 (broadcastInDim S4x1024x1024 ![] bcast_S_S4x1024x1024),
    TRef.ternary main_call4.v12 main_call4.v13 main_call4.v14 main_call4.v15 select,
    unary main_arg1 main_v33 ((extractStridedSlice S1x64 ![1, 0] · slices_S3x64_S1x64_1_0) : (⟨S3x64, .f32⟩ : BufTy).Contents (Elt F) → (⟨S1x64, .f32⟩ : BufTy).Contents (Elt F)),
    reshape main_v33 main_v34 rfl shapeCasts_S1x64_S64,
    unary main_v4 main_v35 ((extractStridedSlice S4x1x1024x1024 ![0, 1, 0, 0] · slices_S4x3x1024x1024_S4x1x1024x1024_0_1_0_0) : (⟨S4x3x1024x1024, .i32⟩ : BufTy).Contents (Elt F) → (⟨S4x1x1024x1024, .i32⟩ : BufTy).Contents (Elt F)),
    reshape main_v35 main_v36 rfl shapeCasts_S4x1x1024x1024_S4x1024x1024,
    nullary main_c_2 (constantI S_ 32 1#32),
    unary main_c_2 main_v37 (broadcastInDim S4x1024x1024 ![] bcast_S_S4x1024x1024 : (⟨S_, .i32⟩ : BufTy).Contents (Elt F) → (⟨S4x1024x1024, .i32⟩ : BufTy).Contents (Elt F)),
    binary main_v36 main_v37 main_v38 (addi : (⟨S4x1024x1024, .i32⟩ : BufTy).Contents (Elt F) → (⟨S4x1024x1024, .i32⟩ : BufTy).Contents (Elt F) → (⟨S4x1024x1024, .i32⟩ : BufTy).Contents (Elt F)),
    TRef.nullary main_call5.c (constantI S_ 32 0#32),
    TRef.unary main_call5.c main_call5.v0 (broadcastInDim S4x1024x1024 ![] bcast_S_S4x1024x1024),
    TRef.binary (.of main_v38) main_call5.v0 main_call5.v1 (cmpi .slt),
    TRef.nullary main_call5.c_0 (constantI S_ 32 64#32),
    TRef.unary main_call5.c_0 main_call5.v2 (broadcastInDim S4x1024x1024 ![] bcast_S_S4x1024x1024),
    TRef.binary (.of main_v38) main_call5.v2 main_call5.v3 addi,
    TRef.ternary main_call5.v1 main_call5.v3 (.of main_v38) main_call5.call0.v0 select,
    TRef.unary main_call5.call0.v0 main_call5.v5 (broadcastInDim S4x1024x1024x1 ![0, 1, 2] bcast_S4x1024x1024_S4x1024x1024x1_0_1_2),
    TRef.nullary main_call5.c_1 (constantI S1 32 63#32),
    TRef.nullary main_call5.c_2 (constantI S_ 32 0#32),
    TRef.unary main_call5.c_2 main_call5.v6 (broadcastInDim S4x1024x1024x1 ![] bcast_S_S4x1024x1024x1),
    TRef.binary main_call5.v5 main_call5.v6 main_call5.v7 (cmpi .sge),
    TRef.unary main_call5.c_1 main_call5.v8 (broadcastInDim S1x1x1x1 ![3] bcast_S1_S1x1x1x1_3),
    TRef.unary main_call5.v8 main_call5.v9 (broadcastInDim S4x1024x1024x1 ![0, 1, 2, 3] bcast_S1x1x1x1_S4x1024x1024x1_0_1_2_3),
    TRef.binary main_call5.v5 main_call5.v9 main_call5.v10 (cmpi .sle),
    TRef.binary main_call5.v7 main_call5.v10 main_call5.v11 andi,
    TRef.nullary main_call5.c_3 (constantI S_ 1 1#1),
    TRef.binary main_call5.v11 main_call5.c_3 main_call5.v12 (fun x v => Host.reduce IntOp.andi x v reducesTo_S4x1024x1024x1_S4x1024x1024_d3 h_S_),
    TRef.binary (.of main_v34) main_call5.v5 main_call5.v13 (fun x i => Host.gather gather_S64_S4x1024x1024x1_S4x1024x1024_n_0_n_n_0_3_1 x i),
    TRef.nullary main_call5.cst (constant S_ .f32 0x7FC00000#32),
    TRef.unary main_call5.cst main_call5.v14 (broadcastInDim S4x1024x1024 ![] bcast_S_S4x1024x1024),
    TRef.ternary main_call5.v12 main_call5.v13 main_call5.v14 main_call5.v15 select,
    unary main_arg1 main_v40 ((extractStridedSlice S1x64 ![2, 0] · slices_S3x64_S1x64_2_0) : (⟨S3x64, .f32⟩ : BufTy).Contents (Elt F) → (⟨S1x64, .f32⟩ : BufTy).Contents (Elt F)),
    reshape main_v40 main_v41 rfl shapeCasts_S1x64_S64,
    unary main_v4 main_v42 ((extractStridedSlice S4x1x1024x1024 ![0, 2, 0, 0] · slices_S4x3x1024x1024_S4x1x1024x1024_0_2_0_0) : (⟨S4x3x1024x1024, .i32⟩ : BufTy).Contents (Elt F) → (⟨S4x1x1024x1024, .i32⟩ : BufTy).Contents (Elt F)),
    reshape main_v42 main_v43 rfl shapeCasts_S4x1x1024x1024_S4x1024x1024,
    nullary main_c_3 (constantI S_ 32 1#32),
    unary main_c_3 main_v44 (broadcastInDim S4x1024x1024 ![] bcast_S_S4x1024x1024 : (⟨S_, .i32⟩ : BufTy).Contents (Elt F) → (⟨S4x1024x1024, .i32⟩ : BufTy).Contents (Elt F)),
    binary main_v43 main_v44 main_v45 (addi : (⟨S4x1024x1024, .i32⟩ : BufTy).Contents (Elt F) → (⟨S4x1024x1024, .i32⟩ : BufTy).Contents (Elt F) → (⟨S4x1024x1024, .i32⟩ : BufTy).Contents (Elt F)),
    TRef.nullary main_call6.c (constantI S_ 32 0#32),
    TRef.unary main_call6.c main_call6.v0 (broadcastInDim S4x1024x1024 ![] bcast_S_S4x1024x1024),
    TRef.binary (.of main_v45) main_call6.v0 main_call6.v1 (cmpi .slt),
    TRef.nullary main_call6.c_0 (constantI S_ 32 64#32),
    TRef.unary main_call6.c_0 main_call6.v2 (broadcastInDim S4x1024x1024 ![] bcast_S_S4x1024x1024),
    TRef.binary (.of main_v45) main_call6.v2 main_call6.v3 addi,
    TRef.ternary main_call6.v1 main_call6.v3 (.of main_v45) main_call6.call0.v0 select,
    TRef.unary main_call6.call0.v0 main_call6.v5 (broadcastInDim S4x1024x1024x1 ![0, 1, 2] bcast_S4x1024x1024_S4x1024x1024x1_0_1_2),
    TRef.nullary main_call6.c_1 (constantI S1 32 63#32),
    TRef.nullary main_call6.c_2 (constantI S_ 32 0#32),
    TRef.unary main_call6.c_2 main_call6.v6 (broadcastInDim S4x1024x1024x1 ![] bcast_S_S4x1024x1024x1),
    TRef.binary main_call6.v5 main_call6.v6 main_call6.v7 (cmpi .sge),
    TRef.unary main_call6.c_1 main_call6.v8 (broadcastInDim S1x1x1x1 ![3] bcast_S1_S1x1x1x1_3),
    TRef.unary main_call6.v8 main_call6.v9 (broadcastInDim S4x1024x1024x1 ![0, 1, 2, 3] bcast_S1x1x1x1_S4x1024x1024x1_0_1_2_3),
    TRef.binary main_call6.v5 main_call6.v9 main_call6.v10 (cmpi .sle),
    TRef.binary main_call6.v7 main_call6.v10 main_call6.v11 andi,
    TRef.nullary main_call6.c_3 (constantI S_ 1 1#1),
    TRef.binary main_call6.v11 main_call6.c_3 main_call6.v12 (fun x v => Host.reduce IntOp.andi x v reducesTo_S4x1024x1024x1_S4x1024x1024_d3 h_S_),
    TRef.binary (.of main_v41) main_call6.v5 main_call6.v13 (fun x i => Host.gather gather_S64_S4x1024x1024x1_S4x1024x1024_n_0_n_n_0_3_1 x i),
    TRef.nullary main_call6.cst (constant S_ .f32 0x7FC00000#32),
    TRef.unary main_call6.cst main_call6.v14 (broadcastInDim S4x1024x1024 ![] bcast_S_S4x1024x1024),
    TRef.ternary main_call6.v12 main_call6.v13 main_call6.v14 main_call6.v15 select,
    unary main_v32 main_v47 (broadcastInDim S4x1x1024x1024 ![0, 2, 3] bcast_S4x1024x1024_S4x1x1024x1024_0_2_3 : (⟨S4x1024x1024, .f32⟩ : BufTy).Contents (Elt F) → (⟨S4x1x1024x1024, .f32⟩ : BufTy).Contents (Elt F)),
    unary main_v39 main_v48 (broadcastInDim S4x1x1024x1024 ![0, 2, 3] bcast_S4x1024x1024_S4x1x1024x1024_0_2_3 : (⟨S4x1024x1024, .f32⟩ : BufTy).Contents (Elt F) → (⟨S4x1x1024x1024, .f32⟩ : BufTy).Contents (Elt F)),
    unary main_v46 main_v49 (broadcastInDim S4x1x1024x1024 ![0, 2, 3] bcast_S4x1024x1024_S4x1x1024x1024_0_2_3 : (⟨S4x1024x1024, .f32⟩ : BufTy).Contents (Elt F) → (⟨S4x1x1024x1024, .f32⟩ : BufTy).Contents (Elt F)),
    nary ![main_v47, main_v48, main_v49] main_v50 (fun u => concatenate S4x3x1024x1024 1 [⟨S4x1x1024x1024, u 0⟩, ⟨S4x1x1024x1024, u 1⟩, ⟨S4x1x1024x1024, u 2⟩] concatenates_S4x1x1024x1024_S4x1x1024x1024_S4x1x1024x1024_S4x3x1024x1024_d1),
    binary main_v50 main_v25 main_v51 (subf : (⟨S4x3x1024x1024, .f32⟩ : BufTy).Contents (Elt F) → (⟨S4x3x1024x1024, .f32⟩ : BufTy).Contents (Elt F) → (⟨S4x3x1024x1024, .f32⟩ : BufTy).Contents (Elt F)),
    binary main_v6 main_v51 main_v52 (mulf : (⟨S4x3x1024x1024, .f32⟩ : BufTy).Contents (Elt F) → (⟨S4x3x1024x1024, .f32⟩ : BufTy).Contents (Elt F) → (⟨S4x3x1024x1024, .f32⟩ : BufTy).Contents (Elt F)),
    binary main_v25 main_v52 main_v53 (addf : (⟨S4x3x1024x1024, .f32⟩ : BufTy).Contents (Elt F) → (⟨S4x3x1024x1024, .f32⟩ : BufTy).Contents (Elt F) → (⟨S4x3x1024x1024, .f32⟩ : BufTy).Contents (Elt F)) ]

/-- The operations of statements window 1 of @main, in order. -/
abbrev ops1 : List (HloOp τ sig (Elt F)) :=
  [ nullary main_cst_4 (constant S_ .f32 0x00000000#32),
    nullary main_cst_5 (constant S_ .f32 0x3F800000#32),
    TRef.unary (.of main_cst_4) main_call7.v0 id,
    TRef.unary main_call7.v0 main_call7.v1 (broadcastInDim S4x3x1024x1024 ![] bcast_S_S4x3x1024x1024),
    TRef.binary main_call7.v1 (.of main_v53) main_call7.v2 maximumf,
    TRef.unary (.of main_cst_5) main_call7.v3 id,
    TRef.unary main_call7.v3 main_call7.v4 (broadcastInDim S4x3x1024x1024 ![] bcast_S_S4x3x1024x1024),
    TRef.binary main_call7.v4 main_call7.v2 main_call7.v5 minimumf,
    nullary main_cst_6 (constant S_ .f32 0x41800000#32),
    unary main_cst_6 main_v55 (broadcastInDim S4x3x1024x1024 ![] bcast_S_S4x3x1024x1024 : (⟨S_, .f32⟩ : BufTy).Contents (Elt F) → (⟨S4x3x1024x1024, .f32⟩ : BufTy).Contents (Elt F)),
    binary main_v54 main_v55 main_v56 (mulf : (⟨S4x3x1024x1024, .f32⟩ : BufTy).Contents (Elt F) → (⟨S4x3x1024x1024, .f32⟩ : BufTy).Contents (Elt F) → (⟨S4x3x1024x1024, .f32⟩ : BufTy).Contents (Elt F)),
    unary main_v56 main_v57 (Host.floor : (⟨S4x3x1024x1024, .f32⟩ : BufTy).Contents (Elt F) → (⟨S4x3x1024x1024, .f32⟩ : BufTy).Contents (Elt F)),
    unary main_v57 main_v58 (fptosi 32 : (⟨S4x3x1024x1024, .f32⟩ : BufTy).Contents (Elt F) → (⟨S4x3x1024x1024, .i32⟩ : BufTy).Contents (Elt F)),
    nullary main_c_7 (constantI S_ 32 0#32),
    nullary main_c_8 (constantI S_ 32 15#32),
    TRef.unary (.of main_c_7) main_call8.v0 id,
    TRef.unary main_call8.v0 main_call8.v1 (broadcastInDim S4x3x1024x1024 ![] bcast_S_S4x3x1024x1024),
    TRef.binary main_call8.v1 (.of main_v58) main_call8.v2 maxsi,
    TRef.unary (.of main_c_8) main_call8.v3 id,
    TRef.unary main_call8.v3 main_call8.v4 (broadcastInDim S4x3x1024x1024 ![] bcast_S_S4x3x1024x1024),
    TRef.binary main_call8.v4 main_call8.v2 main_call8.v5 minsi,
    unary main_v59 main_v60 (sitofp .f32 : (⟨S4x3x1024x1024, .i32⟩ : BufTy).Contents (Elt F) → (⟨S4x3x1024x1024, .f32⟩ : BufTy).Contents (Elt F)),
    binary main_v56 main_v60 main_v61 (subf : (⟨S4x3x1024x1024, .f32⟩ : BufTy).Contents (Elt F) → (⟨S4x3x1024x1024, .f32⟩ : BufTy).Contents (Elt F) → (⟨S4x3x1024x1024, .f32⟩ : BufTy).Contents (Elt F)),
    unary main_v59 main_v62 ((extractStridedSlice S4x1x1024x1024 ![0, 0, 0, 0] · slices_S4x3x1024x1024_S4x1x1024x1024_0_0_0_0) : (⟨S4x3x1024x1024, .i32⟩ : BufTy).Contents (Elt F) → (⟨S4x1x1024x1024, .i32⟩ : BufTy).Contents (Elt F)),
    reshape main_v62 main_v63 rfl shapeCasts_S4x1x1024x1024_S4x1024x1024,
    unary main_v59 main_v64 ((extractStridedSlice S4x1x1024x1024 ![0, 1, 0, 0] · slices_S4x3x1024x1024_S4x1x1024x1024_0_1_0_0) : (⟨S4x3x1024x1024, .i32⟩ : BufTy).Contents (Elt F) → (⟨S4x1x1024x1024, .i32⟩ : BufTy).Contents (Elt F)),
    reshape main_v64 main_v65 rfl shapeCasts_S4x1x1024x1024_S4x1024x1024,
    unary main_v59 main_v66 ((extractStridedSlice S4x1x1024x1024 ![0, 2, 0, 0] · slices_S4x3x1024x1024_S4x1x1024x1024_0_2_0_0) : (⟨S4x3x1024x1024, .i32⟩ : BufTy).Contents (Elt F) → (⟨S4x1x1024x1024, .i32⟩ : BufTy).Contents (Elt F)),
    reshape main_v66 main_v67 rfl shapeCasts_S4x1x1024x1024_S4x1024x1024,
    unary main_v61 main_v68 ((extractStridedSlice S4x1x1024x1024 ![0, 0, 0, 0] · slices_S4x3x1024x1024_S4x1x1024x1024_0_0_0_0) : (⟨S4x3x1024x1024, .f32⟩ : BufTy).Contents (Elt F) → (⟨S4x1x1024x1024, .f32⟩ : BufTy).Contents (Elt F)),
    reshape main_v68 main_v69 rfl shapeCasts_S4x1x1024x1024_S4x1024x1024,
    unary main_v69 main_v70 (broadcastInDim S4x1024x1024x1 ![0, 1, 2] bcast_S4x1024x1024_S4x1024x1024x1_0_1_2 : (⟨S4x1024x1024, .f32⟩ : BufTy).Contents (Elt F) → (⟨S4x1024x1024x1, .f32⟩ : BufTy).Contents (Elt F)),
    unary main_v61 main_v71 ((extractStridedSlice S4x1x1024x1024 ![0, 1, 0, 0] · slices_S4x3x1024x1024_S4x1x1024x1024_0_1_0_0) : (⟨S4x3x1024x1024, .f32⟩ : BufTy).Contents (Elt F) → (⟨S4x1x1024x1024, .f32⟩ : BufTy).Contents (Elt F)),
    reshape main_v71 main_v72 rfl shapeCasts_S4x1x1024x1024_S4x1024x1024,
    unary main_v72 main_v73 (broadcastInDim S4x1024x1024x1 ![0, 1, 2] bcast_S4x1024x1024_S4x1024x1024x1_0_1_2 : (⟨S4x1024x1024, .f32⟩ : BufTy).Contents (Elt F) → (⟨S4x1024x1024x1, .f32⟩ : BufTy).Contents (Elt F)),
    unary main_v61 main_v74 ((extractStridedSlice S4x1x1024x1024 ![0, 2, 0, 0] · slices_S4x3x1024x1024_S4x1x1024x1024_0_2_0_0) : (⟨S4x3x1024x1024, .f32⟩ : BufTy).Contents (Elt F) → (⟨S4x1x1024x1024, .f32⟩ : BufTy).Contents (Elt F)),
    reshape main_v74 main_v75 rfl shapeCasts_S4x1x1024x1024_S4x1024x1024,
    unary main_v75 main_v76 (broadcastInDim S4x1024x1024x1 ![0, 1, 2] bcast_S4x1024x1024_S4x1024x1024x1_0_1_2 : (⟨S4x1024x1024, .f32⟩ : BufTy).Contents (Elt F) → (⟨S4x1024x1024x1, .f32⟩ : BufTy).Contents (Elt F)),
    reshape main_arg2 main_v77 rfl shapeCasts_S17x17x17x3_S4913x3,
    nullary main_c_9 (constantI S_ 32 0#32),
    unary main_c_9 main_v78 (broadcastInDim S4x1024x1024 ![] bcast_S_S4x1024x1024 : (⟨S_, .i32⟩ : BufTy).Contents (Elt F) → (⟨S4x1024x1024, .i32⟩ : BufTy).Contents (Elt F)),
    binary main_v63 main_v78 main_v79 (addi : (⟨S4x1024x1024, .i32⟩ : BufTy).Contents (Elt F) → (⟨S4x1024x1024, .i32⟩ : BufTy).Contents (Elt F) → (⟨S4x1024x1024, .i32⟩ : BufTy).Contents (Elt F)),
    nullary main_c_10 (constantI S_ 32 17#32),
    unary main_c_10 main_v80 (broadcastInDim S4x1024x1024 ![] bcast_S_S4x1024x1024 : (⟨S_, .i32⟩ : BufTy).Contents (Elt F) → (⟨S4x1024x1024, .i32⟩ : BufTy).Contents (Elt F)),
    binary main_v79 main_v80 main_v81 (muli : (⟨S4x1024x1024, .i32⟩ : BufTy).Contents (Elt F) → (⟨S4x1024x1024, .i32⟩ : BufTy).Contents (Elt F) → (⟨S4x1024x1024, .i32⟩ : BufTy).Contents (Elt F)),
    nullary main_c_11 (constantI S_ 32 0#32),
    unary main_c_11 main_v82 (broadcastInDim S4x1024x1024 ![] bcast_S_S4x1024x1024 : (⟨S_, .i32⟩ : BufTy).Contents (Elt F) → (⟨S4x1024x1024, .i32⟩ : BufTy).Contents (Elt F)),
    binary main_v65 main_v82 main_v83 (addi : (⟨S4x1024x1024, .i32⟩ : BufTy).Contents (Elt F) → (⟨S4x1024x1024, .i32⟩ : BufTy).Contents (Elt F) → (⟨S4x1024x1024, .i32⟩ : BufTy).Contents (Elt F)),
    binary main_v81 main_v83 main_v84 (addi : (⟨S4x1024x1024, .i32⟩ : BufTy).Contents (Elt F) → (⟨S4x1024x1024, .i32⟩ : BufTy).Contents (Elt F) → (⟨S4x1024x1024, .i32⟩ : BufTy).Contents (Elt F)),
    nullary main_c_12 (constantI S_ 32 17#32),
    unary main_c_12 main_v85 (broadcastInDim S4x1024x1024 ![] bcast_S_S4x1024x1024 : (⟨S_, .i32⟩ : BufTy).Contents (Elt F) → (⟨S4x1024x1024, .i32⟩ : BufTy).Contents (Elt F)),
    binary main_v84 main_v85 main_v86 (muli : (⟨S4x1024x1024, .i32⟩ : BufTy).Contents (Elt F) → (⟨S4x1024x1024, .i32⟩ : BufTy).Contents (Elt F) → (⟨S4x1024x1024, .i32⟩ : BufTy).Contents (Elt F)),
    nullary main_c_13 (constantI S_ 32 0#32),
    unary main_c_13 main_v87 (broadcastInDim S4x1024x1024 ![] bcast_S_S4x1024x1024 : (⟨S_, .i32⟩ : BufTy).Contents (Elt F) → (⟨S4x1024x1024, .i32⟩ : BufTy).Contents (Elt F)),
    binary main_v67 main_v87 main_v88 (addi : (⟨S4x1024x1024, .i32⟩ : BufTy).Contents (Elt F) → (⟨S4x1024x1024, .i32⟩ : BufTy).Contents (Elt F) → (⟨S4x1024x1024, .i32⟩ : BufTy).Contents (Elt F)),
    binary main_v86 main_v88 main_v89 (addi : (⟨S4x1024x1024, .i32⟩ : BufTy).Contents (Elt F) → (⟨S4x1024x1024, .i32⟩ : BufTy).Contents (Elt F) → (⟨S4x1024x1024, .i32⟩ : BufTy).Contents (Elt F)),
    nullary main_c_14 (constantI S_ 32 0#32),
    unary main_c_14 main_v90 (broadcastInDim S4x1024x1024 ![] bcast_S_S4x1024x1024 : (⟨S_, .i32⟩ : BufTy).Contents (Elt F) → (⟨S4x1024x1024, .i32⟩ : BufTy).Contents (Elt F)),
    binary main_v89 main_v90 main_v91 (cmpi .slt : (⟨S4x1024x1024, .i32⟩ : BufTy).Contents (Elt F) → (⟨S4x1024x1024, .i32⟩ : BufTy).Contents (Elt F) → (⟨S4x1024x1024, .i1⟩ : BufTy).Contents (Elt F)),
    nullary main_c_15 (constantI S_ 32 4913#32),
    unary main_c_15 main_v92 (broadcastInDim S4x1024x1024 ![] bcast_S_S4x1024x1024 : (⟨S_, .i32⟩ : BufTy).Contents (Elt F) → (⟨S4x1024x1024, .i32⟩ : BufTy).Contents (Elt F)),
    binary main_v89 main_v92 main_v93 (addi : (⟨S4x1024x1024, .i32⟩ : BufTy).Contents (Elt F) → (⟨S4x1024x1024, .i32⟩ : BufTy).Contents (Elt F) → (⟨S4x1024x1024, .i32⟩ : BufTy).Contents (Elt F)),
    ternary main_v91 main_v93 main_v89 main_v94 (select : (⟨S4x1024x1024, .i1⟩ : BufTy).Contents (Elt F) → (⟨S4x1024x1024, .i32⟩ : BufTy).Contents (Elt F) → (⟨S4x1024x1024, .i32⟩ : BufTy).Contents (Elt F) → (⟨S4x1024x1024, .i32⟩ : BufTy).Contents (Elt F)),
    unary main_v94 main_v95 (broadcastInDim S4x1024x1024x1 ![0, 1, 2] bcast_S4x1024x1024_S4x1024x1024x1_0_1_2 : (⟨S4x1024x1024, .i32⟩ : BufTy).Contents (Elt F) → (⟨S4x1024x1024x1, .i32⟩ : BufTy).Contents (Elt F)),
    binary main_v77 main_v95 main_v96 ((fun x i => Host.gather gather_S4913x3_S4x1024x1024x1_S4x1024x1024x3_3_0_n_n_0_3_13 x i) : (⟨S4913x3, .f32⟩ : BufTy).Contents (Elt F) → (⟨S4x1024x1024x1, .i32⟩ : BufTy).Contents (Elt F) → (⟨S4x1024x1024x3, .f32⟩ : BufTy).Contents (Elt F)),
    nullary main_cst_16 (constant S_ .f32 0x3F800000#32),
    unary main_cst_16 main_v97 (broadcastInDim S4x1024x1024x1 ![] bcast_S_S4x1024x1024x1 : (⟨S_, .f32⟩ : BufTy).Contents (Elt F) → (⟨S4x1024x1024x1, .f32⟩ : BufTy).Contents (Elt F)),
    binary main_v97 main_v70 main_v98 (subf : (⟨S4x1024x1024x1, .f32⟩ : BufTy).Contents (Elt F) → (⟨S4x1024x1024x1, .f32⟩ : BufTy).Contents (Elt F) → (⟨S4x1024x1024x1, .f32⟩ : BufTy).Contents (Elt F)),
    unary main_v98 main_v99 (broadcastInDim S4x1024x1024x3 ![0, 1, 2, 3] bcast_S4x1024x1024x1_S4x1024x1024x3_0_1_2_3 : (⟨S4x1024x1024x1, .f32⟩ : BufTy).Contents (Elt F) → (⟨S4x1024x1024x3, .f32⟩ : BufTy).Contents (Elt F)),
    binary main_v96 main_v99 main_v100 (mulf : (⟨S4x1024x1024x3, .f32⟩ : BufTy).Contents (Elt F) → (⟨S4x1024x1024x3, .f32⟩ : BufTy).Contents (Elt F) → (⟨S4x1024x1024x3, .f32⟩ : BufTy).Contents (Elt F)) ]

/-- The operations of statements window 2 of @main, in order. -/
abbrev ops2 : List (HloOp τ sig (Elt F)) :=
  [ nullary main_cst_17 (constant S_ .f32 0x3F800000#32),
    unary main_cst_17 main_v101 (broadcastInDim S4x1024x1024x1 ![] bcast_S_S4x1024x1024x1 : (⟨S_, .f32⟩ : BufTy).Contents (Elt F) → (⟨S4x1024x1024x1, .f32⟩ : BufTy).Contents (Elt F)),
    binary main_v101 main_v73 main_v102 (subf : (⟨S4x1024x1024x1, .f32⟩ : BufTy).Contents (Elt F) → (⟨S4x1024x1024x1, .f32⟩ : BufTy).Contents (Elt F) → (⟨S4x1024x1024x1, .f32⟩ : BufTy).Contents (Elt F)),
    unary main_v102 main_v103 (broadcastInDim S4x1024x1024x3 ![0, 1, 2, 3] bcast_S4x1024x1024x1_S4x1024x1024x3_0_1_2_3 : (⟨S4x1024x1024x1, .f32⟩ : BufTy).Contents (Elt F) → (⟨S4x1024x1024x3, .f32⟩ : BufTy).Contents (Elt F)),
    binary main_v100 main_v103 main_v104 (mulf : (⟨S4x1024x1024x3, .f32⟩ : BufTy).Contents (Elt F) → (⟨S4x1024x1024x3, .f32⟩ : BufTy).Contents (Elt F) → (⟨S4x1024x1024x3, .f32⟩ : BufTy).Contents (Elt F)),
    nullary main_cst_18 (constant S_ .f32 0x3F800000#32),
    unary main_cst_18 main_v105 (broadcastInDim S4x1024x1024x1 ![] bcast_S_S4x1024x1024x1 : (⟨S_, .f32⟩ : BufTy).Contents (Elt F) → (⟨S4x1024x1024x1, .f32⟩ : BufTy).Contents (Elt F)),
    binary main_v105 main_v76 main_v106 (subf : (⟨S4x1024x1024x1, .f32⟩ : BufTy).Contents (Elt F) → (⟨S4x1024x1024x1, .f32⟩ : BufTy).Contents (Elt F) → (⟨S4x1024x1024x1, .f32⟩ : BufTy).Contents (Elt F)),
    unary main_v106 main_v107 (broadcastInDim S4x1024x1024x3 ![0, 1, 2, 3] bcast_S4x1024x1024x1_S4x1024x1024x3_0_1_2_3 : (⟨S4x1024x1024x1, .f32⟩ : BufTy).Contents (Elt F) → (⟨S4x1024x1024x3, .f32⟩ : BufTy).Contents (Elt F)),
    binary main_v104 main_v107 main_v108 (mulf : (⟨S4x1024x1024x3, .f32⟩ : BufTy).Contents (Elt F) → (⟨S4x1024x1024x3, .f32⟩ : BufTy).Contents (Elt F) → (⟨S4x1024x1024x3, .f32⟩ : BufTy).Contents (Elt F)),
    nullary main_c_19 (constantI S_ 32 1#32),
    unary main_c_19 main_v109 (broadcastInDim S4x1024x1024 ![] bcast_S_S4x1024x1024 : (⟨S_, .i32⟩ : BufTy).Contents (Elt F) → (⟨S4x1024x1024, .i32⟩ : BufTy).Contents (Elt F)),
    binary main_v63 main_v109 main_v110 (addi : (⟨S4x1024x1024, .i32⟩ : BufTy).Contents (Elt F) → (⟨S4x1024x1024, .i32⟩ : BufTy).Contents (Elt F) → (⟨S4x1024x1024, .i32⟩ : BufTy).Contents (Elt F)),
    nullary main_c_20 (constantI S_ 32 17#32),
    unary main_c_20 main_v111 (broadcastInDim S4x1024x1024 ![] bcast_S_S4x1024x1024 : (⟨S_, .i32⟩ : BufTy).Contents (Elt F) → (⟨S4x1024x1024, .i32⟩ : BufTy).Contents (Elt F)),
    binary main_v110 main_v111 main_v112 (muli : (⟨S4x1024x1024, .i32⟩ : BufTy).Contents (Elt F) → (⟨S4x1024x1024, .i32⟩ : BufTy).Contents (Elt F) → (⟨S4x1024x1024, .i32⟩ : BufTy).Contents (Elt F)),
    nullary main_c_21 (constantI S_ 32 0#32),
    unary main_c_21 main_v113 (broadcastInDim S4x1024x1024 ![] bcast_S_S4x1024x1024 : (⟨S_, .i32⟩ : BufTy).Contents (Elt F) → (⟨S4x1024x1024, .i32⟩ : BufTy).Contents (Elt F)),
    binary main_v65 main_v113 main_v114 (addi : (⟨S4x1024x1024, .i32⟩ : BufTy).Contents (Elt F) → (⟨S4x1024x1024, .i32⟩ : BufTy).Contents (Elt F) → (⟨S4x1024x1024, .i32⟩ : BufTy).Contents (Elt F)),
    binary main_v112 main_v114 main_v115 (addi : (⟨S4x1024x1024, .i32⟩ : BufTy).Contents (Elt F) → (⟨S4x1024x1024, .i32⟩ : BufTy).Contents (Elt F) → (⟨S4x1024x1024, .i32⟩ : BufTy).Contents (Elt F)),
    nullary main_c_22 (constantI S_ 32 17#32),
    unary main_c_22 main_v116 (broadcastInDim S4x1024x1024 ![] bcast_S_S4x1024x1024 : (⟨S_, .i32⟩ : BufTy).Contents (Elt F) → (⟨S4x1024x1024, .i32⟩ : BufTy).Contents (Elt F)),
    binary main_v115 main_v116 main_v117 (muli : (⟨S4x1024x1024, .i32⟩ : BufTy).Contents (Elt F) → (⟨S4x1024x1024, .i32⟩ : BufTy).Contents (Elt F) → (⟨S4x1024x1024, .i32⟩ : BufTy).Contents (Elt F)),
    nullary main_c_23 (constantI S_ 32 0#32),
    unary main_c_23 main_v118 (broadcastInDim S4x1024x1024 ![] bcast_S_S4x1024x1024 : (⟨S_, .i32⟩ : BufTy).Contents (Elt F) → (⟨S4x1024x1024, .i32⟩ : BufTy).Contents (Elt F)),
    binary main_v67 main_v118 main_v119 (addi : (⟨S4x1024x1024, .i32⟩ : BufTy).Contents (Elt F) → (⟨S4x1024x1024, .i32⟩ : BufTy).Contents (Elt F) → (⟨S4x1024x1024, .i32⟩ : BufTy).Contents (Elt F)),
    binary main_v117 main_v119 main_v120 (addi : (⟨S4x1024x1024, .i32⟩ : BufTy).Contents (Elt F) → (⟨S4x1024x1024, .i32⟩ : BufTy).Contents (Elt F) → (⟨S4x1024x1024, .i32⟩ : BufTy).Contents (Elt F)),
    nullary main_c_24 (constantI S_ 32 0#32),
    unary main_c_24 main_v121 (broadcastInDim S4x1024x1024 ![] bcast_S_S4x1024x1024 : (⟨S_, .i32⟩ : BufTy).Contents (Elt F) → (⟨S4x1024x1024, .i32⟩ : BufTy).Contents (Elt F)),
    binary main_v120 main_v121 main_v122 (cmpi .slt : (⟨S4x1024x1024, .i32⟩ : BufTy).Contents (Elt F) → (⟨S4x1024x1024, .i32⟩ : BufTy).Contents (Elt F) → (⟨S4x1024x1024, .i1⟩ : BufTy).Contents (Elt F)),
    nullary main_c_25 (constantI S_ 32 4913#32),
    unary main_c_25 main_v123 (broadcastInDim S4x1024x1024 ![] bcast_S_S4x1024x1024 : (⟨S_, .i32⟩ : BufTy).Contents (Elt F) → (⟨S4x1024x1024, .i32⟩ : BufTy).Contents (Elt F)),
    binary main_v120 main_v123 main_v124 (addi : (⟨S4x1024x1024, .i32⟩ : BufTy).Contents (Elt F) → (⟨S4x1024x1024, .i32⟩ : BufTy).Contents (Elt F) → (⟨S4x1024x1024, .i32⟩ : BufTy).Contents (Elt F)),
    ternary main_v122 main_v124 main_v120 main_v125 (select : (⟨S4x1024x1024, .i1⟩ : BufTy).Contents (Elt F) → (⟨S4x1024x1024, .i32⟩ : BufTy).Contents (Elt F) → (⟨S4x1024x1024, .i32⟩ : BufTy).Contents (Elt F) → (⟨S4x1024x1024, .i32⟩ : BufTy).Contents (Elt F)),
    unary main_v125 main_v126 (broadcastInDim S4x1024x1024x1 ![0, 1, 2] bcast_S4x1024x1024_S4x1024x1024x1_0_1_2 : (⟨S4x1024x1024, .i32⟩ : BufTy).Contents (Elt F) → (⟨S4x1024x1024x1, .i32⟩ : BufTy).Contents (Elt F)),
    binary main_v77 main_v126 main_v127 ((fun x i => Host.gather gather_S4913x3_S4x1024x1024x1_S4x1024x1024x3_3_0_n_n_0_3_13 x i) : (⟨S4913x3, .f32⟩ : BufTy).Contents (Elt F) → (⟨S4x1024x1024x1, .i32⟩ : BufTy).Contents (Elt F) → (⟨S4x1024x1024x3, .f32⟩ : BufTy).Contents (Elt F)),
    unary main_v70 main_v128 (broadcastInDim S4x1024x1024x3 ![0, 1, 2, 3] bcast_S4x1024x1024x1_S4x1024x1024x3_0_1_2_3 : (⟨S4x1024x1024x1, .f32⟩ : BufTy).Contents (Elt F) → (⟨S4x1024x1024x3, .f32⟩ : BufTy).Contents (Elt F)),
    binary main_v127 main_v128 main_v129 (mulf : (⟨S4x1024x1024x3, .f32⟩ : BufTy).Contents (Elt F) → (⟨S4x1024x1024x3, .f32⟩ : BufTy).Contents (Elt F) → (⟨S4x1024x1024x3, .f32⟩ : BufTy).Contents (Elt F)),
    nullary main_cst_26 (constant S_ .f32 0x3F800000#32),
    unary main_cst_26 main_v130 (broadcastInDim S4x1024x1024x1 ![] bcast_S_S4x1024x1024x1 : (⟨S_, .f32⟩ : BufTy).Contents (Elt F) → (⟨S4x1024x1024x1, .f32⟩ : BufTy).Contents (Elt F)),
    binary main_v130 main_v73 main_v131 (subf : (⟨S4x1024x1024x1, .f32⟩ : BufTy).Contents (Elt F) → (⟨S4x1024x1024x1, .f32⟩ : BufTy).Contents (Elt F) → (⟨S4x1024x1024x1, .f32⟩ : BufTy).Contents (Elt F)),
    unary main_v131 main_v132 (broadcastInDim S4x1024x1024x3 ![0, 1, 2, 3] bcast_S4x1024x1024x1_S4x1024x1024x3_0_1_2_3 : (⟨S4x1024x1024x1, .f32⟩ : BufTy).Contents (Elt F) → (⟨S4x1024x1024x3, .f32⟩ : BufTy).Contents (Elt F)),
    binary main_v129 main_v132 main_v133 (mulf : (⟨S4x1024x1024x3, .f32⟩ : BufTy).Contents (Elt F) → (⟨S4x1024x1024x3, .f32⟩ : BufTy).Contents (Elt F) → (⟨S4x1024x1024x3, .f32⟩ : BufTy).Contents (Elt F)),
    nullary main_cst_27 (constant S_ .f32 0x3F800000#32),
    unary main_cst_27 main_v134 (broadcastInDim S4x1024x1024x1 ![] bcast_S_S4x1024x1024x1 : (⟨S_, .f32⟩ : BufTy).Contents (Elt F) → (⟨S4x1024x1024x1, .f32⟩ : BufTy).Contents (Elt F)),
    binary main_v134 main_v76 main_v135 (subf : (⟨S4x1024x1024x1, .f32⟩ : BufTy).Contents (Elt F) → (⟨S4x1024x1024x1, .f32⟩ : BufTy).Contents (Elt F) → (⟨S4x1024x1024x1, .f32⟩ : BufTy).Contents (Elt F)),
    unary main_v135 main_v136 (broadcastInDim S4x1024x1024x3 ![0, 1, 2, 3] bcast_S4x1024x1024x1_S4x1024x1024x3_0_1_2_3 : (⟨S4x1024x1024x1, .f32⟩ : BufTy).Contents (Elt F) → (⟨S4x1024x1024x3, .f32⟩ : BufTy).Contents (Elt F)),
    binary main_v133 main_v136 main_v137 (mulf : (⟨S4x1024x1024x3, .f32⟩ : BufTy).Contents (Elt F) → (⟨S4x1024x1024x3, .f32⟩ : BufTy).Contents (Elt F) → (⟨S4x1024x1024x3, .f32⟩ : BufTy).Contents (Elt F)),
    binary main_v108 main_v137 main_v138 (addf : (⟨S4x1024x1024x3, .f32⟩ : BufTy).Contents (Elt F) → (⟨S4x1024x1024x3, .f32⟩ : BufTy).Contents (Elt F) → (⟨S4x1024x1024x3, .f32⟩ : BufTy).Contents (Elt F)),
    nullary main_c_28 (constantI S_ 32 0#32),
    unary main_c_28 main_v139 (broadcastInDim S4x1024x1024 ![] bcast_S_S4x1024x1024 : (⟨S_, .i32⟩ : BufTy).Contents (Elt F) → (⟨S4x1024x1024, .i32⟩ : BufTy).Contents (Elt F)),
    binary main_v63 main_v139 main_v140 (addi : (⟨S4x1024x1024, .i32⟩ : BufTy).Contents (Elt F) → (⟨S4x1024x1024, .i32⟩ : BufTy).Contents (Elt F) → (⟨S4x1024x1024, .i32⟩ : BufTy).Contents (Elt F)),
    nullary main_c_29 (constantI S_ 32 17#32),
    unary main_c_29 main_v141 (broadcastInDim S4x1024x1024 ![] bcast_S_S4x1024x1024 : (⟨S_, .i32⟩ : BufTy).Contents (Elt F) → (⟨S4x1024x1024, .i32⟩ : BufTy).Contents (Elt F)),
    binary main_v140 main_v141 main_v142 (muli : (⟨S4x1024x1024, .i32⟩ : BufTy).Contents (Elt F) → (⟨S4x1024x1024, .i32⟩ : BufTy).Contents (Elt F) → (⟨S4x1024x1024, .i32⟩ : BufTy).Contents (Elt F)),
    nullary main_c_30 (constantI S_ 32 1#32),
    unary main_c_30 main_v143 (broadcastInDim S4x1024x1024 ![] bcast_S_S4x1024x1024 : (⟨S_, .i32⟩ : BufTy).Contents (Elt F) → (⟨S4x1024x1024, .i32⟩ : BufTy).Contents (Elt F)),
    binary main_v65 main_v143 main_v144 (addi : (⟨S4x1024x1024, .i32⟩ : BufTy).Contents (Elt F) → (⟨S4x1024x1024, .i32⟩ : BufTy).Contents (Elt F) → (⟨S4x1024x1024, .i32⟩ : BufTy).Contents (Elt F)),
    binary main_v142 main_v144 main_v145 (addi : (⟨S4x1024x1024, .i32⟩ : BufTy).Contents (Elt F) → (⟨S4x1024x1024, .i32⟩ : BufTy).Contents (Elt F) → (⟨S4x1024x1024, .i32⟩ : BufTy).Contents (Elt F)),
    nullary main_c_31 (constantI S_ 32 17#32) ]

/-- The operations of statements window 3 of @main, in order. -/
abbrev ops3 : List (HloOp τ sig (Elt F)) :=
  [ unary main_c_31 main_v146 (broadcastInDim S4x1024x1024 ![] bcast_S_S4x1024x1024 : (⟨S_, .i32⟩ : BufTy).Contents (Elt F) → (⟨S4x1024x1024, .i32⟩ : BufTy).Contents (Elt F)),
    binary main_v145 main_v146 main_v147 (muli : (⟨S4x1024x1024, .i32⟩ : BufTy).Contents (Elt F) → (⟨S4x1024x1024, .i32⟩ : BufTy).Contents (Elt F) → (⟨S4x1024x1024, .i32⟩ : BufTy).Contents (Elt F)),
    nullary main_c_32 (constantI S_ 32 0#32),
    unary main_c_32 main_v148 (broadcastInDim S4x1024x1024 ![] bcast_S_S4x1024x1024 : (⟨S_, .i32⟩ : BufTy).Contents (Elt F) → (⟨S4x1024x1024, .i32⟩ : BufTy).Contents (Elt F)),
    binary main_v67 main_v148 main_v149 (addi : (⟨S4x1024x1024, .i32⟩ : BufTy).Contents (Elt F) → (⟨S4x1024x1024, .i32⟩ : BufTy).Contents (Elt F) → (⟨S4x1024x1024, .i32⟩ : BufTy).Contents (Elt F)),
    binary main_v147 main_v149 main_v150 (addi : (⟨S4x1024x1024, .i32⟩ : BufTy).Contents (Elt F) → (⟨S4x1024x1024, .i32⟩ : BufTy).Contents (Elt F) → (⟨S4x1024x1024, .i32⟩ : BufTy).Contents (Elt F)),
    nullary main_c_33 (constantI S_ 32 0#32),
    unary main_c_33 main_v151 (broadcastInDim S4x1024x1024 ![] bcast_S_S4x1024x1024 : (⟨S_, .i32⟩ : BufTy).Contents (Elt F) → (⟨S4x1024x1024, .i32⟩ : BufTy).Contents (Elt F)),
    binary main_v150 main_v151 main_v152 (cmpi .slt : (⟨S4x1024x1024, .i32⟩ : BufTy).Contents (Elt F) → (⟨S4x1024x1024, .i32⟩ : BufTy).Contents (Elt F) → (⟨S4x1024x1024, .i1⟩ : BufTy).Contents (Elt F)),
    nullary main_c_34 (constantI S_ 32 4913#32),
    unary main_c_34 main_v153 (broadcastInDim S4x1024x1024 ![] bcast_S_S4x1024x1024 : (⟨S_, .i32⟩ : BufTy).Contents (Elt F) → (⟨S4x1024x1024, .i32⟩ : BufTy).Contents (Elt F)),
    binary main_v150 main_v153 main_v154 (addi : (⟨S4x1024x1024, .i32⟩ : BufTy).Contents (Elt F) → (⟨S4x1024x1024, .i32⟩ : BufTy).Contents (Elt F) → (⟨S4x1024x1024, .i32⟩ : BufTy).Contents (Elt F)),
    ternary main_v152 main_v154 main_v150 main_v155 (select : (⟨S4x1024x1024, .i1⟩ : BufTy).Contents (Elt F) → (⟨S4x1024x1024, .i32⟩ : BufTy).Contents (Elt F) → (⟨S4x1024x1024, .i32⟩ : BufTy).Contents (Elt F) → (⟨S4x1024x1024, .i32⟩ : BufTy).Contents (Elt F)),
    unary main_v155 main_v156 (broadcastInDim S4x1024x1024x1 ![0, 1, 2] bcast_S4x1024x1024_S4x1024x1024x1_0_1_2 : (⟨S4x1024x1024, .i32⟩ : BufTy).Contents (Elt F) → (⟨S4x1024x1024x1, .i32⟩ : BufTy).Contents (Elt F)),
    binary main_v77 main_v156 main_v157 ((fun x i => Host.gather gather_S4913x3_S4x1024x1024x1_S4x1024x1024x3_3_0_n_n_0_3_13 x i) : (⟨S4913x3, .f32⟩ : BufTy).Contents (Elt F) → (⟨S4x1024x1024x1, .i32⟩ : BufTy).Contents (Elt F) → (⟨S4x1024x1024x3, .f32⟩ : BufTy).Contents (Elt F)),
    nullary main_cst_35 (constant S_ .f32 0x3F800000#32),
    unary main_cst_35 main_v158 (broadcastInDim S4x1024x1024x1 ![] bcast_S_S4x1024x1024x1 : (⟨S_, .f32⟩ : BufTy).Contents (Elt F) → (⟨S4x1024x1024x1, .f32⟩ : BufTy).Contents (Elt F)),
    binary main_v158 main_v70 main_v159 (subf : (⟨S4x1024x1024x1, .f32⟩ : BufTy).Contents (Elt F) → (⟨S4x1024x1024x1, .f32⟩ : BufTy).Contents (Elt F) → (⟨S4x1024x1024x1, .f32⟩ : BufTy).Contents (Elt F)),
    unary main_v159 main_v160 (broadcastInDim S4x1024x1024x3 ![0, 1, 2, 3] bcast_S4x1024x1024x1_S4x1024x1024x3_0_1_2_3 : (⟨S4x1024x1024x1, .f32⟩ : BufTy).Contents (Elt F) → (⟨S4x1024x1024x3, .f32⟩ : BufTy).Contents (Elt F)),
    binary main_v157 main_v160 main_v161 (mulf : (⟨S4x1024x1024x3, .f32⟩ : BufTy).Contents (Elt F) → (⟨S4x1024x1024x3, .f32⟩ : BufTy).Contents (Elt F) → (⟨S4x1024x1024x3, .f32⟩ : BufTy).Contents (Elt F)),
    unary main_v73 main_v162 (broadcastInDim S4x1024x1024x3 ![0, 1, 2, 3] bcast_S4x1024x1024x1_S4x1024x1024x3_0_1_2_3 : (⟨S4x1024x1024x1, .f32⟩ : BufTy).Contents (Elt F) → (⟨S4x1024x1024x3, .f32⟩ : BufTy).Contents (Elt F)),
    binary main_v161 main_v162 main_v163 (mulf : (⟨S4x1024x1024x3, .f32⟩ : BufTy).Contents (Elt F) → (⟨S4x1024x1024x3, .f32⟩ : BufTy).Contents (Elt F) → (⟨S4x1024x1024x3, .f32⟩ : BufTy).Contents (Elt F)),
    nullary main_cst_36 (constant S_ .f32 0x3F800000#32),
    unary main_cst_36 main_v164 (broadcastInDim S4x1024x1024x1 ![] bcast_S_S4x1024x1024x1 : (⟨S_, .f32⟩ : BufTy).Contents (Elt F) → (⟨S4x1024x1024x1, .f32⟩ : BufTy).Contents (Elt F)),
    binary main_v164 main_v76 main_v165 (subf : (⟨S4x1024x1024x1, .f32⟩ : BufTy).Contents (Elt F) → (⟨S4x1024x1024x1, .f32⟩ : BufTy).Contents (Elt F) → (⟨S4x1024x1024x1, .f32⟩ : BufTy).Contents (Elt F)),
    unary main_v165 main_v166 (broadcastInDim S4x1024x1024x3 ![0, 1, 2, 3] bcast_S4x1024x1024x1_S4x1024x1024x3_0_1_2_3 : (⟨S4x1024x1024x1, .f32⟩ : BufTy).Contents (Elt F) → (⟨S4x1024x1024x3, .f32⟩ : BufTy).Contents (Elt F)),
    binary main_v163 main_v166 main_v167 (mulf : (⟨S4x1024x1024x3, .f32⟩ : BufTy).Contents (Elt F) → (⟨S4x1024x1024x3, .f32⟩ : BufTy).Contents (Elt F) → (⟨S4x1024x1024x3, .f32⟩ : BufTy).Contents (Elt F)),
    binary main_v138 main_v167 main_v168 (addf : (⟨S4x1024x1024x3, .f32⟩ : BufTy).Contents (Elt F) → (⟨S4x1024x1024x3, .f32⟩ : BufTy).Contents (Elt F) → (⟨S4x1024x1024x3, .f32⟩ : BufTy).Contents (Elt F)),
    nullary main_c_37 (constantI S_ 32 0#32),
    unary main_c_37 main_v169 (broadcastInDim S4x1024x1024 ![] bcast_S_S4x1024x1024 : (⟨S_, .i32⟩ : BufTy).Contents (Elt F) → (⟨S4x1024x1024, .i32⟩ : BufTy).Contents (Elt F)),
    binary main_v63 main_v169 main_v170 (addi : (⟨S4x1024x1024, .i32⟩ : BufTy).Contents (Elt F) → (⟨S4x1024x1024, .i32⟩ : BufTy).Contents (Elt F) → (⟨S4x1024x1024, .i32⟩ : BufTy).Contents (Elt F)),
    nullary main_c_38 (constantI S_ 32 17#32),
    unary main_c_38 main_v171 (broadcastInDim S4x1024x1024 ![] bcast_S_S4x1024x1024 : (⟨S_, .i32⟩ : BufTy).Contents (Elt F) → (⟨S4x1024x1024, .i32⟩ : BufTy).Contents (Elt F)),
    binary main_v170 main_v171 main_v172 (muli : (⟨S4x1024x1024, .i32⟩ : BufTy).Contents (Elt F) → (⟨S4x1024x1024, .i32⟩ : BufTy).Contents (Elt F) → (⟨S4x1024x1024, .i32⟩ : BufTy).Contents (Elt F)),
    nullary main_c_39 (constantI S_ 32 0#32),
    unary main_c_39 main_v173 (broadcastInDim S4x1024x1024 ![] bcast_S_S4x1024x1024 : (⟨S_, .i32⟩ : BufTy).Contents (Elt F) → (⟨S4x1024x1024, .i32⟩ : BufTy).Contents (Elt F)),
    binary main_v65 main_v173 main_v174 (addi : (⟨S4x1024x1024, .i32⟩ : BufTy).Contents (Elt F) → (⟨S4x1024x1024, .i32⟩ : BufTy).Contents (Elt F) → (⟨S4x1024x1024, .i32⟩ : BufTy).Contents (Elt F)),
    binary main_v172 main_v174 main_v175 (addi : (⟨S4x1024x1024, .i32⟩ : BufTy).Contents (Elt F) → (⟨S4x1024x1024, .i32⟩ : BufTy).Contents (Elt F) → (⟨S4x1024x1024, .i32⟩ : BufTy).Contents (Elt F)),
    nullary main_c_40 (constantI S_ 32 17#32),
    unary main_c_40 main_v176 (broadcastInDim S4x1024x1024 ![] bcast_S_S4x1024x1024 : (⟨S_, .i32⟩ : BufTy).Contents (Elt F) → (⟨S4x1024x1024, .i32⟩ : BufTy).Contents (Elt F)),
    binary main_v175 main_v176 main_v177 (muli : (⟨S4x1024x1024, .i32⟩ : BufTy).Contents (Elt F) → (⟨S4x1024x1024, .i32⟩ : BufTy).Contents (Elt F) → (⟨S4x1024x1024, .i32⟩ : BufTy).Contents (Elt F)),
    nullary main_c_41 (constantI S_ 32 1#32),
    unary main_c_41 main_v178 (broadcastInDim S4x1024x1024 ![] bcast_S_S4x1024x1024 : (⟨S_, .i32⟩ : BufTy).Contents (Elt F) → (⟨S4x1024x1024, .i32⟩ : BufTy).Contents (Elt F)),
    binary main_v67 main_v178 main_v179 (addi : (⟨S4x1024x1024, .i32⟩ : BufTy).Contents (Elt F) → (⟨S4x1024x1024, .i32⟩ : BufTy).Contents (Elt F) → (⟨S4x1024x1024, .i32⟩ : BufTy).Contents (Elt F)),
    binary main_v177 main_v179 main_v180 (addi : (⟨S4x1024x1024, .i32⟩ : BufTy).Contents (Elt F) → (⟨S4x1024x1024, .i32⟩ : BufTy).Contents (Elt F) → (⟨S4x1024x1024, .i32⟩ : BufTy).Contents (Elt F)),
    nullary main_c_42 (constantI S_ 32 0#32),
    unary main_c_42 main_v181 (broadcastInDim S4x1024x1024 ![] bcast_S_S4x1024x1024 : (⟨S_, .i32⟩ : BufTy).Contents (Elt F) → (⟨S4x1024x1024, .i32⟩ : BufTy).Contents (Elt F)),
    binary main_v180 main_v181 main_v182 (cmpi .slt : (⟨S4x1024x1024, .i32⟩ : BufTy).Contents (Elt F) → (⟨S4x1024x1024, .i32⟩ : BufTy).Contents (Elt F) → (⟨S4x1024x1024, .i1⟩ : BufTy).Contents (Elt F)),
    nullary main_c_43 (constantI S_ 32 4913#32),
    unary main_c_43 main_v183 (broadcastInDim S4x1024x1024 ![] bcast_S_S4x1024x1024 : (⟨S_, .i32⟩ : BufTy).Contents (Elt F) → (⟨S4x1024x1024, .i32⟩ : BufTy).Contents (Elt F)),
    binary main_v180 main_v183 main_v184 (addi : (⟨S4x1024x1024, .i32⟩ : BufTy).Contents (Elt F) → (⟨S4x1024x1024, .i32⟩ : BufTy).Contents (Elt F) → (⟨S4x1024x1024, .i32⟩ : BufTy).Contents (Elt F)),
    ternary main_v182 main_v184 main_v180 main_v185 (select : (⟨S4x1024x1024, .i1⟩ : BufTy).Contents (Elt F) → (⟨S4x1024x1024, .i32⟩ : BufTy).Contents (Elt F) → (⟨S4x1024x1024, .i32⟩ : BufTy).Contents (Elt F) → (⟨S4x1024x1024, .i32⟩ : BufTy).Contents (Elt F)),
    unary main_v185 main_v186 (broadcastInDim S4x1024x1024x1 ![0, 1, 2] bcast_S4x1024x1024_S4x1024x1024x1_0_1_2 : (⟨S4x1024x1024, .i32⟩ : BufTy).Contents (Elt F) → (⟨S4x1024x1024x1, .i32⟩ : BufTy).Contents (Elt F)),
    binary main_v77 main_v186 main_v187 ((fun x i => Host.gather gather_S4913x3_S4x1024x1024x1_S4x1024x1024x3_3_0_n_n_0_3_13 x i) : (⟨S4913x3, .f32⟩ : BufTy).Contents (Elt F) → (⟨S4x1024x1024x1, .i32⟩ : BufTy).Contents (Elt F) → (⟨S4x1024x1024x3, .f32⟩ : BufTy).Contents (Elt F)),
    nullary main_cst_44 (constant S_ .f32 0x3F800000#32),
    unary main_cst_44 main_v188 (broadcastInDim S4x1024x1024x1 ![] bcast_S_S4x1024x1024x1 : (⟨S_, .f32⟩ : BufTy).Contents (Elt F) → (⟨S4x1024x1024x1, .f32⟩ : BufTy).Contents (Elt F)),
    binary main_v188 main_v70 main_v189 (subf : (⟨S4x1024x1024x1, .f32⟩ : BufTy).Contents (Elt F) → (⟨S4x1024x1024x1, .f32⟩ : BufTy).Contents (Elt F) → (⟨S4x1024x1024x1, .f32⟩ : BufTy).Contents (Elt F)),
    unary main_v189 main_v190 (broadcastInDim S4x1024x1024x3 ![0, 1, 2, 3] bcast_S4x1024x1024x1_S4x1024x1024x3_0_1_2_3 : (⟨S4x1024x1024x1, .f32⟩ : BufTy).Contents (Elt F) → (⟨S4x1024x1024x3, .f32⟩ : BufTy).Contents (Elt F)),
    binary main_v187 main_v190 main_v191 (mulf : (⟨S4x1024x1024x3, .f32⟩ : BufTy).Contents (Elt F) → (⟨S4x1024x1024x3, .f32⟩ : BufTy).Contents (Elt F) → (⟨S4x1024x1024x3, .f32⟩ : BufTy).Contents (Elt F)),
    nullary main_cst_45 (constant S_ .f32 0x3F800000#32) ]

/-- The operations of statements window 4 of @main, in order. -/
abbrev ops4 : List (HloOp τ sig (Elt F)) :=
  [ unary main_cst_45 main_v192 (broadcastInDim S4x1024x1024x1 ![] bcast_S_S4x1024x1024x1 : (⟨S_, .f32⟩ : BufTy).Contents (Elt F) → (⟨S4x1024x1024x1, .f32⟩ : BufTy).Contents (Elt F)),
    binary main_v192 main_v73 main_v193 (subf : (⟨S4x1024x1024x1, .f32⟩ : BufTy).Contents (Elt F) → (⟨S4x1024x1024x1, .f32⟩ : BufTy).Contents (Elt F) → (⟨S4x1024x1024x1, .f32⟩ : BufTy).Contents (Elt F)),
    unary main_v193 main_v194 (broadcastInDim S4x1024x1024x3 ![0, 1, 2, 3] bcast_S4x1024x1024x1_S4x1024x1024x3_0_1_2_3 : (⟨S4x1024x1024x1, .f32⟩ : BufTy).Contents (Elt F) → (⟨S4x1024x1024x3, .f32⟩ : BufTy).Contents (Elt F)),
    binary main_v191 main_v194 main_v195 (mulf : (⟨S4x1024x1024x3, .f32⟩ : BufTy).Contents (Elt F) → (⟨S4x1024x1024x3, .f32⟩ : BufTy).Contents (Elt F) → (⟨S4x1024x1024x3, .f32⟩ : BufTy).Contents (Elt F)),
    unary main_v76 main_v196 (broadcastInDim S4x1024x1024x3 ![0, 1, 2, 3] bcast_S4x1024x1024x1_S4x1024x1024x3_0_1_2_3 : (⟨S4x1024x1024x1, .f32⟩ : BufTy).Contents (Elt F) → (⟨S4x1024x1024x3, .f32⟩ : BufTy).Contents (Elt F)),
    binary main_v195 main_v196 main_v197 (mulf : (⟨S4x1024x1024x3, .f32⟩ : BufTy).Contents (Elt F) → (⟨S4x1024x1024x3, .f32⟩ : BufTy).Contents (Elt F) → (⟨S4x1024x1024x3, .f32⟩ : BufTy).Contents (Elt F)),
    binary main_v168 main_v197 main_v198 (addf : (⟨S4x1024x1024x3, .f32⟩ : BufTy).Contents (Elt F) → (⟨S4x1024x1024x3, .f32⟩ : BufTy).Contents (Elt F) → (⟨S4x1024x1024x3, .f32⟩ : BufTy).Contents (Elt F)),
    nullary main_c_46 (constantI S_ 32 1#32),
    unary main_c_46 main_v199 (broadcastInDim S4x1024x1024 ![] bcast_S_S4x1024x1024 : (⟨S_, .i32⟩ : BufTy).Contents (Elt F) → (⟨S4x1024x1024, .i32⟩ : BufTy).Contents (Elt F)),
    binary main_v63 main_v199 main_v200 (addi : (⟨S4x1024x1024, .i32⟩ : BufTy).Contents (Elt F) → (⟨S4x1024x1024, .i32⟩ : BufTy).Contents (Elt F) → (⟨S4x1024x1024, .i32⟩ : BufTy).Contents (Elt F)),
    nullary main_c_47 (constantI S_ 32 17#32),
    unary main_c_47 main_v201 (broadcastInDim S4x1024x1024 ![] bcast_S_S4x1024x1024 : (⟨S_, .i32⟩ : BufTy).Contents (Elt F) → (⟨S4x1024x1024, .i32⟩ : BufTy).Contents (Elt F)),
    binary main_v200 main_v201 main_v202 (muli : (⟨S4x1024x1024, .i32⟩ : BufTy).Contents (Elt F) → (⟨S4x1024x1024, .i32⟩ : BufTy).Contents (Elt F) → (⟨S4x1024x1024, .i32⟩ : BufTy).Contents (Elt F)),
    nullary main_c_48 (constantI S_ 32 1#32),
    unary main_c_48 main_v203 (broadcastInDim S4x1024x1024 ![] bcast_S_S4x1024x1024 : (⟨S_, .i32⟩ : BufTy).Contents (Elt F) → (⟨S4x1024x1024, .i32⟩ : BufTy).Contents (Elt F)),
    binary main_v65 main_v203 main_v204 (addi : (⟨S4x1024x1024, .i32⟩ : BufTy).Contents (Elt F) → (⟨S4x1024x1024, .i32⟩ : BufTy).Contents (Elt F) → (⟨S4x1024x1024, .i32⟩ : BufTy).Contents (Elt F)),
    binary main_v202 main_v204 main_v205 (addi : (⟨S4x1024x1024, .i32⟩ : BufTy).Contents (Elt F) → (⟨S4x1024x1024, .i32⟩ : BufTy).Contents (Elt F) → (⟨S4x1024x1024, .i32⟩ : BufTy).Contents (Elt F)),
    nullary main_c_49 (constantI S_ 32 17#32),
    unary main_c_49 main_v206 (broadcastInDim S4x1024x1024 ![] bcast_S_S4x1024x1024 : (⟨S_, .i32⟩ : BufTy).Contents (Elt F) → (⟨S4x1024x1024, .i32⟩ : BufTy).Contents (Elt F)),
    binary main_v205 main_v206 main_v207 (muli : (⟨S4x1024x1024, .i32⟩ : BufTy).Contents (Elt F) → (⟨S4x1024x1024, .i32⟩ : BufTy).Contents (Elt F) → (⟨S4x1024x1024, .i32⟩ : BufTy).Contents (Elt F)),
    nullary main_c_50 (constantI S_ 32 0#32),
    unary main_c_50 main_v208 (broadcastInDim S4x1024x1024 ![] bcast_S_S4x1024x1024 : (⟨S_, .i32⟩ : BufTy).Contents (Elt F) → (⟨S4x1024x1024, .i32⟩ : BufTy).Contents (Elt F)),
    binary main_v67 main_v208 main_v209 (addi : (⟨S4x1024x1024, .i32⟩ : BufTy).Contents (Elt F) → (⟨S4x1024x1024, .i32⟩ : BufTy).Contents (Elt F) → (⟨S4x1024x1024, .i32⟩ : BufTy).Contents (Elt F)),
    binary main_v207 main_v209 main_v210 (addi : (⟨S4x1024x1024, .i32⟩ : BufTy).Contents (Elt F) → (⟨S4x1024x1024, .i32⟩ : BufTy).Contents (Elt F) → (⟨S4x1024x1024, .i32⟩ : BufTy).Contents (Elt F)),
    nullary main_c_51 (constantI S_ 32 0#32),
    unary main_c_51 main_v211 (broadcastInDim S4x1024x1024 ![] bcast_S_S4x1024x1024 : (⟨S_, .i32⟩ : BufTy).Contents (Elt F) → (⟨S4x1024x1024, .i32⟩ : BufTy).Contents (Elt F)),
    binary main_v210 main_v211 main_v212 (cmpi .slt : (⟨S4x1024x1024, .i32⟩ : BufTy).Contents (Elt F) → (⟨S4x1024x1024, .i32⟩ : BufTy).Contents (Elt F) → (⟨S4x1024x1024, .i1⟩ : BufTy).Contents (Elt F)),
    nullary main_c_52 (constantI S_ 32 4913#32),
    unary main_c_52 main_v213 (broadcastInDim S4x1024x1024 ![] bcast_S_S4x1024x1024 : (⟨S_, .i32⟩ : BufTy).Contents (Elt F) → (⟨S4x1024x1024, .i32⟩ : BufTy).Contents (Elt F)),
    binary main_v210 main_v213 main_v214 (addi : (⟨S4x1024x1024, .i32⟩ : BufTy).Contents (Elt F) → (⟨S4x1024x1024, .i32⟩ : BufTy).Contents (Elt F) → (⟨S4x1024x1024, .i32⟩ : BufTy).Contents (Elt F)),
    ternary main_v212 main_v214 main_v210 main_v215 (select : (⟨S4x1024x1024, .i1⟩ : BufTy).Contents (Elt F) → (⟨S4x1024x1024, .i32⟩ : BufTy).Contents (Elt F) → (⟨S4x1024x1024, .i32⟩ : BufTy).Contents (Elt F) → (⟨S4x1024x1024, .i32⟩ : BufTy).Contents (Elt F)),
    unary main_v215 main_v216 (broadcastInDim S4x1024x1024x1 ![0, 1, 2] bcast_S4x1024x1024_S4x1024x1024x1_0_1_2 : (⟨S4x1024x1024, .i32⟩ : BufTy).Contents (Elt F) → (⟨S4x1024x1024x1, .i32⟩ : BufTy).Contents (Elt F)),
    binary main_v77 main_v216 main_v217 ((fun x i => Host.gather gather_S4913x3_S4x1024x1024x1_S4x1024x1024x3_3_0_n_n_0_3_13 x i) : (⟨S4913x3, .f32⟩ : BufTy).Contents (Elt F) → (⟨S4x1024x1024x1, .i32⟩ : BufTy).Contents (Elt F) → (⟨S4x1024x1024x3, .f32⟩ : BufTy).Contents (Elt F)),
    unary main_v70 main_v218 (broadcastInDim S4x1024x1024x3 ![0, 1, 2, 3] bcast_S4x1024x1024x1_S4x1024x1024x3_0_1_2_3 : (⟨S4x1024x1024x1, .f32⟩ : BufTy).Contents (Elt F) → (⟨S4x1024x1024x3, .f32⟩ : BufTy).Contents (Elt F)),
    binary main_v217 main_v218 main_v219 (mulf : (⟨S4x1024x1024x3, .f32⟩ : BufTy).Contents (Elt F) → (⟨S4x1024x1024x3, .f32⟩ : BufTy).Contents (Elt F) → (⟨S4x1024x1024x3, .f32⟩ : BufTy).Contents (Elt F)),
    unary main_v73 main_v220 (broadcastInDim S4x1024x1024x3 ![0, 1, 2, 3] bcast_S4x1024x1024x1_S4x1024x1024x3_0_1_2_3 : (⟨S4x1024x1024x1, .f32⟩ : BufTy).Contents (Elt F) → (⟨S4x1024x1024x3, .f32⟩ : BufTy).Contents (Elt F)),
    binary main_v219 main_v220 main_v221 (mulf : (⟨S4x1024x1024x3, .f32⟩ : BufTy).Contents (Elt F) → (⟨S4x1024x1024x3, .f32⟩ : BufTy).Contents (Elt F) → (⟨S4x1024x1024x3, .f32⟩ : BufTy).Contents (Elt F)),
    nullary main_cst_53 (constant S_ .f32 0x3F800000#32),
    unary main_cst_53 main_v222 (broadcastInDim S4x1024x1024x1 ![] bcast_S_S4x1024x1024x1 : (⟨S_, .f32⟩ : BufTy).Contents (Elt F) → (⟨S4x1024x1024x1, .f32⟩ : BufTy).Contents (Elt F)),
    binary main_v222 main_v76 main_v223 (subf : (⟨S4x1024x1024x1, .f32⟩ : BufTy).Contents (Elt F) → (⟨S4x1024x1024x1, .f32⟩ : BufTy).Contents (Elt F) → (⟨S4x1024x1024x1, .f32⟩ : BufTy).Contents (Elt F)),
    unary main_v223 main_v224 (broadcastInDim S4x1024x1024x3 ![0, 1, 2, 3] bcast_S4x1024x1024x1_S4x1024x1024x3_0_1_2_3 : (⟨S4x1024x1024x1, .f32⟩ : BufTy).Contents (Elt F) → (⟨S4x1024x1024x3, .f32⟩ : BufTy).Contents (Elt F)),
    binary main_v221 main_v224 main_v225 (mulf : (⟨S4x1024x1024x3, .f32⟩ : BufTy).Contents (Elt F) → (⟨S4x1024x1024x3, .f32⟩ : BufTy).Contents (Elt F) → (⟨S4x1024x1024x3, .f32⟩ : BufTy).Contents (Elt F)),
    binary main_v198 main_v225 main_v226 (addf : (⟨S4x1024x1024x3, .f32⟩ : BufTy).Contents (Elt F) → (⟨S4x1024x1024x3, .f32⟩ : BufTy).Contents (Elt F) → (⟨S4x1024x1024x3, .f32⟩ : BufTy).Contents (Elt F)),
    nullary main_c_54 (constantI S_ 32 1#32),
    unary main_c_54 main_v227 (broadcastInDim S4x1024x1024 ![] bcast_S_S4x1024x1024 : (⟨S_, .i32⟩ : BufTy).Contents (Elt F) → (⟨S4x1024x1024, .i32⟩ : BufTy).Contents (Elt F)),
    binary main_v63 main_v227 main_v228 (addi : (⟨S4x1024x1024, .i32⟩ : BufTy).Contents (Elt F) → (⟨S4x1024x1024, .i32⟩ : BufTy).Contents (Elt F) → (⟨S4x1024x1024, .i32⟩ : BufTy).Contents (Elt F)),
    nullary main_c_55 (constantI S_ 32 17#32),
    unary main_c_55 main_v229 (broadcastInDim S4x1024x1024 ![] bcast_S_S4x1024x1024 : (⟨S_, .i32⟩ : BufTy).Contents (Elt F) → (⟨S4x1024x1024, .i32⟩ : BufTy).Contents (Elt F)),
    binary main_v228 main_v229 main_v230 (muli : (⟨S4x1024x1024, .i32⟩ : BufTy).Contents (Elt F) → (⟨S4x1024x1024, .i32⟩ : BufTy).Contents (Elt F) → (⟨S4x1024x1024, .i32⟩ : BufTy).Contents (Elt F)),
    nullary main_c_56 (constantI S_ 32 0#32),
    unary main_c_56 main_v231 (broadcastInDim S4x1024x1024 ![] bcast_S_S4x1024x1024 : (⟨S_, .i32⟩ : BufTy).Contents (Elt F) → (⟨S4x1024x1024, .i32⟩ : BufTy).Contents (Elt F)),
    binary main_v65 main_v231 main_v232 (addi : (⟨S4x1024x1024, .i32⟩ : BufTy).Contents (Elt F) → (⟨S4x1024x1024, .i32⟩ : BufTy).Contents (Elt F) → (⟨S4x1024x1024, .i32⟩ : BufTy).Contents (Elt F)),
    binary main_v230 main_v232 main_v233 (addi : (⟨S4x1024x1024, .i32⟩ : BufTy).Contents (Elt F) → (⟨S4x1024x1024, .i32⟩ : BufTy).Contents (Elt F) → (⟨S4x1024x1024, .i32⟩ : BufTy).Contents (Elt F)),
    nullary main_c_57 (constantI S_ 32 17#32),
    unary main_c_57 main_v234 (broadcastInDim S4x1024x1024 ![] bcast_S_S4x1024x1024 : (⟨S_, .i32⟩ : BufTy).Contents (Elt F) → (⟨S4x1024x1024, .i32⟩ : BufTy).Contents (Elt F)),
    binary main_v233 main_v234 main_v235 (muli : (⟨S4x1024x1024, .i32⟩ : BufTy).Contents (Elt F) → (⟨S4x1024x1024, .i32⟩ : BufTy).Contents (Elt F) → (⟨S4x1024x1024, .i32⟩ : BufTy).Contents (Elt F)),
    nullary main_c_58 (constantI S_ 32 1#32),
    unary main_c_58 main_v236 (broadcastInDim S4x1024x1024 ![] bcast_S_S4x1024x1024 : (⟨S_, .i32⟩ : BufTy).Contents (Elt F) → (⟨S4x1024x1024, .i32⟩ : BufTy).Contents (Elt F)),
    binary main_v67 main_v236 main_v237 (addi : (⟨S4x1024x1024, .i32⟩ : BufTy).Contents (Elt F) → (⟨S4x1024x1024, .i32⟩ : BufTy).Contents (Elt F) → (⟨S4x1024x1024, .i32⟩ : BufTy).Contents (Elt F)),
    binary main_v235 main_v237 main_v238 (addi : (⟨S4x1024x1024, .i32⟩ : BufTy).Contents (Elt F) → (⟨S4x1024x1024, .i32⟩ : BufTy).Contents (Elt F) → (⟨S4x1024x1024, .i32⟩ : BufTy).Contents (Elt F)) ]

/-- The operations of statements window 5 of @main, in order. -/
abbrev ops5 : List (HloOp τ sig (Elt F)) :=
  [ nullary main_c_59 (constantI S_ 32 0#32),
    unary main_c_59 main_v239 (broadcastInDim S4x1024x1024 ![] bcast_S_S4x1024x1024 : (⟨S_, .i32⟩ : BufTy).Contents (Elt F) → (⟨S4x1024x1024, .i32⟩ : BufTy).Contents (Elt F)),
    binary main_v238 main_v239 main_v240 (cmpi .slt : (⟨S4x1024x1024, .i32⟩ : BufTy).Contents (Elt F) → (⟨S4x1024x1024, .i32⟩ : BufTy).Contents (Elt F) → (⟨S4x1024x1024, .i1⟩ : BufTy).Contents (Elt F)),
    nullary main_c_60 (constantI S_ 32 4913#32),
    unary main_c_60 main_v241 (broadcastInDim S4x1024x1024 ![] bcast_S_S4x1024x1024 : (⟨S_, .i32⟩ : BufTy).Contents (Elt F) → (⟨S4x1024x1024, .i32⟩ : BufTy).Contents (Elt F)),
    binary main_v238 main_v241 main_v242 (addi : (⟨S4x1024x1024, .i32⟩ : BufTy).Contents (Elt F) → (⟨S4x1024x1024, .i32⟩ : BufTy).Contents (Elt F) → (⟨S4x1024x1024, .i32⟩ : BufTy).Contents (Elt F)),
    ternary main_v240 main_v242 main_v238 main_v243 (select : (⟨S4x1024x1024, .i1⟩ : BufTy).Contents (Elt F) → (⟨S4x1024x1024, .i32⟩ : BufTy).Contents (Elt F) → (⟨S4x1024x1024, .i32⟩ : BufTy).Contents (Elt F) → (⟨S4x1024x1024, .i32⟩ : BufTy).Contents (Elt F)),
    unary main_v243 main_v244 (broadcastInDim S4x1024x1024x1 ![0, 1, 2] bcast_S4x1024x1024_S4x1024x1024x1_0_1_2 : (⟨S4x1024x1024, .i32⟩ : BufTy).Contents (Elt F) → (⟨S4x1024x1024x1, .i32⟩ : BufTy).Contents (Elt F)),
    binary main_v77 main_v244 main_v245 ((fun x i => Host.gather gather_S4913x3_S4x1024x1024x1_S4x1024x1024x3_3_0_n_n_0_3_13 x i) : (⟨S4913x3, .f32⟩ : BufTy).Contents (Elt F) → (⟨S4x1024x1024x1, .i32⟩ : BufTy).Contents (Elt F) → (⟨S4x1024x1024x3, .f32⟩ : BufTy).Contents (Elt F)),
    unary main_v70 main_v246 (broadcastInDim S4x1024x1024x3 ![0, 1, 2, 3] bcast_S4x1024x1024x1_S4x1024x1024x3_0_1_2_3 : (⟨S4x1024x1024x1, .f32⟩ : BufTy).Contents (Elt F) → (⟨S4x1024x1024x3, .f32⟩ : BufTy).Contents (Elt F)),
    binary main_v245 main_v246 main_v247 (mulf : (⟨S4x1024x1024x3, .f32⟩ : BufTy).Contents (Elt F) → (⟨S4x1024x1024x3, .f32⟩ : BufTy).Contents (Elt F) → (⟨S4x1024x1024x3, .f32⟩ : BufTy).Contents (Elt F)),
    nullary main_cst_61 (constant S_ .f32 0x3F800000#32),
    unary main_cst_61 main_v248 (broadcastInDim S4x1024x1024x1 ![] bcast_S_S4x1024x1024x1 : (⟨S_, .f32⟩ : BufTy).Contents (Elt F) → (⟨S4x1024x1024x1, .f32⟩ : BufTy).Contents (Elt F)),
    binary main_v248 main_v73 main_v249 (subf : (⟨S4x1024x1024x1, .f32⟩ : BufTy).Contents (Elt F) → (⟨S4x1024x1024x1, .f32⟩ : BufTy).Contents (Elt F) → (⟨S4x1024x1024x1, .f32⟩ : BufTy).Contents (Elt F)),
    unary main_v249 main_v250 (broadcastInDim S4x1024x1024x3 ![0, 1, 2, 3] bcast_S4x1024x1024x1_S4x1024x1024x3_0_1_2_3 : (⟨S4x1024x1024x1, .f32⟩ : BufTy).Contents (Elt F) → (⟨S4x1024x1024x3, .f32⟩ : BufTy).Contents (Elt F)),
    binary main_v247 main_v250 main_v251 (mulf : (⟨S4x1024x1024x3, .f32⟩ : BufTy).Contents (Elt F) → (⟨S4x1024x1024x3, .f32⟩ : BufTy).Contents (Elt F) → (⟨S4x1024x1024x3, .f32⟩ : BufTy).Contents (Elt F)),
    unary main_v76 main_v252 (broadcastInDim S4x1024x1024x3 ![0, 1, 2, 3] bcast_S4x1024x1024x1_S4x1024x1024x3_0_1_2_3 : (⟨S4x1024x1024x1, .f32⟩ : BufTy).Contents (Elt F) → (⟨S4x1024x1024x3, .f32⟩ : BufTy).Contents (Elt F)),
    binary main_v251 main_v252 main_v253 (mulf : (⟨S4x1024x1024x3, .f32⟩ : BufTy).Contents (Elt F) → (⟨S4x1024x1024x3, .f32⟩ : BufTy).Contents (Elt F) → (⟨S4x1024x1024x3, .f32⟩ : BufTy).Contents (Elt F)),
    binary main_v226 main_v253 main_v254 (addf : (⟨S4x1024x1024x3, .f32⟩ : BufTy).Contents (Elt F) → (⟨S4x1024x1024x3, .f32⟩ : BufTy).Contents (Elt F) → (⟨S4x1024x1024x3, .f32⟩ : BufTy).Contents (Elt F)),
    nullary main_c_62 (constantI S_ 32 0#32),
    unary main_c_62 main_v255 (broadcastInDim S4x1024x1024 ![] bcast_S_S4x1024x1024 : (⟨S_, .i32⟩ : BufTy).Contents (Elt F) → (⟨S4x1024x1024, .i32⟩ : BufTy).Contents (Elt F)),
    binary main_v63 main_v255 main_v256 (addi : (⟨S4x1024x1024, .i32⟩ : BufTy).Contents (Elt F) → (⟨S4x1024x1024, .i32⟩ : BufTy).Contents (Elt F) → (⟨S4x1024x1024, .i32⟩ : BufTy).Contents (Elt F)),
    nullary main_c_63 (constantI S_ 32 17#32),
    unary main_c_63 main_v257 (broadcastInDim S4x1024x1024 ![] bcast_S_S4x1024x1024 : (⟨S_, .i32⟩ : BufTy).Contents (Elt F) → (⟨S4x1024x1024, .i32⟩ : BufTy).Contents (Elt F)),
    binary main_v256 main_v257 main_v258 (muli : (⟨S4x1024x1024, .i32⟩ : BufTy).Contents (Elt F) → (⟨S4x1024x1024, .i32⟩ : BufTy).Contents (Elt F) → (⟨S4x1024x1024, .i32⟩ : BufTy).Contents (Elt F)),
    nullary main_c_64 (constantI S_ 32 1#32),
    unary main_c_64 main_v259 (broadcastInDim S4x1024x1024 ![] bcast_S_S4x1024x1024 : (⟨S_, .i32⟩ : BufTy).Contents (Elt F) → (⟨S4x1024x1024, .i32⟩ : BufTy).Contents (Elt F)),
    binary main_v65 main_v259 main_v260 (addi : (⟨S4x1024x1024, .i32⟩ : BufTy).Contents (Elt F) → (⟨S4x1024x1024, .i32⟩ : BufTy).Contents (Elt F) → (⟨S4x1024x1024, .i32⟩ : BufTy).Contents (Elt F)),
    binary main_v258 main_v260 main_v261 (addi : (⟨S4x1024x1024, .i32⟩ : BufTy).Contents (Elt F) → (⟨S4x1024x1024, .i32⟩ : BufTy).Contents (Elt F) → (⟨S4x1024x1024, .i32⟩ : BufTy).Contents (Elt F)),
    nullary main_c_65 (constantI S_ 32 17#32),
    unary main_c_65 main_v262 (broadcastInDim S4x1024x1024 ![] bcast_S_S4x1024x1024 : (⟨S_, .i32⟩ : BufTy).Contents (Elt F) → (⟨S4x1024x1024, .i32⟩ : BufTy).Contents (Elt F)),
    binary main_v261 main_v262 main_v263 (muli : (⟨S4x1024x1024, .i32⟩ : BufTy).Contents (Elt F) → (⟨S4x1024x1024, .i32⟩ : BufTy).Contents (Elt F) → (⟨S4x1024x1024, .i32⟩ : BufTy).Contents (Elt F)),
    nullary main_c_66 (constantI S_ 32 1#32),
    unary main_c_66 main_v264 (broadcastInDim S4x1024x1024 ![] bcast_S_S4x1024x1024 : (⟨S_, .i32⟩ : BufTy).Contents (Elt F) → (⟨S4x1024x1024, .i32⟩ : BufTy).Contents (Elt F)),
    binary main_v67 main_v264 main_v265 (addi : (⟨S4x1024x1024, .i32⟩ : BufTy).Contents (Elt F) → (⟨S4x1024x1024, .i32⟩ : BufTy).Contents (Elt F) → (⟨S4x1024x1024, .i32⟩ : BufTy).Contents (Elt F)),
    binary main_v263 main_v265 main_v266 (addi : (⟨S4x1024x1024, .i32⟩ : BufTy).Contents (Elt F) → (⟨S4x1024x1024, .i32⟩ : BufTy).Contents (Elt F) → (⟨S4x1024x1024, .i32⟩ : BufTy).Contents (Elt F)),
    nullary main_c_67 (constantI S_ 32 0#32),
    unary main_c_67 main_v267 (broadcastInDim S4x1024x1024 ![] bcast_S_S4x1024x1024 : (⟨S_, .i32⟩ : BufTy).Contents (Elt F) → (⟨S4x1024x1024, .i32⟩ : BufTy).Contents (Elt F)),
    binary main_v266 main_v267 main_v268 (cmpi .slt : (⟨S4x1024x1024, .i32⟩ : BufTy).Contents (Elt F) → (⟨S4x1024x1024, .i32⟩ : BufTy).Contents (Elt F) → (⟨S4x1024x1024, .i1⟩ : BufTy).Contents (Elt F)),
    nullary main_c_68 (constantI S_ 32 4913#32),
    unary main_c_68 main_v269 (broadcastInDim S4x1024x1024 ![] bcast_S_S4x1024x1024 : (⟨S_, .i32⟩ : BufTy).Contents (Elt F) → (⟨S4x1024x1024, .i32⟩ : BufTy).Contents (Elt F)),
    binary main_v266 main_v269 main_v270 (addi : (⟨S4x1024x1024, .i32⟩ : BufTy).Contents (Elt F) → (⟨S4x1024x1024, .i32⟩ : BufTy).Contents (Elt F) → (⟨S4x1024x1024, .i32⟩ : BufTy).Contents (Elt F)),
    ternary main_v268 main_v270 main_v266 main_v271 (select : (⟨S4x1024x1024, .i1⟩ : BufTy).Contents (Elt F) → (⟨S4x1024x1024, .i32⟩ : BufTy).Contents (Elt F) → (⟨S4x1024x1024, .i32⟩ : BufTy).Contents (Elt F) → (⟨S4x1024x1024, .i32⟩ : BufTy).Contents (Elt F)),
    unary main_v271 main_v272 (broadcastInDim S4x1024x1024x1 ![0, 1, 2] bcast_S4x1024x1024_S4x1024x1024x1_0_1_2 : (⟨S4x1024x1024, .i32⟩ : BufTy).Contents (Elt F) → (⟨S4x1024x1024x1, .i32⟩ : BufTy).Contents (Elt F)),
    binary main_v77 main_v272 main_v273 ((fun x i => Host.gather gather_S4913x3_S4x1024x1024x1_S4x1024x1024x3_3_0_n_n_0_3_13 x i) : (⟨S4913x3, .f32⟩ : BufTy).Contents (Elt F) → (⟨S4x1024x1024x1, .i32⟩ : BufTy).Contents (Elt F) → (⟨S4x1024x1024x3, .f32⟩ : BufTy).Contents (Elt F)),
    nullary main_cst_69 (constant S_ .f32 0x3F800000#32),
    unary main_cst_69 main_v274 (broadcastInDim S4x1024x1024x1 ![] bcast_S_S4x1024x1024x1 : (⟨S_, .f32⟩ : BufTy).Contents (Elt F) → (⟨S4x1024x1024x1, .f32⟩ : BufTy).Contents (Elt F)),
    binary main_v274 main_v70 main_v275 (subf : (⟨S4x1024x1024x1, .f32⟩ : BufTy).Contents (Elt F) → (⟨S4x1024x1024x1, .f32⟩ : BufTy).Contents (Elt F) → (⟨S4x1024x1024x1, .f32⟩ : BufTy).Contents (Elt F)),
    unary main_v275 main_v276 (broadcastInDim S4x1024x1024x3 ![0, 1, 2, 3] bcast_S4x1024x1024x1_S4x1024x1024x3_0_1_2_3 : (⟨S4x1024x1024x1, .f32⟩ : BufTy).Contents (Elt F) → (⟨S4x1024x1024x3, .f32⟩ : BufTy).Contents (Elt F)),
    binary main_v273 main_v276 main_v277 (mulf : (⟨S4x1024x1024x3, .f32⟩ : BufTy).Contents (Elt F) → (⟨S4x1024x1024x3, .f32⟩ : BufTy).Contents (Elt F) → (⟨S4x1024x1024x3, .f32⟩ : BufTy).Contents (Elt F)),
    unary main_v73 main_v278 (broadcastInDim S4x1024x1024x3 ![0, 1, 2, 3] bcast_S4x1024x1024x1_S4x1024x1024x3_0_1_2_3 : (⟨S4x1024x1024x1, .f32⟩ : BufTy).Contents (Elt F) → (⟨S4x1024x1024x3, .f32⟩ : BufTy).Contents (Elt F)),
    binary main_v277 main_v278 main_v279 (mulf : (⟨S4x1024x1024x3, .f32⟩ : BufTy).Contents (Elt F) → (⟨S4x1024x1024x3, .f32⟩ : BufTy).Contents (Elt F) → (⟨S4x1024x1024x3, .f32⟩ : BufTy).Contents (Elt F)),
    unary main_v76 main_v280 (broadcastInDim S4x1024x1024x3 ![0, 1, 2, 3] bcast_S4x1024x1024x1_S4x1024x1024x3_0_1_2_3 : (⟨S4x1024x1024x1, .f32⟩ : BufTy).Contents (Elt F) → (⟨S4x1024x1024x3, .f32⟩ : BufTy).Contents (Elt F)),
    binary main_v279 main_v280 main_v281 (mulf : (⟨S4x1024x1024x3, .f32⟩ : BufTy).Contents (Elt F) → (⟨S4x1024x1024x3, .f32⟩ : BufTy).Contents (Elt F) → (⟨S4x1024x1024x3, .f32⟩ : BufTy).Contents (Elt F)),
    binary main_v254 main_v281 main_v282 (addf : (⟨S4x1024x1024x3, .f32⟩ : BufTy).Contents (Elt F) → (⟨S4x1024x1024x3, .f32⟩ : BufTy).Contents (Elt F) → (⟨S4x1024x1024x3, .f32⟩ : BufTy).Contents (Elt F)),
    nullary main_c_70 (constantI S_ 32 1#32),
    unary main_c_70 main_v283 (broadcastInDim S4x1024x1024 ![] bcast_S_S4x1024x1024 : (⟨S_, .i32⟩ : BufTy).Contents (Elt F) → (⟨S4x1024x1024, .i32⟩ : BufTy).Contents (Elt F)),
    binary main_v63 main_v283 main_v284 (addi : (⟨S4x1024x1024, .i32⟩ : BufTy).Contents (Elt F) → (⟨S4x1024x1024, .i32⟩ : BufTy).Contents (Elt F) → (⟨S4x1024x1024, .i32⟩ : BufTy).Contents (Elt F)),
    nullary main_c_71 (constantI S_ 32 17#32),
    unary main_c_71 main_v285 (broadcastInDim S4x1024x1024 ![] bcast_S_S4x1024x1024 : (⟨S_, .i32⟩ : BufTy).Contents (Elt F) → (⟨S4x1024x1024, .i32⟩ : BufTy).Contents (Elt F)) ]

/-- The operations of statements window 6 of @main, in order. -/
abbrev ops6 : List (HloOp τ sig (Elt F)) :=
  [ binary main_v284 main_v285 main_v286 (muli : (⟨S4x1024x1024, .i32⟩ : BufTy).Contents (Elt F) → (⟨S4x1024x1024, .i32⟩ : BufTy).Contents (Elt F) → (⟨S4x1024x1024, .i32⟩ : BufTy).Contents (Elt F)),
    nullary main_c_72 (constantI S_ 32 1#32),
    unary main_c_72 main_v287 (broadcastInDim S4x1024x1024 ![] bcast_S_S4x1024x1024 : (⟨S_, .i32⟩ : BufTy).Contents (Elt F) → (⟨S4x1024x1024, .i32⟩ : BufTy).Contents (Elt F)),
    binary main_v65 main_v287 main_v288 (addi : (⟨S4x1024x1024, .i32⟩ : BufTy).Contents (Elt F) → (⟨S4x1024x1024, .i32⟩ : BufTy).Contents (Elt F) → (⟨S4x1024x1024, .i32⟩ : BufTy).Contents (Elt F)),
    binary main_v286 main_v288 main_v289 (addi : (⟨S4x1024x1024, .i32⟩ : BufTy).Contents (Elt F) → (⟨S4x1024x1024, .i32⟩ : BufTy).Contents (Elt F) → (⟨S4x1024x1024, .i32⟩ : BufTy).Contents (Elt F)),
    nullary main_c_73 (constantI S_ 32 17#32),
    unary main_c_73 main_v290 (broadcastInDim S4x1024x1024 ![] bcast_S_S4x1024x1024 : (⟨S_, .i32⟩ : BufTy).Contents (Elt F) → (⟨S4x1024x1024, .i32⟩ : BufTy).Contents (Elt F)),
    binary main_v289 main_v290 main_v291 (muli : (⟨S4x1024x1024, .i32⟩ : BufTy).Contents (Elt F) → (⟨S4x1024x1024, .i32⟩ : BufTy).Contents (Elt F) → (⟨S4x1024x1024, .i32⟩ : BufTy).Contents (Elt F)),
    nullary main_c_74 (constantI S_ 32 1#32),
    unary main_c_74 main_v292 (broadcastInDim S4x1024x1024 ![] bcast_S_S4x1024x1024 : (⟨S_, .i32⟩ : BufTy).Contents (Elt F) → (⟨S4x1024x1024, .i32⟩ : BufTy).Contents (Elt F)),
    binary main_v67 main_v292 main_v293 (addi : (⟨S4x1024x1024, .i32⟩ : BufTy).Contents (Elt F) → (⟨S4x1024x1024, .i32⟩ : BufTy).Contents (Elt F) → (⟨S4x1024x1024, .i32⟩ : BufTy).Contents (Elt F)),
    binary main_v291 main_v293 main_v294 (addi : (⟨S4x1024x1024, .i32⟩ : BufTy).Contents (Elt F) → (⟨S4x1024x1024, .i32⟩ : BufTy).Contents (Elt F) → (⟨S4x1024x1024, .i32⟩ : BufTy).Contents (Elt F)),
    nullary main_c_75 (constantI S_ 32 0#32),
    unary main_c_75 main_v295 (broadcastInDim S4x1024x1024 ![] bcast_S_S4x1024x1024 : (⟨S_, .i32⟩ : BufTy).Contents (Elt F) → (⟨S4x1024x1024, .i32⟩ : BufTy).Contents (Elt F)),
    binary main_v294 main_v295 main_v296 (cmpi .slt : (⟨S4x1024x1024, .i32⟩ : BufTy).Contents (Elt F) → (⟨S4x1024x1024, .i32⟩ : BufTy).Contents (Elt F) → (⟨S4x1024x1024, .i1⟩ : BufTy).Contents (Elt F)),
    nullary main_c_76 (constantI S_ 32 4913#32),
    unary main_c_76 main_v297 (broadcastInDim S4x1024x1024 ![] bcast_S_S4x1024x1024 : (⟨S_, .i32⟩ : BufTy).Contents (Elt F) → (⟨S4x1024x1024, .i32⟩ : BufTy).Contents (Elt F)),
    binary main_v294 main_v297 main_v298 (addi : (⟨S4x1024x1024, .i32⟩ : BufTy).Contents (Elt F) → (⟨S4x1024x1024, .i32⟩ : BufTy).Contents (Elt F) → (⟨S4x1024x1024, .i32⟩ : BufTy).Contents (Elt F)),
    ternary main_v296 main_v298 main_v294 main_v299 (select : (⟨S4x1024x1024, .i1⟩ : BufTy).Contents (Elt F) → (⟨S4x1024x1024, .i32⟩ : BufTy).Contents (Elt F) → (⟨S4x1024x1024, .i32⟩ : BufTy).Contents (Elt F) → (⟨S4x1024x1024, .i32⟩ : BufTy).Contents (Elt F)),
    unary main_v299 main_v300 (broadcastInDim S4x1024x1024x1 ![0, 1, 2] bcast_S4x1024x1024_S4x1024x1024x1_0_1_2 : (⟨S4x1024x1024, .i32⟩ : BufTy).Contents (Elt F) → (⟨S4x1024x1024x1, .i32⟩ : BufTy).Contents (Elt F)),
    binary main_v77 main_v300 main_v301 ((fun x i => Host.gather gather_S4913x3_S4x1024x1024x1_S4x1024x1024x3_3_0_n_n_0_3_13 x i) : (⟨S4913x3, .f32⟩ : BufTy).Contents (Elt F) → (⟨S4x1024x1024x1, .i32⟩ : BufTy).Contents (Elt F) → (⟨S4x1024x1024x3, .f32⟩ : BufTy).Contents (Elt F)),
    unary main_v70 main_v302 (broadcastInDim S4x1024x1024x3 ![0, 1, 2, 3] bcast_S4x1024x1024x1_S4x1024x1024x3_0_1_2_3 : (⟨S4x1024x1024x1, .f32⟩ : BufTy).Contents (Elt F) → (⟨S4x1024x1024x3, .f32⟩ : BufTy).Contents (Elt F)),
    binary main_v301 main_v302 main_v303 (mulf : (⟨S4x1024x1024x3, .f32⟩ : BufTy).Contents (Elt F) → (⟨S4x1024x1024x3, .f32⟩ : BufTy).Contents (Elt F) → (⟨S4x1024x1024x3, .f32⟩ : BufTy).Contents (Elt F)),
    unary main_v73 main_v304 (broadcastInDim S4x1024x1024x3 ![0, 1, 2, 3] bcast_S4x1024x1024x1_S4x1024x1024x3_0_1_2_3 : (⟨S4x1024x1024x1, .f32⟩ : BufTy).Contents (Elt F) → (⟨S4x1024x1024x3, .f32⟩ : BufTy).Contents (Elt F)),
    binary main_v303 main_v304 main_v305 (mulf : (⟨S4x1024x1024x3, .f32⟩ : BufTy).Contents (Elt F) → (⟨S4x1024x1024x3, .f32⟩ : BufTy).Contents (Elt F) → (⟨S4x1024x1024x3, .f32⟩ : BufTy).Contents (Elt F)),
    unary main_v76 main_v306 (broadcastInDim S4x1024x1024x3 ![0, 1, 2, 3] bcast_S4x1024x1024x1_S4x1024x1024x3_0_1_2_3 : (⟨S4x1024x1024x1, .f32⟩ : BufTy).Contents (Elt F) → (⟨S4x1024x1024x3, .f32⟩ : BufTy).Contents (Elt F)),
    binary main_v305 main_v306 main_v307 (mulf : (⟨S4x1024x1024x3, .f32⟩ : BufTy).Contents (Elt F) → (⟨S4x1024x1024x3, .f32⟩ : BufTy).Contents (Elt F) → (⟨S4x1024x1024x3, .f32⟩ : BufTy).Contents (Elt F)),
    binary main_v282 main_v307 main_v308 (addf : (⟨S4x1024x1024x3, .f32⟩ : BufTy).Contents (Elt F) → (⟨S4x1024x1024x3, .f32⟩ : BufTy).Contents (Elt F) → (⟨S4x1024x1024x3, .f32⟩ : BufTy).Contents (Elt F)),
    unary main_v308 main_v309 ((transpose S4x3x1024x1024 [0, 3, 1, 2] · transposes_S4x1024x1024x3_S4x3x1024x1024_0_3_1_2) : (⟨S4x1024x1024x3, .f32⟩ : BufTy).Contents (Elt F) → (⟨S4x3x1024x1024, .f32⟩ : BufTy).Contents (Elt F)) ]

set_option maxRecDepth 8192 in
set_option maxHeartbeats 4000000 in
/-- Window 0 of @main is its operations in order: the callees' definitions unfold at their calls. -/
theorem part0_eq (c : Dev nD) : main_part0 (F := F) c = seq ops0 := rfl

set_option maxRecDepth 8192 in
set_option maxHeartbeats 4000000 in
/-- Window 1 of @main is its operations in order: the callees' definitions unfold at their calls. -/
theorem part1_eq (c : Dev nD) : main_part1 (F := F) c = seq ops1 := rfl

set_option maxRecDepth 8192 in
set_option maxHeartbeats 4000000 in
/-- Window 2 of @main is its operations in order: the callees' definitions unfold at their calls. -/
theorem part2_eq (c : Dev nD) : main_part2 (F := F) c = seq ops2 := rfl

set_option maxRecDepth 8192 in
set_option maxHeartbeats 4000000 in
/-- Window 3 of @main is its operations in order: the callees' definitions unfold at their calls. -/
theorem part3_eq (c : Dev nD) : main_part3 (F := F) c = seq ops3 := rfl

set_option maxRecDepth 8192 in
set_option maxHeartbeats 4000000 in
/-- Window 4 of @main is its operations in order: the callees' definitions unfold at their calls. -/
theorem part4_eq (c : Dev nD) : main_part4 (F := F) c = seq ops4 := rfl

set_option maxRecDepth 8192 in
set_option maxHeartbeats 4000000 in
/-- Window 5 of @main is its operations in order: the callees' definitions unfold at their calls. -/
theorem part5_eq (c : Dev nD) : main_part5 (F := F) c = seq ops5 := rfl

set_option maxRecDepth 8192 in
set_option maxHeartbeats 4000000 in
/-- Window 6 of @main is its operations in order: the callees' definitions unfold at their calls. -/
theorem part6_eq (c : Dev nD) : main_part6 (F := F) c = seq ops6 := rfl

/-- All of @main's operations, in order. -/
abbrev opsAll : List (HloOp τ sig (Elt F)) := ops0 ++ (ops1 ++ (ops2 ++ (ops3 ++ (ops4 ++ (ops5 ++ ops6)))))

/-- @main runs its windows in order, so it is the straight line of all the operations. -/
theorem main_eq (c : Dev nD) : main (F := F) c = seq opsAll := by
  rw [seq_append, seq_append, seq_append, seq_append, seq_append, seq_append,
    ← part0_eq c, ← part1_eq c, ← part2_eq c, ← part3_eq c, ← part4_eq c, ← part5_eq c, ← part6_eq c]
  rfl

theorem scopedRefs_eq : (Finset.univ.filter fun b : Ref sig .tc => b.isScoped) = ∅ := by decide
theorem scopedSems_eq : (Finset.univ.filter fun sm : SemLoc sig => sm.isScoped .tc) = ∅ := by decide

/-- A property of every entry of two lists holds of every entry of their concatenation. -/
theorem forall_app {α : Type} {p : α → Prop} {l₁ l₂ : List α} (h₁ : l₁.Forall p) (h₂ : l₂.Forall p) : (l₁ ++ l₂).Forall p :=
  List.forall_iff_forall_mem.2 fun x hx =>
    (List.mem_append.1 hx).elim (List.forall_iff_forall_mem.1 h₁ x) (List.forall_iff_forall_mem.1 h₂ x)

set_option maxRecDepth 8192 in
theorem ops0_sub : (ops0 : List (HloOp τ sig (Elt F))).Forall fun op => op.bufs ⊆ tcRefs τ sig :=
  ⟨nullary_bufs_sub .., unary_bufs_sub .., binary_bufs_sub .., unary_bufs_sub .., unary_bufs_sub .., nullary_bufs_sub .., nullary_bufs_sub .., unary_bufs_sub .., unary_bufs_sub .., binary_bufs_sub .., unary_bufs_sub .., unary_bufs_sub .., binary_bufs_sub .., unary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., unary_bufs_sub .., unary_bufs_sub .., unary_bufs_sub .., nary_bufs_sub .., unary_bufs_sub .., reshape_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., unary_bufs_sub .., reshape_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., unary_bufs_sub .., reshape_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., unary_bufs_sub .., unary_bufs_sub .., unary_bufs_sub .., nary_bufs_sub .., binary_bufs_sub .., binary_bufs_sub .., binary_bufs_sub ..⟩
set_option maxRecDepth 8192 in
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem ops1_sub : (ops1 : List (HloOp τ sig (Elt F))).Forall fun op => op.bufs ⊆ tcRefs τ sig :=
  ⟨nullary_bufs_sub .., nullary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., nullary_bufs_sub .., nullary_bufs_sub .., unary_bufs_sub .., unary_bufs_sub .., binary_bufs_sub .., unary_bufs_sub .., unary_bufs_sub .., binary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., unary_bufs_sub .., reshape_bufs_sub .., unary_bufs_sub .., unary_bufs_sub .., reshape_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., unary_bufs_sub .., binary_bufs_sub ..⟩
set_option maxRecDepth 8192 in
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem ops2_sub : (ops2 : List (HloOp τ sig (Elt F))).Forall fun op => op.bufs ⊆ tcRefs τ sig :=
  ⟨nullary_bufs_sub .., unary_bufs_sub .., binary_bufs_sub .., unary_bufs_sub .., binary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., binary_bufs_sub .., unary_bufs_sub .., binary_bufs_sub .., nullary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub ..⟩
set_option maxRecDepth 8192 in
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem ops3_sub : (ops3 : List (HloOp τ sig (Elt F))).Forall fun op => op.bufs ⊆ tcRefs τ sig :=
  ⟨unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., unary_bufs_sub .., binary_bufs_sub .., unary_bufs_sub .., binary_bufs_sub .., nullary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., unary_bufs_sub .., binary_bufs_sub .., nullary_bufs_sub ..⟩
set_option maxRecDepth 8192 in
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem ops4_sub : (ops4 : List (HloOp τ sig (Elt F))).Forall fun op => op.bufs ⊆ tcRefs τ sig :=
  ⟨unary_bufs_sub .., binary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., unary_bufs_sub .., binary_bufs_sub .., nullary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub ..⟩
set_option maxRecDepth 8192 in
theorem ops4_fresh : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem ops5_sub : (ops5 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., binary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., unary_bufs_sub .., binary_bufs_sub .., unary_bufs_sub .., binary_bufs_sub .., unary_bufs_sub .., binary_bufs_sub .., binary_bufs_sub .., nullary_bufs_sub .., unary_bufs_sub .., binary_bufs_sub .., nullary_bufs_sub .., unary_bufs_sub ..⟩
set_option maxRecDepth 8192 in
theorem ops5_fresh : (ops5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem ops6_sub : (ops6 : List (HloOp τ sig (Elt F))).Forall fun op => op.bufs ⊆ tcRefs τ sig :=
  ⟨binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., unary_bufs_sub .., binary_bufs_sub .., unary_bufs_sub .., binary_bufs_sub .., binary_bufs_sub .., unary_bufs_sub ..⟩
set_option maxRecDepth 8192 in
theorem ops6_fresh : (ops6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl⟩

/-- Every operation touches TensorCore buffers only. -/
theorem opsAll_sub : (opsAll : List (HloOp τ sig (Elt F))).Forall fun op => op.bufs ⊆ tcRefs τ sig :=
  forall_app ops0_sub (forall_app ops1_sub (forall_app ops2_sub (forall_app ops3_sub (forall_app ops4_sub (forall_app ops5_sub ops6_sub)))))
/-- Every operation determines its results. -/
theorem opsAll_fresh : ∀ op ∈ (opsAll : List (HloOp τ sig (Elt F))), op.fresh = ∅ :=
  List.forall_iff_forall_mem.1
    (forall_app ops0_fresh (forall_app ops1_fresh (forall_app ops2_fresh (forall_app ops3_fresh (forall_app ops4_fresh (forall_app ops5_fresh ops6_fresh))))))

/-- From any memory with zero counters every weakly fair execution of @main terminates, and every buffer ends at the
    fold of the operations' results over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after opsAll (launchContents m c) (Proc.devRef .tc b) :=
  run_seq scopedRefs_eq scopedSems_eq defs main (fun _ => opsAll) main_eq (fun _ => opsAll_sub) m ρ (fun _ => opsAll_fresh)

end Cert.ReferenceIdeal.RefRun

end
-- ==== Proof.RefSegs.lean ====
/- bun scratch/gen_ops.js proof/ReferenceIdeal.lean scratch/ops.json  — the same table as the run's lists, cut after the buffers later segments read; an
   operation of an outlined function is written over the buffers its call's record names.

   The reference's straight line cut into segments, each ending at a value that later operations read: the first-stage knots and
   offsets (A), the six lookups of a knot row (T1 … T6) with the two re-assemblies of the three channels (C1, C2), the second-stage
   knots, offsets and flattened table (B), the eight corners each added to the running sum (K0 … K7), and the final transpose (Z).
   An operation over typed references is the same operation over their buffers: the casts along a reference's type equation are
   identities. For all but the conjunction-reduce of a lookup this is by computation; for that one the casts are cancelled on
   variables first, outside the fold. -/
import proofs.«151699_j29575144800973_2_alg».proof.Proof.RefRun

noncomputable section

namespace Cert.ReferenceIdeal.RefSegs

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

/-- Segment A of the straight line. -/
abbrev sA : List (HloOp τ sig (Elt F)) :=
  [ nullary main_cst (constant S_ .f32 0x427C0000#32),
    unary main_cst main_v0 (broadcastInDim S4x3x1024x1024 ![] bcast_S_S4x3x1024x1024 : (⟨S_, .f32⟩ : BufTy).Contents (Elt F) → (⟨S4x3x1024x1024, .f32⟩ : BufTy).Contents (Elt F)),
    binary main_arg0 main_v0 main_v1 (mulf : (⟨S4x3x1024x1024, .f32⟩ : BufTy).Contents (Elt F) → (⟨S4x3x1024x1024, .f32⟩ : BufTy).Contents (Elt F) → (⟨S4x3x1024x1024, .f32⟩ : BufTy).Contents (Elt F)),
    unary main_v1 main_v2 (Host.floor : (⟨S4x3x1024x1024, .f32⟩ : BufTy).Contents (Elt F) → (⟨S4x3x1024x1024, .f32⟩ : BufTy).Contents (Elt F)),
    unary main_v2 main_v3 (fptosi 32 : (⟨S4x3x1024x1024, .f32⟩ : BufTy).Contents (Elt F) → (⟨S4x3x1024x1024, .i32⟩ : BufTy).Contents (Elt F)),
    nullary main_c (constantI S_ 32 0#32),
    nullary main_c_0 (constantI S_ 32 62#32),
    unary main_c main_call0_v0 id,
    unary main_call0_v0 main_call0_v1 (broadcastInDim S4x3x1024x1024 ![] bcast_S_S4x3x1024x1024),
    binary main_call0_v1 main_v3 main_call0_v2 maxsi,
    unary main_c_0 main_call0_v3 id,
    unary main_call0_v3 main_call0_v4 (broadcastInDim S4x3x1024x1024 ![] bcast_S_S4x3x1024x1024),
    binary main_call0_v4 main_call0_v2 main_v4 minsi,
    unary main_v4 main_v5 (sitofp .f32 : (⟨S4x3x1024x1024, .i32⟩ : BufTy).Contents (Elt F) → (⟨S4x3x1024x1024, .f32⟩ : BufTy).Contents (Elt F)),
    binary main_v1 main_v5 main_v6 (subf : (⟨S4x3x1024x1024, .f32⟩ : BufTy).Contents (Elt F) → (⟨S4x3x1024x1024, .f32⟩ : BufTy).Contents (Elt F) → (⟨S4x3x1024x1024, .f32⟩ : BufTy).Contents (Elt F)) ]

/-- Segment T1 of the straight line. -/
abbrev sT1 : List (HloOp τ sig (Elt F)) :=
  [ unary main_arg1 main_v7 ((extractStridedSlice S1x64 ![0, 0] · slices_S3x64_S1x64_0_0) : (⟨S3x64, .f32⟩ : BufTy).Contents (Elt F) → (⟨S1x64, .f32⟩ : BufTy).Contents (Elt F)),
    reshape main_v7 main_v8 rfl shapeCasts_S1x64_S64,
    unary main_v4 main_v9 ((extractStridedSlice S4x1x1024x1024 ![0, 0, 0, 0] · slices_S4x3x1024x1024_S4x1x1024x1024_0_0_0_0) : (⟨S4x3x1024x1024, .i32⟩ : BufTy).Contents (Elt F) → (⟨S4x1x1024x1024, .i32⟩ : BufTy).Contents (Elt F)),
    reshape main_v9 main_v10 rfl shapeCasts_S4x1x1024x1024_S4x1024x1024,
    nullary main_call1_c (constantI S_ 32 0#32),
    unary main_call1_c main_call1_v0 (broadcastInDim S4x1024x1024 ![] bcast_S_S4x1024x1024),
    binary main_v10 main_call1_v0 main_call1_v1 (cmpi .slt),
    nullary main_call1_c_0 (constantI S_ 32 64#32),
    unary main_call1_c_0 main_call1_v2 (broadcastInDim S4x1024x1024 ![] bcast_S_S4x1024x1024),
    binary main_v10 main_call1_v2 main_call1_v3 addi,
    ternary main_call1_v1 main_call1_v3 main_v10 main_call1_v4 select,
    unary main_call1_v4 main_call1_v5 (broadcastInDim S4x1024x1024x1 ![0, 1, 2] bcast_S4x1024x1024_S4x1024x1024x1_0_1_2),
    nullary main_call1_c_1 (constantI S1 32 63#32),
    nullary main_call1_c_2 (constantI S_ 32 0#32),
    unary main_call1_c_2 main_call1_v6 (broadcastInDim S4x1024x1024x1 ![] bcast_S_S4x1024x1024x1),
    binary main_call1_v5 main_call1_v6 main_call1_v7 (cmpi .sge),
    unary main_call1_c_1 main_call1_v8 (broadcastInDim S1x1x1x1 ![3] bcast_S1_S1x1x1x1_3),
    unary main_call1_v8 main_call1_v9 (broadcastInDim S4x1024x1024x1 ![0, 1, 2, 3] bcast_S1x1x1x1_S4x1024x1024x1_0_1_2_3),
    binary main_call1_v5 main_call1_v9 main_call1_v10 (cmpi .sle),
    binary main_call1_v7 main_call1_v10 main_call1_v11 andi,
    nullary main_call1_c_3 (constantI S_ 1 1#1),
    binary main_call1_v11 main_call1_c_3 main_call1_v12 ((fun x v => Host.reduce IntOp.andi x v reducesTo_S4x1024x1024x1_S4x1024x1024_d3 h_S_) : (⟨S4x1024x1024x1, .i1⟩ : BufTy).Contents (Elt F) → (⟨S_, .i1⟩ : BufTy).Contents (Elt F) → (⟨S4x1024x1024, .i1⟩ : BufTy).Contents (Elt F)),
    binary main_v8 main_call1_v5 main_call1_v13 (fun x i => Host.gather gather_S64_S4x1024x1024x1_S4x1024x1024_n_0_n_n_0_3_1 x i),
    nullary main_call1_cst (constant S_ .f32 0x7FC00000#32),
    unary main_call1_cst main_call1_v14 (broadcastInDim S4x1024x1024 ![] bcast_S_S4x1024x1024),
    ternary main_call1_v12 main_call1_v13 main_call1_v14 main_v11 select ]

/-- Segment T1 with its conjunction-reduce still over typed references. -/
abbrev sT1T : List (HloOp τ sig (Elt F)) :=
  [ unary main_arg1 main_v7 ((extractStridedSlice S1x64 ![0, 0] · slices_S3x64_S1x64_0_0) : (⟨S3x64, .f32⟩ : BufTy).Contents (Elt F) → (⟨S1x64, .f32⟩ : BufTy).Contents (Elt F)),
    reshape main_v7 main_v8 rfl shapeCasts_S1x64_S64,
    unary main_v4 main_v9 ((extractStridedSlice S4x1x1024x1024 ![0, 0, 0, 0] · slices_S4x3x1024x1024_S4x1x1024x1024_0_0_0_0) : (⟨S4x3x1024x1024, .i32⟩ : BufTy).Contents (Elt F) → (⟨S4x1x1024x1024, .i32⟩ : BufTy).Contents (Elt F)),
    reshape main_v9 main_v10 rfl shapeCasts_S4x1x1024x1024_S4x1024x1024,
    nullary main_call1_c (constantI S_ 32 0#32),
    unary main_call1_c main_call1_v0 (broadcastInDim S4x1024x1024 ![] bcast_S_S4x1024x1024),
    binary main_v10 main_call1_v0 main_call1_v1 (cmpi .slt),
    nullary main_call1_c_0 (constantI S_ 32 64#32),
    unary main_call1_c_0 main_call1_v2 (broadcastInDim S4x1024x1024 ![] bcast_S_S4x1024x1024),
    binary main_v10 main_call1_v2 main_call1_v3 addi,
    ternary main_call1_v1 main_call1_v3 main_v10 main_call1_v4 select,
    unary main_call1_v4 main_call1_v5 (broadcastInDim S4x1024x1024x1 ![0, 1, 2] bcast_S4x1024x1024_S4x1024x1024x1_0_1_2),
    nullary main_call1_c_1 (constantI S1 32 63#32),
    nullary main_call1_c_2 (constantI S_ 32 0#32),
    unary main_call1_c_2 main_call1_v6 (broadcastInDim S4x1024x1024x1 ![] bcast_S_S4x1024x1024x1),
    binary main_call1_v5 main_call1_v6 main_call1_v7 (cmpi .sge),
    unary main_call1_c_1 main_call1_v8 (broadcastInDim S1x1x1x1 ![3] bcast_S1_S1x1x1x1_3),
    unary main_call1_v8 main_call1_v9 (broadcastInDim S4x1024x1024x1 ![0, 1, 2, 3] bcast_S1x1x1x1_S4x1024x1024x1_0_1_2_3),
    binary main_call1_v5 main_call1_v9 main_call1_v10 (cmpi .sle),
    binary main_call1_v7 main_call1_v10 main_call1_v11 andi,
    nullary main_call1_c_3 (constantI S_ 1 1#1),
    TRef.binary main_call1.v11 main_call1.c_3 main_call1.v12 (fun x v => Host.reduce IntOp.andi x v reducesTo_S4x1024x1024x1_S4x1024x1024_d3 h_S_),
    binary main_v8 main_call1_v5 main_call1_v13 (fun x i => Host.gather gather_S64_S4x1024x1024x1_S4x1024x1024_n_0_n_n_0_3_1 x i),
    nullary main_call1_cst (constant S_ .f32 0x7FC00000#32),
    unary main_call1_cst main_call1_v14 (broadcastInDim S4x1024x1024 ![] bcast_S_S4x1024x1024),
    ternary main_call1_v12 main_call1_v13 main_call1_v14 main_v11 select ]

/-- Segment T2 of the straight line. -/
abbrev sT2 : List (HloOp τ sig (Elt F)) :=
  [ unary main_arg1 main_v12 ((extractStridedSlice S1x64 ![1, 0] · slices_S3x64_S1x64_1_0) : (⟨S3x64, .f32⟩ : BufTy).Contents (Elt F) → (⟨S1x64, .f32⟩ : BufTy).Contents (Elt F)),
    reshape main_v12 main_v13 rfl shapeCasts_S1x64_S64,
    unary main_v4 main_v14 ((extractStridedSlice S4x1x1024x1024 ![0, 1, 0, 0] · slices_S4x3x1024x1024_S4x1x1024x1024_0_1_0_0) : (⟨S4x3x1024x1024, .i32⟩ : BufTy).Contents (Elt F) → (⟨S4x1x1024x1024, .i32⟩ : BufTy).Contents (Elt F)),
    reshape main_v14 main_v15 rfl shapeCasts_S4x1x1024x1024_S4x1024x1024,
    nullary main_call2_c (constantI S_ 32 0#32),
    unary main_call2_c main_call2_v0 (broadcastInDim S4x1024x1024 ![] bcast_S_S4x1024x1024),
    binary main_v15 main_call2_v0 main_call2_v1 (cmpi .slt),
    nullary main_call2_c_0 (constantI S_ 32 64#32),
    unary main_call2_c_0 main_call2_v2 (broadcastInDim S4x1024x1024 ![] bcast_S_S4x1024x1024),
    binary main_v15 main_call2_v2 main_call2_v3 addi,
    ternary main_call2_v1 main_call2_v3 main_v15 main_call2_v4 select,
    unary main_call2_v4 main_call2_v5 (broadcastInDim S4x1024x1024x1 ![0, 1, 2] bcast_S4x1024x1024_S4x1024x1024x1_0_1_2),
    nullary main_call2_c_1 (constantI S1 32 63#32),
    nullary main_call2_c_2 (constantI S_ 32 0#32),
    unary main_call2_c_2 main_call2_v6 (broadcastInDim S4x1024x1024x1 ![] bcast_S_S4x1024x1024x1),
    binary main_call2_v5 main_call2_v6 main_call2_v7 (cmpi .sge),
    unary main_call2_c_1 main_call2_v8 (broadcastInDim S1x1x1x1 ![3] bcast_S1_S1x1x1x1_3),
    unary main_call2_v8 main_call2_v9 (broadcastInDim S4x1024x1024x1 ![0, 1, 2, 3] bcast_S1x1x1x1_S4x1024x1024x1_0_1_2_3),
    binary main_call2_v5 main_call2_v9 main_call2_v10 (cmpi .sle),
    binary main_call2_v7 main_call2_v10 main_call2_v11 andi,
    nullary main_call2_c_3 (constantI S_ 1 1#1),
    binary main_call2_v11 main_call2_c_3 main_call2_v12 ((fun x v => Host.reduce IntOp.andi x v reducesTo_S4x1024x1024x1_S4x1024x1024_d3 h_S_) : (⟨S4x1024x1024x1, .i1⟩ : BufTy).Contents (Elt F) → (⟨S_, .i1⟩ : BufTy).Contents (Elt F) → (⟨S4x1024x1024, .i1⟩ : BufTy).Contents (Elt F)),
    binary main_v13 main_call2_v5 main_call2_v13 (fun x i => Host.gather gather_S64_S4x1024x1024x1_S4x1024x1024_n_0_n_n_0_3_1 x i),
    nullary main_call2_cst (constant S_ .f32 0x7FC00000#32),
    unary main_call2_cst main_call2_v14 (broadcastInDim S4x1024x1024 ![] bcast_S_S4x1024x1024),
    ternary main_call2_v12 main_call2_v13 main_call2_v14 main_v16 select ]

/-- Segment T2 with its conjunction-reduce still over typed references. -/
abbrev sT2T : List (HloOp τ sig (Elt F)) :=
  [ unary main_arg1 main_v12 ((extractStridedSlice S1x64 ![1, 0] · slices_S3x64_S1x64_1_0) : (⟨S3x64, .f32⟩ : BufTy).Contents (Elt F) → (⟨S1x64, .f32⟩ : BufTy).Contents (Elt F)),
    reshape main_v12 main_v13 rfl shapeCasts_S1x64_S64,
    unary main_v4 main_v14 ((extractStridedSlice S4x1x1024x1024 ![0, 1, 0, 0] · slices_S4x3x1024x1024_S4x1x1024x1024_0_1_0_0) : (⟨S4x3x1024x1024, .i32⟩ : BufTy).Contents (Elt F) → (⟨S4x1x1024x1024, .i32⟩ : BufTy).Contents (Elt F)),
    reshape main_v14 main_v15 rfl shapeCasts_S4x1x1024x1024_S4x1024x1024,
    nullary main_call2_c (constantI S_ 32 0#32),
    unary main_call2_c main_call2_v0 (broadcastInDim S4x1024x1024 ![] bcast_S_S4x1024x1024),
    binary main_v15 main_call2_v0 main_call2_v1 (cmpi .slt),
    nullary main_call2_c_0 (constantI S_ 32 64#32),
    unary main_call2_c_0 main_call2_v2 (broadcastInDim S4x1024x1024 ![] bcast_S_S4x1024x1024),
    binary main_v15 main_call2_v2 main_call2_v3 addi,
    ternary main_call2_v1 main_call2_v3 main_v15 main_call2_v4 select,
    unary main_call2_v4 main_call2_v5 (broadcastInDim S4x1024x1024x1 ![0, 1, 2] bcast_S4x1024x1024_S4x1024x1024x1_0_1_2),
    nullary main_call2_c_1 (constantI S1 32 63#32),
    nullary main_call2_c_2 (constantI S_ 32 0#32),
    unary main_call2_c_2 main_call2_v6 (broadcastInDim S4x1024x1024x1 ![] bcast_S_S4x1024x1024x1),
    binary main_call2_v5 main_call2_v6 main_call2_v7 (cmpi .sge),
    unary main_call2_c_1 main_call2_v8 (broadcastInDim S1x1x1x1 ![3] bcast_S1_S1x1x1x1_3),
    unary main_call2_v8 main_call2_v9 (broadcastInDim S4x1024x1024x1 ![0, 1, 2, 3] bcast_S1x1x1x1_S4x1024x1024x1_0_1_2_3),
    binary main_call2_v5 main_call2_v9 main_call2_v10 (cmpi .sle),
    binary main_call2_v7 main_call2_v10 main_call2_v11 andi,
    nullary main_call2_c_3 (constantI S_ 1 1#1),
    TRef.binary main_call2.v11 main_call2.c_3 main_call2.v12 (fun x v => Host.reduce IntOp.andi x v reducesTo_S4x1024x1024x1_S4x1024x1024_d3 h_S_),
    binary main_v13 main_call2_v5 main_call2_v13 (fun x i => Host.gather gather_S64_S4x1024x1024x1_S4x1024x1024_n_0_n_n_0_3_1 x i),
    nullary main_call2_cst (constant S_ .f32 0x7FC00000#32),
    unary main_call2_cst main_call2_v14 (broadcastInDim S4x1024x1024 ![] bcast_S_S4x1024x1024),
    ternary main_call2_v12 main_call2_v13 main_call2_v14 main_v16 select ]

/-- Segment T3 of the straight line. -/
abbrev sT3 : List (HloOp τ sig (Elt F)) :=
  [ unary main_arg1 main_v17 ((extractStridedSlice S1x64 ![2, 0] · slices_S3x64_S1x64_2_0) : (⟨S3x64, .f32⟩ : BufTy).Contents (Elt F) → (⟨S1x64, .f32⟩ : BufTy).Contents (Elt F)),
    reshape main_v17 main_v18 rfl shapeCasts_S1x64_S64,
    unary main_v4 main_v19 ((extractStridedSlice S4x1x1024x1024 ![0, 2, 0, 0] · slices_S4x3x1024x1024_S4x1x1024x1024_0_2_0_0) : (⟨S4x3x1024x1024, .i32⟩ : BufTy).Contents (Elt F) → (⟨S4x1x1024x1024, .i32⟩ : BufTy).Contents (Elt F)),
    reshape main_v19 main_v20 rfl shapeCasts_S4x1x1024x1024_S4x1024x1024,
    nullary main_call3_c (constantI S_ 32 0#32),
    unary main_call3_c main_call3_v0 (broadcastInDim S4x1024x1024 ![] bcast_S_S4x1024x1024),
    binary main_v20 main_call3_v0 main_call3_v1 (cmpi .slt),
    nullary main_call3_c_0 (constantI S_ 32 64#32),
    unary main_call3_c_0 main_call3_v2 (broadcastInDim S4x1024x1024 ![] bcast_S_S4x1024x1024),
    binary main_v20 main_call3_v2 main_call3_v3 addi,
    ternary main_call3_v1 main_call3_v3 main_v20 main_call3_v4 select,
    unary main_call3_v4 main_call3_v5 (broadcastInDim S4x1024x1024x1 ![0, 1, 2] bcast_S4x1024x1024_S4x1024x1024x1_0_1_2),
    nullary main_call3_c_1 (constantI S1 32 63#32),
    nullary main_call3_c_2 (constantI S_ 32 0#32),
    unary main_call3_c_2 main_call3_v6 (broadcastInDim S4x1024x1024x1 ![] bcast_S_S4x1024x1024x1),
    binary main_call3_v5 main_call3_v6 main_call3_v7 (cmpi .sge),
    unary main_call3_c_1 main_call3_v8 (broadcastInDim S1x1x1x1 ![3] bcast_S1_S1x1x1x1_3),
    unary main_call3_v8 main_call3_v9 (broadcastInDim S4x1024x1024x1 ![0, 1, 2, 3] bcast_S1x1x1x1_S4x1024x1024x1_0_1_2_3),
    binary main_call3_v5 main_call3_v9 main_call3_v10 (cmpi .sle),
    binary main_call3_v7 main_call3_v10 main_call3_v11 andi,
    nullary main_call3_c_3 (constantI S_ 1 1#1),
    binary main_call3_v11 main_call3_c_3 main_call3_v12 ((fun x v => Host.reduce IntOp.andi x v reducesTo_S4x1024x1024x1_S4x1024x1024_d3 h_S_) : (⟨S4x1024x1024x1, .i1⟩ : BufTy).Contents (Elt F) → (⟨S_, .i1⟩ : BufTy).Contents (Elt F) → (⟨S4x1024x1024, .i1⟩ : BufTy).Contents (Elt F)),
    binary main_v18 main_call3_v5 main_call3_v13 (fun x i => Host.gather gather_S64_S4x1024x1024x1_S4x1024x1024_n_0_n_n_0_3_1 x i),
    nullary main_call3_cst (constant S_ .f32 0x7FC00000#32),
    unary main_call3_cst main_call3_v14 (broadcastInDim S4x1024x1024 ![] bcast_S_S4x1024x1024),
    ternary main_call3_v12 main_call3_v13 main_call3_v14 main_v21 select ]

/-- Segment T3 with its conjunction-reduce still over typed references. -/
abbrev sT3T : List (HloOp τ sig (Elt F)) :=
  [ unary main_arg1 main_v17 ((extractStridedSlice S1x64 ![2, 0] · slices_S3x64_S1x64_2_0) : (⟨S3x64, .f32⟩ : BufTy).Contents (Elt F) → (⟨S1x64, .f32⟩ : BufTy).Contents (Elt F)),
    reshape main_v17 main_v18 rfl shapeCasts_S1x64_S64,
    unary main_v4 main_v19 ((extractStridedSlice S4x1x1024x1024 ![0, 2, 0, 0] · slices_S4x3x1024x1024_S4x1x1024x1024_0_2_0_0) : (⟨S4x3x1024x1024, .i32⟩ : BufTy).Contents (Elt F) → (⟨S4x1x1024x1024, .i32⟩ : BufTy).Contents (Elt F)),
    reshape main_v19 main_v20 rfl shapeCasts_S4x1x1024x1024_S4x1024x1024,
    nullary main_call3_c (constantI S_ 32 0#32),
    unary main_call3_c main_call3_v0 (broadcastInDim S4x1024x1024 ![] bcast_S_S4x1024x1024),
    binary main_v20 main_call3_v0 main_call3_v1 (cmpi .slt),
    nullary main_call3_c_0 (constantI S_ 32 64#32),
    unary main_call3_c_0 main_call3_v2 (broadcastInDim S4x1024x1024 ![] bcast_S_S4x1024x1024),
    binary main_v20 main_call3_v2 main_call3_v3 addi,
    ternary main_call3_v1 main_call3_v3 main_v20 main_call3_v4 select,
    unary main_call3_v4 main_call3_v5 (broadcastInDim S4x1024x1024x1 ![0, 1, 2] bcast_S4x1024x1024_S4x1024x1024x1_0_1_2),
    nullary main_call3_c_1 (constantI S1 32 63#32),
    nullary main_call3_c_2 (constantI S_ 32 0#32),
    unary main_call3_c_2 main_call3_v6 (broadcastInDim S4x1024x1024x1 ![] bcast_S_S4x1024x1024x1),
    binary main_call3_v5 main_call3_v6 main_call3_v7 (cmpi .sge),
    unary main_call3_c_1 main_call3_v8 (broadcastInDim S1x1x1x1 ![3] bcast_S1_S1x1x1x1_3),
    unary main_call3_v8 main_call3_v9 (broadcastInDim S4x1024x1024x1 ![0, 1, 2, 3] bcast_S1x1x1x1_S4x1024x1024x1_0_1_2_3),
    binary main_call3_v5 main_call3_v9 main_call3_v10 (cmpi .sle),
    binary main_call3_v7 main_call3_v10 main_call3_v11 andi,
    nullary main_call3_c_3 (constantI S_ 1 1#1),
    TRef.binary main_call3.v11 main_call3.c_3 main_call3.v12 (fun x v => Host.reduce IntOp.andi x v reducesTo_S4x1024x1024x1_S4x1024x1024_d3 h_S_),
    binary main_v18 main_call3_v5 main_call3_v13 (fun x i => Host.gather gather_S64_S4x1024x1024x1_S4x1024x1024_n_0_n_n_0_3_1 x i),
    nullary main_call3_cst (constant S_ .f32 0x7FC00000#32),
    unary main_call3_cst main_call3_v14 (broadcastInDim S4x1024x1024 ![] bcast_S_S4x1024x1024),
    ternary main_call3_v12 main_call3_v13 main_call3_v14 main_v21 select ]

/-- Segment C1 of the straight line. -/
abbrev sC1 : List (HloOp τ sig (Elt F)) :=
  [ unary main_v11 main_v22 (broadcastInDim S4x1x1024x1024 ![0, 2, 3] bcast_S4x1024x1024_S4x1x1024x1024_0_2_3 : (⟨S4x1024x1024, .f32⟩ : BufTy).Contents (Elt F) → (⟨S4x1x1024x1024, .f32⟩ : BufTy).Contents (Elt F)),
    unary main_v16 main_v23 (broadcastInDim S4x1x1024x1024 ![0, 2, 3] bcast_S4x1024x1024_S4x1x1024x1024_0_2_3 : (⟨S4x1024x1024, .f32⟩ : BufTy).Contents (Elt F) → (⟨S4x1x1024x1024, .f32⟩ : BufTy).Contents (Elt F)),
    unary main_v21 main_v24 (broadcastInDim S4x1x1024x1024 ![0, 2, 3] bcast_S4x1024x1024_S4x1x1024x1024_0_2_3 : (⟨S4x1024x1024, .f32⟩ : BufTy).Contents (Elt F) → (⟨S4x1x1024x1024, .f32⟩ : BufTy).Contents (Elt F)),
    nary ![main_v22, main_v23, main_v24] main_v25 (fun u => concatenate S4x3x1024x1024 1 [⟨S4x1x1024x1024, u 0⟩, ⟨S4x1x1024x1024, u 1⟩, ⟨S4x1x1024x1024, u 2⟩] concatenates_S4x1x1024x1024_S4x1x1024x1024_S4x1x1024x1024_S4x3x1024x1024_d1) ]

/-- Segment T4 of the straight line. -/
abbrev sT4 : List (HloOp τ sig (Elt F)) :=
  [ unary main_arg1 main_v26 ((extractStridedSlice S1x64 ![0, 0] · slices_S3x64_S1x64_0_0) : (⟨S3x64, .f32⟩ : BufTy).Contents (Elt F) → (⟨S1x64, .f32⟩ : BufTy).Contents (Elt F)),
    reshape main_v26 main_v27 rfl shapeCasts_S1x64_S64,
    unary main_v4 main_v28 ((extractStridedSlice S4x1x1024x1024 ![0, 0, 0, 0] · slices_S4x3x1024x1024_S4x1x1024x1024_0_0_0_0) : (⟨S4x3x1024x1024, .i32⟩ : BufTy).Contents (Elt F) → (⟨S4x1x1024x1024, .i32⟩ : BufTy).Contents (Elt F)),
    reshape main_v28 main_v29 rfl shapeCasts_S4x1x1024x1024_S4x1024x1024,
    nullary main_c_1 (constantI S_ 32 1#32),
    unary main_c_1 main_v30 (broadcastInDim S4x1024x1024 ![] bcast_S_S4x1024x1024 : (⟨S_, .i32⟩ : BufTy).Contents (Elt F) → (⟨S4x1024x1024, .i32⟩ : BufTy).Contents (Elt F)),
    binary main_v29 main_v30 main_v31 (addi : (⟨S4x1024x1024, .i32⟩ : BufTy).Contents (Elt F) → (⟨S4x1024x1024, .i32⟩ : BufTy).Contents (Elt F) → (⟨S4x1024x1024, .i32⟩ : BufTy).Contents (Elt F)),
    nullary main_call4_c (constantI S_ 32 0#32),
    unary main_call4_c main_call4_v0 (broadcastInDim S4x1024x1024 ![] bcast_S_S4x1024x1024),
    binary main_v31 main_call4_v0 main_call4_v1 (cmpi .slt),
    nullary main_call4_c_0 (constantI S_ 32 64#32),
    unary main_call4_c_0 main_call4_v2 (broadcastInDim S4x1024x1024 ![] bcast_S_S4x1024x1024),
    binary main_v31 main_call4_v2 main_call4_v3 addi,
    ternary main_call4_v1 main_call4_v3 main_v31 main_call4_v4 select,
    unary main_call4_v4 main_call4_v5 (broadcastInDim S4x1024x1024x1 ![0, 1, 2] bcast_S4x1024x1024_S4x1024x1024x1_0_1_2),
    nullary main_call4_c_1 (constantI S1 32 63#32),
    nullary main_call4_c_2 (constantI S_ 32 0#32),
    unary main_call4_c_2 main_call4_v6 (broadcastInDim S4x1024x1024x1 ![] bcast_S_S4x1024x1024x1),
    binary main_call4_v5 main_call4_v6 main_call4_v7 (cmpi .sge),
    unary main_call4_c_1 main_call4_v8 (broadcastInDim S1x1x1x1 ![3] bcast_S1_S1x1x1x1_3),
    unary main_call4_v8 main_call4_v9 (broadcastInDim S4x1024x1024x1 ![0, 1, 2, 3] bcast_S1x1x1x1_S4x1024x1024x1_0_1_2_3),
    binary main_call4_v5 main_call4_v9 main_call4_v10 (cmpi .sle),
    binary main_call4_v7 main_call4_v10 main_call4_v11 andi,
    nullary main_call4_c_3 (constantI S_ 1 1#1),
    binary main_call4_v11 main_call4_c_3 main_call4_v12 ((fun x v => Host.reduce IntOp.andi x v reducesTo_S4x1024x1024x1_S4x1024x1024_d3 h_S_) : (⟨S4x1024x1024x1, .i1⟩ : BufTy).Contents (Elt F) → (⟨S_, .i1⟩ : BufTy).Contents (Elt F) → (⟨S4x1024x1024, .i1⟩ : BufTy).Contents (Elt F)),
    binary main_v27 main_call4_v5 main_call4_v13 (fun x i => Host.gather gather_S64_S4x1024x1024x1_S4x1024x1024_n_0_n_n_0_3_1 x i),
    nullary main_call4_cst (constant S_ .f32 0x7FC00000#32),
    unary main_call4_cst main_call4_v14 (broadcastInDim S4x1024x1024 ![] bcast_S_S4x1024x1024),
    ternary main_call4_v12 main_call4_v13 main_call4_v14 main_v32 select ]

/-- Segment T4 with its conjunction-reduce still over typed references. -/
abbrev sT4T : List (HloOp τ sig (Elt F)) :=
  [ unary main_arg1 main_v26 ((extractStridedSlice S1x64 ![0, 0] · slices_S3x64_S1x64_0_0) : (⟨S3x64, .f32⟩ : BufTy).Contents (Elt F) → (⟨S1x64, .f32⟩ : BufTy).Contents (Elt F)),
    reshape main_v26 main_v27 rfl shapeCasts_S1x64_S64,
    unary main_v4 main_v28 ((extractStridedSlice S4x1x1024x1024 ![0, 0, 0, 0] · slices_S4x3x1024x1024_S4x1x1024x1024_0_0_0_0) : (⟨S4x3x1024x1024, .i32⟩ : BufTy).Contents (Elt F) → (⟨S4x1x1024x1024, .i32⟩ : BufTy).Contents (Elt F)),
    reshape main_v28 main_v29 rfl shapeCasts_S4x1x1024x1024_S4x1024x1024,
    nullary main_c_1 (constantI S_ 32 1#32),
    unary main_c_1 main_v30 (broadcastInDim S4x1024x1024 ![] bcast_S_S4x1024x1024 : (⟨S_, .i32⟩ : BufTy).Contents (Elt F) → (⟨S4x1024x1024, .i32⟩ : BufTy).Contents (Elt F)),
    binary main_v29 main_v30 main_v31 (addi : (⟨S4x1024x1024, .i32⟩ : BufTy).Contents (Elt F) → (⟨S4x1024x1024, .i32⟩ : BufTy).Contents (Elt F) → (⟨S4x1024x1024, .i32⟩ : BufTy).Contents (Elt F)),
    nullary main_call4_c (constantI S_ 32 0#32),
    unary main_call4_c main_call4_v0 (broadcastInDim S4x1024x1024 ![] bcast_S_S4x1024x1024),
    binary main_v31 main_call4_v0 main_call4_v1 (cmpi .slt),
    nullary main_call4_c_0 (constantI S_ 32 64#32),
    unary main_call4_c_0 main_call4_v2 (broadcastInDim S4x1024x1024 ![] bcast_S_S4x1024x1024),
    binary main_v31 main_call4_v2 main_call4_v3 addi,
    ternary main_call4_v1 main_call4_v3 main_v31 main_call4_v4 select,
    unary main_call4_v4 main_call4_v5 (broadcastInDim S4x1024x1024x1 ![0, 1, 2] bcast_S4x1024x1024_S4x1024x1024x1_0_1_2),
    nullary main_call4_c_1 (constantI S1 32 63#32),
    nullary main_call4_c_2 (constantI S_ 32 0#32),
    unary main_call4_c_2 main_call4_v6 (broadcastInDim S4x1024x1024x1 ![] bcast_S_S4x1024x1024x1),
    binary main_call4_v5 main_call4_v6 main_call4_v7 (cmpi .sge),
    unary main_call4_c_1 main_call4_v8 (broadcastInDim S1x1x1x1 ![3] bcast_S1_S1x1x1x1_3),
    unary main_call4_v8 main_call4_v9 (broadcastInDim S4x1024x1024x1 ![0, 1, 2, 3] bcast_S1x1x1x1_S4x1024x1024x1_0_1_2_3),
    binary main_call4_v5 main_call4_v9 main_call4_v10 (cmpi .sle),
    binary main_call4_v7 main_call4_v10 main_call4_v11 andi,
    nullary main_call4_c_3 (constantI S_ 1 1#1),
    TRef.binary main_call4.v11 main_call4.c_3 main_call4.v12 (fun x v => Host.reduce IntOp.andi x v reducesTo_S4x1024x1024x1_S4x1024x1024_d3 h_S_),
    binary main_v27 main_call4_v5 main_call4_v13 (fun x i => Host.gather gather_S64_S4x1024x1024x1_S4x1024x1024_n_0_n_n_0_3_1 x i),
    nullary main_call4_cst (constant S_ .f32 0x7FC00000#32),
    unary main_call4_cst main_call4_v14 (broadcastInDim S4x1024x1024 ![] bcast_S_S4x1024x1024),
    ternary main_call4_v12 main_call4_v13 main_call4_v14 main_v32 select ]

/-- Segment T5 of the straight line. -/
abbrev sT5 : List (HloOp τ sig (Elt F)) :=
  [ unary main_arg1 main_v33 ((extractStridedSlice S1x64 ![1, 0] · slices_S3x64_S1x64_1_0) : (⟨S3x64, .f32⟩ : BufTy).Contents (Elt F) → (⟨S1x64, .f32⟩ : BufTy).Contents (Elt F)),
    reshape main_v33 main_v34 rfl shapeCasts_S1x64_S64,
    unary main_v4 main_v35 ((extractStridedSlice S4x1x1024x1024 ![0, 1, 0, 0] · slices_S4x3x1024x1024_S4x1x1024x1024_0_1_0_0) : (⟨S4x3x1024x1024, .i32⟩ : BufTy).Contents (Elt F) → (⟨S4x1x1024x1024, .i32⟩ : BufTy).Contents (Elt F)),
    reshape main_v35 main_v36 rfl shapeCasts_S4x1x1024x1024_S4x1024x1024,
    nullary main_c_2 (constantI S_ 32 1#32),
    unary main_c_2 main_v37 (broadcastInDim S4x1024x1024 ![] bcast_S_S4x1024x1024 : (⟨S_, .i32⟩ : BufTy).Contents (Elt F) → (⟨S4x1024x1024, .i32⟩ : BufTy).Contents (Elt F)),
    binary main_v36 main_v37 main_v38 (addi : (⟨S4x1024x1024, .i32⟩ : BufTy).Contents (Elt F) → (⟨S4x1024x1024, .i32⟩ : BufTy).Contents (Elt F) → (⟨S4x1024x1024, .i32⟩ : BufTy).Contents (Elt F)),
    nullary main_call5_c (constantI S_ 32 0#32),
    unary main_call5_c main_call5_v0 (broadcastInDim S4x1024x1024 ![] bcast_S_S4x1024x1024),
    binary main_v38 main_call5_v0 main_call5_v1 (cmpi .slt),
    nullary main_call5_c_0 (constantI S_ 32 64#32),
    unary main_call5_c_0 main_call5_v2 (broadcastInDim S4x1024x1024 ![] bcast_S_S4x1024x1024),
    binary main_v38 main_call5_v2 main_call5_v3 addi,
    ternary main_call5_v1 main_call5_v3 main_v38 main_call5_v4 select,
    unary main_call5_v4 main_call5_v5 (broadcastInDim S4x1024x1024x1 ![0, 1, 2] bcast_S4x1024x1024_S4x1024x1024x1_0_1_2),
    nullary main_call5_c_1 (constantI S1 32 63#32),
    nullary main_call5_c_2 (constantI S_ 32 0#32),
    unary main_call5_c_2 main_call5_v6 (broadcastInDim S4x1024x1024x1 ![] bcast_S_S4x1024x1024x1),
    binary main_call5_v5 main_call5_v6 main_call5_v7 (cmpi .sge),
    unary main_call5_c_1 main_call5_v8 (broadcastInDim S1x1x1x1 ![3] bcast_S1_S1x1x1x1_3),
    unary main_call5_v8 main_call5_v9 (broadcastInDim S4x1024x1024x1 ![0, 1, 2, 3] bcast_S1x1x1x1_S4x1024x1024x1_0_1_2_3),
    binary main_call5_v5 main_call5_v9 main_call5_v10 (cmpi .sle),
    binary main_call5_v7 main_call5_v10 main_call5_v11 andi,
    nullary main_call5_c_3 (constantI S_ 1 1#1),
    binary main_call5_v11 main_call5_c_3 main_call5_v12 ((fun x v => Host.reduce IntOp.andi x v reducesTo_S4x1024x1024x1_S4x1024x1024_d3 h_S_) : (⟨S4x1024x1024x1, .i1⟩ : BufTy).Contents (Elt F) → (⟨S_, .i1⟩ : BufTy).Contents (Elt F) → (⟨S4x1024x1024, .i1⟩ : BufTy).Contents (Elt F)),
    binary main_v34 main_call5_v5 main_call5_v13 (fun x i => Host.gather gather_S64_S4x1024x1024x1_S4x1024x1024_n_0_n_n_0_3_1 x i),
    nullary main_call5_cst (constant S_ .f32 0x7FC00000#32),
    unary main_call5_cst main_call5_v14 (broadcastInDim S4x1024x1024 ![] bcast_S_S4x1024x1024),
    ternary main_call5_v12 main_call5_v13 main_call5_v14 main_v39 select ]

/-- Segment T5 with its conjunction-reduce still over typed references. -/
abbrev sT5T : List (HloOp τ sig (Elt F)) :=
  [ unary main_arg1 main_v33 ((extractStridedSlice S1x64 ![1, 0] · slices_S3x64_S1x64_1_0) : (⟨S3x64, .f32⟩ : BufTy).Contents (Elt F) → (⟨S1x64, .f32⟩ : BufTy).Contents (Elt F)),
    reshape main_v33 main_v34 rfl shapeCasts_S1x64_S64,
    unary main_v4 main_v35 ((extractStridedSlice S4x1x1024x1024 ![0, 1, 0, 0] · slices_S4x3x1024x1024_S4x1x1024x1024_0_1_0_0) : (⟨S4x3x1024x1024, .i32⟩ : BufTy).Contents (Elt F) → (⟨S4x1x1024x1024, .i32⟩ : BufTy).Contents (Elt F)),
    reshape main_v35 main_v36 rfl shapeCasts_S4x1x1024x1024_S4x1024x1024,
    nullary main_c_2 (constantI S_ 32 1#32),
    unary main_c_2 main_v37 (broadcastInDim S4x1024x1024 ![] bcast_S_S4x1024x1024 : (⟨S_, .i32⟩ : BufTy).Contents (Elt F) → (⟨S4x1024x1024, .i32⟩ : BufTy).Contents (Elt F)),
    binary main_v36 main_v37 main_v38 (addi : (⟨S4x1024x1024, .i32⟩ : BufTy).Contents (Elt F) → (⟨S4x1024x1024, .i32⟩ : BufTy).Contents (Elt F) → (⟨S4x1024x1024, .i32⟩ : BufTy).Contents (Elt F)),
    nullary main_call5_c (constantI S_ 32 0#32),
    unary main_call5_c main_call5_v0 (broadcastInDim S4x1024x1024 ![] bcast_S_S4x1024x1024),
    binary main_v38 main_call5_v0 main_call5_v1 (cmpi .slt),
    nullary main_call5_c_0 (constantI S_ 32 64#32),
    unary main_call5_c_0 main_call5_v2 (broadcastInDim S4x1024x1024 ![] bcast_S_S4x1024x1024),
    binary main_v38 main_call5_v2 main_call5_v3 addi,
    ternary main_call5_v1 main_call5_v3 main_v38 main_call5_v4 select,
    unary main_call5_v4 main_call5_v5 (broadcastInDim S4x1024x1024x1 ![0, 1, 2] bcast_S4x1024x1024_S4x1024x1024x1_0_1_2),
    nullary main_call5_c_1 (constantI S1 32 63#32),
    nullary main_call5_c_2 (constantI S_ 32 0#32),
    unary main_call5_c_2 main_call5_v6 (broadcastInDim S4x1024x1024x1 ![] bcast_S_S4x1024x1024x1),
    binary main_call5_v5 main_call5_v6 main_call5_v7 (cmpi .sge),
    unary main_call5_c_1 main_call5_v8 (broadcastInDim S1x1x1x1 ![3] bcast_S1_S1x1x1x1_3),
    unary main_call5_v8 main_call5_v9 (broadcastInDim S4x1024x1024x1 ![0, 1, 2, 3] bcast_S1x1x1x1_S4x1024x1024x1_0_1_2_3),
    binary main_call5_v5 main_call5_v9 main_call5_v10 (cmpi .sle),
    binary main_call5_v7 main_call5_v10 main_call5_v11 andi,
    nullary main_call5_c_3 (constantI S_ 1 1#1),
    TRef.binary main_call5.v11 main_call5.c_3 main_call5.v12 (fun x v => Host.reduce IntOp.andi x v reducesTo_S4x1024x1024x1_S4x1024x1024_d3 h_S_),
    binary main_v34 main_call5_v5 main_call5_v13 (fun x i => Host.gather gather_S64_S4x1024x1024x1_S4x1024x1024_n_0_n_n_0_3_1 x i),
    nullary main_call5_cst (constant S_ .f32 0x7FC00000#32),
    unary main_call5_cst main_call5_v14 (broadcastInDim S4x1024x1024 ![] bcast_S_S4x1024x1024),
    ternary main_call5_v12 main_call5_v13 main_call5_v14 main_v39 select ]

/-- Segment T6 of the straight line. -/
abbrev sT6 : List (HloOp τ sig (Elt F)) :=
  [ unary main_arg1 main_v40 ((extractStridedSlice S1x64 ![2, 0] · slices_S3x64_S1x64_2_0) : (⟨S3x64, .f32⟩ : BufTy).Contents (Elt F) → (⟨S1x64, .f32⟩ : BufTy).Contents (Elt F)),
    reshape main_v40 main_v41 rfl shapeCasts_S1x64_S64,
    unary main_v4 main_v42 ((extractStridedSlice S4x1x1024x1024 ![0, 2, 0, 0] · slices_S4x3x1024x1024_S4x1x1024x1024_0_2_0_0) : (⟨S4x3x1024x1024, .i32⟩ : BufTy).Contents (Elt F) → (⟨S4x1x1024x1024, .i32⟩ : BufTy).Contents (Elt F)),
    reshape main_v42 main_v43 rfl shapeCasts_S4x1x1024x1024_S4x1024x1024,
    nullary main_c_3 (constantI S_ 32 1#32),
    unary main_c_3 main_v44 (broadcastInDim S4x1024x1024 ![] bcast_S_S4x1024x1024 : (⟨S_, .i32⟩ : BufTy).Contents (Elt F) → (⟨S4x1024x1024, .i32⟩ : BufTy).Contents (Elt F)),
    binary main_v43 main_v44 main_v45 (addi : (⟨S4x1024x1024, .i32⟩ : BufTy).Contents (Elt F) → (⟨S4x1024x1024, .i32⟩ : BufTy).Contents (Elt F) → (⟨S4x1024x1024, .i32⟩ : BufTy).Contents (Elt F)),
    nullary main_call6_c (constantI S_ 32 0#32),
    unary main_call6_c main_call6_v0 (broadcastInDim S4x1024x1024 ![] bcast_S_S4x1024x1024),
    binary main_v45 main_call6_v0 main_call6_v1 (cmpi .slt),
    nullary main_call6_c_0 (constantI S_ 32 64#32),
    unary main_call6_c_0 main_call6_v2 (broadcastInDim S4x1024x1024 ![] bcast_S_S4x1024x1024),
    binary main_v45 main_call6_v2 main_call6_v3 addi,
    ternary main_call6_v1 main_call6_v3 main_v45 main_call6_v4 select,
    unary main_call6_v4 main_call6_v5 (broadcastInDim S4x1024x1024x1 ![0, 1, 2] bcast_S4x1024x1024_S4x1024x1024x1_0_1_2),
    nullary main_call6_c_1 (constantI S1 32 63#32),
    nullary main_call6_c_2 (constantI S_ 32 0#32),
    unary main_call6_c_2 main_call6_v6 (broadcastInDim S4x1024x1024x1 ![] bcast_S_S4x1024x1024x1),
    binary main_call6_v5 main_call6_v6 main_call6_v7 (cmpi .sge),
    unary main_call6_c_1 main_call6_v8 (broadcastInDim S1x1x1x1 ![3] bcast_S1_S1x1x1x1_3),
    unary main_call6_v8 main_call6_v9 (broadcastInDim S4x1024x1024x1 ![0, 1, 2, 3] bcast_S1x1x1x1_S4x1024x1024x1_0_1_2_3),
    binary main_call6_v5 main_call6_v9 main_call6_v10 (cmpi .sle),
    binary main_call6_v7 main_call6_v10 main_call6_v11 andi,
    nullary main_call6_c_3 (constantI S_ 1 1#1),
    binary main_call6_v11 main_call6_c_3 main_call6_v12 ((fun x v => Host.reduce IntOp.andi x v reducesTo_S4x1024x1024x1_S4x1024x1024_d3 h_S_) : (⟨S4x1024x1024x1, .i1⟩ : BufTy).Contents (Elt F) → (⟨S_, .i1⟩ : BufTy).Contents (Elt F) → (⟨S4x1024x1024, .i1⟩ : BufTy).Contents (Elt F)),
    binary main_v41 main_call6_v5 main_call6_v13 (fun x i => Host.gather gather_S64_S4x1024x1024x1_S4x1024x1024_n_0_n_n_0_3_1 x i),
    nullary main_call6_cst (constant S_ .f32 0x7FC00000#32),
    unary main_call6_cst main_call6_v14 (broadcastInDim S4x1024x1024 ![] bcast_S_S4x1024x1024),
    ternary main_call6_v12 main_call6_v13 main_call6_v14 main_v46 select ]

/-- Segment T6 with its conjunction-reduce still over typed references. -/
abbrev sT6T : List (HloOp τ sig (Elt F)) :=
  [ unary main_arg1 main_v40 ((extractStridedSlice S1x64 ![2, 0] · slices_S3x64_S1x64_2_0) : (⟨S3x64, .f32⟩ : BufTy).Contents (Elt F) → (⟨S1x64, .f32⟩ : BufTy).Contents (Elt F)),
    reshape main_v40 main_v41 rfl shapeCasts_S1x64_S64,
    unary main_v4 main_v42 ((extractStridedSlice S4x1x1024x1024 ![0, 2, 0, 0] · slices_S4x3x1024x1024_S4x1x1024x1024_0_2_0_0) : (⟨S4x3x1024x1024, .i32⟩ : BufTy).Contents (Elt F) → (⟨S4x1x1024x1024, .i32⟩ : BufTy).Contents (Elt F)),
    reshape main_v42 main_v43 rfl shapeCasts_S4x1x1024x1024_S4x1024x1024,
    nullary main_c_3 (constantI S_ 32 1#32),
    unary main_c_3 main_v44 (broadcastInDim S4x1024x1024 ![] bcast_S_S4x1024x1024 : (⟨S_, .i32⟩ : BufTy).Contents (Elt F) → (⟨S4x1024x1024, .i32⟩ : BufTy).Contents (Elt F)),
    binary main_v43 main_v44 main_v45 (addi : (⟨S4x1024x1024, .i32⟩ : BufTy).Contents (Elt F) → (⟨S4x1024x1024, .i32⟩ : BufTy).Contents (Elt F) → (⟨S4x1024x1024, .i32⟩ : BufTy).Contents (Elt F)),
    nullary main_call6_c (constantI S_ 32 0#32),
    unary main_call6_c main_call6_v0 (broadcastInDim S4x1024x1024 ![] bcast_S_S4x1024x1024),
    binary main_v45 main_call6_v0 main_call6_v1 (cmpi .slt),
    nullary main_call6_c_0 (constantI S_ 32 64#32),
    unary main_call6_c_0 main_call6_v2 (broadcastInDim S4x1024x1024 ![] bcast_S_S4x1024x1024),
    binary main_v45 main_call6_v2 main_call6_v3 addi,
    ternary main_call6_v1 main_call6_v3 main_v45 main_call6_v4 select,
    unary main_call6_v4 main_call6_v5 (broadcastInDim S4x1024x1024x1 ![0, 1, 2] bcast_S4x1024x1024_S4x1024x1024x1_0_1_2),
    nullary main_call6_c_1 (constantI S1 32 63#32),
    nullary main_call6_c_2 (constantI S_ 32 0#32),
    unary main_call6_c_2 main_call6_v6 (broadcastInDim S4x1024x1024x1 ![] bcast_S_S4x1024x1024x1),
    binary main_call6_v5 main_call6_v6 main_call6_v7 (cmpi .sge),
    unary main_call6_c_1 main_call6_v8 (broadcastInDim S1x1x1x1 ![3] bcast_S1_S1x1x1x1_3),
    unary main_call6_v8 main_call6_v9 (broadcastInDim S4x1024x1024x1 ![0, 1, 2, 3] bcast_S1x1x1x1_S4x1024x1024x1_0_1_2_3),
    binary main_call6_v5 main_call6_v9 main_call6_v10 (cmpi .sle),
    binary main_call6_v7 main_call6_v10 main_call6_v11 andi,
    nullary main_call6_c_3 (constantI S_ 1 1#1),
    TRef.binary main_call6.v11 main_call6.c_3 main_call6.v12 (fun x v => Host.reduce IntOp.andi x v reducesTo_S4x1024x1024x1_S4x1024x1024_d3 h_S_),
    binary main_v41 main_call6_v5 main_call6_v13 (fun x i => Host.gather gather_S64_S4x1024x1024x1_S4x1024x1024_n_0_n_n_0_3_1 x i),
    nullary main_call6_cst (constant S_ .f32 0x7FC00000#32),
    unary main_call6_cst main_call6_v14 (broadcastInDim S4x1024x1024 ![] bcast_S_S4x1024x1024),
    ternary main_call6_v12 main_call6_v13 main_call6_v14 main_v46 select ]

/-- Segment C2 of the straight line. -/
abbrev sC2 : List (HloOp τ sig (Elt F)) :=
  [ unary main_v32 main_v47 (broadcastInDim S4x1x1024x1024 ![0, 2, 3] bcast_S4x1024x1024_S4x1x1024x1024_0_2_3 : (⟨S4x1024x1024, .f32⟩ : BufTy).Contents (Elt F) → (⟨S4x1x1024x1024, .f32⟩ : BufTy).Contents (Elt F)),
    unary main_v39 main_v48 (broadcastInDim S4x1x1024x1024 ![0, 2, 3] bcast_S4x1024x1024_S4x1x1024x1024_0_2_3 : (⟨S4x1024x1024, .f32⟩ : BufTy).Contents (Elt F) → (⟨S4x1x1024x1024, .f32⟩ : BufTy).Contents (Elt F)),
    unary main_v46 main_v49 (broadcastInDim S4x1x1024x1024 ![0, 2, 3] bcast_S4x1024x1024_S4x1x1024x1024_0_2_3 : (⟨S4x1024x1024, .f32⟩ : BufTy).Contents (Elt F) → (⟨S4x1x1024x1024, .f32⟩ : BufTy).Contents (Elt F)),
    nary ![main_v47, main_v48, main_v49] main_v50 (fun u => concatenate S4x3x1024x1024 1 [⟨S4x1x1024x1024, u 0⟩, ⟨S4x1x1024x1024, u 1⟩, ⟨S4x1x1024x1024, u 2⟩] concatenates_S4x1x1024x1024_S4x1x1024x1024_S4x1x1024x1024_S4x3x1024x1024_d1),
    binary main_v50 main_v25 main_v51 (subf : (⟨S4x3x1024x1024, .f32⟩ : BufTy).Contents (Elt F) → (⟨S4x3x1024x1024, .f32⟩ : BufTy).Contents (Elt F) → (⟨S4x3x1024x1024, .f32⟩ : BufTy).Contents (Elt F)),
    binary main_v6 main_v51 main_v52 (mulf : (⟨S4x3x1024x1024, .f32⟩ : BufTy).Contents (Elt F) → (⟨S4x3x1024x1024, .f32⟩ : BufTy).Contents (Elt F) → (⟨S4x3x1024x1024, .f32⟩ : BufTy).Contents (Elt F)),
    binary main_v25 main_v52 main_v53 (addf : (⟨S4x3x1024x1024, .f32⟩ : BufTy).Contents (Elt F) → (⟨S4x3x1024x1024, .f32⟩ : BufTy).Contents (Elt F) → (⟨S4x3x1024x1024, .f32⟩ : BufTy).Contents (Elt F)) ]

/-- Segment B of the straight line. -/
abbrev sB : List (HloOp τ sig (Elt F)) :=
  [ nullary main_cst_4 (constant S_ .f32 0x00000000#32),
    nullary main_cst_5 (constant S_ .f32 0x3F800000#32),
    TRef.unary (.of main_cst_4) main_call7.v0 id,
    TRef.unary main_call7.v0 main_call7.v1 (broadcastInDim S4x3x1024x1024 ![] bcast_S_S4x3x1024x1024),
    TRef.binary main_call7.v1 (.of main_v53) main_call7.v2 maximumf,
    TRef.unary (.of main_cst_5) main_call7.v3 id,
    TRef.unary main_call7.v3 main_call7.v4 (broadcastInDim S4x3x1024x1024 ![] bcast_S_S4x3x1024x1024),
    TRef.binary main_call7.v4 main_call7.v2 main_call7.v5 minimumf,
    nullary main_cst_6 (constant S_ .f32 0x41800000#32),
    unary main_cst_6 main_v55 (broadcastInDim S4x3x1024x1024 ![] bcast_S_S4x3x1024x1024 : (⟨S_, .f32⟩ : BufTy).Contents (Elt F) → (⟨S4x3x1024x1024, .f32⟩ : BufTy).Contents (Elt F)),
    binary main_v54 main_v55 main_v56 (mulf : (⟨S4x3x1024x1024, .f32⟩ : BufTy).Contents (Elt F) → (⟨S4x3x1024x1024, .f32⟩ : BufTy).Contents (Elt F) → (⟨S4x3x1024x1024, .f32⟩ : BufTy).Contents (Elt F)),
    unary main_v56 main_v57 (Host.floor : (⟨S4x3x1024x1024, .f32⟩ : BufTy).Contents (Elt F) → (⟨S4x3x1024x1024, .f32⟩ : BufTy).Contents (Elt F)),
    unary main_v57 main_v58 (fptosi 32 : (⟨S4x3x1024x1024, .f32⟩ : BufTy).Contents (Elt F) → (⟨S4x3x1024x1024, .i32⟩ : BufTy).Contents (Elt F)),
    nullary main_c_7 (constantI S_ 32 0#32),
    nullary main_c_8 (constantI S_ 32 15#32),
    TRef.unary (.of main_c_7) main_call8.v0 id,
    TRef.unary main_call8.v0 main_call8.v1 (broadcastInDim S4x3x1024x1024 ![] bcast_S_S4x3x1024x1024),
    TRef.binary main_call8.v1 (.of main_v58) main_call8.v2 maxsi,
    TRef.unary (.of main_c_8) main_call8.v3 id,
    TRef.unary main_call8.v3 main_call8.v4 (broadcastInDim S4x3x1024x1024 ![] bcast_S_S4x3x1024x1024),
    TRef.binary main_call8.v4 main_call8.v2 main_call8.v5 minsi,
    unary main_v59 main_v60 (sitofp .f32 : (⟨S4x3x1024x1024, .i32⟩ : BufTy).Contents (Elt F) → (⟨S4x3x1024x1024, .f32⟩ : BufTy).Contents (Elt F)),
    binary main_v56 main_v60 main_v61 (subf : (⟨S4x3x1024x1024, .f32⟩ : BufTy).Contents (Elt F) → (⟨S4x3x1024x1024, .f32⟩ : BufTy).Contents (Elt F) → (⟨S4x3x1024x1024, .f32⟩ : BufTy).Contents (Elt F)),
    unary main_v59 main_v62 ((extractStridedSlice S4x1x1024x1024 ![0, 0, 0, 0] · slices_S4x3x1024x1024_S4x1x1024x1024_0_0_0_0) : (⟨S4x3x1024x1024, .i32⟩ : BufTy).Contents (Elt F) → (⟨S4x1x1024x1024, .i32⟩ : BufTy).Contents (Elt F)),
    reshape main_v62 main_v63 rfl shapeCasts_S4x1x1024x1024_S4x1024x1024,
    unary main_v59 main_v64 ((extractStridedSlice S4x1x1024x1024 ![0, 1, 0, 0] · slices_S4x3x1024x1024_S4x1x1024x1024_0_1_0_0) : (⟨S4x3x1024x1024, .i32⟩ : BufTy).Contents (Elt F) → (⟨S4x1x1024x1024, .i32⟩ : BufTy).Contents (Elt F)),
    reshape main_v64 main_v65 rfl shapeCasts_S4x1x1024x1024_S4x1024x1024,
    unary main_v59 main_v66 ((extractStridedSlice S4x1x1024x1024 ![0, 2, 0, 0] · slices_S4x3x1024x1024_S4x1x1024x1024_0_2_0_0) : (⟨S4x3x1024x1024, .i32⟩ : BufTy).Contents (Elt F) → (⟨S4x1x1024x1024, .i32⟩ : BufTy).Contents (Elt F)),
    reshape main_v66 main_v67 rfl shapeCasts_S4x1x1024x1024_S4x1024x1024,
    unary main_v61 main_v68 ((extractStridedSlice S4x1x1024x1024 ![0, 0, 0, 0] · slices_S4x3x1024x1024_S4x1x1024x1024_0_0_0_0) : (⟨S4x3x1024x1024, .f32⟩ : BufTy).Contents (Elt F) → (⟨S4x1x1024x1024, .f32⟩ : BufTy).Contents (Elt F)),
    reshape main_v68 main_v69 rfl shapeCasts_S4x1x1024x1024_S4x1024x1024,
    unary main_v69 main_v70 (broadcastInDim S4x1024x1024x1 ![0, 1, 2] bcast_S4x1024x1024_S4x1024x1024x1_0_1_2 : (⟨S4x1024x1024, .f32⟩ : BufTy).Contents (Elt F) → (⟨S4x1024x1024x1, .f32⟩ : BufTy).Contents (Elt F)),
    unary main_v61 main_v71 ((extractStridedSlice S4x1x1024x1024 ![0, 1, 0, 0] · slices_S4x3x1024x1024_S4x1x1024x1024_0_1_0_0) : (⟨S4x3x1024x1024, .f32⟩ : BufTy).Contents (Elt F) → (⟨S4x1x1024x1024, .f32⟩ : BufTy).Contents (Elt F)),
    reshape main_v71 main_v72 rfl shapeCasts_S4x1x1024x1024_S4x1024x1024,
    unary main_v72 main_v73 (broadcastInDim S4x1024x1024x1 ![0, 1, 2] bcast_S4x1024x1024_S4x1024x1024x1_0_1_2 : (⟨S4x1024x1024, .f32⟩ : BufTy).Contents (Elt F) → (⟨S4x1024x1024x1, .f32⟩ : BufTy).Contents (Elt F)),
    unary main_v61 main_v74 ((extractStridedSlice S4x1x1024x1024 ![0, 2, 0, 0] · slices_S4x3x1024x1024_S4x1x1024x1024_0_2_0_0) : (⟨S4x3x1024x1024, .f32⟩ : BufTy).Contents (Elt F) → (⟨S4x1x1024x1024, .f32⟩ : BufTy).Contents (Elt F)),
    reshape main_v74 main_v75 rfl shapeCasts_S4x1x1024x1024_S4x1024x1024,
    unary main_v75 main_v76 (broadcastInDim S4x1024x1024x1 ![0, 1, 2] bcast_S4x1024x1024_S4x1024x1024x1_0_1_2 : (⟨S4x1024x1024, .f32⟩ : BufTy).Contents (Elt F) → (⟨S4x1024x1024x1, .f32⟩ : BufTy).Contents (Elt F)),
    reshape main_arg2 main_v77 rfl shapeCasts_S17x17x17x3_S4913x3 ]

/-- Segment K0 of the straight line. -/
abbrev sK0 : List (HloOp τ sig (Elt F)) :=
  [ nullary main_c_9 (constantI S_ 32 0#32),
    unary main_c_9 main_v78 (broadcastInDim S4x1024x1024 ![] bcast_S_S4x1024x1024 : (⟨S_, .i32⟩ : BufTy).Contents (Elt F) → (⟨S4x1024x1024, .i32⟩ : BufTy).Contents (Elt F)),
    binary main_v63 main_v78 main_v79 (addi : (⟨S4x1024x1024, .i32⟩ : BufTy).Contents (Elt F) → (⟨S4x1024x1024, .i32⟩ : BufTy).Contents (Elt F) → (⟨S4x1024x1024, .i32⟩ : BufTy).Contents (Elt F)),
    nullary main_c_10 (constantI S_ 32 17#32),
    unary main_c_10 main_v80 (broadcastInDim S4x1024x1024 ![] bcast_S_S4x1024x1024 : (⟨S_, .i32⟩ : BufTy).Contents (Elt F) → (⟨S4x1024x1024, .i32⟩ : BufTy).Contents (Elt F)),
    binary main_v79 main_v80 main_v81 (muli : (⟨S4x1024x1024, .i32⟩ : BufTy).Contents (Elt F) → (⟨S4x1024x1024, .i32⟩ : BufTy).Contents (Elt F) → (⟨S4x1024x1024, .i32⟩ : BufTy).Contents (Elt F)),
    nullary main_c_11 (constantI S_ 32 0#32),
    unary main_c_11 main_v82 (broadcastInDim S4x1024x1024 ![] bcast_S_S4x1024x1024 : (⟨S_, .i32⟩ : BufTy).Contents (Elt F) → (⟨S4x1024x1024, .i32⟩ : BufTy).Contents (Elt F)),
    binary main_v65 main_v82 main_v83 (addi : (⟨S4x1024x1024, .i32⟩ : BufTy).Contents (Elt F) → (⟨S4x1024x1024, .i32⟩ : BufTy).Contents (Elt F) → (⟨S4x1024x1024, .i32⟩ : BufTy).Contents (Elt F)),
    binary main_v81 main_v83 main_v84 (addi : (⟨S4x1024x1024, .i32⟩ : BufTy).Contents (Elt F) → (⟨S4x1024x1024, .i32⟩ : BufTy).Contents (Elt F) → (⟨S4x1024x1024, .i32⟩ : BufTy).Contents (Elt F)),
    nullary main_c_12 (constantI S_ 32 17#32),
    unary main_c_12 main_v85 (broadcastInDim S4x1024x1024 ![] bcast_S_S4x1024x1024 : (⟨S_, .i32⟩ : BufTy).Contents (Elt F) → (⟨S4x1024x1024, .i32⟩ : BufTy).Contents (Elt F)),
    binary main_v84 main_v85 main_v86 (muli : (⟨S4x1024x1024, .i32⟩ : BufTy).Contents (Elt F) → (⟨S4x1024x1024, .i32⟩ : BufTy).Contents (Elt F) → (⟨S4x1024x1024, .i32⟩ : BufTy).Contents (Elt F)),
    nullary main_c_13 (constantI S_ 32 0#32),
    unary main_c_13 main_v87 (broadcastInDim S4x1024x1024 ![] bcast_S_S4x1024x1024 : (⟨S_, .i32⟩ : BufTy).Contents (Elt F) → (⟨S4x1024x1024, .i32⟩ : BufTy).Contents (Elt F)),
    binary main_v67 main_v87 main_v88 (addi : (⟨S4x1024x1024, .i32⟩ : BufTy).Contents (Elt F) → (⟨S4x1024x1024, .i32⟩ : BufTy).Contents (Elt F) → (⟨S4x1024x1024, .i32⟩ : BufTy).Contents (Elt F)),
    binary main_v86 main_v88 main_v89 (addi : (⟨S4x1024x1024, .i32⟩ : BufTy).Contents (Elt F) → (⟨S4x1024x1024, .i32⟩ : BufTy).Contents (Elt F) → (⟨S4x1024x1024, .i32⟩ : BufTy).Contents (Elt F)),
    nullary main_c_14 (constantI S_ 32 0#32),
    unary main_c_14 main_v90 (broadcastInDim S4x1024x1024 ![] bcast_S_S4x1024x1024 : (⟨S_, .i32⟩ : BufTy).Contents (Elt F) → (⟨S4x1024x1024, .i32⟩ : BufTy).Contents (Elt F)),
    binary main_v89 main_v90 main_v91 (cmpi .slt : (⟨S4x1024x1024, .i32⟩ : BufTy).Contents (Elt F) → (⟨S4x1024x1024, .i32⟩ : BufTy).Contents (Elt F) → (⟨S4x1024x1024, .i1⟩ : BufTy).Contents (Elt F)),
    nullary main_c_15 (constantI S_ 32 4913#32),
    unary main_c_15 main_v92 (broadcastInDim S4x1024x1024 ![] bcast_S_S4x1024x1024 : (⟨S_, .i32⟩ : BufTy).Contents (Elt F) → (⟨S4x1024x1024, .i32⟩ : BufTy).Contents (Elt F)),
    binary main_v89 main_v92 main_v93 (addi : (⟨S4x1024x1024, .i32⟩ : BufTy).Contents (Elt F) → (⟨S4x1024x1024, .i32⟩ : BufTy).Contents (Elt F) → (⟨S4x1024x1024, .i32⟩ : BufTy).Contents (Elt F)),
    ternary main_v91 main_v93 main_v89 main_v94 (select : (⟨S4x1024x1024, .i1⟩ : BufTy).Contents (Elt F) → (⟨S4x1024x1024, .i32⟩ : BufTy).Contents (Elt F) → (⟨S4x1024x1024, .i32⟩ : BufTy).Contents (Elt F) → (⟨S4x1024x1024, .i32⟩ : BufTy).Contents (Elt F)),
    unary main_v94 main_v95 (broadcastInDim S4x1024x1024x1 ![0, 1, 2] bcast_S4x1024x1024_S4x1024x1024x1_0_1_2 : (⟨S4x1024x1024, .i32⟩ : BufTy).Contents (Elt F) → (⟨S4x1024x1024x1, .i32⟩ : BufTy).Contents (Elt F)),
    binary main_v77 main_v95 main_v96 ((fun x i => Host.gather gather_S4913x3_S4x1024x1024x1_S4x1024x1024x3_3_0_n_n_0_3_13 x i) : (⟨S4913x3, .f32⟩ : BufTy).Contents (Elt F) → (⟨S4x1024x1024x1, .i32⟩ : BufTy).Contents (Elt F) → (⟨S4x1024x1024x3, .f32⟩ : BufTy).Contents (Elt F)),
    nullary main_cst_16 (constant S_ .f32 0x3F800000#32),
    unary main_cst_16 main_v97 (broadcastInDim S4x1024x1024x1 ![] bcast_S_S4x1024x1024x1 : (⟨S_, .f32⟩ : BufTy).Contents (Elt F) → (⟨S4x1024x1024x1, .f32⟩ : BufTy).Contents (Elt F)),
    binary main_v97 main_v70 main_v98 (subf : (⟨S4x1024x1024x1, .f32⟩ : BufTy).Contents (Elt F) → (⟨S4x1024x1024x1, .f32⟩ : BufTy).Contents (Elt F) → (⟨S4x1024x1024x1, .f32⟩ : BufTy).Contents (Elt F)),
    unary main_v98 main_v99 (broadcastInDim S4x1024x1024x3 ![0, 1, 2, 3] bcast_S4x1024x1024x1_S4x1024x1024x3_0_1_2_3 : (⟨S4x1024x1024x1, .f32⟩ : BufTy).Contents (Elt F) → (⟨S4x1024x1024x3, .f32⟩ : BufTy).Contents (Elt F)),
    binary main_v96 main_v99 main_v100 (mulf : (⟨S4x1024x1024x3, .f32⟩ : BufTy).Contents (Elt F) → (⟨S4x1024x1024x3, .f32⟩ : BufTy).Contents (Elt F) → (⟨S4x1024x1024x3, .f32⟩ : BufTy).Contents (Elt F)),
    nullary main_cst_17 (constant S_ .f32 0x3F800000#32),
    unary main_cst_17 main_v101 (broadcastInDim S4x1024x1024x1 ![] bcast_S_S4x1024x1024x1 : (⟨S_, .f32⟩ : BufTy).Contents (Elt F) → (⟨S4x1024x1024x1, .f32⟩ : BufTy).Contents (Elt F)),
    binary main_v101 main_v73 main_v102 (subf : (⟨S4x1024x1024x1, .f32⟩ : BufTy).Contents (Elt F) → (⟨S4x1024x1024x1, .f32⟩ : BufTy).Contents (Elt F) → (⟨S4x1024x1024x1, .f32⟩ : BufTy).Contents (Elt F)),
    unary main_v102 main_v103 (broadcastInDim S4x1024x1024x3 ![0, 1, 2, 3] bcast_S4x1024x1024x1_S4x1024x1024x3_0_1_2_3 : (⟨S4x1024x1024x1, .f32⟩ : BufTy).Contents (Elt F) → (⟨S4x1024x1024x3, .f32⟩ : BufTy).Contents (Elt F)),
    binary main_v100 main_v103 main_v104 (mulf : (⟨S4x1024x1024x3, .f32⟩ : BufTy).Contents (Elt F) → (⟨S4x1024x1024x3, .f32⟩ : BufTy).Contents (Elt F) → (⟨S4x1024x1024x3, .f32⟩ : BufTy).Contents (Elt F)),
    nullary main_cst_18 (constant S_ .f32 0x3F800000#32),
    unary main_cst_18 main_v105 (broadcastInDim S4x1024x1024x1 ![] bcast_S_S4x1024x1024x1 : (⟨S_, .f32⟩ : BufTy).Contents (Elt F) → (⟨S4x1024x1024x1, .f32⟩ : BufTy).Contents (Elt F)),
    binary main_v105 main_v76 main_v106 (subf : (⟨S4x1024x1024x1, .f32⟩ : BufTy).Contents (Elt F) → (⟨S4x1024x1024x1, .f32⟩ : BufTy).Contents (Elt F) → (⟨S4x1024x1024x1, .f32⟩ : BufTy).Contents (Elt F)),
    unary main_v106 main_v107 (broadcastInDim S4x1024x1024x3 ![0, 1, 2, 3] bcast_S4x1024x1024x1_S4x1024x1024x3_0_1_2_3 : (⟨S4x1024x1024x1, .f32⟩ : BufTy).Contents (Elt F) → (⟨S4x1024x1024x3, .f32⟩ : BufTy).Contents (Elt F)),
    binary main_v104 main_v107 main_v108 (mulf : (⟨S4x1024x1024x3, .f32⟩ : BufTy).Contents (Elt F) → (⟨S4x1024x1024x3, .f32⟩ : BufTy).Contents (Elt F) → (⟨S4x1024x1024x3, .f32⟩ : BufTy).Contents (Elt F)) ]

/-- Segment K1 of the straight line. -/
abbrev sK1 : List (HloOp τ sig (Elt F)) :=
  [ nullary main_c_19 (constantI S_ 32 1#32),
    unary main_c_19 main_v109 (broadcastInDim S4x1024x1024 ![] bcast_S_S4x1024x1024 : (⟨S_, .i32⟩ : BufTy).Contents (Elt F) → (⟨S4x1024x1024, .i32⟩ : BufTy).Contents (Elt F)),
    binary main_v63 main_v109 main_v110 (addi : (⟨S4x1024x1024, .i32⟩ : BufTy).Contents (Elt F) → (⟨S4x1024x1024, .i32⟩ : BufTy).Contents (Elt F) → (⟨S4x1024x1024, .i32⟩ : BufTy).Contents (Elt F)),
    nullary main_c_20 (constantI S_ 32 17#32),
    unary main_c_20 main_v111 (broadcastInDim S4x1024x1024 ![] bcast_S_S4x1024x1024 : (⟨S_, .i32⟩ : BufTy).Contents (Elt F) → (⟨S4x1024x1024, .i32⟩ : BufTy).Contents (Elt F)),
    binary main_v110 main_v111 main_v112 (muli : (⟨S4x1024x1024, .i32⟩ : BufTy).Contents (Elt F) → (⟨S4x1024x1024, .i32⟩ : BufTy).Contents (Elt F) → (⟨S4x1024x1024, .i32⟩ : BufTy).Contents (Elt F)),
    nullary main_c_21 (constantI S_ 32 0#32),
    unary main_c_21 main_v113 (broadcastInDim S4x1024x1024 ![] bcast_S_S4x1024x1024 : (⟨S_, .i32⟩ : BufTy).Contents (Elt F) → (⟨S4x1024x1024, .i32⟩ : BufTy).Contents (Elt F)),
    binary main_v65 main_v113 main_v114 (addi : (⟨S4x1024x1024, .i32⟩ : BufTy).Contents (Elt F) → (⟨S4x1024x1024, .i32⟩ : BufTy).Contents (Elt F) → (⟨S4x1024x1024, .i32⟩ : BufTy).Contents (Elt F)),
    binary main_v112 main_v114 main_v115 (addi : (⟨S4x1024x1024, .i32⟩ : BufTy).Contents (Elt F) → (⟨S4x1024x1024, .i32⟩ : BufTy).Contents (Elt F) → (⟨S4x1024x1024, .i32⟩ : BufTy).Contents (Elt F)),
    nullary main_c_22 (constantI S_ 32 17#32),
    unary main_c_22 main_v116 (broadcastInDim S4x1024x1024 ![] bcast_S_S4x1024x1024 : (⟨S_, .i32⟩ : BufTy).Contents (Elt F) → (⟨S4x1024x1024, .i32⟩ : BufTy).Contents (Elt F)),
    binary main_v115 main_v116 main_v117 (muli : (⟨S4x1024x1024, .i32⟩ : BufTy).Contents (Elt F) → (⟨S4x1024x1024, .i32⟩ : BufTy).Contents (Elt F) → (⟨S4x1024x1024, .i32⟩ : BufTy).Contents (Elt F)),
    nullary main_c_23 (constantI S_ 32 0#32),
    unary main_c_23 main_v118 (broadcastInDim S4x1024x1024 ![] bcast_S_S4x1024x1024 : (⟨S_, .i32⟩ : BufTy).Contents (Elt F) → (⟨S4x1024x1024, .i32⟩ : BufTy).Contents (Elt F)),
    binary main_v67 main_v118 main_v119 (addi : (⟨S4x1024x1024, .i32⟩ : BufTy).Contents (Elt F) → (⟨S4x1024x1024, .i32⟩ : BufTy).Contents (Elt F) → (⟨S4x1024x1024, .i32⟩ : BufTy).Contents (Elt F)),
    binary main_v117 main_v119 main_v120 (addi : (⟨S4x1024x1024, .i32⟩ : BufTy).Contents (Elt F) → (⟨S4x1024x1024, .i32⟩ : BufTy).Contents (Elt F) → (⟨S4x1024x1024, .i32⟩ : BufTy).Contents (Elt F)),
    nullary main_c_24 (constantI S_ 32 0#32),
    unary main_c_24 main_v121 (broadcastInDim S4x1024x1024 ![] bcast_S_S4x1024x1024 : (⟨S_, .i32⟩ : BufTy).Contents (Elt F) → (⟨S4x1024x1024, .i32⟩ : BufTy).Contents (Elt F)),
    binary main_v120 main_v121 main_v122 (cmpi .slt : (⟨S4x1024x1024, .i32⟩ : BufTy).Contents (Elt F) → (⟨S4x1024x1024, .i32⟩ : BufTy).Contents (Elt F) → (⟨S4x1024x1024, .i1⟩ : BufTy).Contents (Elt F)),
    nullary main_c_25 (constantI S_ 32 4913#32),
    unary main_c_25 main_v123 (broadcastInDim S4x1024x1024 ![] bcast_S_S4x1024x1024 : (⟨S_, .i32⟩ : BufTy).Contents (Elt F) → (⟨S4x1024x1024, .i32⟩ : BufTy).Contents (Elt F)),
    binary main_v120 main_v123 main_v124 (addi : (⟨S4x1024x1024, .i32⟩ : BufTy).Contents (Elt F) → (⟨S4x1024x1024, .i32⟩ : BufTy).Contents (Elt F) → (⟨S4x1024x1024, .i32⟩ : BufTy).Contents (Elt F)),
    ternary main_v122 main_v124 main_v120 main_v125 (select : (⟨S4x1024x1024, .i1⟩ : BufTy).Contents (Elt F) → (⟨S4x1024x1024, .i32⟩ : BufTy).Contents (Elt F) → (⟨S4x1024x1024, .i32⟩ : BufTy).Contents (Elt F) → (⟨S4x1024x1024, .i32⟩ : BufTy).Contents (Elt F)),
    unary main_v125 main_v126 (broadcastInDim S4x1024x1024x1 ![0, 1, 2] bcast_S4x1024x1024_S4x1024x1024x1_0_1_2 : (⟨S4x1024x1024, .i32⟩ : BufTy).Contents (Elt F) → (⟨S4x1024x1024x1, .i32⟩ : BufTy).Contents (Elt F)),
    binary main_v77 main_v126 main_v127 ((fun x i => Host.gather gather_S4913x3_S4x1024x1024x1_S4x1024x1024x3_3_0_n_n_0_3_13 x i) : (⟨S4913x3, .f32⟩ : BufTy).Contents (Elt F) → (⟨S4x1024x1024x1, .i32⟩ : BufTy).Contents (Elt F) → (⟨S4x1024x1024x3, .f32⟩ : BufTy).Contents (Elt F)),
    unary main_v70 main_v128 (broadcastInDim S4x1024x1024x3 ![0, 1, 2, 3] bcast_S4x1024x1024x1_S4x1024x1024x3_0_1_2_3 : (⟨S4x1024x1024x1, .f32⟩ : BufTy).Contents (Elt F) → (⟨S4x1024x1024x3, .f32⟩ : BufTy).Contents (Elt F)),
    binary main_v127 main_v128 main_v129 (mulf : (⟨S4x1024x1024x3, .f32⟩ : BufTy).Contents (Elt F) → (⟨S4x1024x1024x3, .f32⟩ : BufTy).Contents (Elt F) → (⟨S4x1024x1024x3, .f32⟩ : BufTy).Contents (Elt F)),
    nullary main_cst_26 (constant S_ .f32 0x3F800000#32),
    unary main_cst_26 main_v130 (broadcastInDim S4x1024x1024x1 ![] bcast_S_S4x1024x1024x1 : (⟨S_, .f32⟩ : BufTy).Contents (Elt F) → (⟨S4x1024x1024x1, .f32⟩ : BufTy).Contents (Elt F)),
    binary main_v130 main_v73 main_v131 (subf : (⟨S4x1024x1024x1, .f32⟩ : BufTy).Contents (Elt F) → (⟨S4x1024x1024x1, .f32⟩ : BufTy).Contents (Elt F) → (⟨S4x1024x1024x1, .f32⟩ : BufTy).Contents (Elt F)),
    unary main_v131 main_v132 (broadcastInDim S4x1024x1024x3 ![0, 1, 2, 3] bcast_S4x1024x1024x1_S4x1024x1024x3_0_1_2_3 : (⟨S4x1024x1024x1, .f32⟩ : BufTy).Contents (Elt F) → (⟨S4x1024x1024x3, .f32⟩ : BufTy).Contents (Elt F)),
    binary main_v129 main_v132 main_v133 (mulf : (⟨S4x1024x1024x3, .f32⟩ : BufTy).Contents (Elt F) → (⟨S4x1024x1024x3, .f32⟩ : BufTy).Contents (Elt F) → (⟨S4x1024x1024x3, .f32⟩ : BufTy).Contents (Elt F)),
    nullary main_cst_27 (constant S_ .f32 0x3F800000#32),
    unary main_cst_27 main_v134 (broadcastInDim S4x1024x1024x1 ![] bcast_S_S4x1024x1024x1 : (⟨S_, .f32⟩ : BufTy).Contents (Elt F) → (⟨S4x1024x1024x1, .f32⟩ : BufTy).Contents (Elt F)),
    binary main_v134 main_v76 main_v135 (subf : (⟨S4x1024x1024x1, .f32⟩ : BufTy).Contents (Elt F) → (⟨S4x1024x1024x1, .f32⟩ : BufTy).Contents (Elt F) → (⟨S4x1024x1024x1, .f32⟩ : BufTy).Contents (Elt F)),
    unary main_v135 main_v136 (broadcastInDim S4x1024x1024x3 ![0, 1, 2, 3] bcast_S4x1024x1024x1_S4x1024x1024x3_0_1_2_3 : (⟨S4x1024x1024x1, .f32⟩ : BufTy).Contents (Elt F) → (⟨S4x1024x1024x3, .f32⟩ : BufTy).Contents (Elt F)),
    binary main_v133 main_v136 main_v137 (mulf : (⟨S4x1024x1024x3, .f32⟩ : BufTy).Contents (Elt F) → (⟨S4x1024x1024x3, .f32⟩ : BufTy).Contents (Elt F) → (⟨S4x1024x1024x3, .f32⟩ : BufTy).Contents (Elt F)),
    binary main_v108 main_v137 main_v138 (addf : (⟨S4x1024x1024x3, .f32⟩ : BufTy).Contents (Elt F) → (⟨S4x1024x1024x3, .f32⟩ : BufTy).Contents (Elt F) → (⟨S4x1024x1024x3, .f32⟩ : BufTy).Contents (Elt F)) ]

/-- Segment K2 of the straight line. -/
abbrev sK2 : List (HloOp τ sig (Elt F)) :=
  [ nullary main_c_28 (constantI S_ 32 0#32),
    unary main_c_28 main_v139 (broadcastInDim S4x1024x1024 ![] bcast_S_S4x1024x1024 : (⟨S_, .i32⟩ : BufTy).Contents (Elt F) → (⟨S4x1024x1024, .i32⟩ : BufTy).Contents (Elt F)),
    binary main_v63 main_v139 main_v140 (addi : (⟨S4x1024x1024, .i32⟩ : BufTy).Contents (Elt F) → (⟨S4x1024x1024, .i32⟩ : BufTy).Contents (Elt F) → (⟨S4x1024x1024, .i32⟩ : BufTy).Contents (Elt F)),
    nullary main_c_29 (constantI S_ 32 17#32),
    unary main_c_29 main_v141 (broadcastInDim S4x1024x1024 ![] bcast_S_S4x1024x1024 : (⟨S_, .i32⟩ : BufTy).Contents (Elt F) → (⟨S4x1024x1024, .i32⟩ : BufTy).Contents (Elt F)),
    binary main_v140 main_v141 main_v142 (muli : (⟨S4x1024x1024, .i32⟩ : BufTy).Contents (Elt F) → (⟨S4x1024x1024, .i32⟩ : BufTy).Contents (Elt F) → (⟨S4x1024x1024, .i32⟩ : BufTy).Contents (Elt F)),
    nullary main_c_30 (constantI S_ 32 1#32),
    unary main_c_30 main_v143 (broadcastInDim S4x1024x1024 ![] bcast_S_S4x1024x1024 : (⟨S_, .i32⟩ : BufTy).Contents (Elt F) → (⟨S4x1024x1024, .i32⟩ : BufTy).Contents (Elt F)),
    binary main_v65 main_v143 main_v144 (addi : (⟨S4x1024x1024, .i32⟩ : BufTy).Contents (Elt F) → (⟨S4x1024x1024, .i32⟩ : BufTy).Contents (Elt F) → (⟨S4x1024x1024, .i32⟩ : BufTy).Contents (Elt F)),
    binary main_v142 main_v144 main_v145 (addi : (⟨S4x1024x1024, .i32⟩ : BufTy).Contents (Elt F) → (⟨S4x1024x1024, .i32⟩ : BufTy).Contents (Elt F) → (⟨S4x1024x1024, .i32⟩ : BufTy).Contents (Elt F)),
    nullary main_c_31 (constantI S_ 32 17#32),
    unary main_c_31 main_v146 (broadcastInDim S4x1024x1024 ![] bcast_S_S4x1024x1024 : (⟨S_, .i32⟩ : BufTy).Contents (Elt F) → (⟨S4x1024x1024, .i32⟩ : BufTy).Contents (Elt F)),
    binary main_v145 main_v146 main_v147 (muli : (⟨S4x1024x1024, .i32⟩ : BufTy).Contents (Elt F) → (⟨S4x1024x1024, .i32⟩ : BufTy).Contents (Elt F) → (⟨S4x1024x1024, .i32⟩ : BufTy).Contents (Elt F)),
    nullary main_c_32 (constantI S_ 32 0#32),
    unary main_c_32 main_v148 (broadcastInDim S4x1024x1024 ![] bcast_S_S4x1024x1024 : (⟨S_, .i32⟩ : BufTy).Contents (Elt F) → (⟨S4x1024x1024, .i32⟩ : BufTy).Contents (Elt F)),
    binary main_v67 main_v148 main_v149 (addi : (⟨S4x1024x1024, .i32⟩ : BufTy).Contents (Elt F) → (⟨S4x1024x1024, .i32⟩ : BufTy).Contents (Elt F) → (⟨S4x1024x1024, .i32⟩ : BufTy).Contents (Elt F)),
    binary main_v147 main_v149 main_v150 (addi : (⟨S4x1024x1024, .i32⟩ : BufTy).Contents (Elt F) → (⟨S4x1024x1024, .i32⟩ : BufTy).Contents (Elt F) → (⟨S4x1024x1024, .i32⟩ : BufTy).Contents (Elt F)),
    nullary main_c_33 (constantI S_ 32 0#32),
    unary main_c_33 main_v151 (broadcastInDim S4x1024x1024 ![] bcast_S_S4x1024x1024 : (⟨S_, .i32⟩ : BufTy).Contents (Elt F) → (⟨S4x1024x1024, .i32⟩ : BufTy).Contents (Elt F)),
    binary main_v150 main_v151 main_v152 (cmpi .slt : (⟨S4x1024x1024, .i32⟩ : BufTy).Contents (Elt F) → (⟨S4x1024x1024, .i32⟩ : BufTy).Contents (Elt F) → (⟨S4x1024x1024, .i1⟩ : BufTy).Contents (Elt F)),
    nullary main_c_34 (constantI S_ 32 4913#32),
    unary main_c_34 main_v153 (broadcastInDim S4x1024x1024 ![] bcast_S_S4x1024x1024 : (⟨S_, .i32⟩ : BufTy).Contents (Elt F) → (⟨S4x1024x1024, .i32⟩ : BufTy).Contents (Elt F)),
    binary main_v150 main_v153 main_v154 (addi : (⟨S4x1024x1024, .i32⟩ : BufTy).Contents (Elt F) → (⟨S4x1024x1024, .i32⟩ : BufTy).Contents (Elt F) → (⟨S4x1024x1024, .i32⟩ : BufTy).Contents (Elt F)),
    ternary main_v152 main_v154 main_v150 main_v155 (select : (⟨S4x1024x1024, .i1⟩ : BufTy).Contents (Elt F) → (⟨S4x1024x1024, .i32⟩ : BufTy).Contents (Elt F) → (⟨S4x1024x1024, .i32⟩ : BufTy).Contents (Elt F) → (⟨S4x1024x1024, .i32⟩ : BufTy).Contents (Elt F)),
    unary main_v155 main_v156 (broadcastInDim S4x1024x1024x1 ![0, 1, 2] bcast_S4x1024x1024_S4x1024x1024x1_0_1_2 : (⟨S4x1024x1024, .i32⟩ : BufTy).Contents (Elt F) → (⟨S4x1024x1024x1, .i32⟩ : BufTy).Contents (Elt F)),
    binary main_v77 main_v156 main_v157 ((fun x i => Host.gather gather_S4913x3_S4x1024x1024x1_S4x1024x1024x3_3_0_n_n_0_3_13 x i) : (⟨S4913x3, .f32⟩ : BufTy).Contents (Elt F) → (⟨S4x1024x1024x1, .i32⟩ : BufTy).Contents (Elt F) → (⟨S4x1024x1024x3, .f32⟩ : BufTy).Contents (Elt F)),
    nullary main_cst_35 (constant S_ .f32 0x3F800000#32),
    unary main_cst_35 main_v158 (broadcastInDim S4x1024x1024x1 ![] bcast_S_S4x1024x1024x1 : (⟨S_, .f32⟩ : BufTy).Contents (Elt F) → (⟨S4x1024x1024x1, .f32⟩ : BufTy).Contents (Elt F)),
    binary main_v158 main_v70 main_v159 (subf : (⟨S4x1024x1024x1, .f32⟩ : BufTy).Contents (Elt F) → (⟨S4x1024x1024x1, .f32⟩ : BufTy).Contents (Elt F) → (⟨S4x1024x1024x1, .f32⟩ : BufTy).Contents (Elt F)),
    unary main_v159 main_v160 (broadcastInDim S4x1024x1024x3 ![0, 1, 2, 3] bcast_S4x1024x1024x1_S4x1024x1024x3_0_1_2_3 : (⟨S4x1024x1024x1, .f32⟩ : BufTy).Contents (Elt F) → (⟨S4x1024x1024x3, .f32⟩ : BufTy).Contents (Elt F)),
    binary main_v157 main_v160 main_v161 (mulf : (⟨S4x1024x1024x3, .f32⟩ : BufTy).Contents (Elt F) → (⟨S4x1024x1024x3, .f32⟩ : BufTy).Contents (Elt F) → (⟨S4x1024x1024x3, .f32⟩ : BufTy).Contents (Elt F)),
    unary main_v73 main_v162 (broadcastInDim S4x1024x1024x3 ![0, 1, 2, 3] bcast_S4x1024x1024x1_S4x1024x1024x3_0_1_2_3 : (⟨S4x1024x1024x1, .f32⟩ : BufTy).Contents (Elt F) → (⟨S4x1024x1024x3, .f32⟩ : BufTy).Contents (Elt F)),
    binary main_v161 main_v162 main_v163 (mulf : (⟨S4x1024x1024x3, .f32⟩ : BufTy).Contents (Elt F) → (⟨S4x1024x1024x3, .f32⟩ : BufTy).Contents (Elt F) → (⟨S4x1024x1024x3, .f32⟩ : BufTy).Contents (Elt F)),
    nullary main_cst_36 (constant S_ .f32 0x3F800000#32),
    unary main_cst_36 main_v164 (broadcastInDim S4x1024x1024x1 ![] bcast_S_S4x1024x1024x1 : (⟨S_, .f32⟩ : BufTy).Contents (Elt F) → (⟨S4x1024x1024x1, .f32⟩ : BufTy).Contents (Elt F)),
    binary main_v164 main_v76 main_v165 (subf : (⟨S4x1024x1024x1, .f32⟩ : BufTy).Contents (Elt F) → (⟨S4x1024x1024x1, .f32⟩ : BufTy).Contents (Elt F) → (⟨S4x1024x1024x1, .f32⟩ : BufTy).Contents (Elt F)),
    unary main_v165 main_v166 (broadcastInDim S4x1024x1024x3 ![0, 1, 2, 3] bcast_S4x1024x1024x1_S4x1024x1024x3_0_1_2_3 : (⟨S4x1024x1024x1, .f32⟩ : BufTy).Contents (Elt F) → (⟨S4x1024x1024x3, .f32⟩ : BufTy).Contents (Elt F)),
    binary main_v163 main_v166 main_v167 (mulf : (⟨S4x1024x1024x3, .f32⟩ : BufTy).Contents (Elt F) → (⟨S4x1024x1024x3, .f32⟩ : BufTy).Contents (Elt F) → (⟨S4x1024x1024x3, .f32⟩ : BufTy).Contents (Elt F)),
    binary main_v138 main_v167 main_v168 (addf : (⟨S4x1024x1024x3, .f32⟩ : BufTy).Contents (Elt F) → (⟨S4x1024x1024x3, .f32⟩ : BufTy).Contents (Elt F) → (⟨S4x1024x1024x3, .f32⟩ : BufTy).Contents (Elt F)) ]

/-- Segment K3 of the straight line. -/
abbrev sK3 : List (HloOp τ sig (Elt F)) :=
  [ nullary main_c_37 (constantI S_ 32 0#32),
    unary main_c_37 main_v169 (broadcastInDim S4x1024x1024 ![] bcast_S_S4x1024x1024 : (⟨S_, .i32⟩ : BufTy).Contents (Elt F) → (⟨S4x1024x1024, .i32⟩ : BufTy).Contents (Elt F)),
    binary main_v63 main_v169 main_v170 (addi : (⟨S4x1024x1024, .i32⟩ : BufTy).Contents (Elt F) → (⟨S4x1024x1024, .i32⟩ : BufTy).Contents (Elt F) → (⟨S4x1024x1024, .i32⟩ : BufTy).Contents (Elt F)),
    nullary main_c_38 (constantI S_ 32 17#32),
    unary main_c_38 main_v171 (broadcastInDim S4x1024x1024 ![] bcast_S_S4x1024x1024 : (⟨S_, .i32⟩ : BufTy).Contents (Elt F) → (⟨S4x1024x1024, .i32⟩ : BufTy).Contents (Elt F)),
    binary main_v170 main_v171 main_v172 (muli : (⟨S4x1024x1024, .i32⟩ : BufTy).Contents (Elt F) → (⟨S4x1024x1024, .i32⟩ : BufTy).Contents (Elt F) → (⟨S4x1024x1024, .i32⟩ : BufTy).Contents (Elt F)),
    nullary main_c_39 (constantI S_ 32 0#32),
    unary main_c_39 main_v173 (broadcastInDim S4x1024x1024 ![] bcast_S_S4x1024x1024 : (⟨S_, .i32⟩ : BufTy).Contents (Elt F) → (⟨S4x1024x1024, .i32⟩ : BufTy).Contents (Elt F)),
    binary main_v65 main_v173 main_v174 (addi : (⟨S4x1024x1024, .i32⟩ : BufTy).Contents (Elt F) → (⟨S4x1024x1024, .i32⟩ : BufTy).Contents (Elt F) → (⟨S4x1024x1024, .i32⟩ : BufTy).Contents (Elt F)),
    binary main_v172 main_v174 main_v175 (addi : (⟨S4x1024x1024, .i32⟩ : BufTy).Contents (Elt F) → (⟨S4x1024x1024, .i32⟩ : BufTy).Contents (Elt F) → (⟨S4x1024x1024, .i32⟩ : BufTy).Contents (Elt F)),
    nullary main_c_40 (constantI S_ 32 17#32),
    unary main_c_40 main_v176 (broadcastInDim S4x1024x1024 ![] bcast_S_S4x1024x1024 : (⟨S_, .i32⟩ : BufTy).Contents (Elt F) → (⟨S4x1024x1024, .i32⟩ : BufTy).Contents (Elt F)),
    binary main_v175 main_v176 main_v177 (muli : (⟨S4x1024x1024, .i32⟩ : BufTy).Contents (Elt F) → (⟨S4x1024x1024, .i32⟩ : BufTy).Contents (Elt F) → (⟨S4x1024x1024, .i32⟩ : BufTy).Contents (Elt F)),
    nullary main_c_41 (constantI S_ 32 1#32),
    unary main_c_41 main_v178 (broadcastInDim S4x1024x1024 ![] bcast_S_S4x1024x1024 : (⟨S_, .i32⟩ : BufTy).Contents (Elt F) → (⟨S4x1024x1024, .i32⟩ : BufTy).Contents (Elt F)),
    binary main_v67 main_v178 main_v179 (addi : (⟨S4x1024x1024, .i32⟩ : BufTy).Contents (Elt F) → (⟨S4x1024x1024, .i32⟩ : BufTy).Contents (Elt F) → (⟨S4x1024x1024, .i32⟩ : BufTy).Contents (Elt F)),
    binary main_v177 main_v179 main_v180 (addi : (⟨S4x1024x1024, .i32⟩ : BufTy).Contents (Elt F) → (⟨S4x1024x1024, .i32⟩ : BufTy).Contents (Elt F) → (⟨S4x1024x1024, .i32⟩ : BufTy).Contents (Elt F)),
    nullary main_c_42 (constantI S_ 32 0#32),
    unary main_c_42 main_v181 (broadcastInDim S4x1024x1024 ![] bcast_S_S4x1024x1024 : (⟨S_, .i32⟩ : BufTy).Contents (Elt F) → (⟨S4x1024x1024, .i32⟩ : BufTy).Contents (Elt F)),
    binary main_v180 main_v181 main_v182 (cmpi .slt : (⟨S4x1024x1024, .i32⟩ : BufTy).Contents (Elt F) → (⟨S4x1024x1024, .i32⟩ : BufTy).Contents (Elt F) → (⟨S4x1024x1024, .i1⟩ : BufTy).Contents (Elt F)),
    nullary main_c_43 (constantI S_ 32 4913#32),
    unary main_c_43 main_v183 (broadcastInDim S4x1024x1024 ![] bcast_S_S4x1024x1024 : (⟨S_, .i32⟩ : BufTy).Contents (Elt F) → (⟨S4x1024x1024, .i32⟩ : BufTy).Contents (Elt F)),
    binary main_v180 main_v183 main_v184 (addi : (⟨S4x1024x1024, .i32⟩ : BufTy).Contents (Elt F) → (⟨S4x1024x1024, .i32⟩ : BufTy).Contents (Elt F) → (⟨S4x1024x1024, .i32⟩ : BufTy).Contents (Elt F)),
    ternary main_v182 main_v184 main_v180 main_v185 (select : (⟨S4x1024x1024, .i1⟩ : BufTy).Contents (Elt F) → (⟨S4x1024x1024, .i32⟩ : BufTy).Contents (Elt F) → (⟨S4x1024x1024, .i32⟩ : BufTy).Contents (Elt F) → (⟨S4x1024x1024, .i32⟩ : BufTy).Contents (Elt F)),
    unary main_v185 main_v186 (broadcastInDim S4x1024x1024x1 ![0, 1, 2] bcast_S4x1024x1024_S4x1024x1024x1_0_1_2 : (⟨S4x1024x1024, .i32⟩ : BufTy).Contents (Elt F) → (⟨S4x1024x1024x1, .i32⟩ : BufTy).Contents (Elt F)),
    binary main_v77 main_v186 main_v187 ((fun x i => Host.gather gather_S4913x3_S4x1024x1024x1_S4x1024x1024x3_3_0_n_n_0_3_13 x i) : (⟨S4913x3, .f32⟩ : BufTy).Contents (Elt F) → (⟨S4x1024x1024x1, .i32⟩ : BufTy).Contents (Elt F) → (⟨S4x1024x1024x3, .f32⟩ : BufTy).Contents (Elt F)),
    nullary main_cst_44 (constant S_ .f32 0x3F800000#32),
    unary main_cst_44 main_v188 (broadcastInDim S4x1024x1024x1 ![] bcast_S_S4x1024x1024x1 : (⟨S_, .f32⟩ : BufTy).Contents (Elt F) → (⟨S4x1024x1024x1, .f32⟩ : BufTy).Contents (Elt F)),
    binary main_v188 main_v70 main_v189 (subf : (⟨S4x1024x1024x1, .f32⟩ : BufTy).Contents (Elt F) → (⟨S4x1024x1024x1, .f32⟩ : BufTy).Contents (Elt F) → (⟨S4x1024x1024x1, .f32⟩ : BufTy).Contents (Elt F)),
    unary main_v189 main_v190 (broadcastInDim S4x1024x1024x3 ![0, 1, 2, 3] bcast_S4x1024x1024x1_S4x1024x1024x3_0_1_2_3 : (⟨S4x1024x1024x1, .f32⟩ : BufTy).Contents (Elt F) → (⟨S4x1024x1024x3, .f32⟩ : BufTy).Contents (Elt F)),
    binary main_v187 main_v190 main_v191 (mulf : (⟨S4x1024x1024x3, .f32⟩ : BufTy).Contents (Elt F) → (⟨S4x1024x1024x3, .f32⟩ : BufTy).Contents (Elt F) → (⟨S4x1024x1024x3, .f32⟩ : BufTy).Contents (Elt F)),
    nullary main_cst_45 (constant S_ .f32 0x3F800000#32),
    unary main_cst_45 main_v192 (broadcastInDim S4x1024x1024x1 ![] bcast_S_S4x1024x1024x1 : (⟨S_, .f32⟩ : BufTy).Contents (Elt F) → (⟨S4x1024x1024x1, .f32⟩ : BufTy).Contents (Elt F)),
    binary main_v192 main_v73 main_v193 (subf : (⟨S4x1024x1024x1, .f32⟩ : BufTy).Contents (Elt F) → (⟨S4x1024x1024x1, .f32⟩ : BufTy).Contents (Elt F) → (⟨S4x1024x1024x1, .f32⟩ : BufTy).Contents (Elt F)),
    unary main_v193 main_v194 (broadcastInDim S4x1024x1024x3 ![0, 1, 2, 3] bcast_S4x1024x1024x1_S4x1024x1024x3_0_1_2_3 : (⟨S4x1024x1024x1, .f32⟩ : BufTy).Contents (Elt F) → (⟨S4x1024x1024x3, .f32⟩ : BufTy).Contents (Elt F)),
    binary main_v191 main_v194 main_v195 (mulf : (⟨S4x1024x1024x3, .f32⟩ : BufTy).Contents (Elt F) → (⟨S4x1024x1024x3, .f32⟩ : BufTy).Contents (Elt F) → (⟨S4x1024x1024x3, .f32⟩ : BufTy).Contents (Elt F)),
    unary main_v76 main_v196 (broadcastInDim S4x1024x1024x3 ![0, 1, 2, 3] bcast_S4x1024x1024x1_S4x1024x1024x3_0_1_2_3 : (⟨S4x1024x1024x1, .f32⟩ : BufTy).Contents (Elt F) → (⟨S4x1024x1024x3, .f32⟩ : BufTy).Contents (Elt F)),
    binary main_v195 main_v196 main_v197 (mulf : (⟨S4x1024x1024x3, .f32⟩ : BufTy).Contents (Elt F) → (⟨S4x1024x1024x3, .f32⟩ : BufTy).Contents (Elt F) → (⟨S4x1024x1024x3, .f32⟩ : BufTy).Contents (Elt F)),
    binary main_v168 main_v197 main_v198 (addf : (⟨S4x1024x1024x3, .f32⟩ : BufTy).Contents (Elt F) → (⟨S4x1024x1024x3, .f32⟩ : BufTy).Contents (Elt F) → (⟨S4x1024x1024x3, .f32⟩ : BufTy).Contents (Elt F)) ]

/-- Segment K4 of the straight line. -/
abbrev sK4 : List (HloOp τ sig (Elt F)) :=
  [ nullary main_c_46 (constantI S_ 32 1#32),
    unary main_c_46 main_v199 (broadcastInDim S4x1024x1024 ![] bcast_S_S4x1024x1024 : (⟨S_, .i32⟩ : BufTy).Contents (Elt F) → (⟨S4x1024x1024, .i32⟩ : BufTy).Contents (Elt F)),
    binary main_v63 main_v199 main_v200 (addi : (⟨S4x1024x1024, .i32⟩ : BufTy).Contents (Elt F) → (⟨S4x1024x1024, .i32⟩ : BufTy).Contents (Elt F) → (⟨S4x1024x1024, .i32⟩ : BufTy).Contents (Elt F)),
    nullary main_c_47 (constantI S_ 32 17#32),
    unary main_c_47 main_v201 (broadcastInDim S4x1024x1024 ![] bcast_S_S4x1024x1024 : (⟨S_, .i32⟩ : BufTy).Contents (Elt F) → (⟨S4x1024x1024, .i32⟩ : BufTy).Contents (Elt F)),
    binary main_v200 main_v201 main_v202 (muli : (⟨S4x1024x1024, .i32⟩ : BufTy).Contents (Elt F) → (⟨S4x1024x1024, .i32⟩ : BufTy).Contents (Elt F) → (⟨S4x1024x1024, .i32⟩ : BufTy).Contents (Elt F)),
    nullary main_c_48 (constantI S_ 32 1#32),
    unary main_c_48 main_v203 (broadcastInDim S4x1024x1024 ![] bcast_S_S4x1024x1024 : (⟨S_, .i32⟩ : BufTy).Contents (Elt F) → (⟨S4x1024x1024, .i32⟩ : BufTy).Contents (Elt F)),
    binary main_v65 main_v203 main_v204 (addi : (⟨S4x1024x1024, .i32⟩ : BufTy).Contents (Elt F) → (⟨S4x1024x1024, .i32⟩ : BufTy).Contents (Elt F) → (⟨S4x1024x1024, .i32⟩ : BufTy).Contents (Elt F)),
    binary main_v202 main_v204 main_v205 (addi : (⟨S4x1024x1024, .i32⟩ : BufTy).Contents (Elt F) → (⟨S4x1024x1024, .i32⟩ : BufTy).Contents (Elt F) → (⟨S4x1024x1024, .i32⟩ : BufTy).Contents (Elt F)),
    nullary main_c_49 (constantI S_ 32 17#32),
    unary main_c_49 main_v206 (broadcastInDim S4x1024x1024 ![] bcast_S_S4x1024x1024 : (⟨S_, .i32⟩ : BufTy).Contents (Elt F) → (⟨S4x1024x1024, .i32⟩ : BufTy).Contents (Elt F)),
    binary main_v205 main_v206 main_v207 (muli : (⟨S4x1024x1024, .i32⟩ : BufTy).Contents (Elt F) → (⟨S4x1024x1024, .i32⟩ : BufTy).Contents (Elt F) → (⟨S4x1024x1024, .i32⟩ : BufTy).Contents (Elt F)),
    nullary main_c_50 (constantI S_ 32 0#32),
    unary main_c_50 main_v208 (broadcastInDim S4x1024x1024 ![] bcast_S_S4x1024x1024 : (⟨S_, .i32⟩ : BufTy).Contents (Elt F) → (⟨S4x1024x1024, .i32⟩ : BufTy).Contents (Elt F)),
    binary main_v67 main_v208 main_v209 (addi : (⟨S4x1024x1024, .i32⟩ : BufTy).Contents (Elt F) → (⟨S4x1024x1024, .i32⟩ : BufTy).Contents (Elt F) → (⟨S4x1024x1024, .i32⟩ : BufTy).Contents (Elt F)),
    binary main_v207 main_v209 main_v210 (addi : (⟨S4x1024x1024, .i32⟩ : BufTy).Contents (Elt F) → (⟨S4x1024x1024, .i32⟩ : BufTy).Contents (Elt F) → (⟨S4x1024x1024, .i32⟩ : BufTy).Contents (Elt F)),
    nullary main_c_51 (constantI S_ 32 0#32),
    unary main_c_51 main_v211 (broadcastInDim S4x1024x1024 ![] bcast_S_S4x1024x1024 : (⟨S_, .i32⟩ : BufTy).Contents (Elt F) → (⟨S4x1024x1024, .i32⟩ : BufTy).Contents (Elt F)),
    binary main_v210 main_v211 main_v212 (cmpi .slt : (⟨S4x1024x1024, .i32⟩ : BufTy).Contents (Elt F) → (⟨S4x1024x1024, .i32⟩ : BufTy).Contents (Elt F) → (⟨S4x1024x1024, .i1⟩ : BufTy).Contents (Elt F)),
    nullary main_c_52 (constantI S_ 32 4913#32),
    unary main_c_52 main_v213 (broadcastInDim S4x1024x1024 ![] bcast_S_S4x1024x1024 : (⟨S_, .i32⟩ : BufTy).Contents (Elt F) → (⟨S4x1024x1024, .i32⟩ : BufTy).Contents (Elt F)),
    binary main_v210 main_v213 main_v214 (addi : (⟨S4x1024x1024, .i32⟩ : BufTy).Contents (Elt F) → (⟨S4x1024x1024, .i32⟩ : BufTy).Contents (Elt F) → (⟨S4x1024x1024, .i32⟩ : BufTy).Contents (Elt F)),
    ternary main_v212 main_v214 main_v210 main_v215 (select : (⟨S4x1024x1024, .i1⟩ : BufTy).Contents (Elt F) → (⟨S4x1024x1024, .i32⟩ : BufTy).Contents (Elt F) → (⟨S4x1024x1024, .i32⟩ : BufTy).Contents (Elt F) → (⟨S4x1024x1024, .i32⟩ : BufTy).Contents (Elt F)),
    unary main_v215 main_v216 (broadcastInDim S4x1024x1024x1 ![0, 1, 2] bcast_S4x1024x1024_S4x1024x1024x1_0_1_2 : (⟨S4x1024x1024, .i32⟩ : BufTy).Contents (Elt F) → (⟨S4x1024x1024x1, .i32⟩ : BufTy).Contents (Elt F)),
    binary main_v77 main_v216 main_v217 ((fun x i => Host.gather gather_S4913x3_S4x1024x1024x1_S4x1024x1024x3_3_0_n_n_0_3_13 x i) : (⟨S4913x3, .f32⟩ : BufTy).Contents (Elt F) → (⟨S4x1024x1024x1, .i32⟩ : BufTy).Contents (Elt F) → (⟨S4x1024x1024x3, .f32⟩ : BufTy).Contents (Elt F)),
    unary main_v70 main_v218 (broadcastInDim S4x1024x1024x3 ![0, 1, 2, 3] bcast_S4x1024x1024x1_S4x1024x1024x3_0_1_2_3 : (⟨S4x1024x1024x1, .f32⟩ : BufTy).Contents (Elt F) → (⟨S4x1024x1024x3, .f32⟩ : BufTy).Contents (Elt F)),
    binary main_v217 main_v218 main_v219 (mulf : (⟨S4x1024x1024x3, .f32⟩ : BufTy).Contents (Elt F) → (⟨S4x1024x1024x3, .f32⟩ : BufTy).Contents (Elt F) → (⟨S4x1024x1024x3, .f32⟩ : BufTy).Contents (Elt F)),
    unary main_v73 main_v220 (broadcastInDim S4x1024x1024x3 ![0, 1, 2, 3] bcast_S4x1024x1024x1_S4x1024x1024x3_0_1_2_3 : (⟨S4x1024x1024x1, .f32⟩ : BufTy).Contents (Elt F) → (⟨S4x1024x1024x3, .f32⟩ : BufTy).Contents (Elt F)),
    binary main_v219 main_v220 main_v221 (mulf : (⟨S4x1024x1024x3, .f32⟩ : BufTy).Contents (Elt F) → (⟨S4x1024x1024x3, .f32⟩ : BufTy).Contents (Elt F) → (⟨S4x1024x1024x3, .f32⟩ : BufTy).Contents (Elt F)),
    nullary main_cst_53 (constant S_ .f32 0x3F800000#32),
    unary main_cst_53 main_v222 (broadcastInDim S4x1024x1024x1 ![] bcast_S_S4x1024x1024x1 : (⟨S_, .f32⟩ : BufTy).Contents (Elt F) → (⟨S4x1024x1024x1, .f32⟩ : BufTy).Contents (Elt F)),
    binary main_v222 main_v76 main_v223 (subf : (⟨S4x1024x1024x1, .f32⟩ : BufTy).Contents (Elt F) → (⟨S4x1024x1024x1, .f32⟩ : BufTy).Contents (Elt F) → (⟨S4x1024x1024x1, .f32⟩ : BufTy).Contents (Elt F)),
    unary main_v223 main_v224 (broadcastInDim S4x1024x1024x3 ![0, 1, 2, 3] bcast_S4x1024x1024x1_S4x1024x1024x3_0_1_2_3 : (⟨S4x1024x1024x1, .f32⟩ : BufTy).Contents (Elt F) → (⟨S4x1024x1024x3, .f32⟩ : BufTy).Contents (Elt F)),
    binary main_v221 main_v224 main_v225 (mulf : (⟨S4x1024x1024x3, .f32⟩ : BufTy).Contents (Elt F) → (⟨S4x1024x1024x3, .f32⟩ : BufTy).Contents (Elt F) → (⟨S4x1024x1024x3, .f32⟩ : BufTy).Contents (Elt F)),
    binary main_v198 main_v225 main_v226 (addf : (⟨S4x1024x1024x3, .f32⟩ : BufTy).Contents (Elt F) → (⟨S4x1024x1024x3, .f32⟩ : BufTy).Contents (Elt F) → (⟨S4x1024x1024x3, .f32⟩ : BufTy).Contents (Elt F)) ]

/-- Segment K5 of the straight line. -/
abbrev sK5 : List (HloOp τ sig (Elt F)) :=
  [ nullary main_c_54 (constantI S_ 32 1#32),
    unary main_c_54 main_v227 (broadcastInDim S4x1024x1024 ![] bcast_S_S4x1024x1024 : (⟨S_, .i32⟩ : BufTy).Contents (Elt F) → (⟨S4x1024x1024, .i32⟩ : BufTy).Contents (Elt F)),
    binary main_v63 main_v227 main_v228 (addi : (⟨S4x1024x1024, .i32⟩ : BufTy).Contents (Elt F) → (⟨S4x1024x1024, .i32⟩ : BufTy).Contents (Elt F) → (⟨S4x1024x1024, .i32⟩ : BufTy).Contents (Elt F)),
    nullary main_c_55 (constantI S_ 32 17#32),
    unary main_c_55 main_v229 (broadcastInDim S4x1024x1024 ![] bcast_S_S4x1024x1024 : (⟨S_, .i32⟩ : BufTy).Contents (Elt F) → (⟨S4x1024x1024, .i32⟩ : BufTy).Contents (Elt F)),
    binary main_v228 main_v229 main_v230 (muli : (⟨S4x1024x1024, .i32⟩ : BufTy).Contents (Elt F) → (⟨S4x1024x1024, .i32⟩ : BufTy).Contents (Elt F) → (⟨S4x1024x1024, .i32⟩ : BufTy).Contents (Elt F)),
    nullary main_c_56 (constantI S_ 32 0#32),
    unary main_c_56 main_v231 (broadcastInDim S4x1024x1024 ![] bcast_S_S4x1024x1024 : (⟨S_, .i32⟩ : BufTy).Contents (Elt F) → (⟨S4x1024x1024, .i32⟩ : BufTy).Contents (Elt F)),
    binary main_v65 main_v231 main_v232 (addi : (⟨S4x1024x1024, .i32⟩ : BufTy).Contents (Elt F) → (⟨S4x1024x1024, .i32⟩ : BufTy).Contents (Elt F) → (⟨S4x1024x1024, .i32⟩ : BufTy).Contents (Elt F)),
    binary main_v230 main_v232 main_v233 (addi : (⟨S4x1024x1024, .i32⟩ : BufTy).Contents (Elt F) → (⟨S4x1024x1024, .i32⟩ : BufTy).Contents (Elt F) → (⟨S4x1024x1024, .i32⟩ : BufTy).Contents (Elt F)),
    nullary main_c_57 (constantI S_ 32 17#32),
    unary main_c_57 main_v234 (broadcastInDim S4x1024x1024 ![] bcast_S_S4x1024x1024 : (⟨S_, .i32⟩ : BufTy).Contents (Elt F) → (⟨S4x1024x1024, .i32⟩ : BufTy).Contents (Elt F)),
    binary main_v233 main_v234 main_v235 (muli : (⟨S4x1024x1024, .i32⟩ : BufTy).Contents (Elt F) → (⟨S4x1024x1024, .i32⟩ : BufTy).Contents (Elt F) → (⟨S4x1024x1024, .i32⟩ : BufTy).Contents (Elt F)),
    nullary main_c_58 (constantI S_ 32 1#32),
    unary main_c_58 main_v236 (broadcastInDim S4x1024x1024 ![] bcast_S_S4x1024x1024 : (⟨S_, .i32⟩ : BufTy).Contents (Elt F) → (⟨S4x1024x1024, .i32⟩ : BufTy).Contents (Elt F)),
    binary main_v67 main_v236 main_v237 (addi : (⟨S4x1024x1024, .i32⟩ : BufTy).Contents (Elt F) → (⟨S4x1024x1024, .i32⟩ : BufTy).Contents (Elt F) → (⟨S4x1024x1024, .i32⟩ : BufTy).Contents (Elt F)),
    binary main_v235 main_v237 main_v238 (addi : (⟨S4x1024x1024, .i32⟩ : BufTy).Contents (Elt F) → (⟨S4x1024x1024, .i32⟩ : BufTy).Contents (Elt F) → (⟨S4x1024x1024, .i32⟩ : BufTy).Contents (Elt F)),
    nullary main_c_59 (constantI S_ 32 0#32),
    unary main_c_59 main_v239 (broadcastInDim S4x1024x1024 ![] bcast_S_S4x1024x1024 : (⟨S_, .i32⟩ : BufTy).Contents (Elt F) → (⟨S4x1024x1024, .i32⟩ : BufTy).Contents (Elt F)),
    binary main_v238 main_v239 main_v240 (cmpi .slt : (⟨S4x1024x1024, .i32⟩ : BufTy).Contents (Elt F) → (⟨S4x1024x1024, .i32⟩ : BufTy).Contents (Elt F) → (⟨S4x1024x1024, .i1⟩ : BufTy).Contents (Elt F)),
    nullary main_c_60 (constantI S_ 32 4913#32),
    unary main_c_60 main_v241 (broadcastInDim S4x1024x1024 ![] bcast_S_S4x1024x1024 : (⟨S_, .i32⟩ : BufTy).Contents (Elt F) → (⟨S4x1024x1024, .i32⟩ : BufTy).Contents (Elt F)),
    binary main_v238 main_v241 main_v242 (addi : (⟨S4x1024x1024, .i32⟩ : BufTy).Contents (Elt F) → (⟨S4x1024x1024, .i32⟩ : BufTy).Contents (Elt F) → (⟨S4x1024x1024, .i32⟩ : BufTy).Contents (Elt F)),
    ternary main_v240 main_v242 main_v238 main_v243 (select : (⟨S4x1024x1024, .i1⟩ : BufTy).Contents (Elt F) → (⟨S4x1024x1024, .i32⟩ : BufTy).Contents (Elt F) → (⟨S4x1024x1024, .i32⟩ : BufTy).Contents (Elt F) → (⟨S4x1024x1024, .i32⟩ : BufTy).Contents (Elt F)),
    unary main_v243 main_v244 (broadcastInDim S4x1024x1024x1 ![0, 1, 2] bcast_S4x1024x1024_S4x1024x1024x1_0_1_2 : (⟨S4x1024x1024, .i32⟩ : BufTy).Contents (Elt F) → (⟨S4x1024x1024x1, .i32⟩ : BufTy).Contents (Elt F)),
    binary main_v77 main_v244 main_v245 ((fun x i => Host.gather gather_S4913x3_S4x1024x1024x1_S4x1024x1024x3_3_0_n_n_0_3_13 x i) : (⟨S4913x3, .f32⟩ : BufTy).Contents (Elt F) → (⟨S4x1024x1024x1, .i32⟩ : BufTy).Contents (Elt F) → (⟨S4x1024x1024x3, .f32⟩ : BufTy).Contents (Elt F)),
    unary main_v70 main_v246 (broadcastInDim S4x1024x1024x3 ![0, 1, 2, 3] bcast_S4x1024x1024x1_S4x1024x1024x3_0_1_2_3 : (⟨S4x1024x1024x1, .f32⟩ : BufTy).Contents (Elt F) → (⟨S4x1024x1024x3, .f32⟩ : BufTy).Contents (Elt F)),
    binary main_v245 main_v246 main_v247 (mulf : (⟨S4x1024x1024x3, .f32⟩ : BufTy).Contents (Elt F) → (⟨S4x1024x1024x3, .f32⟩ : BufTy).Contents (Elt F) → (⟨S4x1024x1024x3, .f32⟩ : BufTy).Contents (Elt F)),
    nullary main_cst_61 (constant S_ .f32 0x3F800000#32),
    unary main_cst_61 main_v248 (broadcastInDim S4x1024x1024x1 ![] bcast_S_S4x1024x1024x1 : (⟨S_, .f32⟩ : BufTy).Contents (Elt F) → (⟨S4x1024x1024x1, .f32⟩ : BufTy).Contents (Elt F)),
    binary main_v248 main_v73 main_v249 (subf : (⟨S4x1024x1024x1, .f32⟩ : BufTy).Contents (Elt F) → (⟨S4x1024x1024x1, .f32⟩ : BufTy).Contents (Elt F) → (⟨S4x1024x1024x1, .f32⟩ : BufTy).Contents (Elt F)),
    unary main_v249 main_v250 (broadcastInDim S4x1024x1024x3 ![0, 1, 2, 3] bcast_S4x1024x1024x1_S4x1024x1024x3_0_1_2_3 : (⟨S4x1024x1024x1, .f32⟩ : BufTy).Contents (Elt F) → (⟨S4x1024x1024x3, .f32⟩ : BufTy).Contents (Elt F)),
    binary main_v247 main_v250 main_v251 (mulf : (⟨S4x1024x1024x3, .f32⟩ : BufTy).Contents (Elt F) → (⟨S4x1024x1024x3, .f32⟩ : BufTy).Contents (Elt F) → (⟨S4x1024x1024x3, .f32⟩ : BufTy).Contents (Elt F)),
    unary main_v76 main_v252 (broadcastInDim S4x1024x1024x3 ![0, 1, 2, 3] bcast_S4x1024x1024x1_S4x1024x1024x3_0_1_2_3 : (⟨S4x1024x1024x1, .f32⟩ : BufTy).Contents (Elt F) → (⟨S4x1024x1024x3, .f32⟩ : BufTy).Contents (Elt F)),
    binary main_v251 main_v252 main_v253 (mulf : (⟨S4x1024x1024x3, .f32⟩ : BufTy).Contents (Elt F) → (⟨S4x1024x1024x3, .f32⟩ : BufTy).Contents (Elt F) → (⟨S4x1024x1024x3, .f32⟩ : BufTy).Contents (Elt F)),
    binary main_v226 main_v253 main_v254 (addf : (⟨S4x1024x1024x3, .f32⟩ : BufTy).Contents (Elt F) → (⟨S4x1024x1024x3, .f32⟩ : BufTy).Contents (Elt F) → (⟨S4x1024x1024x3, .f32⟩ : BufTy).Contents (Elt F)) ]

/-- Segment K6 of the straight line. -/
abbrev sK6 : List (HloOp τ sig (Elt F)) :=
  [ nullary main_c_62 (constantI S_ 32 0#32),
    unary main_c_62 main_v255 (broadcastInDim S4x1024x1024 ![] bcast_S_S4x1024x1024 : (⟨S_, .i32⟩ : BufTy).Contents (Elt F) → (⟨S4x1024x1024, .i32⟩ : BufTy).Contents (Elt F)),
    binary main_v63 main_v255 main_v256 (addi : (⟨S4x1024x1024, .i32⟩ : BufTy).Contents (Elt F) → (⟨S4x1024x1024, .i32⟩ : BufTy).Contents (Elt F) → (⟨S4x1024x1024, .i32⟩ : BufTy).Contents (Elt F)),
    nullary main_c_63 (constantI S_ 32 17#32),
    unary main_c_63 main_v257 (broadcastInDim S4x1024x1024 ![] bcast_S_S4x1024x1024 : (⟨S_, .i32⟩ : BufTy).Contents (Elt F) → (⟨S4x1024x1024, .i32⟩ : BufTy).Contents (Elt F)),
    binary main_v256 main_v257 main_v258 (muli : (⟨S4x1024x1024, .i32⟩ : BufTy).Contents (Elt F) → (⟨S4x1024x1024, .i32⟩ : BufTy).Contents (Elt F) → (⟨S4x1024x1024, .i32⟩ : BufTy).Contents (Elt F)),
    nullary main_c_64 (constantI S_ 32 1#32),
    unary main_c_64 main_v259 (broadcastInDim S4x1024x1024 ![] bcast_S_S4x1024x1024 : (⟨S_, .i32⟩ : BufTy).Contents (Elt F) → (⟨S4x1024x1024, .i32⟩ : BufTy).Contents (Elt F)),
    binary main_v65 main_v259 main_v260 (addi : (⟨S4x1024x1024, .i32⟩ : BufTy).Contents (Elt F) → (⟨S4x1024x1024, .i32⟩ : BufTy).Contents (Elt F) → (⟨S4x1024x1024, .i32⟩ : BufTy).Contents (Elt F)),
    binary main_v258 main_v260 main_v261 (addi : (⟨S4x1024x1024, .i32⟩ : BufTy).Contents (Elt F) → (⟨S4x1024x1024, .i32⟩ : BufTy).Contents (Elt F) → (⟨S4x1024x1024, .i32⟩ : BufTy).Contents (Elt F)),
    nullary main_c_65 (constantI S_ 32 17#32),
    unary main_c_65 main_v262 (broadcastInDim S4x1024x1024 ![] bcast_S_S4x1024x1024 : (⟨S_, .i32⟩ : BufTy).Contents (Elt F) → (⟨S4x1024x1024, .i32⟩ : BufTy).Contents (Elt F)),
    binary main_v261 main_v262 main_v263 (muli : (⟨S4x1024x1024, .i32⟩ : BufTy).Contents (Elt F) → (⟨S4x1024x1024, .i32⟩ : BufTy).Contents (Elt F) → (⟨S4x1024x1024, .i32⟩ : BufTy).Contents (Elt F)),
    nullary main_c_66 (constantI S_ 32 1#32),
    unary main_c_66 main_v264 (broadcastInDim S4x1024x1024 ![] bcast_S_S4x1024x1024 : (⟨S_, .i32⟩ : BufTy).Contents (Elt F) → (⟨S4x1024x1024, .i32⟩ : BufTy).Contents (Elt F)),
    binary main_v67 main_v264 main_v265 (addi : (⟨S4x1024x1024, .i32⟩ : BufTy).Contents (Elt F) → (⟨S4x1024x1024, .i32⟩ : BufTy).Contents (Elt F) → (⟨S4x1024x1024, .i32⟩ : BufTy).Contents (Elt F)),
    binary main_v263 main_v265 main_v266 (addi : (⟨S4x1024x1024, .i32⟩ : BufTy).Contents (Elt F) → (⟨S4x1024x1024, .i32⟩ : BufTy).Contents (Elt F) → (⟨S4x1024x1024, .i32⟩ : BufTy).Contents (Elt F)),
    nullary main_c_67 (constantI S_ 32 0#32),
    unary main_c_67 main_v267 (broadcastInDim S4x1024x1024 ![] bcast_S_S4x1024x1024 : (⟨S_, .i32⟩ : BufTy).Contents (Elt F) → (⟨S4x1024x1024, .i32⟩ : BufTy).Contents (Elt F)),
    binary main_v266 main_v267 main_v268 (cmpi .slt : (⟨S4x1024x1024, .i32⟩ : BufTy).Contents (Elt F) → (⟨S4x1024x1024, .i32⟩ : BufTy).Contents (Elt F) → (⟨S4x1024x1024, .i1⟩ : BufTy).Contents (Elt F)),
    nullary main_c_68 (constantI S_ 32 4913#32),
    unary main_c_68 main_v269 (broadcastInDim S4x1024x1024 ![] bcast_S_S4x1024x1024 : (⟨S_, .i32⟩ : BufTy).Contents (Elt F) → (⟨S4x1024x1024, .i32⟩ : BufTy).Contents (Elt F)),
    binary main_v266 main_v269 main_v270 (addi : (⟨S4x1024x1024, .i32⟩ : BufTy).Contents (Elt F) → (⟨S4x1024x1024, .i32⟩ : BufTy).Contents (Elt F) → (⟨S4x1024x1024, .i32⟩ : BufTy).Contents (Elt F)),
    ternary main_v268 main_v270 main_v266 main_v271 (select : (⟨S4x1024x1024, .i1⟩ : BufTy).Contents (Elt F) → (⟨S4x1024x1024, .i32⟩ : BufTy).Contents (Elt F) → (⟨S4x1024x1024, .i32⟩ : BufTy).Contents (Elt F) → (⟨S4x1024x1024, .i32⟩ : BufTy).Contents (Elt F)),
    unary main_v271 main_v272 (broadcastInDim S4x1024x1024x1 ![0, 1, 2] bcast_S4x1024x1024_S4x1024x1024x1_0_1_2 : (⟨S4x1024x1024, .i32⟩ : BufTy).Contents (Elt F) → (⟨S4x1024x1024x1, .i32⟩ : BufTy).Contents (Elt F)),
    binary main_v77 main_v272 main_v273 ((fun x i => Host.gather gather_S4913x3_S4x1024x1024x1_S4x1024x1024x3_3_0_n_n_0_3_13 x i) : (⟨S4913x3, .f32⟩ : BufTy).Contents (Elt F) → (⟨S4x1024x1024x1, .i32⟩ : BufTy).Contents (Elt F) → (⟨S4x1024x1024x3, .f32⟩ : BufTy).Contents (Elt F)),
    nullary main_cst_69 (constant S_ .f32 0x3F800000#32),
    unary main_cst_69 main_v274 (broadcastInDim S4x1024x1024x1 ![] bcast_S_S4x1024x1024x1 : (⟨S_, .f32⟩ : BufTy).Contents (Elt F) → (⟨S4x1024x1024x1, .f32⟩ : BufTy).Contents (Elt F)),
    binary main_v274 main_v70 main_v275 (subf : (⟨S4x1024x1024x1, .f32⟩ : BufTy).Contents (Elt F) → (⟨S4x1024x1024x1, .f32⟩ : BufTy).Contents (Elt F) → (⟨S4x1024x1024x1, .f32⟩ : BufTy).Contents (Elt F)),
    unary main_v275 main_v276 (broadcastInDim S4x1024x1024x3 ![0, 1, 2, 3] bcast_S4x1024x1024x1_S4x1024x1024x3_0_1_2_3 : (⟨S4x1024x1024x1, .f32⟩ : BufTy).Contents (Elt F) → (⟨S4x1024x1024x3, .f32⟩ : BufTy).Contents (Elt F)),
    binary main_v273 main_v276 main_v277 (mulf : (⟨S4x1024x1024x3, .f32⟩ : BufTy).Contents (Elt F) → (⟨S4x1024x1024x3, .f32⟩ : BufTy).Contents (Elt F) → (⟨S4x1024x1024x3, .f32⟩ : BufTy).Contents (Elt F)),
    unary main_v73 main_v278 (broadcastInDim S4x1024x1024x3 ![0, 1, 2, 3] bcast_S4x1024x1024x1_S4x1024x1024x3_0_1_2_3 : (⟨S4x1024x1024x1, .f32⟩ : BufTy).Contents (Elt F) → (⟨S4x1024x1024x3, .f32⟩ : BufTy).Contents (Elt F)),
    binary main_v277 main_v278 main_v279 (mulf : (⟨S4x1024x1024x3, .f32⟩ : BufTy).Contents (Elt F) → (⟨S4x1024x1024x3, .f32⟩ : BufTy).Contents (Elt F) → (⟨S4x1024x1024x3, .f32⟩ : BufTy).Contents (Elt F)),
    unary main_v76 main_v280 (broadcastInDim S4x1024x1024x3 ![0, 1, 2, 3] bcast_S4x1024x1024x1_S4x1024x1024x3_0_1_2_3 : (⟨S4x1024x1024x1, .f32⟩ : BufTy).Contents (Elt F) → (⟨S4x1024x1024x3, .f32⟩ : BufTy).Contents (Elt F)),
    binary main_v279 main_v280 main_v281 (mulf : (⟨S4x1024x1024x3, .f32⟩ : BufTy).Contents (Elt F) → (⟨S4x1024x1024x3, .f32⟩ : BufTy).Contents (Elt F) → (⟨S4x1024x1024x3, .f32⟩ : BufTy).Contents (Elt F)),
    binary main_v254 main_v281 main_v282 (addf : (⟨S4x1024x1024x3, .f32⟩ : BufTy).Contents (Elt F) → (⟨S4x1024x1024x3, .f32⟩ : BufTy).Contents (Elt F) → (⟨S4x1024x1024x3, .f32⟩ : BufTy).Contents (Elt F)) ]

/-- Segment K7 of the straight line. -/
abbrev sK7 : List (HloOp τ sig (Elt F)) :=
  [ nullary main_c_70 (constantI S_ 32 1#32),
    unary main_c_70 main_v283 (broadcastInDim S4x1024x1024 ![] bcast_S_S4x1024x1024 : (⟨S_, .i32⟩ : BufTy).Contents (Elt F) → (⟨S4x1024x1024, .i32⟩ : BufTy).Contents (Elt F)),
    binary main_v63 main_v283 main_v284 (addi : (⟨S4x1024x1024, .i32⟩ : BufTy).Contents (Elt F) → (⟨S4x1024x1024, .i32⟩ : BufTy).Contents (Elt F) → (⟨S4x1024x1024, .i32⟩ : BufTy).Contents (Elt F)),
    nullary main_c_71 (constantI S_ 32 17#32),
    unary main_c_71 main_v285 (broadcastInDim S4x1024x1024 ![] bcast_S_S4x1024x1024 : (⟨S_, .i32⟩ : BufTy).Contents (Elt F) → (⟨S4x1024x1024, .i32⟩ : BufTy).Contents (Elt F)),
    binary main_v284 main_v285 main_v286 (muli : (⟨S4x1024x1024, .i32⟩ : BufTy).Contents (Elt F) → (⟨S4x1024x1024, .i32⟩ : BufTy).Contents (Elt F) → (⟨S4x1024x1024, .i32⟩ : BufTy).Contents (Elt F)),
    nullary main_c_72 (constantI S_ 32 1#32),
    unary main_c_72 main_v287 (broadcastInDim S4x1024x1024 ![] bcast_S_S4x1024x1024 : (⟨S_, .i32⟩ : BufTy).Contents (Elt F) → (⟨S4x1024x1024, .i32⟩ : BufTy).Contents (Elt F)),
    binary main_v65 main_v287 main_v288 (addi : (⟨S4x1024x1024, .i32⟩ : BufTy).Contents (Elt F) → (⟨S4x1024x1024, .i32⟩ : BufTy).Contents (Elt F) → (⟨S4x1024x1024, .i32⟩ : BufTy).Contents (Elt F)),
    binary main_v286 main_v288 main_v289 (addi : (⟨S4x1024x1024, .i32⟩ : BufTy).Contents (Elt F) → (⟨S4x1024x1024, .i32⟩ : BufTy).Contents (Elt F) → (⟨S4x1024x1024, .i32⟩ : BufTy).Contents (Elt F)),
    nullary main_c_73 (constantI S_ 32 17#32),
    unary main_c_73 main_v290 (broadcastInDim S4x1024x1024 ![] bcast_S_S4x1024x1024 : (⟨S_, .i32⟩ : BufTy).Contents (Elt F) → (⟨S4x1024x1024, .i32⟩ : BufTy).Contents (Elt F)),
    binary main_v289 main_v290 main_v291 (muli : (⟨S4x1024x1024, .i32⟩ : BufTy).Contents (Elt F) → (⟨S4x1024x1024, .i32⟩ : BufTy).Contents (Elt F) → (⟨S4x1024x1024, .i32⟩ : BufTy).Contents (Elt F)),
    nullary main_c_74 (constantI S_ 32 1#32),
    unary main_c_74 main_v292 (broadcastInDim S4x1024x1024 ![] bcast_S_S4x1024x1024 : (⟨S_, .i32⟩ : BufTy).Contents (Elt F) → (⟨S4x1024x1024, .i32⟩ : BufTy).Contents (Elt F)),
    binary main_v67 main_v292 main_v293 (addi : (⟨S4x1024x1024, .i32⟩ : BufTy).Contents (Elt F) → (⟨S4x1024x1024, .i32⟩ : BufTy).Contents (Elt F) → (⟨S4x1024x1024, .i32⟩ : BufTy).Contents (Elt F)),
    binary main_v291 main_v293 main_v294 (addi : (⟨S4x1024x1024, .i32⟩ : BufTy).Contents (Elt F) → (⟨S4x1024x1024, .i32⟩ : BufTy).Contents (Elt F) → (⟨S4x1024x1024, .i32⟩ : BufTy).Contents (Elt F)),
    nullary main_c_75 (constantI S_ 32 0#32),
    unary main_c_75 main_v295 (broadcastInDim S4x1024x1024 ![] bcast_S_S4x1024x1024 : (⟨S_, .i32⟩ : BufTy).Contents (Elt F) → (⟨S4x1024x1024, .i32⟩ : BufTy).Contents (Elt F)),
    binary main_v294 main_v295 main_v296 (cmpi .slt : (⟨S4x1024x1024, .i32⟩ : BufTy).Contents (Elt F) → (⟨S4x1024x1024, .i32⟩ : BufTy).Contents (Elt F) → (⟨S4x1024x1024, .i1⟩ : BufTy).Contents (Elt F)),
    nullary main_c_76 (constantI S_ 32 4913#32),
    unary main_c_76 main_v297 (broadcastInDim S4x1024x1024 ![] bcast_S_S4x1024x1024 : (⟨S_, .i32⟩ : BufTy).Contents (Elt F) → (⟨S4x1024x1024, .i32⟩ : BufTy).Contents (Elt F)),
    binary main_v294 main_v297 main_v298 (addi : (⟨S4x1024x1024, .i32⟩ : BufTy).Contents (Elt F) → (⟨S4x1024x1024, .i32⟩ : BufTy).Contents (Elt F) → (⟨S4x1024x1024, .i32⟩ : BufTy).Contents (Elt F)),
    ternary main_v296 main_v298 main_v294 main_v299 (select : (⟨S4x1024x1024, .i1⟩ : BufTy).Contents (Elt F) → (⟨S4x1024x1024, .i32⟩ : BufTy).Contents (Elt F) → (⟨S4x1024x1024, .i32⟩ : BufTy).Contents (Elt F) → (⟨S4x1024x1024, .i32⟩ : BufTy).Contents (Elt F)),
    unary main_v299 main_v300 (broadcastInDim S4x1024x1024x1 ![0, 1, 2] bcast_S4x1024x1024_S4x1024x1024x1_0_1_2 : (⟨S4x1024x1024, .i32⟩ : BufTy).Contents (Elt F) → (⟨S4x1024x1024x1, .i32⟩ : BufTy).Contents (Elt F)),
    binary main_v77 main_v300 main_v301 ((fun x i => Host.gather gather_S4913x3_S4x1024x1024x1_S4x1024x1024x3_3_0_n_n_0_3_13 x i) : (⟨S4913x3, .f32⟩ : BufTy).Contents (Elt F) → (⟨S4x1024x1024x1, .i32⟩ : BufTy).Contents (Elt F) → (⟨S4x1024x1024x3, .f32⟩ : BufTy).Contents (Elt F)),
    unary main_v70 main_v302 (broadcastInDim S4x1024x1024x3 ![0, 1, 2, 3] bcast_S4x1024x1024x1_S4x1024x1024x3_0_1_2_3 : (⟨S4x1024x1024x1, .f32⟩ : BufTy).Contents (Elt F) → (⟨S4x1024x1024x3, .f32⟩ : BufTy).Contents (Elt F)),
    binary main_v301 main_v302 main_v303 (mulf : (⟨S4x1024x1024x3, .f32⟩ : BufTy).Contents (Elt F) → (⟨S4x1024x1024x3, .f32⟩ : BufTy).Contents (Elt F) → (⟨S4x1024x1024x3, .f32⟩ : BufTy).Contents (Elt F)),
    unary main_v73 main_v304 (broadcastInDim S4x1024x1024x3 ![0, 1, 2, 3] bcast_S4x1024x1024x1_S4x1024x1024x3_0_1_2_3 : (⟨S4x1024x1024x1, .f32⟩ : BufTy).Contents (Elt F) → (⟨S4x1024x1024x3, .f32⟩ : BufTy).Contents (Elt F)),
    binary main_v303 main_v304 main_v305 (mulf : (⟨S4x1024x1024x3, .f32⟩ : BufTy).Contents (Elt F) → (⟨S4x1024x1024x3, .f32⟩ : BufTy).Contents (Elt F) → (⟨S4x1024x1024x3, .f32⟩ : BufTy).Contents (Elt F)),
    unary main_v76 main_v306 (broadcastInDim S4x1024x1024x3 ![0, 1, 2, 3] bcast_S4x1024x1024x1_S4x1024x1024x3_0_1_2_3 : (⟨S4x1024x1024x1, .f32⟩ : BufTy).Contents (Elt F) → (⟨S4x1024x1024x3, .f32⟩ : BufTy).Contents (Elt F)),
    binary main_v305 main_v306 main_v307 (mulf : (⟨S4x1024x1024x3, .f32⟩ : BufTy).Contents (Elt F) → (⟨S4x1024x1024x3, .f32⟩ : BufTy).Contents (Elt F) → (⟨S4x1024x1024x3, .f32⟩ : BufTy).Contents (Elt F)),
    binary main_v282 main_v307 main_v308 (addf : (⟨S4x1024x1024x3, .f32⟩ : BufTy).Contents (Elt F) → (⟨S4x1024x1024x3, .f32⟩ : BufTy).Contents (Elt F) → (⟨S4x1024x1024x3, .f32⟩ : BufTy).Contents (Elt F)) ]

/-- Segment Z of the straight line. -/
abbrev sZ : List (HloOp τ sig (Elt F)) :=
  [ unary main_v308 main_v309 ((transpose S4x3x1024x1024 [0, 3, 1, 2] · transposes_S4x1024x1024x3_S4x3x1024x1024_0_3_1_2) : (⟨S4x1024x1024x3, .f32⟩ : BufTy).Contents (Elt F) → (⟨S4x3x1024x1024, .f32⟩ : BufTy).Contents (Elt F)) ]

/-- The conjunction-reduce of lookup 1, over its typed references and over their buffers: the same operation. -/
theorem reduceOp1 : (TRef.binary main_call1.v11 main_call1.c_3 main_call1.v12 (fun x v => Host.reduce IntOp.andi x v reducesTo_S4x1024x1024x1_S4x1024x1024_d3 h_S_) : HloOp τ sig (Elt F))
    = binary main_call1_v11 main_call1_c_3 main_call1_v12 ((fun x v => Host.reduce IntOp.andi x v reducesTo_S4x1024x1024x1_S4x1024x1024_d3 h_S_) : (⟨S4x1024x1024x1, .i1⟩ : BufTy).Contents (Elt F) → (⟨S_, .i1⟩ : BufTy).Contents (Elt F) → (⟨S4x1024x1024, .i1⟩ : BufTy).Contents (Elt F)) := by
  have hF : (fun (u : main_call1_v11.ty.Contents (Elt F)) (v : main_call1_c_3.ty.Contents (Elt F)) =>
      main_call1.v12.toBuf (((fun x v => Host.reduce IntOp.andi x v reducesTo_S4x1024x1024x1_S4x1024x1024_d3 h_S_) : (⟨S4x1024x1024x1, .i1⟩ : BufTy).Contents (Elt F) → (⟨S_, .i1⟩ : BufTy).Contents (Elt F) → (⟨S4x1024x1024, .i1⟩ : BufTy).Contents (Elt F)) (main_call1.v11.ofBuf u) (main_call1.c_3.ofBuf v)))
      = ((fun x v => Host.reduce IntOp.andi x v reducesTo_S4x1024x1024x1_S4x1024x1024_d3 h_S_) : (⟨S4x1024x1024x1, .i1⟩ : BufTy).Contents (Elt F) → (⟨S_, .i1⟩ : BufTy).Contents (Elt F) → (⟨S4x1024x1024, .i1⟩ : BufTy).Contents (Elt F)) := by
    funext u v
    have e1 : main_call1.v11.ofBuf u = u := rfl
    have e2 : main_call1.c_3.ofBuf v = v := rfl
    have e3 : ∀ X : (⟨S4x1024x1024, .i1⟩ : BufTy).Contents (Elt F), main_call1.v12.toBuf X = X := fun _ => rfl
    rw [e1, e2, e3]
  exact congrArg (fun G => StableHlo.binary main_call1_v11 main_call1_c_3 main_call1_v12 G
    main_call1.v11.dev main_call1.c_3.dev main_call1.v12.dev) hF

/-- The conjunction-reduce of lookup 2, over its typed references and over their buffers: the same operation. -/
theorem reduceOp2 : (TRef.binary main_call2.v11 main_call2.c_3 main_call2.v12 (fun x v => Host.reduce IntOp.andi x v reducesTo_S4x1024x1024x1_S4x1024x1024_d3 h_S_) : HloOp τ sig (Elt F))
    = binary main_call2_v11 main_call2_c_3 main_call2_v12 ((fun x v => Host.reduce IntOp.andi x v reducesTo_S4x1024x1024x1_S4x1024x1024_d3 h_S_) : (⟨S4x1024x1024x1, .i1⟩ : BufTy).Contents (Elt F) → (⟨S_, .i1⟩ : BufTy).Contents (Elt F) → (⟨S4x1024x1024, .i1⟩ : BufTy).Contents (Elt F)) := by
  have hF : (fun (u : main_call2_v11.ty.Contents (Elt F)) (v : main_call2_c_3.ty.Contents (Elt F)) =>
      main_call2.v12.toBuf (((fun x v => Host.reduce IntOp.andi x v reducesTo_S4x1024x1024x1_S4x1024x1024_d3 h_S_) : (⟨S4x1024x1024x1, .i1⟩ : BufTy).Contents (Elt F) → (⟨S_, .i1⟩ : BufTy).Contents (Elt F) → (⟨S4x1024x1024, .i1⟩ : BufTy).Contents (Elt F)) (main_call2.v11.ofBuf u) (main_call2.c_3.ofBuf v)))
      = ((fun x v => Host.reduce IntOp.andi x v reducesTo_S4x1024x1024x1_S4x1024x1024_d3 h_S_) : (⟨S4x1024x1024x1, .i1⟩ : BufTy).Contents (Elt F) → (⟨S_, .i1⟩ : BufTy).Contents (Elt F) → (⟨S4x1024x1024, .i1⟩ : BufTy).Contents (Elt F)) := by
    funext u v
    have e1 : main_call2.v11.ofBuf u = u := rfl
    have e2 : main_call2.c_3.ofBuf v = v := rfl
    have e3 : ∀ X : (⟨S4x1024x1024, .i1⟩ : BufTy).Contents (Elt F), main_call2.v12.toBuf X = X := fun _ => rfl
    rw [e1, e2, e3]
  exact congrArg (fun G => StableHlo.binary main_call2_v11 main_call2_c_3 main_call2_v12 G
    main_call2.v11.dev main_call2.c_3.dev main_call2.v12.dev) hF

/-- The conjunction-reduce of lookup 3, over its typed references and over their buffers: the same operation. -/
theorem reduceOp3 : (TRef.binary main_call3.v11 main_call3.c_3 main_call3.v12 (fun x v => Host.reduce IntOp.andi x v reducesTo_S4x1024x1024x1_S4x1024x1024_d3 h_S_) : HloOp τ sig (Elt F))
    = binary main_call3_v11 main_call3_c_3 main_call3_v12 ((fun x v => Host.reduce IntOp.andi x v reducesTo_S4x1024x1024x1_S4x1024x1024_d3 h_S_) : (⟨S4x1024x1024x1, .i1⟩ : BufTy).Contents (Elt F) → (⟨S_, .i1⟩ : BufTy).Contents (Elt F) → (⟨S4x1024x1024, .i1⟩ : BufTy).Contents (Elt F)) := by
  have hF : (fun (u : main_call3_v11.ty.Contents (Elt F)) (v : main_call3_c_3.ty.Contents (Elt F)) =>
      main_call3.v12.toBuf (((fun x v => Host.reduce IntOp.andi x v reducesTo_S4x1024x1024x1_S4x1024x1024_d3 h_S_) : (⟨S4x1024x1024x1, .i1⟩ : BufTy).Contents (Elt F) → (⟨S_, .i1⟩ : BufTy).Contents (Elt F) → (⟨S4x1024x1024, .i1⟩ : BufTy).Contents (Elt F)) (main_call3.v11.ofBuf u) (main_call3.c_3.ofBuf v)))
      = ((fun x v => Host.reduce IntOp.andi x v reducesTo_S4x1024x1024x1_S4x1024x1024_d3 h_S_) : (⟨S4x1024x1024x1, .i1⟩ : BufTy).Contents (Elt F) → (⟨S_, .i1⟩ : BufTy).Contents (Elt F) → (⟨S4x1024x1024, .i1⟩ : BufTy).Contents (Elt F)) := by
    funext u v
    have e1 : main_call3.v11.ofBuf u = u := rfl
    have e2 : main_call3.c_3.ofBuf v = v := rfl
    have e3 : ∀ X : (⟨S4x1024x1024, .i1⟩ : BufTy).Contents (Elt F), main_call3.v12.toBuf X = X := fun _ => rfl
    rw [e1, e2, e3]
  exact congrArg (fun G => StableHlo.binary main_call3_v11 main_call3_c_3 main_call3_v12 G
    main_call3.v11.dev main_call3.c_3.dev main_call3.v12.dev) hF

/-- The conjunction-reduce of lookup 4, over its typed references and over their buffers: the same operation. -/
theorem reduceOp4 : (TRef.binary main_call4.v11 main_call4.c_3 main_call4.v12 (fun x v => Host.reduce IntOp.andi x v reducesTo_S4x1024x1024x1_S4x1024x1024_d3 h_S_) : HloOp τ sig (Elt F))
    = binary main_call4_v11 main_call4_c_3 main_call4_v12 ((fun x v => Host.reduce IntOp.andi x v reducesTo_S4x1024x1024x1_S4x1024x1024_d3 h_S_) : (⟨S4x1024x1024x1, .i1⟩ : BufTy).Contents (Elt F) → (⟨S_, .i1⟩ : BufTy).Contents (Elt F) → (⟨S4x1024x1024, .i1⟩ : BufTy).Contents (Elt F)) := by
  have hF : (fun (u : main_call4_v11.ty.Contents (Elt F)) (v : main_call4_c_3.ty.Contents (Elt F)) =>
      main_call4.v12.toBuf (((fun x v => Host.reduce IntOp.andi x v reducesTo_S4x1024x1024x1_S4x1024x1024_d3 h_S_) : (⟨S4x1024x1024x1, .i1⟩ : BufTy).Contents (Elt F) → (⟨S_, .i1⟩ : BufTy).Contents (Elt F) → (⟨S4x1024x1024, .i1⟩ : BufTy).Contents (Elt F)) (main_call4.v11.ofBuf u) (main_call4.c_3.ofBuf v)))
      = ((fun x v => Host.reduce IntOp.andi x v reducesTo_S4x1024x1024x1_S4x1024x1024_d3 h_S_) : (⟨S4x1024x1024x1, .i1⟩ : BufTy).Contents (Elt F) → (⟨S_, .i1⟩ : BufTy).Contents (Elt F) → (⟨S4x1024x1024, .i1⟩ : BufTy).Contents (Elt F)) := by
    funext u v
    have e1 : main_call4.v11.ofBuf u = u := rfl
    have e2 : main_call4.c_3.ofBuf v = v := rfl
    have e3 : ∀ X : (⟨S4x1024x1024, .i1⟩ : BufTy).Contents (Elt F), main_call4.v12.toBuf X = X := fun _ => rfl
    rw [e1, e2, e3]
  exact congrArg (fun G => StableHlo.binary main_call4_v11 main_call4_c_3 main_call4_v12 G
    main_call4.v11.dev main_call4.c_3.dev main_call4.v12.dev) hF

/-- The conjunction-reduce of lookup 5, over its typed references and over their buffers: the same operation. -/
theorem reduceOp5 : (TRef.binary main_call5.v11 main_call5.c_3 main_call5.v12 (fun x v => Host.reduce IntOp.andi x v reducesTo_S4x1024x1024x1_S4x1024x1024_d3 h_S_) : HloOp τ sig (Elt F))
    = binary main_call5_v11 main_call5_c_3 main_call5_v12 ((fun x v => Host.reduce IntOp.andi x v reducesTo_S4x1024x1024x1_S4x1024x1024_d3 h_S_) : (⟨S4x1024x1024x1, .i1⟩ : BufTy).Contents (Elt F) → (⟨S_, .i1⟩ : BufTy).Contents (Elt F) → (⟨S4x1024x1024, .i1⟩ : BufTy).Contents (Elt F)) := by
  have hF : (fun (u : main_call5_v11.ty.Contents (Elt F)) (v : main_call5_c_3.ty.Contents (Elt F)) =>
      main_call5.v12.toBuf (((fun x v => Host.reduce IntOp.andi x v reducesTo_S4x1024x1024x1_S4x1024x1024_d3 h_S_) : (⟨S4x1024x1024x1, .i1⟩ : BufTy).Contents (Elt F) → (⟨S_, .i1⟩ : BufTy).Contents (Elt F) → (⟨S4x1024x1024, .i1⟩ : BufTy).Contents (Elt F)) (main_call5.v11.ofBuf u) (main_call5.c_3.ofBuf v)))
      = ((fun x v => Host.reduce IntOp.andi x v reducesTo_S4x1024x1024x1_S4x1024x1024_d3 h_S_) : (⟨S4x1024x1024x1, .i1⟩ : BufTy).Contents (Elt F) → (⟨S_, .i1⟩ : BufTy).Contents (Elt F) → (⟨S4x1024x1024, .i1⟩ : BufTy).Contents (Elt F)) := by
    funext u v
    have e1 : main_call5.v11.ofBuf u = u := rfl
    have e2 : main_call5.c_3.ofBuf v = v := rfl
    have e3 : ∀ X : (⟨S4x1024x1024, .i1⟩ : BufTy).Contents (Elt F), main_call5.v12.toBuf X = X := fun _ => rfl
    rw [e1, e2, e3]
  exact congrArg (fun G => StableHlo.binary main_call5_v11 main_call5_c_3 main_call5_v12 G
    main_call5.v11.dev main_call5.c_3.dev main_call5.v12.dev) hF

/-- The conjunction-reduce of lookup 6, over its typed references and over their buffers: the same operation. -/
theorem reduceOp6 : (TRef.binary main_call6.v11 main_call6.c_3 main_call6.v12 (fun x v => Host.reduce IntOp.andi x v reducesTo_S4x1024x1024x1_S4x1024x1024_d3 h_S_) : HloOp τ sig (Elt F))
    = binary main_call6_v11 main_call6_c_3 main_call6_v12 ((fun x v => Host.reduce IntOp.andi x v reducesTo_S4x1024x1024x1_S4x1024x1024_d3 h_S_) : (⟨S4x1024x1024x1, .i1⟩ : BufTy).Contents (Elt F) → (⟨S_, .i1⟩ : BufTy).Contents (Elt F) → (⟨S4x1024x1024, .i1⟩ : BufTy).Contents (Elt F)) := by
  have hF : (fun (u : main_call6_v11.ty.Contents (Elt F)) (v : main_call6_c_3.ty.Contents (Elt F)) =>
      main_call6.v12.toBuf (((fun x v => Host.reduce IntOp.andi x v reducesTo_S4x1024x1024x1_S4x1024x1024_d3 h_S_) : (⟨S4x1024x1024x1, .i1⟩ : BufTy).Contents (Elt F) → (⟨S_, .i1⟩ : BufTy).Contents (Elt F) → (⟨S4x1024x1024, .i1⟩ : BufTy).Contents (Elt F)) (main_call6.v11.ofBuf u) (main_call6.c_3.ofBuf v)))
      = ((fun x v => Host.reduce IntOp.andi x v reducesTo_S4x1024x1024x1_S4x1024x1024_d3 h_S_) : (⟨S4x1024x1024x1, .i1⟩ : BufTy).Contents (Elt F) → (⟨S_, .i1⟩ : BufTy).Contents (Elt F) → (⟨S4x1024x1024, .i1⟩ : BufTy).Contents (Elt F)) := by
    funext u v
    have e1 : main_call6.v11.ofBuf u = u := rfl
    have e2 : main_call6.c_3.ofBuf v = v := rfl
    have e3 : ∀ X : (⟨S4x1024x1024, .i1⟩ : BufTy).Contents (Elt F), main_call6.v12.toBuf X = X := fun _ => rfl
    rw [e1, e2, e3]
  exact congrArg (fun G => StableHlo.binary main_call6_v11 main_call6_c_3 main_call6_v12 G
    main_call6.v11.dev main_call6.c_3.dev main_call6.v12.dev) hF

theorem sT1_eq : (sT1T : List (HloOp τ sig (Elt F))) = sT1 := by
  delta sT1T sT1
  rw [reduceOp1]

theorem sT2_eq : (sT2T : List (HloOp τ sig (Elt F))) = sT2 := by
  delta sT2T sT2
  rw [reduceOp2]

theorem sT3_eq : (sT3T : List (HloOp τ sig (Elt F))) = sT3 := by
  delta sT3T sT3
  rw [reduceOp3]

theorem sT4_eq : (sT4T : List (HloOp τ sig (Elt F))) = sT4 := by
  delta sT4T sT4
  rw [reduceOp4]

theorem sT5_eq : (sT5T : List (HloOp τ sig (Elt F))) = sT5 := by
  delta sT5T sT5
  rw [reduceOp5]

theorem sT6_eq : (sT6T : List (HloOp τ sig (Elt F))) = sT6 := by
  delta sT6T sT6
  rw [reduceOp6]

/-- The segments in order. -/
abbrev segsAll : List (HloOp τ sig (Elt F)) := sA ++ (sT1 ++ (sT2 ++ (sT3 ++ (sC1 ++ (sT4 ++ (sT5 ++ (sT6 ++ (sC2 ++ (sB ++ (sK0 ++ (sK1 ++ (sK2 ++ (sK3 ++ (sK4 ++ (sK5 ++ (sK6 ++ (sK7 ++ (sZ))))))))))))))))))
/-- The same with the six conjunction-reduces over typed references. -/
abbrev segsAllT : List (HloOp τ sig (Elt F)) := sA ++ (sT1T ++ (sT2T ++ (sT3T ++ (sC1 ++ (sT4T ++ (sT5T ++ (sT6T ++ (sC2 ++ (sB ++ (sK0 ++ (sK1 ++ (sK2 ++ (sK3 ++ (sK4 ++ (sK5 ++ (sK6 ++ (sK7 ++ (sZ))))))))))))))))))

set_option maxRecDepth 16384 in
set_option maxHeartbeats 4000000 in
theorem opsAll_eqT : (opsAll : List (HloOp τ sig (Elt F))) = segsAllT := rfl

/-- The segments in order are @main's operations in order. -/
theorem opsAll_eq : (opsAll : List (HloOp τ sig (Elt F))) = segsAll := by
  rw [opsAll_eqT]
  show sA ++ (sT1T ++ (sT2T ++ (sT3T ++ (sC1 ++ (sT4T ++ (sT5T ++ (sT6T ++ (sC2 ++ (sB ++ (sK0 ++ (sK1 ++ (sK2 ++ (sK3 ++ (sK4 ++ (sK5 ++ (sK6 ++ (sK7 ++ (sZ)))))))))))))))))) = sA ++ (sT1 ++ (sT2 ++ (sT3 ++ (sC1 ++ (sT4 ++ (sT5 ++ (sT6 ++ (sC2 ++ (sB ++ (sK0 ++ (sK1 ++ (sK2 ++ (sK3 ++ (sK4 ++ (sK5 ++ (sK6 ++ (sK7 ++ (sZ))))))))))))))))))
  rw [sT1_eq, sT2_eq, sT3_eq, sT4_eq, sT5_eq, sT6_eq]

end Cert.ReferenceIdeal.RefSegs

end
-- ==== Proof.RefLib.lean ====
/-
  The shape operations of the reference read at an index, in the forms its two stages meet them.

  A gather of single entries of a vector of 64 knots, and of whole rows of a table of 4913 rows, at a start index per pixel:
  the result at a pixel is the operand at the start word, read signed and clamped into the operand's range. A conjunction
  folded over an array all of whose bits are 1 is 1. The buffers after two lists of operations run in order are the second
  list's results over the first's.
-/
import proofs.«151699_j29575144800973_2_alg».proof.Proof.Gen.ReferenceIdeal
import Idealize.ShloMosaic.Lib.StableHlo.Run
import Idealize.ShloMosaic.Lib.ValueIdx
import Idealize.ShloMosaic.Lib.Pipeline.Value
import proofs.«151699_j29575144800973_2_alg».proof.Proof.Spec

noncomputable section

namespace Cert.ReferenceIdeal.RefLib

open Cert.ReferenceIdeal Cert.ReferenceIdeal.Gen Idealize.ShloMosaic Idealize.ShloMosaic.ValueIdx Idealize.ShloMosaic.StableHlo

/-- The buffers after two lists of operations run in order: the second list's results over the first's. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A conjunction folded from the bit 1 over bits that are all 1 is 1. -/
theorem foldl_andi_one {ι : Type} (g : ι → BitVec 1) (hg : ∀ n, g n = 1#1) :
    ∀ l : List ι, l.foldl (fun r n => IntOp.andi r (g n)) 1#1 = 1#1
  | [] => rfl
  | n :: l => by
    rw [List.foldl_cons, hg n]
    exact foldl_andi_one g hg l

/-- A conjunction reduced over an array all of whose bits are 1, from an initial bit 1, is 1 everywhere. -/
theorem reduce_andi_one {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  unfold Host.reduce
  rw [hi]
  exact foldl_andi_one (fun n => x (s.rowMajor.symm n)) (fun n => hx _) _

variable [Facts₀]

/-- The gather of single knots of a 64-knot row at a pixel: the row at the start word, read signed and clamped into [0, 63]. -/
theorem gather64_apply {α : Type} {w : Nat} (x : S64.Idx → α) (idx : IVec S4x1024x1024x1 w) (b : Fin 4) (h v : Fin 1024) :
    Host.gather gather_S64_S4x1024x1024x1_S4x1024x1024_n_0_n_n_0_3_1 x idx (ix3 b h v)
      = x (ix1 (⟨min (idx (ix4 b h v (0 : Fin 1))).toInt.toNat 63, by omega⟩ : Fin 64)) := by
  unfold Host.gather
  congr 1
  funext a
  obtain rfl : a = 0 := Subsingleton.elim _ _
  refine Fin.ext ?_
  show gather_S64_S4x1024x1024x1_S4x1024x1024_n_0_n_n_0_3_1.start (ix3 b h v) idx 0
      + gather_S64_S4x1024x1024x1_S4x1024x1024_n_0_n_n_0_3_1.batchCoord (ix3 b h v) 0
      + gather_S64_S4x1024x1024x1_S4x1024x1024_n_0_n_n_0_3_1.offCoord (ix3 b h v) 0 = _
  rw [GatherDims.batchCoord_eq_zero _ _ _ List.not_mem_nil,
    GatherDims.offCoord_eq_zero _ _ _ (fun hm => ((GatherDims.mem_sKept _ _).mp hm).1 (List.mem_singleton.mpr rfl))]
  simp only [Nat.add_zero]
  unfold GatherDims.start
  rw [dif_pos (show (0 : Fin 1) ∈ gather_S64_S4x1024x1024x1_S4x1024x1024_n_0_n_n_0_3_1.startIndexMap from List.mem_singleton.mpr rfl)]
  have hsi : gather_S64_S4x1024x1024x1_S4x1024x1024_n_0_n_n_0_3_1.siIdx (ix3 b h v)
      ⟨List.idxOf (0 : Fin 1) gather_S64_S4x1024x1024x1_S4x1024x1024_n_0_n_n_0_3_1.startIndexMap,
        List.idxOf_lt_length_iff.2 (List.mem_singleton.mpr rfl)⟩ = ix4 b h v (0 : Fin 1) := by
    funext e; refine Fin.ext ?_
    match e with
    | ⟨0, _⟩ => rfl
    | ⟨1, _⟩ => rfl
    | ⟨2, _⟩ => rfl
    | ⟨3, _⟩ => rfl
  rw [hsi]
  rfl

/-- The gather of whole rows of the 4913-row table at a pixel, read at output channel `c`: the table's row at the start
    word, read signed and clamped into [0, 4912], at column `c`. -/
theorem gather4913_apply {α : Type} {w : Nat} (x : S4913x3.Idx → α) (idx : IVec S4x1024x1024x1 w) (b : Fin 4) (h v : Fin 1024)
    (c : Fin 3) :
    Host.gather gather_S4913x3_S4x1024x1024x1_S4x1024x1024x3_3_0_n_n_0_3_13 x idx (ix4 b h v c)
      = x (ix2 (⟨min (idx (ix4 b h v (0 : Fin 1))).toInt.toNat 4912, by omega⟩ : Fin 4913) c) := by
  unfold Host.gather
  congr 1
  funext a
  refine Fin.ext ?_
  match a with
  | ⟨0, _⟩ =>
    show gather_S4913x3_S4x1024x1024x1_S4x1024x1024x3_3_0_n_n_0_3_13.start (ix4 b h v c) idx 0
        + gather_S4913x3_S4x1024x1024x1_S4x1024x1024x3_3_0_n_n_0_3_13.batchCoord (ix4 b h v c) 0
        + gather_S4913x3_S4x1024x1024x1_S4x1024x1024x3_3_0_n_n_0_3_13.offCoord (ix4 b h v c) 0 = _
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    unfold GatherDims.start
    rw [dif_pos (show (0 : Fin 2) ∈ gather_S4913x3_S4x1024x1024x1_S4x1024x1024x3_3_0_n_n_0_3_13.startIndexMap from List.mem_singleton.mpr rfl)]
    have hsi : gather_S4913x3_S4x1024x1024x1_S4x1024x1024x3_3_0_n_n_0_3_13.siIdx (ix4 b h v c)
        ⟨List.idxOf (0 : Fin 2) gather_S4913x3_S4x1024x1024x1_S4x1024x1024x3_3_0_n_n_0_3_13.startIndexMap,
          List.idxOf_lt_length_iff.2 (List.mem_singleton.mpr rfl)⟩ = ix4 b h v (0 : Fin 1) := by
      funext e; refine Fin.ext ?_
      match e with
      | ⟨0, _⟩ => rfl
      | ⟨1, _⟩ => rfl
      | ⟨2, _⟩ => rfl
      | ⟨3, _⟩ => rfl
    rw [hsi]
    rfl
  | ⟨1, _⟩ =>
    show gather_S4913x3_S4x1024x1024x1_S4x1024x1024x3_3_0_n_n_0_3_13.start (ix4 b h v c) idx 1
        + gather_S4913x3_S4x1024x1024x1_S4x1024x1024x3_3_0_n_n_0_3_13.batchCoord (ix4 b h v c) 1
        + gather_S4913x3_S4x1024x1024x1_S4x1024x1024x3_3_0_n_n_0_3_13.offCoord (ix4 b h v c) 1 = c.val
    rw [GatherDims.batchCoord_eq_zero _ _ _ List.not_mem_nil]
    unfold GatherDims.start
    rw [dif_neg (show (1 : Fin 2) ∉ gather_S4913x3_S4x1024x1024x1_S4x1024x1024x3_3_0_n_n_0_3_13.startIndexMap from
      fun hm => absurd (List.mem_singleton.mp hm) (by decide))]
    simp only [Nat.zero_add, Nat.add_zero]
    unfold GatherDims.offCoord
    rw [dif_pos (show (1 : Fin 2) ∈ gather_S4913x3_S4x1024x1024x1_S4x1024x1024x3_3_0_n_n_0_3_13.sKept from
      (GatherDims.mem_sKept _ _).mpr ⟨fun hm => absurd (List.mem_singleton.mp hm) (by decide), List.not_mem_nil⟩)]
    rfl

/-! ## Signed comparisons of a word known to be non-negative and bounded -/

theorem cmpi_slt_zero (x : BitVec 32) (h : 0 ≤ x.toInt) : IntOp.cmpi .slt x 0#32 = 0#1 := by
  have h0 : (0#32 : BitVec 32).toInt = 0 := by decide
  show BitVec.ofBool (x.slt 0#32) = 0#1
  rw [BitVec.slt, decide_eq_false (by omega)]; rfl

theorem cmpi_sge_zero (x : BitVec 32) (h : 0 ≤ x.toInt) : IntOp.cmpi .sge x 0#32 = 1#1 := by
  have h0 : (0#32 : BitVec 32).toInt = 0 := by decide
  show BitVec.ofBool ((0#32 : BitVec 32).sle x) = 1#1
  rw [BitVec.sle, decide_eq_true (by omega)]; rfl

theorem cmpi_sle_of_le (x k : BitVec 32) (h : x.toInt ≤ k.toInt) : IntOp.cmpi .sle x k = 1#1 := by
  show BitVec.ofBool (x.sle k) = 1#1
  rw [BitVec.sle, decide_eq_true h]; rfl

/-- A word between 0 and 63 read signed and clamped into [0, 63] is its value, which is below 64. -/
theorem clamp63 (x : BitVec 32) (h0 : 0 ≤ x.toInt) (h1 : x.toInt ≤ 63) : min x.toInt.toNat 63 = x.toNat % 64 := by
  have hc := BitVec.toInt_eq_toNat_cond x
  have hl := x.isLt
  split at hc <;> omega

/-! ## The shape operations of the reference at an index -/

section Shapes
variable {α : Type}

/-- Row `c` of the one-dimensional tables, sliced out and flattened, at knot `k`. -/
theorem row_apply (x : S3x64.Idx → α) (off : Fin 2 → Nat) (hs : S3x64.Slices off S1x64) (hc : S1x64.ShapeCasts S64)
    (c : Fin 3) (h0 : off 0 = c.val) (h1 : off 1 = 0) (k : Fin 64) :
    shapeCast S64 (extractStridedSlice S1x64 off x hs) hc (ix1 k) = x (ix2 c k) := by
  rw [shapeCast_apply _ hc (ix1 k) (ix2 (0 : Fin 1) k) (by
    rw [Shape.rowMajor_val_two, Shape.rowMajor_val_one]
    show (0 : Nat) * 64 + k.val = k.val
    omega)]
  exact extractStridedSlice_apply off x hs (ix2 (0 : Fin 1) k) (ix2 c k) (fun a => by
    match a with
    | ⟨0, _⟩ => show c.val = off 0 + 0; omega
    | ⟨1, _⟩ => show k.val = off 1 + k.val; omega)

/-- Channel `c` of an image-shaped array, sliced out and its unit axis dropped, at a pixel. -/
theorem chan_apply (x : S4x3x1024x1024.Idx → α) (off : Fin 4 → Nat) (hs : S4x3x1024x1024.Slices off S4x1x1024x1024)
    (hc : S4x1x1024x1024.ShapeCasts S4x1024x1024) (c : Fin 3) (h0 : off 0 = 0) (h1 : off 1 = c.val) (h2 : off 2 = 0)
    (h3 : off 3 = 0) (b : Fin 4) (h v : Fin 1024) :
    shapeCast S4x1024x1024 (extractStridedSlice S4x1x1024x1024 off x hs) hc (ix3 b h v) = x (ix4 b c h v) := by
  rw [shapeCast_apply _ hc (ix3 b h v) (ix4 b (0 : Fin 1) h v) (by
    rw [Shape.rowMajor_val_four, Shape.rowMajor_val_three]
    show ((b.val * 1 + 0) * 1024 + h.val) * 1024 + v.val = (b.val * 1024 + h.val) * 1024 + v.val
    omega)]
  exact extractStridedSlice_apply off x hs (ix4 b (0 : Fin 1) h v) (ix4 b c h v) (fun a => by
    match a with
    | ⟨0, _⟩ => show b.val = off 0 + b.val; omega
    | ⟨1, _⟩ => show c.val = off 1 + 0; omega
    | ⟨2, _⟩ => show h.val = off 2 + h.val; omega
    | ⟨3, _⟩ => show v.val = off 3 + v.val; omega)

/-- A per-pixel array given a trailing unit axis, at an index. -/
theorem unit_last_apply (x : S4x1024x1024.Idx → α) (hb : S4x1024x1024.BroadcastsInDim S4x1024x1024x1 ![0, 1, 2])
    (q : S4x1024x1024x1.Idx) :
    broadcastInDim S4x1024x1024x1 ![0, 1, 2] hb x q = x (ix3 (q 0) (q 1) (q 2)) :=
  broadcastInDim_apply _ hb x q (ix3 (q 0) (q 1) (q 2)) (fun a => by
    match a with
    | ⟨0, _⟩ => rfl
    | ⟨1, _⟩ => rfl
    | ⟨2, _⟩ => rfl)

/-- A per-pixel array given a unit channel axis, at an index. -/
theorem unit_chan_apply (x : S4x1024x1024.Idx → α) (hb : S4x1024x1024.BroadcastsInDim S4x1x1024x1024 ![0, 2, 3])
    (q : S4x1x1024x1024.Idx) :
    broadcastInDim S4x1x1024x1024 ![0, 2, 3] hb x q = x (ix3 (q 0) (q 2) (q 3)) :=
  broadcastInDim_apply _ hb x q (ix3 (q 0) (q 2) (q 3)) (fun a => by
    match a with
    | ⟨0, _⟩ => rfl
    | ⟨1, _⟩ => rfl
    | ⟨2, _⟩ => rfl)

/-- A per-pixel weight broadcast over the three output channels, at an index. -/
theorem over_chan_apply (x : S4x1024x1024x1.Idx → α) (hb : S4x1024x1024x1.BroadcastsInDim S4x1024x1024x3 ![0, 1, 2, 3])
    (b : Fin 4) (h v : Fin 1024) (c : Fin 3) :
    broadcastInDim S4x1024x1024x3 ![0, 1, 2, 3] hb x (ix4 b h v c) = x (ix4 b h v (0 : Fin 1)) :=
  broadcastInDim_apply _ hb x (ix4 b h v c) (ix4 b h v (0 : Fin 1)) (fun a => by
    match a with
    | ⟨0, _⟩ => rfl
    | ⟨1, _⟩ => rfl
    | ⟨2, _⟩ => rfl
    | ⟨3, _⟩ => rfl)

/-- The three channels re-assembled along the channel axis, at channel `c` of a pixel: channel `c`'s array there. -/
theorem concat3_apply (u0 u1 u2 : S4x1x1024x1024.Idx → α)
    (hc : Shape.Concatenates ([(⟨S4x1x1024x1024, u0⟩ : (s : Shape) × (s.Idx → α)), ⟨S4x1x1024x1024, u1⟩, ⟨S4x1x1024x1024, u2⟩].map (·.1)) S4x3x1024x1024 1)
    (b : Fin 4) (c : Fin 3) (h v : Fin 1024) :
    concatenate S4x3x1024x1024 1 [⟨S4x1x1024x1024, u0⟩, ⟨S4x1x1024x1024, u1⟩, ⟨S4x1x1024x1024, u2⟩] hc (ix4 b c h v)
      = (match c with | ⟨0, _⟩ => u0 | ⟨1, _⟩ => u1 | ⟨2, _⟩ => u2) (ix4 b (0 : Fin 1) h v) := by
  match c with
  | ⟨0, _⟩ =>
    exact concatenate_apply_piece 1 _ hc _ 0 (by show (0 : Nat) < 3; omega) S4x1x1024x1024 u0 rfl rfl 0 rfl (ix4 b (0 : Fin 1) h v)
      (fun a ha => by
        match a with
        | ⟨0, _⟩ => rfl
        | ⟨1, _⟩ => exact absurd rfl ha
        | ⟨2, _⟩ => rfl
        | ⟨3, _⟩ => rfl) rfl
  | ⟨1, _⟩ =>
    exact concatenate_apply_piece 1 _ hc _ 1 (by show (1 : Nat) < 3; omega) S4x1x1024x1024 u1 rfl rfl 1 rfl (ix4 b (0 : Fin 1) h v)
      (fun a ha => by
        match a with
        | ⟨0, _⟩ => rfl
        | ⟨1, _⟩ => exact absurd rfl ha
        | ⟨2, _⟩ => rfl
        | ⟨3, _⟩ => rfl) rfl
  | ⟨2, _⟩ =>
    exact concatenate_apply_piece 1 _ hc _ 2 (by show (2 : Nat) < 3; omega) S4x1x1024x1024 u2 rfl rfl 2 rfl (ix4 b (0 : Fin 1) h v)
      (fun a ha => by
        match a with
        | ⟨0, _⟩ => rfl
        | ⟨1, _⟩ => exact absurd rfl ha
        | ⟨2, _⟩ => rfl
        | ⟨3, _⟩ => rfl) rfl

/-- The three-dimensional table flattened to rows: row ((A·17)+B)·17+C is the cell (A, B, C). -/
theorem table_apply (x : S17x17x17x3.Idx → α) (hc : S17x17x17x3.ShapeCasts S4913x3) (A B C : Fin 17) (c : Fin 3)
    (r : Fin 4913) (hr : r.val = (A.val * 17 + B.val) * 17 + C.val) :
    shapeCast S4913x3 x hc (ix2 r c) = x (ix4 A B C c) :=
  shapeCast_apply x hc (ix2 r c) (ix4 A B C c) (by
    rw [Shape.rowMajor_val_four, Shape.rowMajor_val_two]
    show ((A.val * 17 + B.val) * 17 + C.val) * 3 + c.val = r.val * 3 + c.val
    rw [hr])

/-- The channels-last result moved to channels-second, at an index. -/
theorem to_chan_second_apply (x : S4x1024x1024x3.Idx → α) (ht : S4x1024x1024x3.Transposes [0, 3, 1, 2] S4x3x1024x1024)
    (b : Fin 4) (c : Fin 3) (h v : Fin 1024) :
    transpose S4x3x1024x1024 [0, 3, 1, 2] x ht (ix4 b c h v) = x (ix4 b h v c) :=
  transpose_apply _ x ht (ix4 b c h v) (ix4 b h v c) (fun a => by
    match a with
    | ⟨0, _⟩ => rfl
    | ⟨1, _⟩ => rfl
    | ⟨2, _⟩ => rfl
    | ⟨3, _⟩ => rfl)

end Shapes

/-! ## One lookup of a knot row -/

/-- A negative index wrapped by the row length, then given a trailing unit axis: the start indices of the lookup. -/
abbrev wrapIdx (idx : IVec S4x1024x1024 32) : IVec S4x1024x1024x1 32 :=
  broadcastInDim S4x1024x1024x1 ![0, 1, 2] bcast_S4x1024x1024_S4x1024x1024x1_0_1_2
    (select (cmpi .slt idx (broadcastInDim S4x1024x1024 ![] bcast_S_S4x1024x1024 (constantI S_ 32 0#32)))
      (addi idx (broadcastInDim S4x1024x1024 ![] bcast_S_S4x1024x1024 (constantI S_ 32 64#32))) idx)

/-- Indices between 0 and 63 are not wrapped. -/
theorem wrapIdx_apply (idx : IVec S4x1024x1024 32) (hidx : ∀ p, 0 ≤ (idx p).toInt ∧ (idx p).toInt ≤ 63)
    (q : S4x1024x1024x1.Idx) : wrapIdx idx q = idx (ix3 (q 0) (q 1) (q 2)) := by
  unfold wrapIdx
  rw [unit_last_apply, select_apply]
  rw [show cmpi .slt idx (broadcastInDim S4x1024x1024 ![] bcast_S_S4x1024x1024 (constantI S_ 32 0#32)) (ix3 (q 0) (q 1) (q 2)) = 0#1
    from cmpi_slt_zero _ (hidx _).1, select_zero]

/-- The lookup of a 64-knot row at per-pixel indices between 0 and 63: no index is wrapped, the in-range mask is all true so
    the not-a-number branch is never read, the gather's clamp is the identity; the result at a pixel is the row at its index. -/
theorem take_apply (tbl : S64.Idx → EReal) (idx : IVec S4x1024x1024 32)
    (hidx : ∀ p, 0 ≤ (idx p).toInt ∧ (idx p).toInt ≤ 63) (b : Fin 4) (h v : Fin 1024) :
    select
        (Host.reduce IntOp.andi
          (andi (cmpi .sge (wrapIdx idx) (broadcastInDim S4x1024x1024x1 ![] bcast_S_S4x1024x1024x1 (constantI S_ 32 0#32)))
            (cmpi .sle (wrapIdx idx)
              (broadcastInDim S4x1024x1024x1 ![0, 1, 2, 3] bcast_S1x1x1x1_S4x1024x1024x1_0_1_2_3
                (broadcastInDim S1x1x1x1 ![3] bcast_S1_S1x1x1x1_3 (constantI S1 32 63#32)))))
          (constantI S_ 1 1#1) reducesTo_S4x1024x1024x1_S4x1024x1024_d3 h_S_)
        (Host.gather gather_S64_S4x1024x1024x1_S4x1024x1024_n_0_n_n_0_3_1 tbl (wrapIdx idx))
        (broadcastInDim S4x1024x1024 ![] bcast_S_S4x1024x1024 (constant (F := Ideal) S_ .f32 0x7FC00000#32))
        (ix3 b h v)
      = tbl (ix1 ⟨(idx (ix3 b h v)).toNat % 64, Nat.mod_lt _ (by decide)⟩) := by
  rw [select_apply, reduce_andi_one _ (constantI S_ 1 1#1) _ _ ?hx (fun _ => rfl), select_one, gather64_apply]
  case hx =>
    intro i
    show IntOp.andi (IntOp.cmpi .sge (wrapIdx idx i) 0#32) (IntOp.cmpi .sle (wrapIdx idx i) 63#32) = 1#1
    rw [wrapIdx_apply idx hidx, cmpi_sge_zero _ (hidx _).1,
      cmpi_sle_of_le _ 63#32 (by have := (hidx (ix3 (i 0) (i 1) (i 2))).2; have h63 : (63#32 : BitVec 32).toInt = 63 := (by decide); omega)]
    rfl
  congr 2
  refine Fin.ext ?_
  show min (wrapIdx idx (ix4 b h v (0 : Fin 1))).toInt.toNat 63 = (idx (ix3 b h v)).toNat % 64
  rw [wrapIdx_apply idx hidx]
  exact clamp63 _ (hidx _).1 (hidx _).2

/-- One lookup of a 64-knot row at per-pixel indices, as the reference computes it: wrap, in-range mask, gather, select. -/
def takeTerm (tbl : S64.Idx → EReal) (idx : IVec S4x1024x1024 32) : S4x1024x1024.Idx → EReal :=
  select
    (Host.reduce IntOp.andi
      (andi (cmpi .sge (wrapIdx idx) (broadcastInDim S4x1024x1024x1 ![] bcast_S_S4x1024x1024x1 (constantI S_ 32 0#32)))
        (cmpi .sle (wrapIdx idx)
          (broadcastInDim S4x1024x1024x1 ![0, 1, 2, 3] bcast_S1x1x1x1_S4x1024x1024x1_0_1_2_3
            (broadcastInDim S1x1x1x1 ![3] bcast_S1_S1x1x1x1_3 (constantI S1 32 63#32)))))
      (constantI S_ 1 1#1) reducesTo_S4x1024x1024x1_S4x1024x1024_d3 h_S_)
    (Host.gather gather_S64_S4x1024x1024x1_S4x1024x1024_n_0_n_n_0_3_1 tbl (wrapIdx idx))
    (broadcastInDim S4x1024x1024 ![] bcast_S_S4x1024x1024 (constant (F := Ideal) S_ .f32 0x7FC00000#32))

/-- That lookup at a pixel, for indices between 0 and 63: the row at the pixel's index. -/
theorem takeTerm_apply (tbl : S64.Idx → EReal) (idx : IVec S4x1024x1024 32)
    (hidx : ∀ p, 0 ≤ (idx p).toInt ∧ (idx p).toInt ≤ 63) (b : Fin 4) (h v : Fin 1024) :
    takeTerm tbl idx (ix3 b h v) = tbl (ix1 ⟨(idx (ix3 b h v)).toNat % 64, Nat.mod_lt _ (by decide)⟩) :=
  take_apply tbl idx hidx b h v

/-! ## Meeting the specification's row and cell -/

/-- A row of the one-dimensional tables at the knot a word names, the word given up to equality. -/
theorem row1_congr (l1 : Cert.Lut.SL1.Idx → EReal) (c : Fin 3) {x y : BitVec 32} (e : x = y)
    (p : x.toNat % 64 < 64) : l1 (ix2 c ⟨x.toNat % 64, p⟩) = Cert.Lut.row1 l1 c y := by
  subst e; rfl

/-- A word whose signed value is non-negative and small has that value as its unsigned one. -/
theorem nat_of_int_range (x : BitVec 32) {k : Int} (h0 : 0 ≤ x.toInt) (h1 : x.toInt ≤ k) (hk : k < 2147483648) :
    (x.toNat : Int) = x.toInt := by
  have hc := BitVec.toInt_eq_toNat_cond x
  have hl := x.isLt
  split at hc <;> omega

/-- A word whose unsigned value is below 2^31 has that value as its signed one. -/
theorem int_of_nat_small (y : BitVec 32) (h : y.toNat < 2147483648) : y.toInt = (y.toNat : Int) := by
  have hc := BitVec.toInt_eq_toNat_cond y
  split at hc <;> omega

/-- The sum of two small words does not wrap. -/
theorem addi_toNat (x y : BitVec 32) (h : x.toNat + y.toNat < 4294967296) : (IntOp.addi x y).toNat = x.toNat + y.toNat := by
  show (x + y).toNat = _
  rw [BitVec.toNat_add]
  exact Nat.mod_eq_of_lt h

/-- Seventeen times a small word does not wrap. -/
theorem muli17_toNat (x : BitVec 32) (h : x.toNat * 17 < 4294967296) : (IntOp.muli x 17#32).toNat = x.toNat * 17 := by
  show (x * 17#32).toNat = _
  rw [BitVec.toNat_mul]
  show (x.toNat * 17) % 4294967296 = _
  exact Nat.mod_eq_of_lt h

/-- The successor of a word between 0 and 62 is between 1 and 63. -/
theorem addi_one_range (x : BitVec 32) (h0 : 0 ≤ x.toInt) (h1 : x.toInt ≤ 62) :
    0 ≤ (IntOp.addi x 1#32).toInt ∧ (IntOp.addi x 1#32).toInt ≤ 63 := by
  have hx := nat_of_int_range x h0 h1 (by omega)
  have e1 : (1#32 : BitVec 32).toNat = 1 := by decide
  have hn := addi_toNat x 1#32 (by omega)
  have hi := int_of_nat_small (IntOp.addi x 1#32) (by omega)
  omega

/-- The row of the flattened table three words name, each reduced mod 17. -/
def rowOf (i j k : BitVec 32) : Fin 4913 :=
  ⟨((i.toNat % 17) * 17 + j.toNat % 17) * 17 + k.toNat % 17, by omega⟩

/-- The linear index of a corner: knots between 0 and 15, offsets 0 or 1. It is non-negative, so it is not wrapped; it is below
    4913, so the gather's clamp is the identity; no product or sum overflows 32 bits; and it is the row the three words name. -/
theorem lin_row (ir ig ib dr dg db lin : BitVec 32) (hr : 0 ≤ ir.toInt ∧ ir.toInt ≤ 15) (hg : 0 ≤ ig.toInt ∧ ig.toInt ≤ 15)
    (hb : 0 ≤ ib.toInt ∧ ib.toInt ≤ 15) (hdr : dr = 0#32 ∨ dr = 1#32) (hdg : dg = 0#32 ∨ dg = 1#32) (hdb : db = 0#32 ∨ db = 1#32)
    (hlin : lin = IntOp.addi (IntOp.muli (IntOp.addi (IntOp.muli (IntOp.addi ir dr) 17#32) (IntOp.addi ig dg)) 17#32) (IntOp.addi ib db)) :
    min (Scalar.select (IntOp.cmpi .slt lin 0#32) (IntOp.addi lin 4913#32) lin).toInt.toNat 4912
      = (rowOf (IntOp.addi ir dr) (IntOp.addi ig dg) (IntOp.addi ib db)).val := by
  have e0 : (0#32 : BitVec 32).toNat = 0 := by decide
  have e1 : (1#32 : BitVec 32).toNat = 1 := by decide
  have ha := nat_of_int_range ir hr.1 hr.2 (by omega)
  have hb' := nat_of_int_range ig hg.1 hg.2 (by omega)
  have hc' := nat_of_int_range ib hb.1 hb.2 (by omega)
  have hdr' : dr.toNat ≤ 1 := by rcases hdr with rfl | rfl <;> omega
  have hdg' : dg.toNat ≤ 1 := by rcases hdg with rfl | rfl <;> omega
  have hdb' : db.toNat ≤ 1 := by rcases hdb with rfl | rfl <;> omega
  have t1 := addi_toNat ir dr (by omega)
  have t3 := addi_toNat ig dg (by omega)
  have t6 := addi_toNat ib db (by omega)
  have t2 := muli17_toNat (IntOp.addi ir dr) (by omega)
  have t4 := addi_toNat (IntOp.muli (IntOp.addi ir dr) 17#32) (IntOp.addi ig dg) (by omega)
  have t5 := muli17_toNat (IntOp.addi (IntOp.muli (IntOp.addi ir dr) 17#32) (IntOp.addi ig dg)) (by omega)
  have t7 := addi_toNat (IntOp.muli (IntOp.addi (IntOp.muli (IntOp.addi ir dr) 17#32) (IntOp.addi ig dg)) 17#32) (IntOp.addi ib db) (by omega)
  rw [← hlin] at t7
  have hi := int_of_nat_small lin (by omega)
  rw [cmpi_slt_zero _ (by omega), select_zero]
  show min lin.toInt.toNat 4912
    = ((IntOp.addi ir dr).toNat % 17 * 17 + (IntOp.addi ig dg).toNat % 17) * 17 + (IntOp.addi ib db).toNat % 17
  omega

end Cert.ReferenceIdeal.RefLib

end
-- ==== Proof.RefStage1.lean ====
/-
  The reference's first stage read at an index.

  Segment A computes each pixel channel's lower knot and offset along the 64-knot row; these are Spec's knot and frac by
  computation. Each lookup of a knot row (T1 … T6) reads a channel of the knots, possibly one higher, and gathers the channel's
  row there: the knots lie in [0, 62], so no index is wrapped, the in-range mask is all true, the gather's clamp is the identity,
  and the result is Spec's row1. The two re-assemblies (C1, C2) put the three channels side by side and interpolate.
  A buffer a segment does not write keeps its contents; chaining these facts through the segments gives the first stage's result
  at (b, c, h, w) as the interpolation Spec's yR clamps.
-/
import proofs.«151699_j29575144800973_2_alg».proof.Proof.RefSegs
import proofs.«151699_j29575144800973_2_alg».proof.Proof.RefLib
import proofs.«151699_j29575144800973_2_alg».proof.Proof.Spec

noncomputable section

namespace Cert.ReferenceIdeal.RefStage1

open Cert.ReferenceIdeal Cert.ReferenceIdeal.Gen Cert.ReferenceIdeal.RefRun Cert.ReferenceIdeal.RefSegs Cert.ReferenceIdeal.RefLib
open Idealize.ShloMosaic Idealize.ShloMosaic.TcCoe Idealize.SL.Sem Idealize.ShloMosaic.StableHlo Idealize.ShloMosaic.ValueIdx

/-! ## What each segment leaves alone -/

set_option maxRecDepth 8192 in
theorem keep_A_arg0 (V : Valuation τ sig (Elt Ideal)) : after (sA (F := Ideal)) V (main_arg0 : DevRef τ sig) = V (main_arg0 : DevRef τ sig) := by after_results_simp

set_option maxRecDepth 8192 in
theorem keep_T1_arg0 (V : Valuation τ sig (Elt Ideal)) : after (sT1 (F := Ideal)) V (main_arg0 : DevRef τ sig) = V (main_arg0 : DevRef τ sig) := by after_results_simp

set_option maxRecDepth 8192 in
theorem keep_T2_arg0 (V : Valuation τ sig (Elt Ideal)) : after (sT2 (F := Ideal)) V (main_arg0 : DevRef τ sig) = V (main_arg0 : DevRef τ sig) := by after_results_simp

set_option maxRecDepth 8192 in
theorem keep_T3_arg0 (V : Valuation τ sig (Elt Ideal)) : after (sT3 (F := Ideal)) V (main_arg0 : DevRef τ sig) = V (main_arg0 : DevRef τ sig) := by after_results_simp

set_option maxRecDepth 8192 in
theorem keep_C1_arg0 (V : Valuation τ sig (Elt Ideal)) : after (sC1 (F := Ideal)) V (main_arg0 : DevRef τ sig) = V (main_arg0 : DevRef τ sig) := by after_results_simp

set_option maxRecDepth 8192 in
theorem keep_T4_arg0 (V : Valuation τ sig (Elt Ideal)) : after (sT4 (F := Ideal)) V (main_arg0 : DevRef τ sig) = V (main_arg0 : DevRef τ sig) := by after_results_simp

set_option maxRecDepth 8192 in
theorem keep_T5_arg0 (V : Valuation τ sig (Elt Ideal)) : after (sT5 (F := Ideal)) V (main_arg0 : DevRef τ sig) = V (main_arg0 : DevRef τ sig) := by after_results_simp

set_option maxRecDepth 8192 in
theorem keep_T6_arg0 (V : Valuation τ sig (Elt Ideal)) : after (sT6 (F := Ideal)) V (main_arg0 : DevRef τ sig) = V (main_arg0 : DevRef τ sig) := by after_results_simp

set_option maxRecDepth 8192 in
theorem keep_C2_arg0 (V : Valuation τ sig (Elt Ideal)) : after (sC2 (F := Ideal)) V (main_arg0 : DevRef τ sig) = V (main_arg0 : DevRef τ sig) := by after_results_simp

set_option maxRecDepth 8192 in
theorem keep_A_arg1 (V : Valuation τ sig (Elt Ideal)) : after (sA (F := Ideal)) V (main_arg1 : DevRef τ sig) = V (main_arg1 : DevRef τ sig) := by after_results_simp

set_option maxRecDepth 8192 in
theorem keep_T1_arg1 (V : Valuation τ sig (Elt Ideal)) : after (sT1 (F := Ideal)) V (main_arg1 : DevRef τ sig) = V (main_arg1 : DevRef τ sig) := by after_results_simp

set_option maxRecDepth 8192 in
theorem keep_T2_arg1 (V : Valuation τ sig (Elt Ideal)) : after (sT2 (F := Ideal)) V (main_arg1 : DevRef τ sig) = V (main_arg1 : DevRef τ sig) := by after_results_simp

set_option maxRecDepth 8192 in
theorem keep_T3_arg1 (V : Valuation τ sig (Elt Ideal)) : after (sT3 (F := Ideal)) V (main_arg1 : DevRef τ sig) = V (main_arg1 : DevRef τ sig) := by after_results_simp

set_option maxRecDepth 8192 in
theorem keep_C1_arg1 (V : Valuation τ sig (Elt Ideal)) : after (sC1 (F := Ideal)) V (main_arg1 : DevRef τ sig) = V (main_arg1 : DevRef τ sig) := by after_results_simp

set_option maxRecDepth 8192 in
theorem keep_T4_arg1 (V : Valuation τ sig (Elt Ideal)) : after (sT4 (F := Ideal)) V (main_arg1 : DevRef τ sig) = V (main_arg1 : DevRef τ sig) := by after_results_simp

set_option maxRecDepth 8192 in
theorem keep_T5_arg1 (V : Valuation τ sig (Elt Ideal)) : after (sT5 (F := Ideal)) V (main_arg1 : DevRef τ sig) = V (main_arg1 : DevRef τ sig) := by after_results_simp

set_option maxRecDepth 8192 in
theorem keep_T6_arg1 (V : Valuation τ sig (Elt Ideal)) : after (sT6 (F := Ideal)) V (main_arg1 : DevRef τ sig) = V (main_arg1 : DevRef τ sig) := by after_results_simp

set_option maxRecDepth 8192 in
theorem keep_C2_arg1 (V : Valuation τ sig (Elt Ideal)) : after (sC2 (F := Ideal)) V (main_arg1 : DevRef τ sig) = V (main_arg1 : DevRef τ sig) := by after_results_simp

set_option maxRecDepth 8192 in
theorem keep_A_arg2 (V : Valuation τ sig (Elt Ideal)) : after (sA (F := Ideal)) V (main_arg2 : DevRef τ sig) = V (main_arg2 : DevRef τ sig) := by after_results_simp

set_option maxRecDepth 8192 in
theorem keep_T1_arg2 (V : Valuation τ sig (Elt Ideal)) : after (sT1 (F := Ideal)) V (main_arg2 : DevRef τ sig) = V (main_arg2 : DevRef τ sig) := by after_results_simp

set_option maxRecDepth 8192 in
theorem keep_T2_arg2 (V : Valuation τ sig (Elt Ideal)) : after (sT2 (F := Ideal)) V (main_arg2 : DevRef τ sig) = V (main_arg2 : DevRef τ sig) := by after_results_simp

set_option maxRecDepth 8192 in
theorem keep_T3_arg2 (V : Valuation τ sig (Elt Ideal)) : after (sT3 (F := Ideal)) V (main_arg2 : DevRef τ sig) = V (main_arg2 : DevRef τ sig) := by after_results_simp

set_option maxRecDepth 8192 in
theorem keep_C1_arg2 (V : Valuation τ sig (Elt Ideal)) : after (sC1 (F := Ideal)) V (main_arg2 : DevRef τ sig) = V (main_arg2 : DevRef τ sig) := by after_results_simp

set_option maxRecDepth 8192 in
theorem keep_T4_arg2 (V : Valuation τ sig (Elt Ideal)) : after (sT4 (F := Ideal)) V (main_arg2 : DevRef τ sig) = V (main_arg2 : DevRef τ sig) := by after_results_simp

set_option maxRecDepth 8192 in
theorem keep_T5_arg2 (V : Valuation τ sig (Elt Ideal)) : after (sT5 (F := Ideal)) V (main_arg2 : DevRef τ sig) = V (main_arg2 : DevRef τ sig) := by after_results_simp

set_option maxRecDepth 8192 in
theorem keep_T6_arg2 (V : Valuation τ sig (Elt Ideal)) : after (sT6 (F := Ideal)) V (main_arg2 : DevRef τ sig) = V (main_arg2 : DevRef τ sig) := by after_results_simp

set_option maxRecDepth 8192 in
theorem keep_C2_arg2 (V : Valuation τ sig (Elt Ideal)) : after (sC2 (F := Ideal)) V (main_arg2 : DevRef τ sig) = V (main_arg2 : DevRef τ sig) := by after_results_simp

set_option maxRecDepth 8192 in
theorem keep_T1_v4 (V : Valuation τ sig (Elt Ideal)) : after (sT1 (F := Ideal)) V (main_v4 : DevRef τ sig) = V (main_v4 : DevRef τ sig) := by after_results_simp

set_option maxRecDepth 8192 in
theorem keep_T2_v4 (V : Valuation τ sig (Elt Ideal)) : after (sT2 (F := Ideal)) V (main_v4 : DevRef τ sig) = V (main_v4 : DevRef τ sig) := by after_results_simp

set_option maxRecDepth 8192 in
theorem keep_T3_v4 (V : Valuation τ sig (Elt Ideal)) : after (sT3 (F := Ideal)) V (main_v4 : DevRef τ sig) = V (main_v4 : DevRef τ sig) := by after_results_simp

set_option maxRecDepth 8192 in
theorem keep_C1_v4 (V : Valuation τ sig (Elt Ideal)) : after (sC1 (F := Ideal)) V (main_v4 : DevRef τ sig) = V (main_v4 : DevRef τ sig) := by after_results_simp

set_option maxRecDepth 8192 in
theorem keep_T4_v4 (V : Valuation τ sig (Elt Ideal)) : after (sT4 (F := Ideal)) V (main_v4 : DevRef τ sig) = V (main_v4 : DevRef τ sig) := by after_results_simp

set_option maxRecDepth 8192 in
theorem keep_T5_v4 (V : Valuation τ sig (Elt Ideal)) : after (sT5 (F := Ideal)) V (main_v4 : DevRef τ sig) = V (main_v4 : DevRef τ sig) := by after_results_simp

set_option maxRecDepth 8192 in
theorem keep_T1_v6 (V : Valuation τ sig (Elt Ideal)) : after (sT1 (F := Ideal)) V (main_v6 : DevRef τ sig) = V (main_v6 : DevRef τ sig) := by after_results_simp

set_option maxRecDepth 8192 in
theorem keep_T2_v6 (V : Valuation τ sig (Elt Ideal)) : after (sT2 (F := Ideal)) V (main_v6 : DevRef τ sig) = V (main_v6 : DevRef τ sig) := by after_results_simp

set_option maxRecDepth 8192 in
theorem keep_T3_v6 (V : Valuation τ sig (Elt Ideal)) : after (sT3 (F := Ideal)) V (main_v6 : DevRef τ sig) = V (main_v6 : DevRef τ sig) := by after_results_simp

set_option maxRecDepth 8192 in
theorem keep_C1_v6 (V : Valuation τ sig (Elt Ideal)) : after (sC1 (F := Ideal)) V (main_v6 : DevRef τ sig) = V (main_v6 : DevRef τ sig) := by after_results_simp

set_option maxRecDepth 8192 in
theorem keep_T4_v6 (V : Valuation τ sig (Elt Ideal)) : after (sT4 (F := Ideal)) V (main_v6 : DevRef τ sig) = V (main_v6 : DevRef τ sig) := by after_results_simp

set_option maxRecDepth 8192 in
theorem keep_T5_v6 (V : Valuation τ sig (Elt Ideal)) : after (sT5 (F := Ideal)) V (main_v6 : DevRef τ sig) = V (main_v6 : DevRef τ sig) := by after_results_simp

set_option maxRecDepth 8192 in
theorem keep_T6_v6 (V : Valuation τ sig (Elt Ideal)) : after (sT6 (F := Ideal)) V (main_v6 : DevRef τ sig) = V (main_v6 : DevRef τ sig) := by after_results_simp

set_option maxRecDepth 8192 in
theorem keep_T2_v11 (V : Valuation τ sig (Elt Ideal)) : after (sT2 (F := Ideal)) V (main_v11 : DevRef τ sig) = V (main_v11 : DevRef τ sig) := by after_results_simp

set_option maxRecDepth 8192 in
theorem keep_T3_v11 (V : Valuation τ sig (Elt Ideal)) : after (sT3 (F := Ideal)) V (main_v11 : DevRef τ sig) = V (main_v11 : DevRef τ sig) := by after_results_simp

set_option maxRecDepth 8192 in
theorem keep_T3_v16 (V : Valuation τ sig (Elt Ideal)) : after (sT3 (F := Ideal)) V (main_v16 : DevRef τ sig) = V (main_v16 : DevRef τ sig) := by after_results_simp

set_option maxRecDepth 8192 in
theorem keep_T4_v25 (V : Valuation τ sig (Elt Ideal)) : after (sT4 (F := Ideal)) V (main_v25 : DevRef τ sig) = V (main_v25 : DevRef τ sig) := by after_results_simp

set_option maxRecDepth 8192 in
theorem keep_T5_v25 (V : Valuation τ sig (Elt Ideal)) : after (sT5 (F := Ideal)) V (main_v25 : DevRef τ sig) = V (main_v25 : DevRef τ sig) := by after_results_simp

set_option maxRecDepth 8192 in
theorem keep_T6_v25 (V : Valuation τ sig (Elt Ideal)) : after (sT6 (F := Ideal)) V (main_v25 : DevRef τ sig) = V (main_v25 : DevRef τ sig) := by after_results_simp

set_option maxRecDepth 8192 in
theorem keep_T5_v32 (V : Valuation τ sig (Elt Ideal)) : after (sT5 (F := Ideal)) V (main_v32 : DevRef τ sig) = V (main_v32 : DevRef τ sig) := by after_results_simp

set_option maxRecDepth 8192 in
theorem keep_T6_v32 (V : Valuation τ sig (Elt Ideal)) : after (sT6 (F := Ideal)) V (main_v32 : DevRef τ sig) = V (main_v32 : DevRef τ sig) := by after_results_simp

set_option maxRecDepth 8192 in
theorem keep_T6_v39 (V : Valuation τ sig (Elt Ideal)) : after (sT6 (F := Ideal)) V (main_v39 : DevRef τ sig) = V (main_v39 : DevRef τ sig) := by after_results_simp

/-! ## Broadcasts that add a unit axis, at an index given by coordinates -/

theorem unit_chan_at {α : Type} (x : S4x1024x1024.Idx → α) (hb : S4x1024x1024.BroadcastsInDim S4x1x1024x1024 ![0, 2, 3])
    (b : Fin 4) (h w : Fin 1024) :
    broadcastInDim S4x1x1024x1024 ![0, 2, 3] hb x (ix4 b (0 : Fin 1) h w) = x (ix3 b h w) := unit_chan_apply x hb _

/-! ## Segment A: knots and offsets -/

set_option maxRecDepth 8192 in
theorem A_v4 (V : Valuation τ sig (Elt Ideal)) (b : Fin 4) (c : Fin 3) (h w : Fin 1024) :
    after (sA (F := Ideal)) V (main_v4 : DevRef τ sig) (ix4 b c h w)
      = Cert.Lut.knot Cert.Lut.s63 62#32 (V (main_arg0 : DevRef τ sig) (ix4 b c h w)) := by
  after_results_simp
  rfl

set_option maxRecDepth 8192 in
theorem A_v6 (V : Valuation τ sig (Elt Ideal)) (b : Fin 4) (c : Fin 3) (h w : Fin 1024) :
    after (sA (F := Ideal)) V (main_v6 : DevRef τ sig) (ix4 b c h w)
      = Cert.Lut.frac Cert.Lut.s63 62#32 (V (main_arg0 : DevRef τ sig) (ix4 b c h w)) := by
  after_results_simp
  rfl

/-- Every knot of the first stage lies in [0, 62]. -/
theorem rng1 (V : Valuation τ sig (Elt Ideal)) (p : S4x3x1024x1024.Idx) :
    0 ≤ (after (sA (F := Ideal)) V (main_v4 : DevRef τ sig) p).toInt ∧ (after (sA (F := Ideal)) V (main_v4 : DevRef τ sig) p).toInt ≤ 62 := by
  obtain ⟨b, c, h, w, rfl⟩ : ∃ b c h w, p = ix4 b c h w := ⟨p 0, p 1, p 2, p 3, eq_ix4 p⟩
  rw [A_v4]
  have h62 : (62#32 : BitVec 32).toInt = 62 := by decide
  have := Cert.Lut.knot_toInt Cert.Lut.s63 62#32 (by decide) (V (main_arg0 : DevRef τ sig) (ix4 b c h w))
  omega

/-! ## The six lookups -/

set_option maxRecDepth 8192 in
/-- Lookup 1: channel 0's row at the pixel's knot. -/
theorem T1_out (V : Valuation τ sig (Elt Ideal))
    (hV : ∀ p, 0 ≤ ((V (main_v4 : DevRef τ sig)) p).toInt ∧ ((V (main_v4 : DevRef τ sig)) p).toInt ≤ 62)
    (b : Fin 4) (h w : Fin 1024) :
    after (sT1 (F := Ideal)) V (main_v11 : DevRef τ sig) (ix3 b h w)
      = Cert.Lut.row1 (V (main_arg1 : DevRef τ sig)) 0 (V (main_v4 : DevRef τ sig) (ix4 b 0 h w)) := by
  after_results_simp
  refine (take_apply _ _ ?hidx b h w).trans ?_
  case hidx =>
    intro p
    obtain ⟨b', h', w', rfl⟩ : ∃ b' h' w', p = ix3 b' h' w' := ⟨p 0, p 1, p 2, eq_ix3 p⟩
    change 0 ≤ (shapeCast S4x1024x1024 (extractStridedSlice S4x1x1024x1024 ![0, 0, 0, 0] (V (main_v4 : DevRef τ sig)) slices_S4x3x1024x1024_S4x1x1024x1024_0_0_0_0) shapeCasts_S4x1x1024x1024_S4x1024x1024 (ix3 b' h' w')).toInt ∧ (shapeCast S4x1024x1024 (extractStridedSlice S4x1x1024x1024 ![0, 0, 0, 0] (V (main_v4 : DevRef τ sig)) slices_S4x3x1024x1024_S4x1x1024x1024_0_0_0_0) shapeCasts_S4x1x1024x1024_S4x1024x1024 (ix3 b' h' w')).toInt ≤ 63
    rw [chan_apply _ _ _ _ 0 rfl rfl rfl rfl]
    have hr := hV (ix4 b' 0 h' w')
    omega
  exact (row_apply (V (main_arg1 : DevRef τ sig)) ![0, 0] slices_S3x64_S1x64_0_0 shapeCasts_S1x64_S64 0 rfl rfl _).trans
    (row1_congr _ _ (chan_apply (V (main_v4 : DevRef τ sig)) ![0, 0, 0, 0] slices_S4x3x1024x1024_S4x1x1024x1024_0_0_0_0 shapeCasts_S4x1x1024x1024_S4x1024x1024 0 rfl rfl rfl rfl b h w) _)

set_option maxRecDepth 8192 in
/-- Lookup 2: channel 1's row at the pixel's knot. -/
theorem T2_out (V : Valuation τ sig (Elt Ideal))
    (hV : ∀ p, 0 ≤ ((V (main_v4 : DevRef τ sig)) p).toInt ∧ ((V (main_v4 : DevRef τ sig)) p).toInt ≤ 62)
    (b : Fin 4) (h w : Fin 1024) :
    after (sT2 (F := Ideal)) V (main_v16 : DevRef τ sig) (ix3 b h w)
      = Cert.Lut.row1 (V (main_arg1 : DevRef τ sig)) 1 (V (main_v4 : DevRef τ sig) (ix4 b 1 h w)) := by
  after_results_simp
  refine (take_apply _ _ ?hidx b h w).trans ?_
  case hidx =>
    intro p
    obtain ⟨b', h', w', rfl⟩ : ∃ b' h' w', p = ix3 b' h' w' := ⟨p 0, p 1, p 2, eq_ix3 p⟩
    change 0 ≤ (shapeCast S4x1024x1024 (extractStridedSlice S4x1x1024x1024 ![0, 1, 0, 0] (V (main_v4 : DevRef τ sig)) slices_S4x3x1024x1024_S4x1x1024x1024_0_1_0_0) shapeCasts_S4x1x1024x1024_S4x1024x1024 (ix3 b' h' w')).toInt ∧ (shapeCast S4x1024x1024 (extractStridedSlice S4x1x1024x1024 ![0, 1, 0, 0] (V (main_v4 : DevRef τ sig)) slices_S4x3x1024x1024_S4x1x1024x1024_0_1_0_0) shapeCasts_S4x1x1024x1024_S4x1024x1024 (ix3 b' h' w')).toInt ≤ 63
    rw [chan_apply _ _ _ _ 1 rfl rfl rfl rfl]
    have hr := hV (ix4 b' 1 h' w')
    omega
  exact (row_apply (V (main_arg1 : DevRef τ sig)) ![1, 0] slices_S3x64_S1x64_1_0 shapeCasts_S1x64_S64 1 rfl rfl _).trans
    (row1_congr _ _ (chan_apply (V (main_v4 : DevRef τ sig)) ![0, 1, 0, 0] slices_S4x3x1024x1024_S4x1x1024x1024_0_1_0_0 shapeCasts_S4x1x1024x1024_S4x1024x1024 1 rfl rfl rfl rfl b h w) _)

set_option maxRecDepth 8192 in
/-- Lookup 3: channel 2's row at the pixel's knot. -/
theorem T3_out (V : Valuation τ sig (Elt Ideal))
    (hV : ∀ p, 0 ≤ ((V (main_v4 : DevRef τ sig)) p).toInt ∧ ((V (main_v4 : DevRef τ sig)) p).toInt ≤ 62)
    (b : Fin 4) (h w : Fin 1024) :
    after (sT3 (F := Ideal)) V (main_v21 : DevRef τ sig) (ix3 b h w)
      = Cert.Lut.row1 (V (main_arg1 : DevRef τ sig)) 2 (V (main_v4 : DevRef τ sig) (ix4 b 2 h w)) := by
  after_results_simp
  refine (take_apply _ _ ?hidx b h w).trans ?_
  case hidx =>
    intro p
    obtain ⟨b', h', w', rfl⟩ : ∃ b' h' w', p = ix3 b' h' w' := ⟨p 0, p 1, p 2, eq_ix3 p⟩
    change 0 ≤ (shapeCast S4x1024x1024 (extractStridedSlice S4x1x1024x1024 ![0, 2, 0, 0] (V (main_v4 : DevRef τ sig)) slices_S4x3x1024x1024_S4x1x1024x1024_0_2_0_0) shapeCasts_S4x1x1024x1024_S4x1024x1024 (ix3 b' h' w')).toInt ∧ (shapeCast S4x1024x1024 (extractStridedSlice S4x1x1024x1024 ![0, 2, 0, 0] (V (main_v4 : DevRef τ sig)) slices_S4x3x1024x1024_S4x1x1024x1024_0_2_0_0) shapeCasts_S4x1x1024x1024_S4x1024x1024 (ix3 b' h' w')).toInt ≤ 63
    rw [chan_apply _ _ _ _ 2 rfl rfl rfl rfl]
    have hr := hV (ix4 b' 2 h' w')
    omega
  exact (row_apply (V (main_arg1 : DevRef τ sig)) ![2, 0] slices_S3x64_S1x64_2_0 shapeCasts_S1x64_S64 2 rfl rfl _).trans
    (row1_congr _ _ (chan_apply (V (main_v4 : DevRef τ sig)) ![0, 2, 0, 0] slices_S4x3x1024x1024_S4x1x1024x1024_0_2_0_0 shapeCasts_S4x1x1024x1024_S4x1024x1024 2 rfl rfl rfl rfl b h w) _)

set_option maxRecDepth 8192 in
/-- Lookup 4: channel 0's row at the pixel's knot plus one. -/
theorem T4_out (V : Valuation τ sig (Elt Ideal))
    (hV : ∀ p, 0 ≤ ((V (main_v4 : DevRef τ sig)) p).toInt ∧ ((V (main_v4 : DevRef τ sig)) p).toInt ≤ 62)
    (b : Fin 4) (h w : Fin 1024) :
    after (sT4 (F := Ideal)) V (main_v32 : DevRef τ sig) (ix3 b h w)
      = Cert.Lut.row1 (V (main_arg1 : DevRef τ sig)) 0 (IntOp.addi (V (main_v4 : DevRef τ sig) (ix4 b 0 h w)) 1#32) := by
  after_results_simp
  refine (take_apply _ _ ?hidx b h w).trans ?_
  case hidx =>
    intro p
    obtain ⟨b', h', w', rfl⟩ : ∃ b' h' w', p = ix3 b' h' w' := ⟨p 0, p 1, p 2, eq_ix3 p⟩
    change 0 ≤ (IntOp.addi (shapeCast S4x1024x1024 (extractStridedSlice S4x1x1024x1024 ![0, 0, 0, 0] (V (main_v4 : DevRef τ sig)) slices_S4x3x1024x1024_S4x1x1024x1024_0_0_0_0) shapeCasts_S4x1x1024x1024_S4x1024x1024 (ix3 b' h' w')) 1#32).toInt ∧ (IntOp.addi (shapeCast S4x1024x1024 (extractStridedSlice S4x1x1024x1024 ![0, 0, 0, 0] (V (main_v4 : DevRef τ sig)) slices_S4x3x1024x1024_S4x1x1024x1024_0_0_0_0) shapeCasts_S4x1x1024x1024_S4x1024x1024 (ix3 b' h' w')) 1#32).toInt ≤ 63
    rw [chan_apply _ _ _ _ 0 rfl rfl rfl rfl]
    exact addi_one_range _ (hV _).1 (hV _).2
  exact (row_apply (V (main_arg1 : DevRef τ sig)) ![0, 0] slices_S3x64_S1x64_0_0 shapeCasts_S1x64_S64 0 rfl rfl _).trans
    (row1_congr _ _ (congrArg (fun z => IntOp.addi z 1#32) (chan_apply (V (main_v4 : DevRef τ sig)) ![0, 0, 0, 0] slices_S4x3x1024x1024_S4x1x1024x1024_0_0_0_0 shapeCasts_S4x1x1024x1024_S4x1024x1024 0 rfl rfl rfl rfl b h w)) _)

set_option maxRecDepth 8192 in
/-- Lookup 5: channel 1's row at the pixel's knot plus one. -/
theorem T5_out (V : Valuation τ sig (Elt Ideal))
    (hV : ∀ p, 0 ≤ ((V (main_v4 : DevRef τ sig)) p).toInt ∧ ((V (main_v4 : DevRef τ sig)) p).toInt ≤ 62)
    (b : Fin 4) (h w : Fin 1024) :
    after (sT5 (F := Ideal)) V (main_v39 : DevRef τ sig) (ix3 b h w)
      = Cert.Lut.row1 (V (main_arg1 : DevRef τ sig)) 1 (IntOp.addi (V (main_v4 : DevRef τ sig) (ix4 b 1 h w)) 1#32) := by
  after_results_simp
  refine (take_apply _ _ ?hidx b h w).trans ?_
  case hidx =>
    intro p
    obtain ⟨b', h', w', rfl⟩ : ∃ b' h' w', p = ix3 b' h' w' := ⟨p 0, p 1, p 2, eq_ix3 p⟩
    change 0 ≤ (IntOp.addi (shapeCast S4x1024x1024 (extractStridedSlice S4x1x1024x1024 ![0, 1, 0, 0] (V (main_v4 : DevRef τ sig)) slices_S4x3x1024x1024_S4x1x1024x1024_0_1_0_0) shapeCasts_S4x1x1024x1024_S4x1024x1024 (ix3 b' h' w')) 1#32).toInt ∧ (IntOp.addi (shapeCast S4x1024x1024 (extractStridedSlice S4x1x1024x1024 ![0, 1, 0, 0] (V (main_v4 : DevRef τ sig)) slices_S4x3x1024x1024_S4x1x1024x1024_0_1_0_0) shapeCasts_S4x1x1024x1024_S4x1024x1024 (ix3 b' h' w')) 1#32).toInt ≤ 63
    rw [chan_apply _ _ _ _ 1 rfl rfl rfl rfl]
    exact addi_one_range _ (hV _).1 (hV _).2
  exact (row_apply (V (main_arg1 : DevRef τ sig)) ![1, 0] slices_S3x64_S1x64_1_0 shapeCasts_S1x64_S64 1 rfl rfl _).trans
    (row1_congr _ _ (congrArg (fun z => IntOp.addi z 1#32) (chan_apply (V (main_v4 : DevRef τ sig)) ![0, 1, 0, 0] slices_S4x3x1024x1024_S4x1x1024x1024_0_1_0_0 shapeCasts_S4x1x1024x1024_S4x1024x1024 1 rfl rfl rfl rfl b h w)) _)

set_option maxRecDepth 8192 in
/-- Lookup 6: channel 2's row at the pixel's knot plus one. -/
theorem T6_out (V : Valuation τ sig (Elt Ideal))
    (hV : ∀ p, 0 ≤ ((V (main_v4 : DevRef τ sig)) p).toInt ∧ ((V (main_v4 : DevRef τ sig)) p).toInt ≤ 62)
    (b : Fin 4) (h w : Fin 1024) :
    after (sT6 (F := Ideal)) V (main_v46 : DevRef τ sig) (ix3 b h w)
      = Cert.Lut.row1 (V (main_arg1 : DevRef τ sig)) 2 (IntOp.addi (V (main_v4 : DevRef τ sig) (ix4 b 2 h w)) 1#32) := by
  after_results_simp
  refine (take_apply _ _ ?hidx b h w).trans ?_
  case hidx =>
    intro p
    obtain ⟨b', h', w', rfl⟩ : ∃ b' h' w', p = ix3 b' h' w' := ⟨p 0, p 1, p 2, eq_ix3 p⟩
    change 0 ≤ (IntOp.addi (shapeCast S4x1024x1024 (extractStridedSlice S4x1x1024x1024 ![0, 2, 0, 0] (V (main_v4 : DevRef τ sig)) slices_S4x3x1024x1024_S4x1x1024x1024_0_2_0_0) shapeCasts_S4x1x1024x1024_S4x1024x1024 (ix3 b' h' w')) 1#32).toInt ∧ (IntOp.addi (shapeCast S4x1024x1024 (extractStridedSlice S4x1x1024x1024 ![0, 2, 0, 0] (V (main_v4 : DevRef τ sig)) slices_S4x3x1024x1024_S4x1x1024x1024_0_2_0_0) shapeCasts_S4x1x1024x1024_S4x1024x1024 (ix3 b' h' w')) 1#32).toInt ≤ 63
    rw [chan_apply _ _ _ _ 2 rfl rfl rfl rfl]
    exact addi_one_range _ (hV _).1 (hV _).2
  exact (row_apply (V (main_arg1 : DevRef τ sig)) ![2, 0] slices_S3x64_S1x64_2_0 shapeCasts_S1x64_S64 2 rfl rfl _).trans
    (row1_congr _ _ (congrArg (fun z => IntOp.addi z 1#32) (chan_apply (V (main_v4 : DevRef τ sig)) ![0, 2, 0, 0] slices_S4x3x1024x1024_S4x1x1024x1024_0_2_0_0 shapeCasts_S4x1x1024x1024_S4x1024x1024 2 rfl rfl rfl rfl b h w)) _)

/-! ## The two re-assemblies, as whole arrays -/

set_option maxRecDepth 8192 in
theorem C1_fun (V : Valuation τ sig (Elt Ideal)) :
    after (sC1 (F := Ideal)) V (main_v25 : DevRef τ sig) = concatenate S4x3x1024x1024 1 [⟨S4x1x1024x1024, broadcastInDim S4x1x1024x1024 ![0, 2, 3] bcast_S4x1024x1024_S4x1x1024x1024_0_2_3 (V (main_v11 : DevRef τ sig))⟩, ⟨S4x1x1024x1024, broadcastInDim S4x1x1024x1024 ![0, 2, 3] bcast_S4x1024x1024_S4x1x1024x1024_0_2_3 (V (main_v16 : DevRef τ sig))⟩, ⟨S4x1x1024x1024, broadcastInDim S4x1x1024x1024 ![0, 2, 3] bcast_S4x1024x1024_S4x1x1024x1024_0_2_3 (V (main_v21 : DevRef τ sig))⟩] concatenates_S4x1x1024x1024_S4x1x1024x1024_S4x1x1024x1024_S4x3x1024x1024_d1 := by
  simp only [after_cons, after_nil]
  rfl

/-! ## Each lookup's result in terms of the inputs -/

theorem R1 (V : Valuation τ sig (Elt Ideal)) (b : Fin 4) (h w : Fin 1024) :
    (after sT1 (after (sA (F := Ideal)) V)) (main_v11 : DevRef τ sig) (ix3 b h w) = Cert.Lut.row1 (V (main_arg1 : DevRef τ sig)) 0 (Cert.Lut.knot Cert.Lut.s63 62#32 (V (main_arg0 : DevRef τ sig) (ix4 b 0 h w))) := by
  rw [T1_out (after (sA (F := Ideal)) V) (fun p => by
    exact rng1 V p) b h w]
  rw [keep_A_arg1, A_v4]

theorem R2 (V : Valuation τ sig (Elt Ideal)) (b : Fin 4) (h w : Fin 1024) :
    (after sT2 (after sT1 (after (sA (F := Ideal)) V))) (main_v16 : DevRef τ sig) (ix3 b h w) = Cert.Lut.row1 (V (main_arg1 : DevRef τ sig)) 1 (Cert.Lut.knot Cert.Lut.s63 62#32 (V (main_arg0 : DevRef τ sig) (ix4 b 1 h w))) := by
  rw [T2_out (after sT1 (after (sA (F := Ideal)) V)) (fun p => by
    rw [keep_T1_v4]
    exact rng1 V p) b h w]
  rw [keep_T1_arg1, keep_A_arg1, keep_T1_v4, A_v4]

theorem R3 (V : Valuation τ sig (Elt Ideal)) (b : Fin 4) (h w : Fin 1024) :
    (after sT3 (after sT2 (after sT1 (after (sA (F := Ideal)) V)))) (main_v21 : DevRef τ sig) (ix3 b h w) = Cert.Lut.row1 (V (main_arg1 : DevRef τ sig)) 2 (Cert.Lut.knot Cert.Lut.s63 62#32 (V (main_arg0 : DevRef τ sig) (ix4 b 2 h w))) := by
  rw [T3_out (after sT2 (after sT1 (after (sA (F := Ideal)) V))) (fun p => by
    rw [keep_T2_v4, keep_T1_v4]
    exact rng1 V p) b h w]
  rw [keep_T2_arg1, keep_T1_arg1, keep_A_arg1, keep_T2_v4, keep_T1_v4, A_v4]

theorem R4 (V : Valuation τ sig (Elt Ideal)) (b : Fin 4) (h w : Fin 1024) :
    (after sT4 (after sC1 (after sT3 (after sT2 (after sT1 (after (sA (F := Ideal)) V)))))) (main_v32 : DevRef τ sig) (ix3 b h w) = Cert.Lut.row1 (V (main_arg1 : DevRef τ sig)) 0 (IntOp.addi (Cert.Lut.knot Cert.Lut.s63 62#32 (V (main_arg0 : DevRef τ sig) (ix4 b 0 h w))) 1#32) := by
  rw [T4_out (after sC1 (after sT3 (after sT2 (after sT1 (after (sA (F := Ideal)) V))))) (fun p => by
    rw [keep_C1_v4, keep_T3_v4, keep_T2_v4, keep_T1_v4]
    exact rng1 V p) b h w]
  rw [keep_C1_arg1, keep_T3_arg1, keep_T2_arg1, keep_T1_arg1, keep_A_arg1, keep_C1_v4, keep_T3_v4, keep_T2_v4, keep_T1_v4, A_v4]

theorem R5 (V : Valuation τ sig (Elt Ideal)) (b : Fin 4) (h w : Fin 1024) :
    (after sT5 (after sT4 (after sC1 (after sT3 (after sT2 (after sT1 (after (sA (F := Ideal)) V))))))) (main_v39 : DevRef τ sig) (ix3 b h w) = Cert.Lut.row1 (V (main_arg1 : DevRef τ sig)) 1 (IntOp.addi (Cert.Lut.knot Cert.Lut.s63 62#32 (V (main_arg0 : DevRef τ sig) (ix4 b 1 h w))) 1#32) := by
  rw [T5_out (after sT4 (after sC1 (after sT3 (after sT2 (after sT1 (after (sA (F := Ideal)) V)))))) (fun p => by
    rw [keep_T4_v4, keep_C1_v4, keep_T3_v4, keep_T2_v4, keep_T1_v4]
    exact rng1 V p) b h w]
  rw [keep_T4_arg1, keep_C1_arg1, keep_T3_arg1, keep_T2_arg1, keep_T1_arg1, keep_A_arg1, keep_T4_v4, keep_C1_v4, keep_T3_v4, keep_T2_v4, keep_T1_v4, A_v4]

theorem R6 (V : Valuation τ sig (Elt Ideal)) (b : Fin 4) (h w : Fin 1024) :
    (after sT6 (after sT5 (after sT4 (after sC1 (after sT3 (after sT2 (after sT1 (after (sA (F := Ideal)) V)))))))) (main_v46 : DevRef τ sig) (ix3 b h w) = Cert.Lut.row1 (V (main_arg1 : DevRef τ sig)) 2 (IntOp.addi (Cert.Lut.knot Cert.Lut.s63 62#32 (V (main_arg0 : DevRef τ sig) (ix4 b 2 h w))) 1#32) := by
  rw [T6_out (after sT5 (after sT4 (after sC1 (after sT3 (after sT2 (after sT1 (after (sA (F := Ideal)) V))))))) (fun p => by
    rw [keep_T5_v4, keep_T4_v4, keep_C1_v4, keep_T3_v4, keep_T2_v4, keep_T1_v4]
    exact rng1 V p) b h w]
  rw [keep_T5_arg1, keep_T4_arg1, keep_C1_arg1, keep_T3_arg1, keep_T2_arg1, keep_T1_arg1, keep_A_arg1, keep_T5_v4, keep_T4_v4, keep_C1_v4, keep_T3_v4, keep_T2_v4, keep_T1_v4, A_v4]

/-- The first re-assembly at (b, c, h, w): channel c's row at the pixel's knot. -/
theorem R25 (V : Valuation τ sig (Elt Ideal)) (b : Fin 4) (c : Fin 3) (h w : Fin 1024) :
    (after sC1 (after sT3 (after sT2 (after sT1 (after (sA (F := Ideal)) V))))) (main_v25 : DevRef τ sig) (ix4 b c h w) = Cert.Lut.row1 (V (main_arg1 : DevRef τ sig)) c (Cert.Lut.knot Cert.Lut.s63 62#32 (V (main_arg0 : DevRef τ sig) (ix4 b c h w))) := by
  rw [C1_fun, concat3_apply]
  match c with
  | ⟨0, _⟩ =>
    show broadcastInDim S4x1x1024x1024 ![0, 2, 3] _ ((after sT3 (after sT2 (after sT1 (after (sA (F := Ideal)) V)))) (main_v11 : DevRef τ sig)) (ix4 b (0 : Fin 1) h w) = _
    rw [unit_chan_at, keep_T3_v11, keep_T2_v11]
    exact R1 V b h w
  | ⟨1, _⟩ =>
    show broadcastInDim S4x1x1024x1024 ![0, 2, 3] _ ((after sT3 (after sT2 (after sT1 (after (sA (F := Ideal)) V)))) (main_v16 : DevRef τ sig)) (ix4 b (0 : Fin 1) h w) = _
    rw [unit_chan_at, keep_T3_v16]
    exact R2 V b h w
  | ⟨2, _⟩ =>
    show broadcastInDim S4x1x1024x1024 ![0, 2, 3] _ ((after sT3 (after sT2 (after sT1 (after (sA (F := Ideal)) V)))) (main_v21 : DevRef τ sig)) (ix4 b (0 : Fin 1) h w) = _
    rw [unit_chan_at]
    exact R3 V b h w

end Cert.ReferenceIdeal.RefStage1

end
-- ==== Proof.RefStage1b.lean ====
/-
  The reference's first stage, concluded: the second re-assembly and the interpolation, and the first stage's result at an index.
-/
import proofs.«151699_j29575144800973_2_alg».proof.Proof.RefStage1

noncomputable section

namespace Cert.ReferenceIdeal.RefStage1

open Cert.ReferenceIdeal Cert.ReferenceIdeal.Gen Cert.ReferenceIdeal.RefRun Cert.ReferenceIdeal.RefSegs Cert.ReferenceIdeal.RefLib
open Idealize.ShloMosaic Idealize.ShloMosaic.TcCoe Idealize.SL.Sem Idealize.ShloMosaic.StableHlo Idealize.ShloMosaic.ValueIdx

set_option maxRecDepth 8192 in
theorem C2_fun (V : Valuation τ sig (Elt Ideal)) :
    after (sC2 (F := Ideal)) V (main_v53 : DevRef τ sig)
      = (addf (V (main_v25 : DevRef τ sig) : FVec Ideal S4x3x1024x1024 .f32) (mulf (V (main_v6 : DevRef τ sig) : FVec Ideal S4x3x1024x1024 .f32)
          (subf ((concatenate S4x3x1024x1024 1 [⟨S4x1x1024x1024, broadcastInDim S4x1x1024x1024 ![0, 2, 3] bcast_S4x1024x1024_S4x1x1024x1024_0_2_3 (V (main_v32 : DevRef τ sig))⟩, ⟨S4x1x1024x1024, broadcastInDim S4x1x1024x1024 ![0, 2, 3] bcast_S4x1024x1024_S4x1x1024x1024_0_2_3 (V (main_v39 : DevRef τ sig))⟩, ⟨S4x1x1024x1024, broadcastInDim S4x1x1024x1024 ![0, 2, 3] bcast_S4x1024x1024_S4x1x1024x1024_0_2_3 (V (main_v46 : DevRef τ sig))⟩] concatenates_S4x1x1024x1024_S4x1x1024x1024_S4x1x1024x1024_S4x3x1024x1024_d1) : FVec Ideal S4x3x1024x1024 .f32) (V (main_v25 : DevRef τ sig) : FVec Ideal S4x3x1024x1024 .f32)) : FVec Ideal S4x3x1024x1024 .f32) : FVec Ideal S4x3x1024x1024 .f32) := by
  simp only [after_cons, after_nil]
  rfl

/-! ## The first stage -/

/-- The buffers after the first stage's nine segments. -/
abbrev head1 (V : Valuation τ sig (Elt Ideal)) : Valuation τ sig (Elt Ideal) := (after sC2 (after sT6 (after sT5 (after sT4 (after sC1 (after sT3 (after sT2 (after sT1 (after (sA (F := Ideal)) V)))))))))

/-- The first stage's result at (b, c, h, w): the row at the knot plus the offset times the row's step — what Spec's yR clamps. -/
theorem stage1 (V : Valuation τ sig (Elt Ideal)) (b : Fin 4) (c : Fin 3) (h w : Fin 1024) :
    head1 V (main_v53 : DevRef τ sig) (ix4 b c h w)
      = Cert.Lut.row1 (V (main_arg1 : DevRef τ sig)) c (Cert.Lut.knot Cert.Lut.s63 62#32 (V (main_arg0 : DevRef τ sig) (ix4 b c h w))) + (Cert.Lut.frac Cert.Lut.s63 62#32 (V (main_arg0 : DevRef τ sig) (ix4 b c h w))) * (Cert.Lut.row1 (V (main_arg1 : DevRef τ sig)) c (IntOp.addi (Cert.Lut.knot Cert.Lut.s63 62#32 (V (main_arg0 : DevRef τ sig) (ix4 b c h w))) 1#32) - Cert.Lut.row1 (V (main_arg1 : DevRef τ sig)) c (Cert.Lut.knot Cert.Lut.s63 62#32 (V (main_arg0 : DevRef τ sig) (ix4 b c h w)))) := by
  show (after sC2 (after sT6 (after sT5 (after sT4 (after sC1 (after sT3 (after sT2 (after sT1 (after (sA (F := Ideal)) V))))))))) (main_v53 : DevRef τ sig) (ix4 b c h w) = _
  rw [C2_fun, addf_apply, mulf_apply, subf_apply]
  rw [keep_T6_v25, keep_T5_v25, keep_T4_v25, R25]
  rw [keep_T6_v6, keep_T5_v6, keep_T4_v6, keep_C1_v6, keep_T3_v6, keep_T2_v6, keep_T1_v6, A_v6]
  rw [concat3_apply]
  match c with
  | ⟨0, _⟩ =>
    show _ + _ * ((broadcastInDim S4x1x1024x1024 ![0, 2, 3] _ (((after sT6 (after sT5 (after sT4 (after sC1 (after sT3 (after sT2 (after sT1 (after (sA (F := Ideal)) V)))))))) (main_v32 : DevRef τ sig)) : S4x1024x1024.Idx → EReal) (ix4 b (0 : Fin 1) h w) : EReal) - _) = _
    rw [unit_chan_at, keep_T6_v32, keep_T5_v32, R4]
    rfl
  | ⟨1, _⟩ =>
    show _ + _ * ((broadcastInDim S4x1x1024x1024 ![0, 2, 3] _ (((after sT6 (after sT5 (after sT4 (after sC1 (after sT3 (after sT2 (after sT1 (after (sA (F := Ideal)) V)))))))) (main_v39 : DevRef τ sig)) : S4x1024x1024.Idx → EReal) (ix4 b (0 : Fin 1) h w) : EReal) - _) = _
    rw [unit_chan_at, keep_T6_v39, R5]
    rfl
  | ⟨2, _⟩ =>
    show _ + _ * ((broadcastInDim S4x1x1024x1024 ![0, 2, 3] _ (((after sT6 (after sT5 (after sT4 (after sC1 (after sT3 (after sT2 (after sT1 (after (sA (F := Ideal)) V)))))))) (main_v46 : DevRef τ sig)) : S4x1024x1024.Idx → EReal) (ix4 b (0 : Fin 1) h w) : EReal) - _) = _
    rw [unit_chan_at, R6]
    rfl

theorem stage1_arg0 (V : Valuation τ sig (Elt Ideal)) : head1 V (main_arg0 : DevRef τ sig) = V (main_arg0 : DevRef τ sig) := by
  show (after sC2 (after sT6 (after sT5 (after sT4 (after sC1 (after sT3 (after sT2 (after sT1 (after (sA (F := Ideal)) V))))))))) (main_arg0 : DevRef τ sig) = _
  rw [keep_C2_arg0, keep_T6_arg0, keep_T5_arg0, keep_T4_arg0, keep_C1_arg0, keep_T3_arg0, keep_T2_arg0, keep_T1_arg0, keep_A_arg0]

theorem stage1_arg1 (V : Valuation τ sig (Elt Ideal)) : head1 V (main_arg1 : DevRef τ sig) = V (main_arg1 : DevRef τ sig) := by
  show (after sC2 (after sT6 (after sT5 (after sT4 (after sC1 (after sT3 (after sT2 (after sT1 (after (sA (F := Ideal)) V))))))))) (main_arg1 : DevRef τ sig) = _
  rw [keep_C2_arg1, keep_T6_arg1, keep_T5_arg1, keep_T4_arg1, keep_C1_arg1, keep_T3_arg1, keep_T2_arg1, keep_T1_arg1, keep_A_arg1]

theorem stage1_arg2 (V : Valuation τ sig (Elt Ideal)) : head1 V (main_arg2 : DevRef τ sig) = V (main_arg2 : DevRef τ sig) := by
  show (after sC2 (after sT6 (after sT5 (after sT4 (after sC1 (after sT3 (after sT2 (after sT1 (after (sA (F := Ideal)) V))))))))) (main_arg2 : DevRef τ sig) = _
  rw [keep_C2_arg2, keep_T6_arg2, keep_T5_arg2, keep_T4_arg2, keep_C1_arg2, keep_T3_arg2, keep_T2_arg2, keep_T1_arg2, keep_A_arg2]

end Cert.ReferenceIdeal.RefStage1

end
-- ==== Proof.RefStage2.lean ====
/-
  The reference's second stage read at an index.

  After the first stage each channel value is clamped to [0, 1], placed along 16 intervals (its lower knot between 0 and 15 and
  its offset), and the three-dimensional table is flattened to 4913 rows of 3 output channels. Each of the eight corners of the
  cell is then looked up by its linear index ((kr + dr)·17 + (kg + dg))·17 + (kb + db), weighted by its three one-dimensional
  weights and added to a running sum, and the sum is moved to channels-second. With knots between 0 and 15 and offsets 0 or 1
  no linear index is negative or beyond the last row, so no lookup is wrapped or clamped, and the row it reads is the
  specification's cell at the shifted knots: the result is the specification's eight-corner sum.
-/
import proofs.«151699_j29575144800973_2_alg».proof.Proof.RefSegs
import proofs.«151699_j29575144800973_2_alg».proof.Proof.RefLib
import proofs.«151699_j29575144800973_2_alg».proof.Proof.Spec
noncomputable section
namespace Cert.ReferenceIdeal.RefStage2
open Cert.ReferenceIdeal Cert.ReferenceIdeal.Gen Cert.ReferenceIdeal.RefRun Cert.ReferenceIdeal.RefSegs Cert.ReferenceIdeal.RefLib
open Idealize.ShloMosaic Idealize.ShloMosaic.TcCoe Idealize.SL.Sem Idealize.ShloMosaic.StableHlo Idealize.ShloMosaic.ValueIdx

/-! ## What each segment writes, and so what it keeps -/

abbrev sB_W : List (Ref sig .tc) := [main_cst_4, main_cst_5, main_call7.v0.ref, main_call7.v1.ref, main_call7.v2.ref, main_call7.v3.ref, main_call7.v4.ref, main_call7.v5.ref, main_cst_6, main_v55, main_v56, main_v57, main_v58, main_c_7, main_c_8, main_call8.v0.ref, main_call8.v1.ref, main_call8.v2.ref, main_call8.v3.ref, main_call8.v4.ref, main_call8.v5.ref, main_v60, main_v61, main_v62, main_v63, main_v64, main_v65, main_v66, main_v67, main_v68, main_v69, main_v70, main_v71, main_v72, main_v73, main_v74, main_v75, main_v76, main_v77]
set_option maxRecDepth 8192 in
theorem sB_writes : (sB : List (HloOp τ sig (Elt Ideal))).Forall fun op => op.writes ⊆ ((sB_W).map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)
/-- A buffer the segment does not write keeps its contents. -/
theorem sB_keep (W : Valuation τ sig (Elt Ideal)) (r : Ref sig .tc) (h : r ∉ sB_W) :
    after (sB (F := Ideal)) W (Proc.devRef .tc r) = W (Proc.devRef .tc r) :=
  after_of_writes_sub sB W sB_writes h

abbrev sK0_W : List (Ref sig .tc) := [main_c_9, main_v78, main_v79, main_c_10, main_v80, main_v81, main_c_11, main_v82, main_v83, main_v84, main_c_12, main_v85, main_v86, main_c_13, main_v87, main_v88, main_v89, main_c_14, main_v90, main_v91, main_c_15, main_v92, main_v93, main_v94, main_v95, main_v96, main_cst_16, main_v97, main_v98, main_v99, main_v100, main_cst_17, main_v101, main_v102, main_v103, main_v104, main_cst_18, main_v105, main_v106, main_v107, main_v108]
set_option maxRecDepth 8192 in
theorem sK0_writes : (sK0 : List (HloOp τ sig (Elt Ideal))).Forall fun op => op.writes ⊆ ((sK0_W).map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)
/-- A buffer the segment does not write keeps its contents. -/
theorem sK0_keep (W : Valuation τ sig (Elt Ideal)) (r : Ref sig .tc) (h : r ∉ sK0_W) :
    after (sK0 (F := Ideal)) W (Proc.devRef .tc r) = W (Proc.devRef .tc r) :=
  after_of_writes_sub sK0 W sK0_writes h

abbrev sK1_W : List (Ref sig .tc) := [main_c_19, main_v109, main_v110, main_c_20, main_v111, main_v112, main_c_21, main_v113, main_v114, main_v115, main_c_22, main_v116, main_v117, main_c_23, main_v118, main_v119, main_v120, main_c_24, main_v121, main_v122, main_c_25, main_v123, main_v124, main_v125, main_v126, main_v127, main_v128, main_v129, main_cst_26, main_v130, main_v131, main_v132, main_v133, main_cst_27, main_v134, main_v135, main_v136, main_v137, main_v138]
set_option maxRecDepth 8192 in
theorem sK1_writes : (sK1 : List (HloOp τ sig (Elt Ideal))).Forall fun op => op.writes ⊆ ((sK1_W).map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)
/-- A buffer the segment does not write keeps its contents. -/
theorem sK1_keep (W : Valuation τ sig (Elt Ideal)) (r : Ref sig .tc) (h : r ∉ sK1_W) :
    after (sK1 (F := Ideal)) W (Proc.devRef .tc r) = W (Proc.devRef .tc r) :=
  after_of_writes_sub sK1 W sK1_writes h

abbrev sK2_W : List (Ref sig .tc) := [main_c_28, main_v139, main_v140, main_c_29, main_v141, main_v142, main_c_30, main_v143, main_v144, main_v145, main_c_31, main_v146, main_v147, main_c_32, main_v148, main_v149, main_v150, main_c_33, main_v151, main_v152, main_c_34, main_v153, main_v154, main_v155, main_v156, main_v157, main_cst_35, main_v158, main_v159, main_v160, main_v161, main_v162, main_v163, main_cst_36, main_v164, main_v165, main_v166, main_v167, main_v168]
set_option maxRecDepth 8192 in
theorem sK2_writes : (sK2 : List (HloOp τ sig (Elt Ideal))).Forall fun op => op.writes ⊆ ((sK2_W).map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)
/-- A buffer the segment does not write keeps its contents. -/
theorem sK2_keep (W : Valuation τ sig (Elt Ideal)) (r : Ref sig .tc) (h : r ∉ sK2_W) :
    after (sK2 (F := Ideal)) W (Proc.devRef .tc r) = W (Proc.devRef .tc r) :=
  after_of_writes_sub sK2 W sK2_writes h

abbrev sK3_W : List (Ref sig .tc) := [main_c_37, main_v169, main_v170, main_c_38, main_v171, main_v172, main_c_39, main_v173, main_v174, main_v175, main_c_40, main_v176, main_v177, main_c_41, main_v178, main_v179, main_v180, main_c_42, main_v181, main_v182, main_c_43, main_v183, main_v184, main_v185, main_v186, main_v187, main_cst_44, main_v188, main_v189, main_v190, main_v191, main_cst_45, main_v192, main_v193, main_v194, main_v195, main_v196, main_v197, main_v198]
set_option maxRecDepth 8192 in
theorem sK3_writes : (sK3 : List (HloOp τ sig (Elt Ideal))).Forall fun op => op.writes ⊆ ((sK3_W).map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)
/-- A buffer the segment does not write keeps its contents. -/
theorem sK3_keep (W : Valuation τ sig (Elt Ideal)) (r : Ref sig .tc) (h : r ∉ sK3_W) :
    after (sK3 (F := Ideal)) W (Proc.devRef .tc r) = W (Proc.devRef .tc r) :=
  after_of_writes_sub sK3 W sK3_writes h

abbrev sK4_W : List (Ref sig .tc) := [main_c_46, main_v199, main_v200, main_c_47, main_v201, main_v202, main_c_48, main_v203, main_v204, main_v205, main_c_49, main_v206, main_v207, main_c_50, main_v208, main_v209, main_v210, main_c_51, main_v211, main_v212, main_c_52, main_v213, main_v214, main_v215, main_v216, main_v217, main_v218, main_v219, main_v220, main_v221, main_cst_53, main_v222, main_v223, main_v224, main_v225, main_v226]
set_option maxRecDepth 8192 in
theorem sK4_writes : (sK4 : List (HloOp τ sig (Elt Ideal))).Forall fun op => op.writes ⊆ ((sK4_W).map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)
/-- A buffer the segment does not write keeps its contents. -/
theorem sK4_keep (W : Valuation τ sig (Elt Ideal)) (r : Ref sig .tc) (h : r ∉ sK4_W) :
    after (sK4 (F := Ideal)) W (Proc.devRef .tc r) = W (Proc.devRef .tc r) :=
  after_of_writes_sub sK4 W sK4_writes h

abbrev sK5_W : List (Ref sig .tc) := [main_c_54, main_v227, main_v228, main_c_55, main_v229, main_v230, main_c_56, main_v231, main_v232, main_v233, main_c_57, main_v234, main_v235, main_c_58, main_v236, main_v237, main_v238, main_c_59, main_v239, main_v240, main_c_60, main_v241, main_v242, main_v243, main_v244, main_v245, main_v246, main_v247, main_cst_61, main_v248, main_v249, main_v250, main_v251, main_v252, main_v253, main_v254]
set_option maxRecDepth 8192 in
theorem sK5_writes : (sK5 : List (HloOp τ sig (Elt Ideal))).Forall fun op => op.writes ⊆ ((sK5_W).map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)
/-- A buffer the segment does not write keeps its contents. -/
theorem sK5_keep (W : Valuation τ sig (Elt Ideal)) (r : Ref sig .tc) (h : r ∉ sK5_W) :
    after (sK5 (F := Ideal)) W (Proc.devRef .tc r) = W (Proc.devRef .tc r) :=
  after_of_writes_sub sK5 W sK5_writes h

abbrev sK6_W : List (Ref sig .tc) := [main_c_62, main_v255, main_v256, main_c_63, main_v257, main_v258, main_c_64, main_v259, main_v260, main_v261, main_c_65, main_v262, main_v263, main_c_66, main_v264, main_v265, main_v266, main_c_67, main_v267, main_v268, main_c_68, main_v269, main_v270, main_v271, main_v272, main_v273, main_cst_69, main_v274, main_v275, main_v276, main_v277, main_v278, main_v279, main_v280, main_v281, main_v282]
set_option maxRecDepth 8192 in
theorem sK6_writes : (sK6 : List (HloOp τ sig (Elt Ideal))).Forall fun op => op.writes ⊆ ((sK6_W).map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)
/-- A buffer the segment does not write keeps its contents. -/
theorem sK6_keep (W : Valuation τ sig (Elt Ideal)) (r : Ref sig .tc) (h : r ∉ sK6_W) :
    after (sK6 (F := Ideal)) W (Proc.devRef .tc r) = W (Proc.devRef .tc r) :=
  after_of_writes_sub sK6 W sK6_writes h

abbrev sK7_W : List (Ref sig .tc) := [main_c_70, main_v283, main_v284, main_c_71, main_v285, main_v286, main_c_72, main_v287, main_v288, main_v289, main_c_73, main_v290, main_v291, main_c_74, main_v292, main_v293, main_v294, main_c_75, main_v295, main_v296, main_c_76, main_v297, main_v298, main_v299, main_v300, main_v301, main_v302, main_v303, main_v304, main_v305, main_v306, main_v307, main_v308]
set_option maxRecDepth 8192 in
theorem sK7_writes : (sK7 : List (HloOp τ sig (Elt Ideal))).Forall fun op => op.writes ⊆ ((sK7_W).map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)
/-- A buffer the segment does not write keeps its contents. -/
theorem sK7_keep (W : Valuation τ sig (Elt Ideal)) (r : Ref sig .tc) (h : r ∉ sK7_W) :
    after (sK7 (F := Ideal)) W (Proc.devRef .tc r) = W (Proc.devRef .tc r) :=
  after_of_writes_sub sK7 W sK7_writes h

abbrev sZ_W : List (Ref sig .tc) := [main_v309]
set_option maxRecDepth 8192 in
theorem sZ_writes : (sZ : List (HloOp τ sig (Elt Ideal))).Forall fun op => op.writes ⊆ ((sZ_W).map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)
/-- A buffer the segment does not write keeps its contents. -/
theorem sZ_keep (W : Valuation τ sig (Elt Ideal)) (r : Ref sig .tc) (h : r ∉ sZ_W) :
    after (sZ (F := Ideal)) W (Proc.devRef .tc r) = W (Proc.devRef .tc r) :=
  after_of_writes_sub sZ W sZ_writes h

/-! ## One corner of the cell, over whole arrays -/

section Corner

/-- A 32-bit constant at every pixel. -/
abbrev cI (k : BitVec 32) : IVec S4x1024x1024 32 :=
  broadcastInDim S4x1024x1024 ![] bcast_S_S4x1024x1024 (constantI S_ 32 k)

/-- The linear index of the corner (dr, dg, db) of the cell at knots (kr, kg, kb): ((kr + dr)·17 + (kg + dg))·17 + (kb + db). -/
abbrev linV (kr kg kb : IVec S4x1024x1024 32) (dr dg db : BitVec 32) : IVec S4x1024x1024 32 :=
  addi (muli (addi (muli (addi kr (cI dr)) (cI 17#32)) (addi kg (cI dg))) (cI 17#32)) (addi kb (cI db))

/-- The start indices of the lookup: the linear index, wrapped by 4913 where negative, with a trailing unit axis. -/
abbrev startV (kr kg kb : IVec S4x1024x1024 32) (dr dg db : BitVec 32) : IVec S4x1024x1024x1 32 :=
  broadcastInDim S4x1024x1024x1 ![0, 1, 2] bcast_S4x1024x1024_S4x1024x1024x1_0_1_2
    (select (cmpi .slt (linV kr kg kb dr dg db) (cI 0#32)) (addi (linV kr kg kb dr dg db) (cI 4913#32)) (linV kr kg kb dr dg db))

/-- A per-pixel weight over the three output channels. -/
abbrev over (x : FVec Ideal S4x1024x1024x1 .f32) : FVec Ideal S4x1024x1024x3 .f32 :=
  broadcastInDim S4x1024x1024x3 ![0, 1, 2, 3] bcast_S4x1024x1024x1_S4x1024x1024x3_0_1_2_3 x

/-- The weight read at an output channel is the pixel's weight. -/
theorem over_apply (x : FVec Ideal S4x1024x1024x1 .f32) (b : Fin 4) (h w : Fin 1024) (c : Fin 3) :
    over x (ix4 b h w c) = x (ix4 b h w (0 : Fin 1)) := over_chan_apply _ _ b h w c

variable (tbl : S4913x3.Idx → EReal) (kr kg kb : IVec S4x1024x1024 32) (dr dg db : BitVec 32)
  (hdr : dr = 0#32 ∨ dr = 1#32) (hdg : dg = 0#32 ∨ dg = 1#32) (hdb : db = 0#32 ∨ db = 1#32)
  (b : Fin 4) (h w : Fin 1024) (c : Fin 3)
  (hr : 0 ≤ (kr (ix3 b h w)).toInt ∧ (kr (ix3 b h w)).toInt ≤ 15)
  (hg : 0 ≤ (kg (ix3 b h w)).toInt ∧ (kg (ix3 b h w)).toInt ≤ 15)
  (hb : 0 ≤ (kb (ix3 b h w)).toInt ∧ (kb (ix3 b h w)).toInt ≤ 15)

include hdr hdg hdb hr hg hb

/-- The lookup of a corner at a pixel: knots between 0 and 15 and offsets 0 or 1 give a linear index between 0 and 4912, which
    is neither wrapped nor clamped; the lookup reads the table's row the three shifted knots name. -/
theorem gather_corner :
    Host.gather gather_S4913x3_S4x1024x1024x1_S4x1024x1024x3_3_0_n_n_0_3_13 tbl (startV kr kg kb dr dg db) (ix4 b h w c)
      = tbl (ix2 (rowOf (IntOp.addi (kr (ix3 b h w)) dr) (IntOp.addi (kg (ix3 b h w)) dg) (IntOp.addi (kb (ix3 b h w)) db)) c) := by
  rw [gather4913_apply]
  refine congrArg (fun r => tbl (ix2 r c)) (Fin.ext ?_)
  have e : startV kr kg kb dr dg db (ix4 b h w (0 : Fin 1))
      = Scalar.select (IntOp.cmpi .slt (linV kr kg kb dr dg db (ix3 b h w)) 0#32)
          (IntOp.addi (linV kr kg kb dr dg db (ix3 b h w)) 4913#32) (linV kr kg kb dr dg db (ix3 b h w)) :=
    unit_last_apply _ _ _
  show min (startV kr kg kb dr dg db (ix4 b h w (0 : Fin 1))).toInt.toNat 4912 = _
  rw [e]
  exact lin_row _ _ _ dr dg db _ hr hg hb hdr hdg hdb rfl

variable (wr wg wb : FVec Ideal S4x1024x1024x1 .f32)

/-- The first corner's term at a pixel and output channel: the table's row times the three weights. -/
theorem corner_first :
    (mulf (mulf (mulf (Host.gather gather_S4913x3_S4x1024x1024x1_S4x1024x1024x3_3_0_n_n_0_3_13 tbl (startV kr kg kb dr dg db) : FVec Ideal S4x1024x1024x3 .f32)
        (over wr)) (over wg)) (over wb) : FVec Ideal S4x1024x1024x3 .f32) (ix4 b h w c)
      = tbl (ix2 (rowOf (IntOp.addi (kr (ix3 b h w)) dr) (IntOp.addi (kg (ix3 b h w)) dg) (IntOp.addi (kb (ix3 b h w)) db)) c)
          * wr (ix4 b h w 0) * wg (ix4 b h w 0) * wb (ix4 b h w 0) := by
  rw [mulf_apply, mulf_apply, mulf_apply, gather_corner tbl kr kg kb dr dg db hdr hdg hdb b h w c hr hg hb,
    over_apply, over_apply, over_apply]

/-- A later corner's term added to the running sum. -/
theorem corner_next (prev : FVec Ideal S4x1024x1024x3 .f32) :
    (addf prev (mulf (mulf (mulf (Host.gather gather_S4913x3_S4x1024x1024x1_S4x1024x1024x3_3_0_n_n_0_3_13 tbl (startV kr kg kb dr dg db) : FVec Ideal S4x1024x1024x3 .f32)
        (over wr)) (over wg)) (over wb)) : FVec Ideal S4x1024x1024x3 .f32) (ix4 b h w c)
      = prev (ix4 b h w c)
        + tbl (ix2 (rowOf (IntOp.addi (kr (ix3 b h w)) dr) (IntOp.addi (kg (ix3 b h w)) dg) (IntOp.addi (kb (ix3 b h w)) db)) c)
          * wr (ix4 b h w 0) * wg (ix4 b h w 0) * wb (ix4 b h w 0) := by
  rw [addf_apply, corner_first tbl kr kg kb dr dg db hdr hdg hdb b h w c hr hg hb wr wg wb]

end Corner

/-! ## The buffers the corners read, at their types -/

section Chain

variable (W : Valuation τ sig (Elt Ideal))

/-- The three knot arrays, the three offset arrays, the flattened table, and the running sums. -/
abbrev kR : IVec S4x1024x1024 32 := W (main_v63 : DevRef τ sig)
abbrev kG : IVec S4x1024x1024 32 := W (main_v65 : DevRef τ sig)
abbrev kB : IVec S4x1024x1024 32 := W (main_v67 : DevRef τ sig)
abbrev oR : FVec Ideal S4x1024x1024x1 .f32 := W (main_v70 : DevRef τ sig)
abbrev oG : FVec Ideal S4x1024x1024x1 .f32 := W (main_v73 : DevRef τ sig)
abbrev oB : FVec Ideal S4x1024x1024x1 .f32 := W (main_v76 : DevRef τ sig)
abbrev tB : S4913x3.Idx → EReal := W (main_v77 : DevRef τ sig)
abbrev sum0 : FVec Ideal S4x1024x1024x3 .f32 := W (main_v108 : DevRef τ sig)
abbrev sum1 : FVec Ideal S4x1024x1024x3 .f32 := W (main_v138 : DevRef τ sig)
abbrev sum2 : FVec Ideal S4x1024x1024x3 .f32 := W (main_v168 : DevRef τ sig)
abbrev sum3 : FVec Ideal S4x1024x1024x3 .f32 := W (main_v198 : DevRef τ sig)
abbrev sum4 : FVec Ideal S4x1024x1024x3 .f32 := W (main_v226 : DevRef τ sig)
abbrev sum5 : FVec Ideal S4x1024x1024x3 .f32 := W (main_v254 : DevRef τ sig)
abbrev sum6 : FVec Ideal S4x1024x1024x3 .f32 := W (main_v282 : DevRef τ sig)
abbrev sum7 : FVec Ideal S4x1024x1024x3 .f32 := W (main_v308 : DevRef τ sig)

/-- What the corners read at a pixel: the three knots, the three offsets, the table. -/
structure Inputs (b : Fin 4) (h w : Fin 1024) (ir ig ib : BitVec 32) (fr fg fb : EReal) (tbl : S4913x3.Idx → EReal) : Prop where
  e63 : kR W (ix3 b h w) = ir
  e65 : kG W (ix3 b h w) = ig
  e67 : kB W (ix3 b h w) = ib
  e70 : oR W (ix4 b h w 0) = fr
  e73 : oG W (ix4 b h w 0) = fg
  e76 : oB W (ix4 b h w 0) = fb
  e77 : tB W = tbl

variable {W} {b : Fin 4} {h w : Fin 1024} {ir ig ib : BitVec 32} {fr fg fb : EReal} {tbl : S4913x3.Idx → EReal}

/-- Corner 000's segment writes none of the buffers the corners read. -/
theorem Inputs.stepK0 (I : Inputs W b h w ir ig ib fr fg fb tbl) : Inputs (after (sK0 (F := Ideal)) W) b h w ir ig ib fr fg fb tbl :=
  ⟨by show after (sK0 (F := Ideal)) W (Proc.devRef .tc main_v63) (ix3 b h w) = ir; rw [sK0_keep W main_v63 (by decide)]; exact I.e63,
   by show after (sK0 (F := Ideal)) W (Proc.devRef .tc main_v65) (ix3 b h w) = ig; rw [sK0_keep W main_v65 (by decide)]; exact I.e65,
   by show after (sK0 (F := Ideal)) W (Proc.devRef .tc main_v67) (ix3 b h w) = ib; rw [sK0_keep W main_v67 (by decide)]; exact I.e67,
   by show after (sK0 (F := Ideal)) W (Proc.devRef .tc main_v70) (ix4 b h w 0) = fr; rw [sK0_keep W main_v70 (by decide)]; exact I.e70,
   by show after (sK0 (F := Ideal)) W (Proc.devRef .tc main_v73) (ix4 b h w 0) = fg; rw [sK0_keep W main_v73 (by decide)]; exact I.e73,
   by show after (sK0 (F := Ideal)) W (Proc.devRef .tc main_v76) (ix4 b h w 0) = fb; rw [sK0_keep W main_v76 (by decide)]; exact I.e76,
   by show after (sK0 (F := Ideal)) W (Proc.devRef .tc main_v77) = tbl; rw [sK0_keep W main_v77 (by decide)]; exact I.e77⟩

/-- Corner 100's segment writes none of the buffers the corners read. -/
theorem Inputs.stepK1 (I : Inputs W b h w ir ig ib fr fg fb tbl) : Inputs (after (sK1 (F := Ideal)) W) b h w ir ig ib fr fg fb tbl :=
  ⟨by show after (sK1 (F := Ideal)) W (Proc.devRef .tc main_v63) (ix3 b h w) = ir; rw [sK1_keep W main_v63 (by decide)]; exact I.e63,
   by show after (sK1 (F := Ideal)) W (Proc.devRef .tc main_v65) (ix3 b h w) = ig; rw [sK1_keep W main_v65 (by decide)]; exact I.e65,
   by show after (sK1 (F := Ideal)) W (Proc.devRef .tc main_v67) (ix3 b h w) = ib; rw [sK1_keep W main_v67 (by decide)]; exact I.e67,
   by show after (sK1 (F := Ideal)) W (Proc.devRef .tc main_v70) (ix4 b h w 0) = fr; rw [sK1_keep W main_v70 (by decide)]; exact I.e70,
   by show after (sK1 (F := Ideal)) W (Proc.devRef .tc main_v73) (ix4 b h w 0) = fg; rw [sK1_keep W main_v73 (by decide)]; exact I.e73,
   by show after (sK1 (F := Ideal)) W (Proc.devRef .tc main_v76) (ix4 b h w 0) = fb; rw [sK1_keep W main_v76 (by decide)]; exact I.e76,
   by show after (sK1 (F := Ideal)) W (Proc.devRef .tc main_v77) = tbl; rw [sK1_keep W main_v77 (by decide)]; exact I.e77⟩

/-- Corner 010's segment writes none of the buffers the corners read. -/
theorem Inputs.stepK2 (I : Inputs W b h w ir ig ib fr fg fb tbl) : Inputs (after (sK2 (F := Ideal)) W) b h w ir ig ib fr fg fb tbl :=
  ⟨by show after (sK2 (F := Ideal)) W (Proc.devRef .tc main_v63) (ix3 b h w) = ir; rw [sK2_keep W main_v63 (by decide)]; exact I.e63,
   by show after (sK2 (F := Ideal)) W (Proc.devRef .tc main_v65) (ix3 b h w) = ig; rw [sK2_keep W main_v65 (by decide)]; exact I.e65,
   by show after (sK2 (F := Ideal)) W (Proc.devRef .tc main_v67) (ix3 b h w) = ib; rw [sK2_keep W main_v67 (by decide)]; exact I.e67,
   by show after (sK2 (F := Ideal)) W (Proc.devRef .tc main_v70) (ix4 b h w 0) = fr; rw [sK2_keep W main_v70 (by decide)]; exact I.e70,
   by show after (sK2 (F := Ideal)) W (Proc.devRef .tc main_v73) (ix4 b h w 0) = fg; rw [sK2_keep W main_v73 (by decide)]; exact I.e73,
   by show after (sK2 (F := Ideal)) W (Proc.devRef .tc main_v76) (ix4 b h w 0) = fb; rw [sK2_keep W main_v76 (by decide)]; exact I.e76,
   by show after (sK2 (F := Ideal)) W (Proc.devRef .tc main_v77) = tbl; rw [sK2_keep W main_v77 (by decide)]; exact I.e77⟩

/-- Corner 001's segment writes none of the buffers the corners read. -/
theorem Inputs.stepK3 (I : Inputs W b h w ir ig ib fr fg fb tbl) : Inputs (after (sK3 (F := Ideal)) W) b h w ir ig ib fr fg fb tbl :=
  ⟨by show after (sK3 (F := Ideal)) W (Proc.devRef .tc main_v63) (ix3 b h w) = ir; rw [sK3_keep W main_v63 (by decide)]; exact I.e63,
   by show after (sK3 (F := Ideal)) W (Proc.devRef .tc main_v65) (ix3 b h w) = ig; rw [sK3_keep W main_v65 (by decide)]; exact I.e65,
   by show after (sK3 (F := Ideal)) W (Proc.devRef .tc main_v67) (ix3 b h w) = ib; rw [sK3_keep W main_v67 (by decide)]; exact I.e67,
   by show after (sK3 (F := Ideal)) W (Proc.devRef .tc main_v70) (ix4 b h w 0) = fr; rw [sK3_keep W main_v70 (by decide)]; exact I.e70,
   by show after (sK3 (F := Ideal)) W (Proc.devRef .tc main_v73) (ix4 b h w 0) = fg; rw [sK3_keep W main_v73 (by decide)]; exact I.e73,
   by show after (sK3 (F := Ideal)) W (Proc.devRef .tc main_v76) (ix4 b h w 0) = fb; rw [sK3_keep W main_v76 (by decide)]; exact I.e76,
   by show after (sK3 (F := Ideal)) W (Proc.devRef .tc main_v77) = tbl; rw [sK3_keep W main_v77 (by decide)]; exact I.e77⟩

/-- Corner 110's segment writes none of the buffers the corners read. -/
theorem Inputs.stepK4 (I : Inputs W b h w ir ig ib fr fg fb tbl) : Inputs (after (sK4 (F := Ideal)) W) b h w ir ig ib fr fg fb tbl :=
  ⟨by show after (sK4 (F := Ideal)) W (Proc.devRef .tc main_v63) (ix3 b h w) = ir; rw [sK4_keep W main_v63 (by decide)]; exact I.e63,
   by show after (sK4 (F := Ideal)) W (Proc.devRef .tc main_v65) (ix3 b h w) = ig; rw [sK4_keep W main_v65 (by decide)]; exact I.e65,
   by show after (sK4 (F := Ideal)) W (Proc.devRef .tc main_v67) (ix3 b h w) = ib; rw [sK4_keep W main_v67 (by decide)]; exact I.e67,
   by show after (sK4 (F := Ideal)) W (Proc.devRef .tc main_v70) (ix4 b h w 0) = fr; rw [sK4_keep W main_v70 (by decide)]; exact I.e70,
   by show after (sK4 (F := Ideal)) W (Proc.devRef .tc main_v73) (ix4 b h w 0) = fg; rw [sK4_keep W main_v73 (by decide)]; exact I.e73,
   by show after (sK4 (F := Ideal)) W (Proc.devRef .tc main_v76) (ix4 b h w 0) = fb; rw [sK4_keep W main_v76 (by decide)]; exact I.e76,
   by show after (sK4 (F := Ideal)) W (Proc.devRef .tc main_v77) = tbl; rw [sK4_keep W main_v77 (by decide)]; exact I.e77⟩

/-- Corner 101's segment writes none of the buffers the corners read. -/
theorem Inputs.stepK5 (I : Inputs W b h w ir ig ib fr fg fb tbl) : Inputs (after (sK5 (F := Ideal)) W) b h w ir ig ib fr fg fb tbl :=
  ⟨by show after (sK5 (F := Ideal)) W (Proc.devRef .tc main_v63) (ix3 b h w) = ir; rw [sK5_keep W main_v63 (by decide)]; exact I.e63,
   by show after (sK5 (F := Ideal)) W (Proc.devRef .tc main_v65) (ix3 b h w) = ig; rw [sK5_keep W main_v65 (by decide)]; exact I.e65,
   by show after (sK5 (F := Ideal)) W (Proc.devRef .tc main_v67) (ix3 b h w) = ib; rw [sK5_keep W main_v67 (by decide)]; exact I.e67,
   by show after (sK5 (F := Ideal)) W (Proc.devRef .tc main_v70) (ix4 b h w 0) = fr; rw [sK5_keep W main_v70 (by decide)]; exact I.e70,
   by show after (sK5 (F := Ideal)) W (Proc.devRef .tc main_v73) (ix4 b h w 0) = fg; rw [sK5_keep W main_v73 (by decide)]; exact I.e73,
   by show after (sK5 (F := Ideal)) W (Proc.devRef .tc main_v76) (ix4 b h w 0) = fb; rw [sK5_keep W main_v76 (by decide)]; exact I.e76,
   by show after (sK5 (F := Ideal)) W (Proc.devRef .tc main_v77) = tbl; rw [sK5_keep W main_v77 (by decide)]; exact I.e77⟩

/-- Corner 011's segment writes none of the buffers the corners read. -/
theorem Inputs.stepK6 (I : Inputs W b h w ir ig ib fr fg fb tbl) : Inputs (after (sK6 (F := Ideal)) W) b h w ir ig ib fr fg fb tbl :=
  ⟨by show after (sK6 (F := Ideal)) W (Proc.devRef .tc main_v63) (ix3 b h w) = ir; rw [sK6_keep W main_v63 (by decide)]; exact I.e63,
   by show after (sK6 (F := Ideal)) W (Proc.devRef .tc main_v65) (ix3 b h w) = ig; rw [sK6_keep W main_v65 (by decide)]; exact I.e65,
   by show after (sK6 (F := Ideal)) W (Proc.devRef .tc main_v67) (ix3 b h w) = ib; rw [sK6_keep W main_v67 (by decide)]; exact I.e67,
   by show after (sK6 (F := Ideal)) W (Proc.devRef .tc main_v70) (ix4 b h w 0) = fr; rw [sK6_keep W main_v70 (by decide)]; exact I.e70,
   by show after (sK6 (F := Ideal)) W (Proc.devRef .tc main_v73) (ix4 b h w 0) = fg; rw [sK6_keep W main_v73 (by decide)]; exact I.e73,
   by show after (sK6 (F := Ideal)) W (Proc.devRef .tc main_v76) (ix4 b h w 0) = fb; rw [sK6_keep W main_v76 (by decide)]; exact I.e76,
   by show after (sK6 (F := Ideal)) W (Proc.devRef .tc main_v77) = tbl; rw [sK6_keep W main_v77 (by decide)]; exact I.e77⟩

/-! ## The eight corners -/

set_option maxRecDepth 8192 in
/-- Corner 000 (red, green, blue offsets). -/
theorem sK0_out (I : Inputs W b h w ir ig ib fr fg fb tbl) (c : Fin 3)
    (hr : 0 ≤ ir.toInt ∧ ir.toInt ≤ 15) (hg : 0 ≤ ig.toInt ∧ ig.toInt ≤ 15) (hb : 0 ≤ ib.toInt ∧ ib.toInt ≤ 15) :
    sum0 (after (sK0 (F := Ideal)) W) (ix4 b h w c)
      = tbl (ix2 (rowOf (IntOp.addi ir 0#32) (IntOp.addi ig 0#32) (IntOp.addi ib 0#32)) c)
          * (Ideal.ofBits .f32 0x3F800000#32 - fr) * (Ideal.ofBits .f32 0x3F800000#32 - fg) * (Ideal.ofBits .f32 0x3F800000#32 - fb) := by
  obtain ⟨rfl, rfl, rfl, rfl, rfl, rfl, rfl⟩ := I
  show after (sK0 (F := Ideal)) W (Proc.devRef .tc main_v108) (ix4 b h w c) = _
  after_results_simp
  exact corner_first _ _ _ _ 0#32 0#32 0#32 (Or.inl rfl) (Or.inl rfl) (Or.inl rfl) b h w c hr hg hb _ _ _

set_option maxRecDepth 8192 in
/-- Corner 100 (red, green, blue offsets), added to the running sum. -/
theorem sK1_out (I : Inputs W b h w ir ig ib fr fg fb tbl) (c : Fin 3)
    (hr : 0 ≤ ir.toInt ∧ ir.toInt ≤ 15) (hg : 0 ≤ ig.toInt ∧ ig.toInt ≤ 15) (hb : 0 ≤ ib.toInt ∧ ib.toInt ≤ 15) :
    sum1 (after (sK1 (F := Ideal)) W) (ix4 b h w c)
      = sum0 W (ix4 b h w c)
        + tbl (ix2 (rowOf (IntOp.addi ir 1#32) (IntOp.addi ig 0#32) (IntOp.addi ib 0#32)) c)
          * fr * (Ideal.ofBits .f32 0x3F800000#32 - fg) * (Ideal.ofBits .f32 0x3F800000#32 - fb) := by
  obtain ⟨rfl, rfl, rfl, rfl, rfl, rfl, rfl⟩ := I
  show after (sK1 (F := Ideal)) W (Proc.devRef .tc main_v138) (ix4 b h w c) = _
  after_results_simp
  exact corner_next _ _ _ _ 1#32 0#32 0#32 (Or.inr rfl) (Or.inl rfl) (Or.inl rfl) b h w c hr hg hb _ _ _ _

set_option maxRecDepth 8192 in
/-- Corner 010 (red, green, blue offsets), added to the running sum. -/
theorem sK2_out (I : Inputs W b h w ir ig ib fr fg fb tbl) (c : Fin 3)
    (hr : 0 ≤ ir.toInt ∧ ir.toInt ≤ 15) (hg : 0 ≤ ig.toInt ∧ ig.toInt ≤ 15) (hb : 0 ≤ ib.toInt ∧ ib.toInt ≤ 15) :
    sum2 (after (sK2 (F := Ideal)) W) (ix4 b h w c)
      = sum1 W (ix4 b h w c)
        + tbl (ix2 (rowOf (IntOp.addi ir 0#32) (IntOp.addi ig 1#32) (IntOp.addi ib 0#32)) c)
          * (Ideal.ofBits .f32 0x3F800000#32 - fr) * fg * (Ideal.ofBits .f32 0x3F800000#32 - fb) := by
  obtain ⟨rfl, rfl, rfl, rfl, rfl, rfl, rfl⟩ := I
  show after (sK2 (F := Ideal)) W (Proc.devRef .tc main_v168) (ix4 b h w c) = _
  after_results_simp
  exact corner_next _ _ _ _ 0#32 1#32 0#32 (Or.inl rfl) (Or.inr rfl) (Or.inl rfl) b h w c hr hg hb _ _ _ _

set_option maxRecDepth 8192 in
/-- Corner 001 (red, green, blue offsets), added to the running sum. -/
theorem sK3_out (I : Inputs W b h w ir ig ib fr fg fb tbl) (c : Fin 3)
    (hr : 0 ≤ ir.toInt ∧ ir.toInt ≤ 15) (hg : 0 ≤ ig.toInt ∧ ig.toInt ≤ 15) (hb : 0 ≤ ib.toInt ∧ ib.toInt ≤ 15) :
    sum3 (after (sK3 (F := Ideal)) W) (ix4 b h w c)
      = sum2 W (ix4 b h w c)
        + tbl (ix2 (rowOf (IntOp.addi ir 0#32) (IntOp.addi ig 0#32) (IntOp.addi ib 1#32)) c)
          * (Ideal.ofBits .f32 0x3F800000#32 - fr) * (Ideal.ofBits .f32 0x3F800000#32 - fg) * fb := by
  obtain ⟨rfl, rfl, rfl, rfl, rfl, rfl, rfl⟩ := I
  show after (sK3 (F := Ideal)) W (Proc.devRef .tc main_v198) (ix4 b h w c) = _
  after_results_simp
  exact corner_next _ _ _ _ 0#32 0#32 1#32 (Or.inl rfl) (Or.inl rfl) (Or.inr rfl) b h w c hr hg hb _ _ _ _

set_option maxRecDepth 8192 in
/-- Corner 110 (red, green, blue offsets), added to the running sum. -/
theorem sK4_out (I : Inputs W b h w ir ig ib fr fg fb tbl) (c : Fin 3)
    (hr : 0 ≤ ir.toInt ∧ ir.toInt ≤ 15) (hg : 0 ≤ ig.toInt ∧ ig.toInt ≤ 15) (hb : 0 ≤ ib.toInt ∧ ib.toInt ≤ 15) :
    sum4 (after (sK4 (F := Ideal)) W) (ix4 b h w c)
      = sum3 W (ix4 b h w c)
        + tbl (ix2 (rowOf (IntOp.addi ir 1#32) (IntOp.addi ig 1#32) (IntOp.addi ib 0#32)) c)
          * fr * fg * (Ideal.ofBits .f32 0x3F800000#32 - fb) := by
  obtain ⟨rfl, rfl, rfl, rfl, rfl, rfl, rfl⟩ := I
  show after (sK4 (F := Ideal)) W (Proc.devRef .tc main_v226) (ix4 b h w c) = _
  after_results_simp
  exact corner_next _ _ _ _ 1#32 1#32 0#32 (Or.inr rfl) (Or.inr rfl) (Or.inl rfl) b h w c hr hg hb _ _ _ _

set_option maxRecDepth 8192 in
/-- Corner 101 (red, green, blue offsets), added to the running sum. -/
theorem sK5_out (I : Inputs W b h w ir ig ib fr fg fb tbl) (c : Fin 3)
    (hr : 0 ≤ ir.toInt ∧ ir.toInt ≤ 15) (hg : 0 ≤ ig.toInt ∧ ig.toInt ≤ 15) (hb : 0 ≤ ib.toInt ∧ ib.toInt ≤ 15) :
    sum5 (after (sK5 (F := Ideal)) W) (ix4 b h w c)
      = sum4 W (ix4 b h w c)
        + tbl (ix2 (rowOf (IntOp.addi ir 1#32) (IntOp.addi ig 0#32) (IntOp.addi ib 1#32)) c)
          * fr * (Ideal.ofBits .f32 0x3F800000#32 - fg) * fb := by
  obtain ⟨rfl, rfl, rfl, rfl, rfl, rfl, rfl⟩ := I
  show after (sK5 (F := Ideal)) W (Proc.devRef .tc main_v254) (ix4 b h w c) = _
  after_results_simp
  exact corner_next _ _ _ _ 1#32 0#32 1#32 (Or.inr rfl) (Or.inl rfl) (Or.inr rfl) b h w c hr hg hb _ _ _ _

set_option maxRecDepth 8192 in
/-- Corner 011 (red, green, blue offsets), added to the running sum. -/
theorem sK6_out (I : Inputs W b h w ir ig ib fr fg fb tbl) (c : Fin 3)
    (hr : 0 ≤ ir.toInt ∧ ir.toInt ≤ 15) (hg : 0 ≤ ig.toInt ∧ ig.toInt ≤ 15) (hb : 0 ≤ ib.toInt ∧ ib.toInt ≤ 15) :
    sum6 (after (sK6 (F := Ideal)) W) (ix4 b h w c)
      = sum5 W (ix4 b h w c)
        + tbl (ix2 (rowOf (IntOp.addi ir 0#32) (IntOp.addi ig 1#32) (IntOp.addi ib 1#32)) c)
          * (Ideal.ofBits .f32 0x3F800000#32 - fr) * fg * fb := by
  obtain ⟨rfl, rfl, rfl, rfl, rfl, rfl, rfl⟩ := I
  show after (sK6 (F := Ideal)) W (Proc.devRef .tc main_v282) (ix4 b h w c) = _
  after_results_simp
  exact corner_next _ _ _ _ 0#32 1#32 1#32 (Or.inl rfl) (Or.inr rfl) (Or.inr rfl) b h w c hr hg hb _ _ _ _

set_option maxRecDepth 8192 in
/-- Corner 111 (red, green, blue offsets), added to the running sum. -/
theorem sK7_out (I : Inputs W b h w ir ig ib fr fg fb tbl) (c : Fin 3)
    (hr : 0 ≤ ir.toInt ∧ ir.toInt ≤ 15) (hg : 0 ≤ ig.toInt ∧ ig.toInt ≤ 15) (hb : 0 ≤ ib.toInt ∧ ib.toInt ≤ 15) :
    sum7 (after (sK7 (F := Ideal)) W) (ix4 b h w c)
      = sum6 W (ix4 b h w c)
        + tbl (ix2 (rowOf (IntOp.addi ir 1#32) (IntOp.addi ig 1#32) (IntOp.addi ib 1#32)) c)
          * fr * fg * fb := by
  obtain ⟨rfl, rfl, rfl, rfl, rfl, rfl, rfl⟩ := I
  show after (sK7 (F := Ideal)) W (Proc.devRef .tc main_v308) (ix4 b h w c) = _
  after_results_simp
  exact corner_next _ _ _ _ 1#32 1#32 1#32 (Or.inr rfl) (Or.inr rfl) (Or.inr rfl) b h w c hr hg hb _ _ _ _

end Chain

/-! ## The second-stage knots and offsets and the flattened table -/

section SegB

variable (V : Valuation τ sig (Elt Ideal))

set_option maxRecDepth 8192 in
/-- The red knot at a pixel: the lower knot along 16 intervals of the clamped red value. -/
theorem sB_v63 (b : Fin 4) (h w : Fin 1024) :
    kR (after (sB (F := Ideal)) V) (ix3 b h w) = Cert.Lut.knot Cert.Lut.s16 15#32 (Cert.Lut.clamp01 (V (main_v53 : DevRef τ sig) (ix4 b 0 h w))) := by
  show after (sB (F := Ideal)) V (Proc.devRef .tc main_v63) (ix3 b h w) = _
  after_results_simp
  simp only [TRef.toBuf, TRef.ofBuf, cast_eq, id_eq]
  refine (chan_apply _ _ _ _ 0 rfl rfl rfl rfl b h w).trans ?_
  rfl

set_option maxRecDepth 8192 in
/-- The red offset at a pixel: the clamped red value's position minus its lower knot. -/
theorem sB_v70 (b : Fin 4) (h w : Fin 1024) :
    oR (after (sB (F := Ideal)) V) (ix4 b h w 0) = Cert.Lut.frac Cert.Lut.s16 15#32 (Cert.Lut.clamp01 (V (main_v53 : DevRef τ sig) (ix4 b 0 h w))) := by
  show after (sB (F := Ideal)) V (Proc.devRef .tc main_v70) (ix4 b h w 0) = _
  after_results_simp
  simp only [TRef.toBuf, TRef.ofBuf, cast_eq, id_eq]
  refine (unit_last_apply _ _ _).trans ?_
  refine (chan_apply _ _ _ _ 0 rfl rfl rfl rfl b h w).trans ?_
  rfl

set_option maxRecDepth 8192 in
/-- The green knot at a pixel: the lower knot along 16 intervals of the clamped green value. -/
theorem sB_v65 (b : Fin 4) (h w : Fin 1024) :
    kG (after (sB (F := Ideal)) V) (ix3 b h w) = Cert.Lut.knot Cert.Lut.s16 15#32 (Cert.Lut.clamp01 (V (main_v53 : DevRef τ sig) (ix4 b 1 h w))) := by
  show after (sB (F := Ideal)) V (Proc.devRef .tc main_v65) (ix3 b h w) = _
  after_results_simp
  simp only [TRef.toBuf, TRef.ofBuf, cast_eq, id_eq]
  refine (chan_apply _ _ _ _ 1 rfl rfl rfl rfl b h w).trans ?_
  rfl

set_option maxRecDepth 8192 in
/-- The green offset at a pixel: the clamped green value's position minus its lower knot. -/
theorem sB_v73 (b : Fin 4) (h w : Fin 1024) :
    oG (after (sB (F := Ideal)) V) (ix4 b h w 0) = Cert.Lut.frac Cert.Lut.s16 15#32 (Cert.Lut.clamp01 (V (main_v53 : DevRef τ sig) (ix4 b 1 h w))) := by
  show after (sB (F := Ideal)) V (Proc.devRef .tc main_v73) (ix4 b h w 0) = _
  after_results_simp
  simp only [TRef.toBuf, TRef.ofBuf, cast_eq, id_eq]
  refine (unit_last_apply _ _ _).trans ?_
  refine (chan_apply _ _ _ _ 1 rfl rfl rfl rfl b h w).trans ?_
  rfl

set_option maxRecDepth 8192 in
/-- The blue knot at a pixel: the lower knot along 16 intervals of the clamped blue value. -/
theorem sB_v67 (b : Fin 4) (h w : Fin 1024) :
    kB (after (sB (F := Ideal)) V) (ix3 b h w) = Cert.Lut.knot Cert.Lut.s16 15#32 (Cert.Lut.clamp01 (V (main_v53 : DevRef τ sig) (ix4 b 2 h w))) := by
  show after (sB (F := Ideal)) V (Proc.devRef .tc main_v67) (ix3 b h w) = _
  after_results_simp
  simp only [TRef.toBuf, TRef.ofBuf, cast_eq, id_eq]
  refine (chan_apply _ _ _ _ 2 rfl rfl rfl rfl b h w).trans ?_
  rfl

set_option maxRecDepth 8192 in
/-- The blue offset at a pixel: the clamped blue value's position minus its lower knot. -/
theorem sB_v76 (b : Fin 4) (h w : Fin 1024) :
    oB (after (sB (F := Ideal)) V) (ix4 b h w 0) = Cert.Lut.frac Cert.Lut.s16 15#32 (Cert.Lut.clamp01 (V (main_v53 : DevRef τ sig) (ix4 b 2 h w))) := by
  show after (sB (F := Ideal)) V (Proc.devRef .tc main_v76) (ix4 b h w 0) = _
  after_results_simp
  simp only [TRef.toBuf, TRef.ofBuf, cast_eq, id_eq]
  refine (unit_last_apply _ _ _).trans ?_
  refine (chan_apply _ _ _ _ 2 rfl rfl rfl rfl b h w).trans ?_
  rfl

set_option maxRecDepth 8192 in
/-- The table the corners read is the three-dimensional table flattened to 4913 rows. -/
theorem sB_v77 :
    tB (after (sB (F := Ideal)) V) = shapeCast S4913x3 (V (main_arg2 : DevRef τ sig)) shapeCasts_S17x17x17x3_S4913x3 := by
  show after (sB (F := Ideal)) V (Proc.devRef .tc main_v77) = _
  after_results_simp
  rfl

end SegB

/-! ## The last segment, and meeting the specification's cell -/

set_option maxRecDepth 8192 in
/-- The final transpose: the result at (b, c, h, w) is the last running sum at (b, h, w, c). -/
theorem sZ_out (W : Valuation τ sig (Elt Ideal)) (b : Fin 4) (c : Fin 3) (h w : Fin 1024) :
    after (sZ (F := Ideal)) W (Proc.devRef .tc main_v309) (ix4 b c h w) = sum7 W (ix4 b h w c) := by
  after_results_simp
  exact to_chan_second_apply _ _ b c h w

/-- The flattened table at the row three words name is the specification's cell at those words. -/
theorem tbl_cell (l3 : S17x17x17x3.Idx → EReal) (c : Fin 3) (i j k : BitVec 32) :
    shapeCast S4913x3 l3 shapeCasts_S17x17x17x3_S4913x3 (ix2 (rowOf i j k) c) = Cert.Lut.cell l3 c i j k :=
  table_apply l3 _ ⟨i.toNat % 17, Nat.mod_lt _ (by decide)⟩ ⟨j.toNat % 17, Nat.mod_lt _ (by decide)⟩
    ⟨k.toNat % 17, Nat.mod_lt _ (by decide)⟩ c (rowOf i j k) rfl

theorem addi_zero (x : BitVec 32) : IntOp.addi x 0#32 = x := BitVec.add_zero x

/-! ## The second stage -/

/-- The buffers after the second stage's segments, run in order over any contents. -/
abbrev tail2 (V : Valuation τ sig (Elt Ideal)) : Valuation τ sig (Elt Ideal) :=
  after (sZ (F := Ideal)) (after sK7 (after sK6 (after sK5 (after sK4 (after sK3 (after sK2 (after sK1 (after sK0 (after sB V)))))))))

/-- The reference's second stage at an index: the eight-corner sum of the specification, over the clamped channel values. -/
theorem stage2 (V : Valuation τ sig (Elt Ideal)) (b : Fin 4) (c : Fin 3) (h w : Fin 1024) :
    tail2 V (main_v309 : DevRef τ sig) (ix4 b c h w)
      = Cert.Lut.triR (V (main_arg2 : DevRef τ sig)) c
          (Cert.Lut.clamp01 (V (main_v53 : DevRef τ sig) (ix4 b 0 h w)))
          (Cert.Lut.clamp01 (V (main_v53 : DevRef τ sig) (ix4 b 1 h w)))
          (Cert.Lut.clamp01 (V (main_v53 : DevRef τ sig) (ix4 b 2 h w))) := by
  have k15 : (15#32 : BitVec 32).toInt = 15 := by decide
  have hr := Cert.Lut.knot_toInt Cert.Lut.s16 15#32 (by decide) (Cert.Lut.clamp01 (V (main_v53 : DevRef τ sig) (ix4 b 0 h w)))
  have hg := Cert.Lut.knot_toInt Cert.Lut.s16 15#32 (by decide) (Cert.Lut.clamp01 (V (main_v53 : DevRef τ sig) (ix4 b 1 h w)))
  have hb := Cert.Lut.knot_toInt Cert.Lut.s16 15#32 (by decide) (Cert.Lut.clamp01 (V (main_v53 : DevRef τ sig) (ix4 b 2 h w)))
  rw [k15] at hr hg hb
  have I0 : Inputs (after (sB (F := Ideal)) V) b h w _ _ _ _ _ _ _ :=
    ⟨sB_v63 V b h w, sB_v65 V b h w, sB_v67 V b h w, sB_v70 V b h w, sB_v73 V b h w, sB_v76 V b h w, sB_v77 V⟩
  have I1 := I0.stepK0
  have I2 := I1.stepK1
  have I3 := I2.stepK2
  have I4 := I3.stepK3
  have I5 := I4.stepK4
  have I6 := I5.stepK5
  have I7 := I6.stepK6
  show after (sZ (F := Ideal)) _ (Proc.devRef .tc main_v309) (ix4 b c h w) = _
  rw [sZ_out, sK7_out I7 c hr hg hb, sK6_out I6 c hr hg hb, sK5_out I5 c hr hg hb, sK4_out I4 c hr hg hb,
    sK3_out I3 c hr hg hb, sK2_out I2 c hr hg hb, sK1_out I1 c hr hg hb, sK0_out I0 c hr hg hb]
  have tc := tbl_cell (V (Proc.devRef .tc main_arg2)) c
  simp only [tc, addi_zero]
  rfl

/-- No segment of the second stage writes argument 0. -/
theorem stage2_arg0 (V : Valuation τ sig (Elt Ideal)) : tail2 V (main_arg0 : DevRef τ sig) = V (main_arg0 : DevRef τ sig) := by
  show after (sZ (F := Ideal)) _ (Proc.devRef .tc main_arg0) = _
  rw [sZ_keep _ main_arg0 (by decide), sK7_keep _ main_arg0 (by decide), sK6_keep _ main_arg0 (by decide),
    sK5_keep _ main_arg0 (by decide), sK4_keep _ main_arg0 (by decide), sK3_keep _ main_arg0 (by decide),
    sK2_keep _ main_arg0 (by decide), sK1_keep _ main_arg0 (by decide), sK0_keep _ main_arg0 (by decide),
    sB_keep _ main_arg0 (by decide)]

/-- No segment of the second stage writes argument 1. -/
theorem stage2_arg1 (V : Valuation τ sig (Elt Ideal)) : tail2 V (main_arg1 : DevRef τ sig) = V (main_arg1 : DevRef τ sig) := by
  show after (sZ (F := Ideal)) _ (Proc.devRef .tc main_arg1) = _
  rw [sZ_keep _ main_arg1 (by decide), sK7_keep _ main_arg1 (by decide), sK6_keep _ main_arg1 (by decide),
    sK5_keep _ main_arg1 (by decide), sK4_keep _ main_arg1 (by decide), sK3_keep _ main_arg1 (by decide),
    sK2_keep _ main_arg1 (by decide), sK1_keep _ main_arg1 (by decide), sK0_keep _ main_arg1 (by decide),
    sB_keep _ main_arg1 (by decide)]

/-- No segment of the second stage writes argument 2. -/
theorem stage2_arg2 (V : Valuation τ sig (Elt Ideal)) : tail2 V (main_arg2 : DevRef τ sig) = V (main_arg2 : DevRef τ sig) := by
  show after (sZ (F := Ideal)) _ (Proc.devRef .tc main_arg2) = _
  rw [sZ_keep _ main_arg2 (by decide), sK7_keep _ main_arg2 (by decide), sK6_keep _ main_arg2 (by decide),
    sK5_keep _ main_arg2 (by decide), sK4_keep _ main_arg2 (by decide), sK3_keep _ main_arg2 (by decide),
    sK2_keep _ main_arg2 (by decide), sK1_keep _ main_arg2 (by decide), sK0_keep _ main_arg2 (by decide),
    sB_keep _ main_arg2 (by decide)]

end Cert.ReferenceIdeal.RefStage2
end
-- ==== Proof.RefValue.lean ====
/-
  The reference's run, read at an index: every weakly fair execution of @main terminates with the result buffer holding the
  colour transform in the reference's own spelling (Spec's Gr) of the three argument buffers, and the arguments unchanged.

  The run leaves every buffer at the fold of the operations' results over the launch contents; the operations in order are the
  segments in order; the first nine segments leave the interpolated one-dimensional table value at every (b, c, h, w), and the
  remaining ones clamp it, place it along the 17-knot axes and sum the eight weighted corners of the three-dimensional table.
-/
import proofs.«151699_j29575144800973_2_alg».proof.Proof.RefStage1b
import proofs.«151699_j29575144800973_2_alg».proof.Proof.RefStage2

noncomputable section

namespace Cert.ReferenceIdeal.RefValue

open Cert.ReferenceIdeal Cert.ReferenceIdeal.Gen Idealize.ShloMosaic Idealize.ShloMosaic.TcCoe Idealize.SL.Sem
open Cert.ReferenceIdeal.RefRun Cert.ReferenceIdeal.RefSegs Cert.ReferenceIdeal.RefLib Cert.ReferenceIdeal.RefStage1
open Cert.ReferenceIdeal.RefStage2 Idealize.ShloMosaic.StableHlo Idealize.ShloMosaic.ValueIdx

/-- The buffers after all the segments: the second stage's over the first stage's. -/
theorem after_all (V : Valuation τ sig (Elt Ideal)) : after (segsAll (F := Ideal)) V = tail2 (head1 V) := by
  show after (sA ++ (sT1 ++ (sT2 ++ (sT3 ++ (sC1 ++ (sT4 ++ (sT5 ++ (sT6 ++ (sC2 ++ (sB ++ (sK0 ++ (sK1 ++ (sK2 ++ (sK3 ++ (sK4 ++ (sK5 ++ (sK6 ++ (sK7 ++ (sZ))))))))))))))))))) V = _
  simp only [RefLib.after_append]

/-- The result buffer after the whole line: the transform of the three arguments, index by index. -/
theorem value_eq (V : Valuation τ sig (Elt Ideal)) :
    after (opsAll (F := Ideal)) V (main_v309 : DevRef τ sig)
      = Cert.Lut.Gr (V (main_arg0 : DevRef τ sig)) (V (main_arg1 : DevRef τ sig)) (V (main_arg2 : DevRef τ sig)) := by
  funext i
  obtain ⟨b, c, h, w, rfl⟩ : ∃ b c h w, i = ix4 b c h w := ⟨i 0, i 1, i 2, i 3, eq_ix4 i⟩
  rw [opsAll_eq, after_all, stage2, stage1, stage1, stage1, stage1_arg2]
  rfl

theorem arg0_eq (V : Valuation τ sig (Elt Ideal)) :
    after (opsAll (F := Ideal)) V (main_arg0 : DevRef τ sig) = V (main_arg0 : DevRef τ sig) := by
  rw [opsAll_eq, after_all, stage2_arg0, stage1_arg0]

theorem arg1_eq (V : Valuation τ sig (Elt Ideal)) :
    after (opsAll (F := Ideal)) V (main_arg1 : DevRef τ sig) = V (main_arg1 : DevRef τ sig) := by
  rw [opsAll_eq, after_all, stage2_arg1, stage1_arg1]

theorem arg2_eq (V : Valuation τ sig (Elt Ideal)) :
    after (opsAll (F := Ideal)) V (main_arg2 : DevRef τ sig) = V (main_arg2 : DevRef τ sig) := by
  rw [opsAll_eq, after_all, stage2_arg2, stage1_arg2]

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v309)
          = Cert.Lut.Gr (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run (defs (F := Ideal)) _ _).mono (fun _ hr c =>
    ⟨(hr c main_v309).trans (value_eq (launchContents m c)),
      (hr c main_arg0).trans (arg0_eq (launchContents m c)),
      (hr c main_arg1).trans (arg1_eq (launchContents m c)),
      (hr c main_arg2).trans (arg2_eq (launchContents m c))⟩)
    (run_all m ρ)

end Cert.ReferenceIdeal.RefValue

end
-- ==== Proof.AlgHat.lean ====
/-
  The hat weights, evaluated, and the hat-weighted sum over all knots of a table.

  The weight of knot k for a value with lower knot i and offset f is 1 − f at k = i, f at k = i + 1 and the
  zero word elsewhere. As 0 · t = 0 for every extended real t, a hat-weighted sum over all the knots of a table
  is the two terms at i and i + 1, whatever the table holds.
-/
import proofs.«151699_j29575144800973_2_alg».proof.Proof.Spec
import Idealize.ShloMosaic.PureOps.Ideal.Laws

open scoped BigOperators

namespace Cert.Lut

open Idealize.ShloMosaic Idealize.ShloMosaic.ValueIdx

/-- The float word 0x3F800000 is 1: sign 0, exponent 127, significand 0. -/
theorem one_eq : Ideal.ofBits .f32 0x3F800000#32 = (1 : EReal) := by
  simp [Ideal.ofBits, Ideal.ieee]
  rw [← EReal.coe_mul, ← EReal.coe_one, EReal.coe_eq_coe_iff]
  norm_num

/-- The float word 0x427C0000 is 63. -/
theorem s63_eq : Ideal.ofBits .f32 s63 = ((63 : ℝ) : EReal) := by
  simp [Ideal.ofBits, Ideal.ieee, s63]
  rw [← EReal.coe_mul, EReal.coe_eq_coe_iff]
  norm_num

/-- The float word 0x41800000 is 16. -/
theorem s16_eq : Ideal.ofBits .f32 s16 = ((16 : ℝ) : EReal) := by
  simp [Ideal.ofBits, Ideal.ieee, s16]
  rw [← EReal.coe_mul, EReal.coe_eq_coe_iff]
  norm_num

theorem ofBool_eq_one (b : Bool) : (BitVec.ofBool b = 1) ↔ b = true := by cases b <;> decide

/-- The hat weight, evaluated: 1 − f at the lower knot, f at the next one, 0 elsewhere. -/
theorem hat_eval (i : BitVec 32) (f : EReal) (k : ℕ) (hk : k < 2 ^ 32) (hi : i.toNat + 1 < 2 ^ 32) :
    hat i f k = if k = i.toNat then (1 : EReal) - f else if k = i.toNat + 1 then f else 0 := by
  have e1 : (BitVec.ofNat 32 k = i) ↔ k = i.toNat := by
    constructor
    · intro h; rw [← h]; simp [BitVec.toNat_ofNat]; omega
    · intro h; rw [h]; simp
  have e2 : (BitVec.ofNat 32 k = i + 1#32) ↔ k = i.toNat + 1 := by
    constructor
    · intro h
      have := congrArg BitVec.toNat h
      simp [BitVec.toNat_ofNat, BitVec.toNat_add] at this
      omega
    · intro h; apply BitVec.eq_of_toNat_eq; simp [BitVec.toNat_ofNat, BitVec.toNat_add, h]
  unfold hat Scalar.select IntOp.cmpi IntOp.addi
  rw [one_eq, Ideal.ofBits_zero_f32]
  simp only [ofBool_eq_one, beq_iff_eq, e1, e2]

/-- A weighted sum whose weights vanish off two distinct knots is the two terms there. -/
theorem sum_two {n : ℕ} (W T : Fin n → EReal) (a b : Fin n) (hab : a ≠ b)
    (h0 : ∀ k, k ≠ a → k ≠ b → W k = 0) :
    ∑ k : Fin n, W k * T k = W a * T a + W b * T b := by
  apply Finset.sum_eq_add a b hab
  · intro c _ hc; rw [h0 c hc.1 hc.2, zero_mul]
  · intro h; exact absurd (Finset.mem_univ a) h
  · intro h; exact absurd (Finset.mem_univ b) h

/-- The hat-weighted sum over all knots reads the table at the lower knot and at its successor. -/
theorem hat_sum {n : ℕ} (i : BitVec 32) (f : EReal) (T : Fin n → EReal) (hn : n ≤ 2 ^ 31) (hi : i.toNat + 1 < n) :
    ∑ k : Fin n, hat i f k.val * T k
      = ((1 : EReal) - f) * T ⟨i.toNat, by omega⟩ + f * T ⟨i.toNat + 1, hi⟩ := by
  have hw : ∀ k : Fin n, hat i f k.val
      = if k.val = i.toNat then (1 : EReal) - f else if k.val = i.toNat + 1 then f else 0 :=
    fun k => hat_eval i f k.val (by have := k.isLt; omega) (by omega)
  rw [sum_two (fun k : Fin n => hat i f k.val) T ⟨i.toNat, by omega⟩ ⟨i.toNat + 1, hi⟩
    (by intro h; have := congrArg Fin.val h; simp at this)
    (by
      intro k h1 h2
      have h1' : k.val ≠ i.toNat := fun h => h1 (Fin.ext h)
      have h2' : k.val ≠ i.toNat + 1 := fun h => h2 (Fin.ext h)
      rw [hw k, if_neg h1', if_neg h2'])]
  rw [hw, hw]
  simp

/-- The same with the table on the left of each product. -/
theorem hat_sum' {n : ℕ} (i : BitVec 32) (f : EReal) (T : Fin n → EReal) (hn : n ≤ 2 ^ 31) (hi : i.toNat + 1 < n) :
    ∑ k : Fin n, T k * hat i f k.val
      = T ⟨i.toNat, by omega⟩ * ((1 : EReal) - f) + T ⟨i.toNat + 1, hi⟩ * f := by
  calc ∑ k : Fin n, T k * hat i f k.val
      = ∑ k : Fin n, hat i f k.val * T k := Finset.sum_congr rfl fun k _ => mul_comm _ _
    _ = ((1 : EReal) - f) * T ⟨i.toNat, by omega⟩ + f * T ⟨i.toNat + 1, hi⟩ := hat_sum i f T hn hi
    _ = T ⟨i.toNat, by omega⟩ * ((1 : EReal) - f) + T ⟨i.toNat + 1, hi⟩ * f := by
        rw [mul_comm ((1 : EReal) - f), mul_comm f]

end Cert.Lut
-- ==== Proof.AlgLerp.lean ====
/-
  The one-dimensional stage: the weighted sum over all 64 knots of a row equals the lookup of the row at the
  lower knot and its successor, on finite inputs.

  The lower knot i is between 0 and 62 (resp. 15), so i and i + 1 are knots of the table and the reductions
  mod 64 (resp. mod 17) in the lookups do nothing. The position and the offset of a real value are reals, the
  clamp to [0, 1] of any extended real is a real, and (1 − f)·a + f·b = a + f·(b − a) over the reals.
-/
import proofs.«151699_j29575144800973_2_alg».proof.Proof.AlgHat

open scoped BigOperators

namespace Cert.Lut

open Idealize.ShloMosaic Idealize.ShloMosaic.ValueIdx

/-- The hat-weighted sum, with the lower knot and its successor named as knots of the table. -/
theorem hat_sum_at {n : ℕ} (i : BitVec 32) (f : EReal) (T : Fin n → EReal) (a b : Fin n) (hn : n ≤ 2 ^ 31)
    (ha : i.toNat = a.val) (hb : i.toNat + 1 = b.val) :
    ∑ k : Fin n, hat i f k.val * T k = ((1 : EReal) - f) * T a + f * T b := by
  have hi : i.toNat + 1 < n := by rw [hb]; exact b.isLt
  rw [hat_sum i f T hn hi]
  have ea : (⟨i.toNat, by omega⟩ : Fin n) = a := Fin.ext ha
  have eb : (⟨i.toNat + 1, hi⟩ : Fin n) = b := Fin.ext hb
  rw [ea, eb]

/-- The same with the table on the left of each product. -/
theorem hat_sum_at' {n : ℕ} (i : BitVec 32) (f : EReal) (T : Fin n → EReal) (a b : Fin n) (hn : n ≤ 2 ^ 31)
    (ha : i.toNat = a.val) (hb : i.toNat + 1 = b.val) :
    ∑ k : Fin n, T k * hat i f k.val = T a * ((1 : EReal) - f) + T b * f := by
  have hi : i.toNat + 1 < n := by rw [hb]; exact b.isLt
  rw [hat_sum' i f T hn hi]
  have ea : (⟨i.toNat, by omega⟩ : Fin n) = a := Fin.ext ha
  have eb : (⟨i.toNat + 1, hi⟩ : Fin n) = b := Fin.ext hb
  rw [ea, eb]

/-- A signed 32-bit integer between 0 and a bound m, as a natural number, is at most m. -/
theorem toNat_le_of_toInt (i : BitVec 32) (m : ℕ) (h0 : 0 ≤ i.toInt) (h1 : i.toInt ≤ (m : ℤ)) : i.toNat ≤ m := by
  have := i.isLt
  rw [BitVec.toInt_eq_toNat_cond] at h0 h1
  split_ifs at h0 h1 <;> omega

/-- The lower knot along 63 intervals and its successor are among the 64 knots. -/
theorem knot63_lt (v : EReal) : (knot s63 62#32 v).toNat + 1 < 64 := by
  have h := knot_toInt s63 62#32 (by decide) v
  have e : (62#32 : BitVec 32).toInt = 62 := by decide
  rw [e] at h
  have := toNat_le_of_toInt _ 62 h.1 (by exact_mod_cast h.2)
  omega

/-- The lower knot along 16 intervals and its successor are among the 17 knots. -/
theorem knot16_lt (v : EReal) : (knot s16 15#32 v).toNat + 1 < 17 := by
  have h := knot_toInt s16 15#32 (by decide) v
  have e : (15#32 : BitVec 32).toInt = 15 := by decide
  rw [e] at h
  have := toNat_le_of_toInt _ 15 h.1 (by exact_mod_cast h.2)
  omega

/-- Adding one to a 32-bit integer below 2^32 − 1 does not wrap. -/
theorem addi_toNat (i : BitVec 32) (h : i.toNat + 1 < 2 ^ 32) : (IntOp.addi i 1#32).toNat = i.toNat + 1 := by
  unfold IntOp.addi
  rw [BitVec.toNat_add]
  simp
  omega

/-- The row lookup at a 32-bit integer that names the knot a. -/
theorem row1_eq (l1 : SL1.Idx → EReal) (c : Fin 3) (i : BitVec 32) (a : Fin 64) (h : i.toNat = a.val) :
    row1 l1 c i = l1 (ix2 c a) := by
  unfold row1
  have : (⟨i.toNat % 64, Nat.mod_lt _ (by decide)⟩ : Fin 64) = a := Fin.ext (by simp [h, Nat.mod_eq_of_lt a.isLt])
  rw [this]

/-- The table lookup at three 32-bit integers that name the knots a, b, d. -/
theorem cell_eq (l3 : SL3.Idx → EReal) (c : Fin 3) (i j k : BitVec 32) (a b d : Fin 17)
    (ha : i.toNat = a.val) (hb : j.toNat = b.val) (hd : k.toNat = d.val) :
    cell l3 c i j k = l3 (ix4 a b d c) := by
  unfold cell
  have e1 : (⟨i.toNat % 17, Nat.mod_lt _ (by decide)⟩ : Fin 17) = a := Fin.ext (by simp [ha, Nat.mod_eq_of_lt a.isLt])
  have e2 : (⟨j.toNat % 17, Nat.mod_lt _ (by decide)⟩ : Fin 17) = b := Fin.ext (by simp [hb, Nat.mod_eq_of_lt b.isLt])
  have e3 : (⟨k.toNat % 17, Nat.mod_lt _ (by decide)⟩ : Fin 17) = d := Fin.ext (by simp [hd, Nat.mod_eq_of_lt d.isLt])
  rw [e1, e2, e3]

/-- The offset of a real value along 63 intervals is a real. -/
theorem frac63_real (r : ℝ) : ∃ f : ℝ, frac s63 62#32 (r : EReal) = (f : EReal) :=
  ⟨r * 63 - ((knot s63 62#32 (r : EReal)).toInt : ℝ), by
    unfold frac pos; rw [s63_eq, ← EReal.coe_mul, ← EReal.coe_sub]⟩

/-- The offset of a real value along 16 intervals is a real. -/
theorem frac16_real (r : ℝ) : ∃ f : ℝ, frac s16 15#32 (r : EReal) = (f : EReal) :=
  ⟨r * 16 - ((knot s16 15#32 (r : EReal)).toInt : ℝ), by
    unfold frac pos; rw [s16_eq, ← EReal.coe_mul, ← EReal.coe_sub]⟩

/-- The clamp to [0, 1] of any extended real lies between 0 and 1, so it is a real. -/
theorem clamp01_real (v : EReal) : ∃ r : ℝ, clamp01 v = (r : EReal) := by
  unfold clamp01
  rw [one_eq, Ideal.ofBits_zero_f32]
  have h0 : (0 : EReal) ≤ min 1 (max 0 v) := le_min zero_le_one (le_max_left _ _)
  have h1 : min 1 (max 0 v) ≤ (1 : EReal) := min_le_left _ _
  have t1 : (1 : EReal) < ⊤ := by rw [← EReal.coe_one]; exact EReal.coe_lt_top 1
  exact ⟨(min 1 (max 0 v)).toReal,
    (EReal.coe_toReal (lt_of_le_of_lt h1 t1).ne (lt_of_lt_of_le EReal.bot_lt_zero h0).ne').symm⟩

/-- Linear interpolation over the reals, in its two spellings. -/
theorem lerp_real (f a b : ℝ) :
    ((1 : EReal) - (f : EReal)) * (a : EReal) + (f : EReal) * (b : EReal)
      = (a : EReal) + (f : EReal) * ((b : EReal) - (a : EReal)) := by
  rw [← EReal.coe_one]
  norm_cast
  ring

/-- The one-dimensional stage by weights is the one-dimensional stage by lookups, on finite inputs. -/
theorem yK_eq_yR (x : SX.Idx → EReal) (l1 : SL1.Idx → EReal)
    (hx : ∀ i, ∃ r : ℝ, x i = (r : EReal)) (h1 : ∀ i, ∃ r : ℝ, l1 i = (r : EReal))
    (b : Fin 4) (c : Fin 3) (h w : Fin 1024) : yK x l1 b c h w = yR x l1 b c h w := by
  unfold yK yR
  obtain ⟨r, hr⟩ := hx (ix4 b c h w)
  rw [hr]
  have hi := knot63_lt (r : EReal)
  obtain ⟨A, hA⟩ : ∃ A : Fin 64, (knot s63 62#32 (r : EReal)).toNat = A.val :=
    ⟨⟨(knot s63 62#32 (r : EReal)).toNat, by omega⟩, rfl⟩
  obtain ⟨B, hB⟩ : ∃ B : Fin 64, (knot s63 62#32 (r : EReal)).toNat + 1 = B.val :=
    ⟨⟨(knot s63 62#32 (r : EReal)).toNat + 1, hi⟩, rfl⟩
  rw [hat_sum_at (knot s63 62#32 (r : EReal)) (frac s63 62#32 (r : EReal)) (fun k => l1 (ix2 c k)) A B (by norm_num) hA hB,
    row1_eq l1 c (knot s63 62#32 (r : EReal)) A hA,
    row1_eq l1 c (IntOp.addi (knot s63 62#32 (r : EReal)) 1#32) B ((addi_toNat _ (by omega)).trans hB)]
  obtain ⟨f, hf⟩ := frac63_real r
  obtain ⟨a, ha⟩ := h1 (ix2 c A)
  obtain ⟨d, hd⟩ := h1 (ix2 c B)
  rw [hf, ha, hd, lerp_real]

/-- The one-dimensional stage by lookups yields a real. -/
theorem yR_real (x : SX.Idx → EReal) (l1 : SL1.Idx → EReal) (b : Fin 4) (c : Fin 3) (h w : Fin 1024) :
    ∃ r : ℝ, yR x l1 b c h w = (r : EReal) := by
  unfold yR
  exact clamp01_real _

end Cert.Lut
-- ==== Proof.Algebra.lean ====
/-
  The whole transform by weights equals the whole transform by lookups, on finite inputs.

  Three-dimensional stage: the three nested hat-weighted sums collapse, innermost first, to the eight corners of the
  cell with their products of one-dimensional weights; over the reals that is the eight-corner sum of the lookup
  spelling. The values fed to this stage are clamped to [0, 1], so they are reals whatever the first stage computed.
-/
import proofs.«151699_j29575144800973_2_alg».proof.Proof.AlgLerp

open scoped BigOperators

namespace Cert.Lut

open Idealize.ShloMosaic Idealize.ShloMosaic.ValueIdx

/-- Trilinear interpolation over the reals: nested by axis (blue innermost, then red, then green) against the
    eight-corner sum. -/
theorem tri_real (c000 c100 c010 c001 c110 c101 c011 c111 fr fg fb : ℝ) :
    ((1 : EReal) - (fg : EReal))
        * (((1 : EReal) - (fr : EReal)) * ((c000 : EReal) * ((1 : EReal) - (fb : EReal)) + (c001 : EReal) * (fb : EReal))
          + (fr : EReal) * ((c100 : EReal) * ((1 : EReal) - (fb : EReal)) + (c101 : EReal) * (fb : EReal)))
      + (fg : EReal)
        * (((1 : EReal) - (fr : EReal)) * ((c010 : EReal) * ((1 : EReal) - (fb : EReal)) + (c011 : EReal) * (fb : EReal))
          + (fr : EReal) * ((c110 : EReal) * ((1 : EReal) - (fb : EReal)) + (c111 : EReal) * (fb : EReal)))
    = (c000 : EReal) * ((1 : EReal) - (fr : EReal)) * ((1 : EReal) - (fg : EReal)) * ((1 : EReal) - (fb : EReal))
      + (c100 : EReal) * (fr : EReal) * ((1 : EReal) - (fg : EReal)) * ((1 : EReal) - (fb : EReal))
      + (c010 : EReal) * ((1 : EReal) - (fr : EReal)) * (fg : EReal) * ((1 : EReal) - (fb : EReal))
      + (c001 : EReal) * ((1 : EReal) - (fr : EReal)) * ((1 : EReal) - (fg : EReal)) * (fb : EReal)
      + (c110 : EReal) * (fr : EReal) * (fg : EReal) * ((1 : EReal) - (fb : EReal))
      + (c101 : EReal) * (fr : EReal) * ((1 : EReal) - (fg : EReal)) * (fb : EReal)
      + (c011 : EReal) * ((1 : EReal) - (fr : EReal)) * (fg : EReal) * (fb : EReal)
      + (c111 : EReal) * (fr : EReal) * (fg : EReal) * (fb : EReal) := by
  rw [← EReal.coe_one]
  norm_cast
  ring

/-- The three-dimensional stage by weights is the three-dimensional stage by lookups, on real channel values and a
    finite table. -/
theorem triK_eq_triR (l3 : SL3.Idx → EReal) (h3 : ∀ i, ∃ r : ℝ, l3 i = (r : EReal)) (c : Fin 3) (r g u : ℝ) :
    triK l3 c (r : EReal) (g : EReal) (u : EReal) = triR l3 c (r : EReal) (g : EReal) (u : EReal) := by
  have hr := knot16_lt (r : EReal)
  have hg := knot16_lt (g : EReal)
  have hu := knot16_lt (u : EReal)
  obtain ⟨fr, hfr⟩ := frac16_real r
  obtain ⟨fg, hfg⟩ := frac16_real g
  obtain ⟨fb, hfb⟩ := frac16_real u
  unfold triK triR
  dsimp only
  rw [hfr, hfg, hfb, one_eq]
  generalize knot s16 15#32 (r : EReal) = ir at hr ⊢
  generalize knot s16 15#32 (g : EReal) = ig at hg ⊢
  generalize knot s16 15#32 (u : EReal) = ib at hu ⊢
  obtain ⟨R, hR⟩ : ∃ R : Fin 17, ir.toNat = R.val := ⟨⟨ir.toNat, by omega⟩, rfl⟩
  obtain ⟨R1, hR1⟩ : ∃ R1 : Fin 17, ir.toNat + 1 = R1.val := ⟨⟨ir.toNat + 1, hr⟩, rfl⟩
  obtain ⟨G, hG⟩ : ∃ G : Fin 17, ig.toNat = G.val := ⟨⟨ig.toNat, by omega⟩, rfl⟩
  obtain ⟨G1, hG1⟩ : ∃ G1 : Fin 17, ig.toNat + 1 = G1.val := ⟨⟨ig.toNat + 1, hg⟩, rfl⟩
  obtain ⟨B, hB⟩ : ∃ B : Fin 17, ib.toNat = B.val := ⟨⟨ib.toNat, by omega⟩, rfl⟩
  obtain ⟨B1, hB1⟩ : ∃ B1 : Fin 17, ib.toNat + 1 = B1.val := ⟨⟨ib.toNat + 1, hu⟩, rfl⟩
  have hR1' : (IntOp.addi ir 1#32).toNat = R1.val := (addi_toNat _ (by omega)).trans hR1
  have hG1' : (IntOp.addi ig 1#32).toNat = G1.val := (addi_toNat _ (by omega)).trans hG1
  have hB1' : (IntOp.addi ib 1#32).toNat = B1.val := (addi_toNat _ (by omega)).trans hB1
  -- the innermost sum, over the blue knots
  have inner : ∀ a j : Fin 17, ∑ q : Fin 17, l3 (ix4 a j q c) * hat ib (fb : EReal) q.val
      = l3 (ix4 a j B c) * ((1 : EReal) - (fb : EReal)) + l3 (ix4 a j B1 c) * (fb : EReal) :=
    fun a j => hat_sum_at' ib (fb : EReal) (fun q => l3 (ix4 a j q c)) B B1 (by norm_num) hB hB1
  -- the middle sum, over the red knots
  have mid : ∀ j : Fin 17, ∑ a : Fin 17, hat ir (fr : EReal) a.val
        * (l3 (ix4 a j B c) * ((1 : EReal) - (fb : EReal)) + l3 (ix4 a j B1 c) * (fb : EReal))
      = ((1 : EReal) - (fr : EReal))
          * (l3 (ix4 R j B c) * ((1 : EReal) - (fb : EReal)) + l3 (ix4 R j B1 c) * (fb : EReal))
        + (fr : EReal) * (l3 (ix4 R1 j B c) * ((1 : EReal) - (fb : EReal)) + l3 (ix4 R1 j B1 c) * (fb : EReal)) :=
    fun j => hat_sum_at ir (fr : EReal)
      (fun a => l3 (ix4 a j B c) * ((1 : EReal) - (fb : EReal)) + l3 (ix4 a j B1 c) * (fb : EReal)) R R1 (by norm_num) hR hR1
  -- the outer sum, over the green knots
  have outer := hat_sum_at ig (fg : EReal)
    (fun j => ((1 : EReal) - (fr : EReal))
          * (l3 (ix4 R j B c) * ((1 : EReal) - (fb : EReal)) + l3 (ix4 R j B1 c) * (fb : EReal))
        + (fr : EReal) * (l3 (ix4 R1 j B c) * ((1 : EReal) - (fb : EReal)) + l3 (ix4 R1 j B1 c) * (fb : EReal)))
    G G1 (by norm_num) hG hG1
  simp only [inner, mid]
  rw [outer]
  rw [cell_eq l3 c ir ig ib R G B hR hG hB, cell_eq l3 c (IntOp.addi ir 1#32) ig ib R1 G B hR1' hG hB,
    cell_eq l3 c ir (IntOp.addi ig 1#32) ib R G1 B hR hG1' hB, cell_eq l3 c ir ig (IntOp.addi ib 1#32) R G B1 hR hG hB1',
    cell_eq l3 c (IntOp.addi ir 1#32) (IntOp.addi ig 1#32) ib R1 G1 B hR1' hG1' hB,
    cell_eq l3 c (IntOp.addi ir 1#32) ig (IntOp.addi ib 1#32) R1 G B1 hR1' hG hB1',
    cell_eq l3 c ir (IntOp.addi ig 1#32) (IntOp.addi ib 1#32) R G1 B1 hR hG1' hB1',
    cell_eq l3 c (IntOp.addi ir 1#32) (IntOp.addi ig 1#32) (IntOp.addi ib 1#32) R1 G1 B1 hR1' hG1' hB1']
  obtain ⟨c000, e000⟩ := h3 (ix4 R G B c)
  obtain ⟨c100, e100⟩ := h3 (ix4 R1 G B c)
  obtain ⟨c010, e010⟩ := h3 (ix4 R G1 B c)
  obtain ⟨c001, e001⟩ := h3 (ix4 R G B1 c)
  obtain ⟨c110, e110⟩ := h3 (ix4 R1 G1 B c)
  obtain ⟨c101, e101⟩ := h3 (ix4 R1 G B1 c)
  obtain ⟨c011, e011⟩ := h3 (ix4 R G1 B1 c)
  obtain ⟨c111, e111⟩ := h3 (ix4 R1 G1 B1 c)
  rw [e000, e100, e010, e001, e110, e101, e011, e111]
  exact tri_real c000 c100 c010 c001 c110 c101 c011 c111 fr fg fb

/-- The whole transform: the kernel's spelling and the reference's agree on finite inputs. -/
theorem Gk_eq_Gr (x : SX.Idx → EReal) (l1 : SL1.Idx → EReal) (l3 : SL3.Idx → EReal)
    (hx : ∀ i, ∃ r : ℝ, x i = (r : EReal)) (h1 : ∀ i, ∃ r : ℝ, l1 i = (r : EReal)) (h3 : ∀ i, ∃ r : ℝ, l3 i = (r : EReal)) :
    Gk x l1 l3 = Gr x l1 l3 := by
  funext i
  unfold Gk Gr
  rw [yK_eq_yR x l1 hx h1 (i 0) 0 (i 2) (i 3), yK_eq_yR x l1 hx h1 (i 0) 1 (i 2) (i 3),
    yK_eq_yR x l1 hx h1 (i 0) 2 (i 2) (i 3)]
  obtain ⟨r, hr⟩ := yR_real x l1 (i 0) 0 (i 2) (i 3)
  obtain ⟨g, hg⟩ := yR_real x l1 (i 0) 1 (i 2) (i 3)
  obtain ⟨u, hu⟩ := yR_real x l1 (i 0) 2 (i 2) (i 3)
  rw [hr, hg, hu]
  exact triK_eq_triR l3 h3 (i 1) r g u

end Cert.Lut
-- ==== Proof.Finite.lean ====
/-
  From the precondition to "every entry is a real".

  The precondition says, for each of the three inputs, that |v| < +∞ at every entry (an "all" over every axis,
  the three of them and-ed). An extended real whose absolute value max v (−v) is below +∞ is neither +∞ nor −∞,
  so it is a real.
-/
import proofs.«151699_j29575144800973_2_alg».proof.Proof.Gen.Pre_finite_inputs
import Idealize.ShloMosaic.Lib.ReduceAll
import Idealize.ShloMosaic.Lib.ValueIdx
import Idealize.ShloMosaic.PureOps.Ideal.Laws

namespace Cert.Lut

open Idealize.ShloMosaic

/-- The rank-0 shape has one index. -/
instance : Subsingleton Cert.Pre_finite_inputs.S_.Idx := ⟨fun a b => funext fun d => d.elim0⟩

/-- The float word 0x7F800000 is +∞: sign 0, exponent all ones, significand 0. -/
theorem inf_eq : Ideal.ofBits .f32 0x7F800000#32 = (⊤ : EReal) := by simp [Ideal.ofBits, Ideal.ieee]

theorem ofBool_eq_one_iff (b : Bool) : (BitVec.ofBool b = 1#1) ↔ b = true := by cases b <;> decide

/-- An extended real whose absolute value is below +∞ is a real. -/
theorem real_of_abs_lt_top (v : EReal) (h : max v (-v) < ⊤) : ∃ r : ℝ, v = (r : EReal) := by
  induction v using EReal.rec with
  | bot => simp at h
  | coe r => exact ⟨r, rfl⟩
  | top => simp at h

/-- An entry that passes the comparison |v| < +∞ is a real. -/
theorem real_of_cmp (v : Ideal .f32)
    (h : FloatOps.cmpf .olt (FloatOps.hostAbsf v) (FloatOps.ofBits (F := Ideal) .f32 0x7F800000#32) = 1#1) :
    ∃ r : ℝ, v = (r : EReal) := by
  rw [Ideal.hostAbsf_def, Ideal.cmpf_def, Ideal.absf_def] at h
  unfold Ideal.cmp at h
  rw [ofBool_eq_one_iff] at h
  simp only [decide_eq_true_eq] at h
  have h' : max v (-v) < Ideal.ofBits .f32 0x7F800000#32 := h
  rw [inf_eq] at h'
  exact real_of_abs_lt_top v h'

/-- The precondition, decoded: every entry of the three inputs is a real. -/
theorem real_of_pre (x : FVec Ideal Cert.Pre_finite_inputs.S4x3x1024x1024 .f32) (l1 : FVec Ideal Cert.Pre_finite_inputs.S3x64 .f32)
    (l3 : FVec Ideal Cert.Pre_finite_inputs.S17x17x17x3 .f32)
    (h : Cert.Pre_finite_inputs.fn (F := Ideal) x l1 l3 = fun _ => 1#1) :
    (∀ i, ∃ r : ℝ, x i = (r : EReal)) ∧ (∀ i, ∃ r : ℝ, l1 i = (r : EReal)) ∧ (∀ i, ∃ r : ℝ, l3 i = (r : EReal)) := by
  have e := congrFun h ValueIdx.ix0
  dsimp only [Cert.Pre_finite_inputs.fn] at e
  unfold andi at e
  rw [IntOp.andi_eq_one, IntOp.andi_eq_one] at e
  obtain ⟨⟨e0, e1⟩, e2⟩ := e
  exact ⟨fun i => real_of_cmp (x i) (Host.reduce_andi_all _ _ _ _ _ e0 i),
    fun i => real_of_cmp (l1 i) (Host.reduce_andi_all _ _ _ _ _ e1 i),
    fun i => real_of_cmp (l3 i) (Host.reduce_andi_all _ _ _ _ _ e2 i)⟩

end Cert.Lut
-- ==== Proof.lean ====
/-
  The kernel computes a colour transform — a one-dimensional table per channel read by linear interpolation, a clamp to
  [0, 1], and a three-dimensional table read by trilinear interpolation — without ever looking a table up: every knot
  is weighted by a hat function of the pixel's position and the tables are summed against the weights (one sum in one
  dimension, a matrix product and two weighted sums in three). The reference looks the tables up and combines the two
  neighbouring knots, resp. the eight corners of the cell. On finite inputs the two agree index by index
  (Proof/Spec.lean states both spellings, Proof/Algebra.lean proves them equal): a hat-weighted sum over all knots is
  the combination of the lower knot and its successor, since every other weight is zero, and on reals the two
  combinations are the same polynomial. The kernel's side (Proof/KerStage.lean, KerBody.lean, KerHost.lean,
  KerBlocks.lean) reads the body's stored block at an index and assembles the output array from the blocks; the
  reference's side (Proof/RefRun.lean and the Ref modules) runs the host program and reads its result at an index;
  finiteness of every entry is what the precondition says (Proof/Finite.lean).
-/
import proofs.«151699_j29575144800973_2_alg».proof.Defs
import proofs.«151699_j29575144800973_2_alg».proof.Proof.Gen.Kernel
import proofs.«151699_j29575144800973_2_alg».proof.Proof.Gen.Kernel.Frame
import proofs.«151699_j29575144800973_2_alg».proof.Proof.Gen.KernelIdeal
import proofs.«151699_j29575144800973_2_alg».proof.Proof.Gen.KernelIdeal.Frame
import proofs.«151699_j29575144800973_2_alg».proof.Proof.Gen.ReferenceIdeal
import proofs.«151699_j29575144800973_2_alg».proof.Proof.Gen.Pre_finite_inputs
import proofs.«151699_j29575144800973_2_alg».proof.Proof.KerBlocks
import proofs.«151699_j29575144800973_2_alg».proof.Proof.RefValue
import proofs.«151699_j29575144800973_2_alg».proof.Proof.Algebra
import proofs.«151699_j29575144800973_2_alg».proof.Proof.Finite
import Idealize.ShloMosaic.Adequacy
import Idealize.ShloMosaic.Init

noncomputable section

namespace Cert.Proof

open Idealize.ShloMosaic Idealize.ShloMosaic.TcCoe Idealize.SL.Sem

/-- The three programs run, fault-free, and leave their arguments as they were. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefValue.run m ρ)

/-- The idealization rewrote nothing. -/
theorem preserves : Cert.preserves_Kernel_KernelIdeal := trivial

/-- Both idealized programs end at the colour transform of their arguments — the kernel in the spelling by weights, the
    reference in the spelling by lookups — and on arguments that agree and are finite the two spellings are equal. -/
theorem algebraic : Cert.algebraic_KernelIdeal_ReferenceIdeal := by
  intro m ρ m' ρ' hpre hagree
  refine ⟨_, Cert.KernelIdeal.KerValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2]
  obtain ⟨hx, h1, h3⟩ := Cert.Lut.real_of_pre _ _ _ (hpre c)
  exact (Cert.Lut.Gk_eq_Gr _ _ _ hx h1 h3).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
